-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S256x128 : Shape := ⟨2, ![256, 128]⟩
abbrev S256x16 : Shape := ⟨2, ![256, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part5 {F : FTy → Type} [FloatOps F] (main_arg19 : FVec F S256x16 .f32) (main_arg20 : FVec F S16 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S256x16 .f32 := Host.absf main_arg19
  let main_cst_34 : FVec F S_ .f32 := constant S_ .f32 0x7F800000#32
  let main_v90 : FVec F S256x16 .f32 := broadcastInDim S256x16 ![] bcast_S_S256x16 main_cst_34
  let main_v91 : IVec S256x16 1 := cmpf .olt main_v89 main_v90
  let main_c_35 : IVec S_ 1 := constantI S_ 1 1#1
  let main_v92 : IVec S_ 1 := (fun x v => Host.reduce IntOp.andi x v reducesTo_S256x16_S_d0_1 h_S_) main_v91 main_c_35
  let main_v93 : IVec S_ 1 := andi main_v88 main_v92
  let main_v94 : FVec F S16 .f32 := Host.absf main_arg20
  let main_cst_36 : FVec F S_ .f32 := constant S_ .f32 0x7F800000#32
  let main_v95 : FVec F S16 .f32 := broadcastInDim S16 ![] bcast_S_S16 main_cst_36
  let main_v96 : IVec S16 1 := cmpf .olt main_v94 main_v95
  let main_c_37 : IVec S_ 1 := constantI S_ 1 1#1
  let main_v97 : IVec S_ 1 := (fun x v => Host.reduce IntOp.andi x v reducesTo_S16_S_d0 h_S_) main_v96 main_c_37
  let main_v98 : IVec S_ 1 := andi main_v93 main_v97
  main_v98

def fn_part4 {F : FTy → Type} [FloatOps F] (main_arg15 : FVec F S128 .f32) (main_arg16 : FVec F S128x128 .f32) (main_arg17 : FVec F S128 .f32) (main_arg18 : FVec F S128x128 .f32) (main_arg19 : FVec F S256x16 .f32) (main_arg20 : FVec F S16 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S128 .f32) (main_arg13 : FVec F S128x128 .f32) (main_arg14 : FVec F S128x128 .f32) (main_arg15 : FVec F S128 .f32) (main_arg16 : FVec F S128x128 .f32) (main_arg17 : FVec F S128 .f32) (main_arg18 : FVec F S128x128 .f32) (main_arg19 : FVec F S256x16 .f32) (main_arg20 : FVec F S16 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_arg20 main_v63 main_v67

def fn_part2 {F : FTy → Type} [FloatOps F] (main_arg8 : FVec F S128x128 .f32) (main_arg9 : FVec F S128 .f32) (main_arg10 : FVec F S128x128 .f32) (main_arg11 : FVec F S256x128 .f32) (main_arg12 : FVec F S128 .f32) (main_arg13 : FVec F S128x128 .f32) (main_arg14 : FVec F S128x128 .f32) (main_arg15 : FVec F S128 .f32) (main_arg16 : FVec F S128x128 .f32) (main_arg17 : FVec F S128 .f32) (main_arg18 : FVec F S128x128 .f32) (main_arg19 : FVec F S256x16 .f32) (main_arg20 : FVec F S16 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128 .f32) (main_arg10 : FVec F S128x128 .f32) (main_arg11 : FVec F S256x128 .f32) (main_arg12 : FVec F S128 .f32) (main_arg13 : FVec F S128x128 .f32) (main_arg14 : FVec F S128x128 .f32) (main_arg15 : FVec F S128 .f32) (main_arg16 : FVec F S128x128 .f32) (main_arg17 : FVec F S128 .f32) (main_arg18 : FVec F S128x128 .f32) (main_arg19 : FVec F S256x16 .f32) (main_arg20 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128 .f32) (main_arg10 : FVec F S128x128 .f32) (main_arg11 : FVec F S256x128 .f32) (main_arg12 : FVec F S128 .f32) (main_arg13 : FVec F S128x128 .f32) (main_arg14 : FVec F S128x128 .f32) (main_arg15 : FVec F S128 .f32) (main_arg16 : FVec F S128x128 .f32) (main_arg17 : FVec F S128 .f32) (main_arg18 : FVec F S128x128 .f32) (main_arg19 : FVec F S256x16 .f32) (main_arg20 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S256x128 : Shape := ⟨2, ![256, 128]⟩
abbrev S256x16 : Shape := ⟨2, ![256, 16]⟩
abbrev S16 : Shape := ⟨1, ![16]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S2000x128 : Shape := ⟨2, ![2000, 128]⟩
abbrev S1600000x128 : Shape := ⟨2, ![1600000, 128]⟩
abbrev S100000x256 : Shape := ⟨2, ![100000, 256]⟩
abbrev S2000x1 : Shape := ⟨2, ![2000, 1]⟩
abbrev S2000x256 : Shape := ⟨2, ![2000, 256]⟩
abbrev S1x16 : Shape := ⟨2, ![1, 16]⟩
abbrev S100000x16 : Shape := ⟨2, ![100000, 16]⟩
abbrev S2000x16 : Shape := ⟨2, ![2000, 16]⟩

abbrev nBuf : Space → Nat
  | .hbm => 170
  | .vmem => 54
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S256x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S256x16, .f32⟩
  | 20 => ⟨S16, .f32⟩
  | 21 => ⟨S1x1600000, .i32⟩
  | 22 => ⟨S1600000, .i32⟩
  | 23 => ⟨S1x1600000, .i32⟩
  | 24 => ⟨S1600000, .i32⟩
  | 25 => ⟨S_, .f32⟩
  | 26 => ⟨S100000, .f32⟩
  | 27 => ⟨S1600000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .i1⟩
  | 35 => ⟨S_, .f32⟩
  | 36 => ⟨S_, .f32⟩
  | 37 => ⟨S100000, .f32⟩
  | 38 => ⟨S100000, .f32⟩
  | 39 => ⟨S100000, .f32⟩
  | 40 => ⟨S_, .f32⟩
  | 41 => ⟨S100000, .f32⟩
  | 42 => ⟨S100000, .f32⟩
  | 43 => ⟨S_, .f32⟩
  | 44 => ⟨S_, .f32⟩
  | 45 => ⟨S100000, .f32⟩
  | 46 => ⟨S100000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000, .f32⟩
  | 56 => ⟨S1600000, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000, .f32⟩
  | 66 => ⟨S1600000, .f32⟩
  | 67 => ⟨S_, .f32⟩
  | 68 => ⟨S1600000, .f32⟩
  | 69 => ⟨S_, .f32⟩
  | 70 => ⟨S100000, .f32⟩
  | 71 => ⟨S1600000x1, .i32⟩
  | 72 => ⟨S100000, .f32⟩
  | 73 => ⟨S_, .f32⟩
  | 74 => ⟨S100000, .f32⟩
  | 75 => ⟨S100000, .f32⟩
  | 76 => ⟨S100000x1, .f32⟩
  | 77 => ⟨S1x128, .f32⟩
  | 78 => ⟨S100000x128, .f32⟩
  | 79 => ⟨S100000x128, .f32⟩
  | 80 => ⟨S1600000x1, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x128, .f32⟩
  | 90 => ⟨S1600000x128, .f32⟩
  | 91 => ⟨S1600000x128, .f32⟩
  | 92 => ⟨S_, .f32⟩
  | 93 => ⟨S100000x128, .f32⟩
  | 94 => ⟨S1600000x1, .i32⟩
  | 95 => ⟨S100000x128, .f32⟩
  | 96 => ⟨S1600000x1, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S1600000x128, .f32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S1x128, .f32⟩
  | 113 => ⟨S1x128, .f32⟩
  | 114 => ⟨S100000x256, .f32⟩
  | 115 => ⟨S1x128, .f32⟩
  | 116 => ⟨S100000x128, .f32⟩
  | 117 => ⟨S100000x128, .f32⟩
  | 118 => ⟨S1600000x1, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x128, .f32⟩
  | _ => ⟨S100000x128, .f32⟩

abbrev hbmTy0_1 (i : Nat) : BufTy := match i % 128 with
  | 0 => ⟨S1600000x128, .f32⟩
  | 1 => ⟨S1600000x128, .f32⟩
  | 2 => ⟨S_, .f32⟩
  | 3 => ⟨S100000x128, .f32⟩
  | 4 => ⟨S1600000x1, .i32⟩
  | 5 => ⟨S100000x128, .f32⟩
  | 6 => ⟨S1600000x1, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x128, .f32⟩
  | 16 => ⟨S1600000x128, .f32⟩
  | 17 => ⟨S1600000x128, .f32⟩
  | 18 => ⟨S_, .f32⟩
  | 19 => ⟨S100000x128, .f32⟩
  | 20 => ⟨S1600000x1, .i32⟩
  | 21 => ⟨S100000x128, .f32⟩
  | 22 => ⟨S1x128, .f32⟩
  | 23 => ⟨S1x128, .f32⟩
  | 24 => ⟨S100000x256, .f32⟩
  | 25 => ⟨S1x16, .f32⟩
  | 26 => ⟨S100000x16, .f32⟩
  | 27 => ⟨S_, .f32⟩
  | 28 => ⟨S100000, .f32⟩
  | 29 => ⟨S_, .f32⟩
  | 30 => ⟨S100000, .f32⟩
  | 31 => ⟨S100000, .f32⟩
  | 32 => ⟨S100000x1, .f32⟩
  | 33 => ⟨S100000x16, .f32⟩
  | 34 => ⟨S100000x16, .f32⟩
  | 35 => ⟨S100000x16, .f32⟩
  | 36 => ⟨S_, .f32⟩
  | 37 => ⟨S100000, .f32⟩
  | 38 => ⟨S100000x1, .f32⟩
  | 39 => ⟨S100000x1, .f32⟩
  | 40 => ⟨S100000x16, .f32⟩
  | 41 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x1, .f32⟩
  | .local _ .vmem, ⟨16, _⟩ => ⟨S2000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S256x128, .f32⟩
  | .local _ .vmem, ⟨27, _⟩ => ⟨S1x128, .f32⟩
  | .local _ .vmem, ⟨28, _⟩ => ⟨S128x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x1, .f32⟩
  | .local _ .vmem, ⟨40, _⟩ => ⟨S2000x1, .f32⟩
  | .local _ .vmem, ⟨41, _⟩ => ⟨S128x128, .f32⟩
  | .local _ .vmem, ⟨42, _⟩ => ⟨S1x128, .f32⟩
  | .local _ .vmem, ⟨43, _⟩ => ⟨S128x128, .f32⟩
  | .local _ .vmem, ⟨44, _⟩ => ⟨S1x128, .f32⟩
  | .local _ .vmem, ⟨45, _⟩ => ⟨S128x128, .f32⟩
  | .local _ .vmem, ⟨46, _⟩ => ⟨S2000x256, .f32⟩
  | .local _ .vmem, ⟨47, _⟩ => ⟨S2000x256, .f32⟩
  | .local _ .vmem, ⟨48, _⟩ => ⟨S2000x256, .f32⟩
  | .local _ .vmem, ⟨49, _⟩ => ⟨S2000x256, .f32⟩
  | .local _ .vmem, ⟨50, _⟩ => ⟨S256x16, .f32⟩
  | .local _ .vmem, ⟨51, _⟩ => ⟨S1x16, .f32⟩
  | .local _ .vmem, ⟨52, _⟩ => ⟨S2000x16, .f32⟩
  | .local _ .vmem, ⟨53, _⟩ => ⟨S2000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst_0 : Ref sig .tc := ⟨.hbm, 29, rfl⟩
abbrev main_v7 : Ref sig .tc := ⟨.hbm, 30, rfl⟩
abbrev main_v8 : Ref sig .tc := ⟨.hbm, 31, rfl⟩
abbrev main_cst_1 : Ref sig .tc := ⟨.hbm, 32, rfl⟩
abbrev main_v9 : Ref sig .tc := ⟨.hbm, 33, rfl⟩
abbrev main_v10 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v11 : Ref sig .tc := ⟨.hbm, 38, rfl⟩
abbrev main_v12 : Ref sig .tc := ⟨.hbm, 39, rfl⟩
abbrev main_cst_3 : Ref sig .tc := ⟨.hbm, 40, rfl⟩
abbrev main_v13 : Ref sig .tc := ⟨.hbm, 41, rfl⟩
abbrev main_v14 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_v15 : Ref sig .tc := ⟨.hbm, 46, rfl⟩
abbrev main_c : Ref sig .tc := ⟨.hbm, 47, rfl⟩
abbrev main_v16 : Ref sig .tc := ⟨.hbm, 48, rfl⟩
abbrev main_v17 : Ref sig .tc := ⟨.hbm, 49, rfl⟩
abbrev main_c_5 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_c_6 : Ref sig .tc := ⟨.hbm, 57, rfl⟩
abbrev main_v24 : Ref sig .tc := ⟨.hbm, 58, rfl⟩
abbrev main_v25 : Ref sig .tc := ⟨.hbm, 59, rfl⟩
abbrev main_c_7 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_8 : Ref sig .tc := ⟨.hbm, 67, rfl⟩
abbrev main_v32 : Ref sig .tc := ⟨.hbm, 68, rfl⟩
abbrev main_cst_9 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_10 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40_0 : Ref sig .tc := ⟨.hbm, 78, rfl⟩
abbrev main_v40_1 : Ref sig .tc := ⟨.hbm, 79, rfl⟩
abbrev main_v41 : Ref sig .tc := ⟨.hbm, 80, rfl⟩
abbrev main_c_11 : Ref sig .tc := ⟨.hbm, 81, rfl⟩
abbrev main_v42 : Ref sig .tc := ⟨.hbm, 82, rfl⟩
abbrev main_v43 : Ref sig .tc := ⟨.hbm, 83, rfl⟩
abbrev main_c_12 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_13 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_c_14 : Ref sig .tc := ⟨.hbm, 97, rfl⟩
abbrev main_v55 : Ref sig .tc := ⟨.hbm, 98, rfl⟩
abbrev main_v56 : Ref sig .tc := ⟨.hbm, 99, rfl⟩
abbrev main_c_15 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_16 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71_0 : Ref sig .tc := ⟨.hbm, 116, rfl⟩
abbrev main_v71_1 : Ref sig .tc := ⟨.hbm, 117, rfl⟩
abbrev main_v72 : Ref sig .tc := ⟨.hbm, 118, rfl⟩
abbrev main_c_17 : Ref sig .tc := ⟨.hbm, 119, rfl⟩
abbrev main_v73 : Ref sig .tc := ⟨.hbm, 120, rfl⟩
abbrev main_v74 : Ref sig .tc := ⟨.hbm, 121, rfl⟩
abbrev main_c_18 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_cst_19 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_c_20 : Ref sig .tc := ⟨.hbm, 135, rfl⟩
abbrev main_v86 : Ref sig .tc := ⟨.hbm, 136, rfl⟩
abbrev main_v87 : Ref sig .tc := ⟨.hbm, 137, rfl⟩
abbrev main_c_21 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_22 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_call2_cst : Ref sig .tc := ⟨.hbm, 155, rfl⟩
abbrev main_call2_v0 : Ref sig .tc := ⟨.hbm, 156, rfl⟩
abbrev main_call2_cst_0 : Ref sig .tc := ⟨.hbm, 157, rfl⟩
abbrev main_call2_v1 : Ref sig .tc := ⟨.hbm, 158, rfl⟩
abbrev main_call2_v2 : Ref sig .tc := ⟨.hbm, 159, rfl⟩
abbrev main_call2_v3 : Ref sig .tc := ⟨.hbm, 160, rfl⟩
abbrev main_call2_v4 : Ref sig .tc := ⟨.hbm, 161, rfl⟩
abbrev main_call2_v5 : Ref sig .tc := ⟨.hbm, 162, rfl⟩
abbrev main_call2_v6 : Ref sig .tc := ⟨.hbm, 163, rfl⟩
abbrev main_call2_cst_1 : Ref sig .tc := ⟨.hbm, 164, rfl⟩
abbrev main_call2_v7 : Ref sig .tc := ⟨.hbm, 165, rfl⟩
abbrev main_call2_v8 : Ref sig .tc := ⟨.hbm, 166, rfl⟩
abbrev main_call2_v9 : Ref sig .tc := ⟨.hbm, 167, rfl⟩
abbrev main_call2_v10 : Ref sig .tc := ⟨.hbm, 168, rfl⟩
abbrev main_v103 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg8_0 : Ref sig .tc := ⟨.vmem, 45, rfl⟩
abbrev cc3_stg9_0 : Ref sig .tc := ⟨.vmem, 46, rfl⟩
abbrev cc3_stg9_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg3_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem4_1 : DmaSem sig := 30
abbrev cc2_sem5_0 : DmaSem sig := 31
abbrev cc2_sem5_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem3_1 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem8_0 : DmaSem sig := 45
abbrev cc3_sem9_0 : DmaSem sig := 46
abbrev cc3_sem9_1 : DmaSem sig := 47
abbrev cc4_sem0_0 : DmaSem sig := 48
abbrev cc4_sem0_1 : DmaSem sig := 49
abbrev cc4_sem1_0 : DmaSem sig := 50
abbrev cc4_sem2_0 : DmaSem sig := 51
abbrev cc4_sem3_0 : DmaSem sig := 52
abbrev cc4_sem3_1 : DmaSem sig := 53

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2000x256 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S100000_S100000x1_0 : S100000.BroadcastsInDim S100000x1 (![0] : Fin 1 → Fin S100000x1.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x256_S2000x128_0_0 : ∀ a, (![0, 0] : Fin 2 → Nat) a + S2000x128.size a ≤ S2000x256.size a
  inb_S2000x256_S2000x128_0_128 : ∀ a, (![0, 128] : Fin 2 → Nat) a + S2000x128.size a ≤ S2000x256.size a
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S16_S1x16 : S16.ShapeCasts S1x16
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  reducesTo_S100000x16_S100000_d1 : S100000x16.ReducesTo [1] S100000
  h_S_ : 0 < S_.numel
  bcast_S100000x1_S100000x16_0_1 : S100000x1.BroadcastsInDim S100000x16 (![0, 1] : Fin 2 → Fin S100000x16.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x256_S256x128_S2000x128_1_0_0_1_n_n_wf : DotDims.WF S2000x256 S256x128 S2000x128 [1] [0] [0] [1] [] []
  dot_S2000x256_S256x16_S2000x16_1_0_0_1_n_n_wf : DotDims.WF S2000x256 S256x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .f32 = 32 ∨ (Rect.block (s := S100000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x256.size a ≤ S100000x256.size a
  hwx1_9 : ∀ i : grid1.Coords, EltTy.bits .f32 = 32 ∨ (Rect.block (s := S100000x256) S2000x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .f32 = 32 ∨ (Rect.block (s := S100000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S100000x1.size a
  hwx3_3 : ∀ i : grid3.Coords, EltTy.bits .f32 = 32 ∨ (Rect.block (s := S100000x1) S2000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x256.size a ≤ S100000x256.size a
  hwx3_9 : ∀ i : grid3.Coords, EltTy.bits .f32 = 32 ∨ (Rect.block (s := S100000x256) S2000x256.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x16.size a ≤ S256x16.size a
  hwx4_1 : ∀ i : grid4.Coords, EltTy.bits .f32 = 32 ∨ (Rect.block (s := S256x16) S256x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x16.size a ≤ S100000x16.size a
  hwx4_3 : ∀ i : grid4.Coords, EltTy.bits .f32 = 32 ∨ (Rect.block (s := S100000x16) S2000x16.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x256_S256x16_S2000x16_1_0_0_1_n_n : DotDims S2000x256 S256x16 S2000x16 where
  lhsContracting := [1]
  rhsContracting := [0]
  lhsNonContracting := [0]
  rhsNonContracting := [1]
  lhsBatch := []
  rhsBatch := []
  wf := dot_S2000x256_S256x16_S2000x16_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v40_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v66) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v67) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v68) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v69) S2000x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v69) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71_0) S2000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v71_1) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v71_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v97) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v38) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v98) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg16) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v99) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg18) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v100) S2000x256.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v100) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg19) S256x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v101) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v102) S2000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S256x128 : Shape := ⟨2, ![256, 128]⟩
abbrev S256x16 : Shape := ⟨2, ![256, 16]⟩
abbrev S16 : Shape := ⟨1, ![16]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S1600000x128 : Shape := ⟨2, ![1600000, 128]⟩
abbrev S100000x1 : Shape := ⟨2, ![100000, 1]⟩
abbrev S100000x256 : Shape := ⟨2, ![100000, 256]⟩
abbrev S100000x16 : Shape := ⟨2, ![100000, 16]⟩
abbrev S1x16 : Shape := ⟨2, ![1, 16]⟩

abbrev nBuf : Space → Nat
  | .hbm => 267
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S256x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S256x16, .f32⟩
  | 20 => ⟨S16, .f32⟩
  | 21 => ⟨S1x1600000, .i32⟩
  | 22 => ⟨S1600000, .i32⟩
  | 23 => ⟨S1x1600000, .i32⟩
  | 24 => ⟨S1600000, .i32⟩
  | 25 => ⟨S_, .f32⟩
  | 26 => ⟨S100000, .f32⟩
  | 27 => ⟨S1600000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .i1⟩
  | 35 => ⟨S_, .f32⟩
  | 36 => ⟨S_, .f32⟩
  | 37 => ⟨S100000, .f32⟩
  | 38 => ⟨S100000, .f32⟩
  | 39 => ⟨S100000, .f32⟩
  | 40 => ⟨S_, .f32⟩
  | 41 => ⟨S100000, .f32⟩
  | 42 => ⟨S100000, .f32⟩
  | 43 => ⟨S_, .f32⟩
  | 44 => ⟨S_, .f32⟩
  | 45 => ⟨S100000, .f32⟩
  | 46 => ⟨S100000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000, .f32⟩
  | 56 => ⟨S1600000, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000, .f32⟩
  | 66 => ⟨S1600000, .f32⟩
  | 67 => ⟨S_, .f32⟩
  | 68 => ⟨S1600000, .f32⟩
  | 69 => ⟨S_, .f32⟩
  | 70 => ⟨S100000, .f32⟩
  | 71 => ⟨S1600000x1, .i32⟩
  | 72 => ⟨S100000, .f32⟩
  | 73 => ⟨S_, .f32⟩
  | 74 => ⟨S100000, .f32⟩
  | 75 => ⟨S100000, .f32⟩
  | 76 => ⟨S100000x128, .f32⟩
  | 77 => ⟨S1x128, .f32⟩
  | 78 => ⟨S100000x128, .f32⟩
  | 79 => ⟨S100000x128, .f32⟩
  | 80 => ⟨S100000x128, .f32⟩
  | 81 => ⟨S1600000x1, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x128, .f32⟩
  | 91 => ⟨S1600000x128, .f32⟩
  | 92 => ⟨S1600000x128, .f32⟩
  | 93 => ⟨S_, .f32⟩
  | 94 => ⟨S100000x128, .f32⟩
  | 95 => ⟨S1600000x1, .i32⟩
  | 96 => ⟨S100000x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S_, .f32⟩
  | 106 => ⟨S_, .f32⟩
  | 107 => ⟨S100000x128, .f32⟩
  | 108 => ⟨S100000x128, .i1⟩
  | 109 => ⟨S_, .f32⟩
  | 110 => ⟨S100000x128, .f32⟩
  | 111 => ⟨S100000x128, .f32⟩
  | 112 => ⟨S100000x128, .f32⟩
  | 113 => ⟨S1600000x1, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x128, .f32⟩
  | 123 => ⟨S1600000x128, .f32⟩
  | 124 => ⟨S1600000x128, .f32⟩
  | 125 => ⟨S_, .f32⟩
  | 126 => ⟨S100000x128, .f32⟩
  | 127 => ⟨S1600000x1, .i32⟩
  | _ => ⟨S100000x128, .f32⟩

abbrev hbmTy0_1 (i : Nat) : BufTy := match i % 128 with
  | 0 => ⟨S100000x128, .f32⟩
  | 1 => ⟨S100000x1, .f32⟩
  | 2 => ⟨S100000x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S100000x128, .f32⟩
  | 9 => ⟨S100000x128, .f32⟩
  | 10 => ⟨S_, .f32⟩
  | 11 => ⟨S_, .f32⟩
  | 12 => ⟨S100000x128, .f32⟩
  | 13 => ⟨S100000x128, .i1⟩
  | 14 => ⟨S_, .f32⟩
  | 15 => ⟨S100000x128, .f32⟩
  | 16 => ⟨S100000x128, .f32⟩
  | 17 => ⟨S100000x128, .f32⟩
  | 18 => ⟨S100000x256, .f32⟩
  | 19 => ⟨S_, .f32⟩
  | 20 => ⟨S100000x256, .f32⟩
  | 21 => ⟨S100000x256, .i1⟩
  | 22 => ⟨S_, .f32⟩
  | 23 => ⟨S100000x256, .f32⟩
  | 24 => ⟨S100000x256, .i1⟩
  | 25 => ⟨S_, .f32⟩
  | 26 => ⟨S_, .f32⟩
  | 27 => ⟨S100000x256, .f32⟩
  | 28 => ⟨S100000x256, .f32⟩
  | 29 => ⟨S100000x256, .f32⟩
  | 30 => ⟨S_, .f32⟩
  | 31 => ⟨S100000x256, .f32⟩
  | 32 => ⟨S100000x256, .f32⟩
  | 33 => ⟨S100000x256, .f32⟩
  | 34 => ⟨S100000x128, .f32⟩
  | 35 => ⟨S1x128, .f32⟩
  | 36 => ⟨S100000x128, .f32⟩
  | 37 => ⟨S100000x128, .f32⟩
  | 38 => ⟨S100000x128, .f32⟩
  | 39 => ⟨S1600000x1, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S1600000x128, .f32⟩
  | 50 => ⟨S1600000x128, .f32⟩
  | 51 => ⟨S_, .f32⟩
  | 52 => ⟨S100000x128, .f32⟩
  | 53 => ⟨S1600000x1, .i32⟩
  | 54 => ⟨S100000x128, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S_, .f32⟩
  | 64 => ⟨S_, .f32⟩
  | 65 => ⟨S100000x128, .f32⟩
  | 66 => ⟨S100000x128, .i1⟩
  | 67 => ⟨S_, .f32⟩
  | 68 => ⟨S100000x128, .f32⟩
  | 69 => ⟨S100000x128, .f32⟩
  | 70 => ⟨S100000x128, .f32⟩
  | 71 => ⟨S1600000x1, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x128, .f32⟩
  | 81 => ⟨S1600000x128, .f32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S100000x1, .f32⟩
  | 88 => ⟨S100000x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S100000x128, .f32⟩
  | 95 => ⟨S100000x128, .f32⟩
  | 96 => ⟨S_, .f32⟩
  | 97 => ⟨S_, .f32⟩
  | 98 => ⟨S100000x128, .f32⟩
  | 99 => ⟨S100000x128, .i1⟩
  | 100 => ⟨S_, .f32⟩
  | 101 => ⟨S100000x128, .f32⟩
  | 102 => ⟨S100000x128, .f32⟩
  | 103 => ⟨S100000x128, .f32⟩
  | 104 => ⟨S100000x256, .f32⟩
  | 105 => ⟨S_, .f32⟩
  | 106 => ⟨S100000x256, .f32⟩
  | 107 => ⟨S100000x256, .i1⟩
  | 108 => ⟨S_, .f32⟩
  | 109 => ⟨S100000x256, .f32⟩
  | 110 => ⟨S100000x256, .i1⟩
  | 111 => ⟨S_, .f32⟩
  | 112 => ⟨S_, .f32⟩
  | 113 => ⟨S100000x256, .f32⟩
  | 114 => ⟨S100000x256, .f32⟩
  | 115 => ⟨S100000x256, .f32⟩
  | 116 => ⟨S_, .f32⟩
  | 117 => ⟨S100000x256, .f32⟩
  | 118 => ⟨S100000x256, .f32⟩
  | 119 => ⟨S100000x256, .f32⟩
  | 120 => ⟨S100000x16, .f32⟩
  | 121 => ⟨S1x16, .f32⟩
  | 122 => ⟨S100000x16, .f32⟩
  | 123 => ⟨S100000x16, .f32⟩
  | 124 => ⟨S_, .f32⟩
  | 125 => ⟨S100000, .f32⟩
  | 126 => ⟨S_, .f32⟩
  | 127 => ⟨S100000, .f32⟩
  | _ => ⟨S100000x128, .f32⟩

abbrev hbmTy0_2 (i : Nat) : BufTy := match i % 128 with
  | 0 => ⟨S100000, .f32⟩
  | 1 => ⟨S100000x1, .f32⟩
  | 2 => ⟨S100000x16, .f32⟩
  | 3 => ⟨S100000x16, .f32⟩
  | 4 => ⟨S100000x16, .f32⟩
  | 5 => ⟨S_, .f32⟩
  | 6 => ⟨S100000, .f32⟩
  | 7 => ⟨S100000x1, .f32⟩
  | 8 => ⟨S100000x1, .f32⟩
  | 9 => ⟨S100000x16, .f32⟩
  | 10 => ⟨S100000x16, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst_0 : Ref sig .tc := ⟨.hbm, 29, rfl⟩
abbrev main_v7 : Ref sig .tc := ⟨.hbm, 30, rfl⟩
abbrev main_v8 : Ref sig .tc := ⟨.hbm, 31, rfl⟩
abbrev main_cst_1 : Ref sig .tc := ⟨.hbm, 32, rfl⟩
abbrev main_v9 : Ref sig .tc := ⟨.hbm, 33, rfl⟩
abbrev main_v10 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v11 : Ref sig .tc := ⟨.hbm, 38, rfl⟩
abbrev main_v12 : Ref sig .tc := ⟨.hbm, 39, rfl⟩
abbrev main_cst_3 : Ref sig .tc := ⟨.hbm, 40, rfl⟩
abbrev main_v13 : Ref sig .tc := ⟨.hbm, 41, rfl⟩
abbrev main_v14 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_v15 : Ref sig .tc := ⟨.hbm, 46, rfl⟩
abbrev main_c : Ref sig .tc := ⟨.hbm, 47, rfl⟩
abbrev main_v16 : Ref sig .tc := ⟨.hbm, 48, rfl⟩
abbrev main_v17 : Ref sig .tc := ⟨.hbm, 49, rfl⟩
abbrev main_c_5 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_c_6 : Ref sig .tc := ⟨.hbm, 57, rfl⟩
abbrev main_v24 : Ref sig .tc := ⟨.hbm, 58, rfl⟩
abbrev main_v25 : Ref sig .tc := ⟨.hbm, 59, rfl⟩
abbrev main_c_7 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_8 : Ref sig .tc := ⟨.hbm, 67, rfl⟩
abbrev main_v32 : Ref sig .tc := ⟨.hbm, 68, rfl⟩
abbrev main_cst_9 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_10 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_c_11 : Ref sig .tc := ⟨.hbm, 82, rfl⟩
abbrev main_v44 : Ref sig .tc := ⟨.hbm, 83, rfl⟩
abbrev main_v45 : Ref sig .tc := ⟨.hbm, 84, rfl⟩
abbrev main_c_12 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_13 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_call2_cst : Ref sig .tc := ⟨.hbm, 102, rfl⟩
abbrev main_call2_v0 : Ref sig .tc := ⟨.hbm, 103, rfl⟩
abbrev main_v61 : Ref sig .tc := ⟨.hbm, 104, rfl⟩
abbrev main_cst_14 : Ref sig .tc := ⟨.hbm, 105, rfl⟩
abbrev main_call3_cst : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_v62 : Ref sig .tc := ⟨.hbm, 112, rfl⟩
abbrev main_v63 : Ref sig .tc := ⟨.hbm, 113, rfl⟩
abbrev main_c_15 : Ref sig .tc := ⟨.hbm, 114, rfl⟩
abbrev main_v64 : Ref sig .tc := ⟨.hbm, 115, rfl⟩
abbrev main_v65 : Ref sig .tc := ⟨.hbm, 116, rfl⟩
abbrev main_c_16 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_cst_17 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_cst_18 : Ref sig .tc := ⟨.hbm, 138, rfl⟩
abbrev main_call4_cst : Ref sig .tc := ⟨.hbm, 139, rfl⟩
abbrev main_call4_v0 : Ref sig .tc := ⟨.hbm, 140, rfl⟩
abbrev main_call4_v1 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_v85 : Ref sig .tc := ⟨.hbm, 145, rfl⟩
abbrev main_v86 : Ref sig .tc := ⟨.hbm, 146, rfl⟩
abbrev main_call5_cst : Ref sig .tc := ⟨.hbm, 147, rfl⟩
abbrev main_call5_v0 : Ref sig .tc := ⟨.hbm, 148, rfl⟩
abbrev main_call5_v1 : Ref sig .tc := ⟨.hbm, 149, rfl⟩
abbrev main_call5_cst_0 : Ref sig .tc := ⟨.hbm, 150, rfl⟩
abbrev main_call5_v2 : Ref sig .tc := ⟨.hbm, 151, rfl⟩
abbrev main_call5_v3 : Ref sig .tc := ⟨.hbm, 152, rfl⟩
abbrev main_call5_cst_1 : Ref sig .tc := ⟨.hbm, 153, rfl⟩
abbrev main_call5_call0_v0 : Ref sig .tc := ⟨.hbm, 154, rfl⟩
abbrev main_call5_call0_v1 : Ref sig .tc := ⟨.hbm, 155, rfl⟩
abbrev main_call5_v4 : Ref sig .tc := ⟨.hbm, 156, rfl⟩
abbrev main_call5_v5 : Ref sig .tc := ⟨.hbm, 157, rfl⟩
abbrev main_call5_cst_2 : Ref sig .tc := ⟨.hbm, 158, rfl⟩
abbrev main_call5_v6 : Ref sig .tc := ⟨.hbm, 159, rfl⟩
abbrev main_call5_v7 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_c_19 : Ref sig .tc := ⟨.hbm, 168, rfl⟩
abbrev main_v94 : Ref sig .tc := ⟨.hbm, 169, rfl⟩
abbrev main_v95 : Ref sig .tc := ⟨.hbm, 170, rfl⟩
abbrev main_c_20 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_cst_21 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_call6_cst : Ref sig .tc := ⟨.hbm, 188, rfl⟩
abbrev main_call6_v0 : Ref sig .tc := ⟨.hbm, 189, rfl⟩
abbrev main_v111 : Ref sig .tc := ⟨.hbm, 190, rfl⟩
abbrev main_cst_22 : Ref sig .tc := ⟨.hbm, 191, rfl⟩
abbrev main_call7_cst : Ref sig .tc := ⟨.hbm, 192, rfl⟩
abbrev main_call7_v0 : Ref sig .tc := ⟨.hbm, 193, rfl⟩
abbrev main_call7_v1 : Ref sig .tc := ⟨.hbm, 194, rfl⟩
abbrev main_call7_v2 : Ref sig .tc := ⟨.hbm, 195, rfl⟩
abbrev main_call7_v3 : Ref sig .tc := ⟨.hbm, 196, rfl⟩
abbrev main_call7_v4 : Ref sig .tc := ⟨.hbm, 197, rfl⟩
abbrev main_v112 : Ref sig .tc := ⟨.hbm, 198, rfl⟩
abbrev main_v113 : Ref sig .tc := ⟨.hbm, 199, rfl⟩
abbrev main_c_23 : Ref sig .tc := ⟨.hbm, 200, rfl⟩
abbrev main_v114 : Ref sig .tc := ⟨.hbm, 201, rfl⟩
abbrev main_v115 : Ref sig .tc := ⟨.hbm, 202, rfl⟩
abbrev main_c_24 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_cst_25 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_cst_26 : Ref sig .tc := ⟨.hbm, 224, rfl⟩
abbrev main_call8_cst : Ref sig .tc := ⟨.hbm, 225, rfl⟩
abbrev main_call8_v0 : Ref sig .tc := ⟨.hbm, 226, rfl⟩
abbrev main_call8_v1 : Ref sig .tc := ⟨.hbm, 227, rfl⟩
abbrev main_call8_v2 : Ref sig .tc := ⟨.hbm, 228, rfl⟩
abbrev main_call8_v3 : Ref sig .tc := ⟨.hbm, 229, rfl⟩
abbrev main_call8_v4 : Ref sig .tc := ⟨.hbm, 230, rfl⟩
abbrev main_v135 : Ref sig .tc := ⟨.hbm, 231, rfl⟩
abbrev main_v136 : Ref sig .tc := ⟨.hbm, 232, rfl⟩
abbrev main_call9_cst : Ref sig .tc := ⟨.hbm, 233, rfl⟩
abbrev main_call9_v0 : Ref sig .tc := ⟨.hbm, 234, rfl⟩
abbrev main_call9_v1 : Ref sig .tc := ⟨.hbm, 235, rfl⟩
abbrev main_call9_cst_0 : Ref sig .tc := ⟨.hbm, 236, rfl⟩
abbrev main_call9_v2 : Ref sig .tc := ⟨.hbm, 237, rfl⟩
abbrev main_call9_v3 : Ref sig .tc := ⟨.hbm, 238, rfl⟩
abbrev main_call9_cst_1 : Ref sig .tc := ⟨.hbm, 239, rfl⟩
abbrev main_call9_call0_v0 : Ref sig .tc := ⟨.hbm, 240, rfl⟩
abbrev main_call9_call0_v1 : Ref sig .tc := ⟨.hbm, 241, rfl⟩
abbrev main_call9_v4 : Ref sig .tc := ⟨.hbm, 242, rfl⟩
abbrev main_call9_v5 : Ref sig .tc := ⟨.hbm, 243, rfl⟩
abbrev main_call9_cst_2 : Ref sig .tc := ⟨.hbm, 244, rfl⟩
abbrev main_call9_v6 : Ref sig .tc := ⟨.hbm, 245, rfl⟩
abbrev main_call9_v7 : Ref sig .tc := ⟨.hbm, 246, rfl⟩
abbrev main_v137 : Ref sig .tc := ⟨.hbm, 247, rfl⟩
abbrev main_v138 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_call10_cst : Ref sig .tc := ⟨.hbm, 252, rfl⟩
abbrev main_call10_v0 : Ref sig .tc := ⟨.hbm, 253, rfl⟩
abbrev main_call10_cst_0 : Ref sig .tc := ⟨.hbm, 254, rfl⟩
abbrev main_call10_v1 : Ref sig .tc := ⟨.hbm, 255, rfl⟩
abbrev main_call10_v2 : Ref sig .tc := ⟨.hbm, 256, rfl⟩
abbrev main_call10_v3 : Ref sig .tc := ⟨.hbm, 257, rfl⟩
abbrev main_call10_v4 : Ref sig .tc := ⟨.hbm, 258, rfl⟩
abbrev main_call10_v5 : Ref sig .tc := ⟨.hbm, 259, rfl⟩
abbrev main_call10_v6 : Ref sig .tc := ⟨.hbm, 260, rfl⟩
abbrev main_call10_cst_1 : Ref sig .tc := ⟨.hbm, 261, rfl⟩
abbrev main_call10_v7 : Ref sig .tc := ⟨.hbm, 262, rfl⟩
abbrev main_call10_v8 : Ref sig .tc := ⟨.hbm, 263, rfl⟩
abbrev main_call10_v9 : Ref sig .tc := ⟨.hbm, 264, rfl⟩
abbrev main_call10_v10 : Ref sig .tc := ⟨.hbm, 265, rfl⟩
abbrev main_v142 : Ref sig .tc := ⟨.hbm, 266, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S_S100000x256 : S_.BroadcastsInDim S100000x256 (![] : Fin 0 → Fin S100000x256.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000x1_S100000x16_0_1 : S100000x1.BroadcastsInDim S100000x16 (![0, 1] : Fin 2 → Fin S100000x16.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []
  dot_S100000x256_S256x16_S100000x16_1_0_0_1_n_n_wf : DotDims.WF S100000x256 S256x16 S100000x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf

class Facts : Prop extends Facts₀ where

variable [Facts]
-- ==== Proof.KerRun.lean ====
/-
  The kernel program's run with its result named.  The program is fifteen segments in a row: stretches of host
  operations and five tiled regions.  Every weakly fair execution ends, without a fault, with each unscoped buffer
  at the contents the segments' fold leaves; read at the result buffer this is the fold's value there, and read at
  an argument it is the argument as launched, since no segment writes one.
-/
import proofs.«113657_j36816459661707_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program ends with the result buffer at the value the segments' fold
    leaves there and every argument as launched. -/
theorem run_value : θ_run defs (onTc (τ := τ) (main (F := F))) ⟨m, fun _ => 0, ρ⟩ (fun r => ∀ c : Dev nD,
      r.2.mem ((c.tc : Thread nD τ).loc main_v103) = W15 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v103 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c),
       (h c _ (mem_uc main_arg20 (by decide))).trans (W15_main_arg20 m ρ c)⟩)

end Cert.KernelIdeal.Gen

end
-- ==== Proof.KerKeep.lean ====
import proofs.«113657_j36816459661707_1_alg».proof.Proof.Gen.KernelIdeal.Frame
import Idealize.ShloMosaic.Lib.StableHlo.Run
import Idealize.ShloMosaic.PureOps.Ideal

noncomputable section

namespace Cert.KernelIdeal.Keep

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- No operation of this stretch writes the buffer. -/
theorem k1_arg0 (V : Valuation τ sig (Elt Ideal)) :
    after hostOps0 V (Proc.devRef .tc main_arg0) = V (Proc.devRef .tc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k1_arg10 (V : Valuation τ sig (Elt Ideal)) :
    after hostOps0 V (Proc.devRef .tc main_arg10) = V (Proc.devRef .tc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k1_arg11 (V : Valuation τ sig (Elt Ideal)) :
    after hostOps0 V (Proc.devRef .tc main_arg11) = V (Proc.devRef .tc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k1_arg12 (V : Valuation τ sig (Elt Ideal)) :
    after hostOps0 V (Proc.devRef .tc main_arg12) = V (Proc.devRef .tc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k1_arg13 (V : Valuation τ sig (Elt Ideal)) :
    after hostOps0 V (Proc.devRef .tc main_arg13) = V (Proc.devRef .tc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k1_arg14 (V : Valuation τ sig (Elt Ideal)) :
    after hostOps0 V (Proc.devRef .tc main_arg14) = V (Proc.devRef .tc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k1_arg15 (V : Valuation τ sig (Elt Ideal)) :
    after hostOps0 V (Proc.devRef .tc main_arg15) = V (Proc.devRef .tc main_arg15) :=
  StableHlo.after_of_forall_not_mem (b := Proc.devRef .tc main_arg15) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k1_arg16 (V : Valuation τ sig (Elt Ideal)) :
    after hostOps0 V (Proc.devRef .tc main_arg16) = V (Proc.devRef .tc main_arg16) :=
  StableHlo.after_of_forall_not_mem (b := Proc.devRef .tc main_arg16) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k1_arg17 (V : Valuation τ sig (Elt Ideal)) :
    after hostOps0 V (Proc.devRef .tc main_arg17) = V (Proc.devRef .tc main_arg17) :=
  StableHlo.after_of_forall_not_mem (b := Proc.devRef .tc main_arg17) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k1_arg18 (V : Valuation τ sig (Elt Ideal)) :
    after hostOps0 V (Proc.devRef .tc main_arg18) = V (Proc.devRef .tc main_arg18) :=
  StableHlo.after_of_forall_not_mem (b := Proc.devRef .tc main_arg18) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k1_arg19 (V : Valuation τ sig (Elt Ideal)) :
    after hostOps0 V (Proc.devRef .tc main_arg19) = V (Proc.devRef .tc main_arg19) :=
  StableHlo.after_of_forall_not_mem (b := Proc.devRef .tc main_arg19) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k1_arg2 (V : Valuation τ sig (Elt Ideal)) :
    after hostOps0 V (Proc.devRef .tc main_arg2) = V (Proc.devRef .tc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k1_arg20 (V : Valuation τ sig (Elt Ideal)) :
    after hostOps0 V (Proc.devRef .tc main_arg20) = V (Proc.devRef .tc main_arg20) :=
  StableHlo.after_of_forall_not_mem (b := Proc.devRef .tc main_arg20) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k1_arg3 (V : Valuation τ sig (Elt Ideal)) :
    after hostOps0 V (Proc.devRef .tc main_arg3) = V (Proc.devRef .tc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k1_arg4 (V : Valuation τ sig (Elt Ideal)) :
    after hostOps0 V (Proc.devRef .tc main_arg4) = V (Proc.devRef .tc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k1_arg5 (V : Valuation τ sig (Elt Ideal)) :
    after hostOps0 V (Proc.devRef .tc main_arg5) = V (Proc.devRef .tc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k1_arg6 (V : Valuation τ sig (Elt Ideal)) :
    after hostOps0 V (Proc.devRef .tc main_arg6) = V (Proc.devRef .tc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k1_arg7 (V : Valuation τ sig (Elt Ideal)) :
    after hostOps0 V (Proc.devRef .tc main_arg7) = V (Proc.devRef .tc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k1_arg8 (V : Valuation τ sig (Elt Ideal)) :
    after hostOps0 V (Proc.devRef .tc main_arg8) = V (Proc.devRef .tc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k1_arg9 (V : Valuation τ sig (Elt Ideal)) :
    after hostOps0 V (Proc.devRef .tc main_arg9) = V (Proc.devRef .tc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_arg0 (V : Valuation τ sig (Elt Ideal)) :
    after hostOps0_1 V (Proc.devRef .tc main_arg0) = V (Proc.devRef .tc main_arg0) :=
  StableHlo.after_of_forall_not_mem (b := Proc.devRef .tc main_arg0) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_arg10 (V : Valuation τ sig (Elt Ideal)) :
    after hostOps0_1 V (Proc.devRef .tc main_arg10) = V (Proc.devRef .tc main_arg10) :=
  StableHlo.after_of_forall_not_mem (b := Proc.devRef .tc main_arg10) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_arg11 (V : Valuation τ sig (Elt Ideal)) :
    after hostOps0_1 V (Proc.devRef .tc main_arg11) = V (Proc.devRef .tc main_arg11) :=
  StableHlo.after_of_forall_not_mem (b := Proc.devRef .tc main_arg11) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_arg12 (V : Valuation τ sig (Elt Ideal)) :
    after hostOps0_1 V (Proc.devRef .tc main_arg12) = V (Proc.devRef .tc main_arg12) :=
  StableHlo.after_of_forall_not_mem (b := Proc.devRef .tc main_arg12) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_arg13 (V : Valuation τ sig (Elt Ideal)) :
    after hostOps0_1 V (Proc.devRef .tc main_arg13) = V (Proc.devRef .tc main_arg13) :=
  StableHlo.after_of_forall_not_mem (b := Proc.devRef .tc main_arg13) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_arg14 (V : Valuation τ sig (Elt Ideal)) :
    after hostOps0_1 V (Proc.devRef .tc main_arg14) = V (Proc.devRef .tc main_arg14) :=
  StableHlo.after_of_forall_not_mem (b := Proc.devRef .tc main_arg14) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_arg15 (V : Valuation τ sig (Elt Ideal)) :
    after hostOps0_1 V (Proc.devRef .tc main_arg15) = V (Proc.devRef .tc main_arg15) :=
  StableHlo.after_of_forall_not_mem (b := Proc.devRef .tc main_arg15) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_arg16 (V : Valuation τ sig (Elt Ideal)) :
    after hostOps0_1 V (Proc.devRef .tc main_arg16) = V (Proc.devRef .tc main_arg16) :=
  StableHlo.after_of_forall_not_mem (b := Proc.devRef .tc main_arg16) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_arg17 (V : Valuation τ sig (Elt Ideal)) :
    after hostOps0_1 V (Proc.devRef .tc main_arg17) = V (Proc.devRef .tc main_arg17) :=
  StableHlo.after_of_forall_not_mem (b := Proc.devRef .tc main_arg17) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_arg18 (V : Valuation τ sig (Elt Ideal)) :
    after hostOps0_1 V (Proc.devRef .tc main_arg18) = V (Proc.devRef .tc main_arg18) :=
  StableHlo.after_of_forall_not_mem (b := Proc.devRef .tc main_arg18) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_arg19 (V : Valuation τ sig (Elt Ideal)) :
    after hostOps0_1 V (Proc.devRef .tc main_arg19) = V (Proc.devRef .tc main_arg19) :=
  StableHlo.after_of_forall_not_mem (b := Proc.devRef .tc main_arg19) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_arg2 (V : Valuation τ sig (Elt Ideal)) :
    after hostOps0_1 V (Proc.devRef .tc main_arg2) = V (Proc.devRef .tc main_arg2) :=
  StableHlo.after_of_forall_not_mem (b := Proc.devRef .tc main_arg2) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_arg20 (V : Valuation τ sig (Elt Ideal)) :
    after hostOps0_1 V (Proc.devRef .tc main_arg20) = V (Proc.devRef .tc main_arg20) :=
  StableHlo.after_of_forall_not_mem (b := Proc.devRef .tc main_arg20) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_arg3 (V : Valuation τ sig (Elt Ideal)) :
    after hostOps0_1 V (Proc.devRef .tc main_arg3) = V (Proc.devRef .tc main_arg3) :=
  StableHlo.after_of_forall_not_mem (b := Proc.devRef .tc main_arg3) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_arg4 (V : Valuation τ sig (Elt Ideal)) :
    after hostOps0_1 V (Proc.devRef .tc main_arg4) = V (Proc.devRef .tc main_arg4) :=
  StableHlo.after_of_forall_not_mem (b := Proc.devRef .tc main_arg4) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_arg5 (V : Valuation τ sig (Elt Ideal)) :
    after hostOps0_1 V (Proc.devRef .tc main_arg5) = V (Proc.devRef .tc main_arg5) :=
  StableHlo.after_of_forall_not_mem (b := Proc.devRef .tc main_arg5) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_arg6 (V : Valuation τ sig (Elt Ideal)) :
    after hostOps0_1 V (Proc.devRef .tc main_arg6) = V (Proc.devRef .tc main_arg6) :=
  StableHlo.after_of_forall_not_mem (b := Proc.devRef .tc main_arg6) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_arg7 (V : Valuation τ sig (Elt Ideal)) :
    after hostOps0_1 V (Proc.devRef .tc main_arg7) = V (Proc.devRef .tc main_arg7) :=
  StableHlo.after_of_forall_not_mem (b := Proc.devRef .tc main_arg7) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_arg8 (V : Valuation τ sig (Elt Ideal)) :
    after hostOps0_1 V (Proc.devRef .tc main_arg8) = V (Proc.devRef .tc main_arg8) :=
  StableHlo.after_of_forall_not_mem (b := Proc.devRef .tc main_arg8) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_arg9 (V : Valuation τ sig (Elt Ideal)) :
    after hostOps0_1 V (Proc.devRef .tc main_arg9) = V (Proc.devRef .tc main_arg9) :=
  StableHlo.after_of_forall_not_mem (b := Proc.devRef .tc main_arg9) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_v1 (V : Valuation τ sig (Elt Ideal)) :
    after hostOps0_1 V (Proc.devRef .tc main_v1) = V (Proc.devRef .tc main_v1) :=
  StableHlo.after_of_forall_not_mem (b := Proc.devRef .tc main_v1) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_v3 (V : Valuation τ sig (Elt Ideal)) :
    after hostOps0_1 V (Proc.devRef .tc main_v3) = V (Proc.devRef .tc main_v3) :=
  StableHlo.after_of_forall_not_mem (b := Proc.devRef .tc main_v3) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k2_v8 (V : Valuation τ sig (Elt Ideal)) :
    after hostOps0_1 V (Proc.devRef .tc main_v8) = V (Proc.devRef .tc main_v8) :=
  StableHlo.after_of_forall_not_mem (b := Proc.devRef .tc main_v8) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_arg0 (V : Valuation τ sig (Elt Ideal)) :
    after hostOps0_2 V (Proc.devRef .tc main_arg0) = V (Proc.devRef .tc main_arg0) :=
  StableHlo.after_of_forall_not_mem (b := Proc.devRef .tc main_arg0) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_arg10 (V : Valuation τ sig (Elt Ideal)) :
    after hostOps0_2 V (Proc.devRef .tc main_arg10) = V (Proc.devRef .tc main_arg10) :=
  StableHlo.after_of_forall_not_mem (b := Proc.devRef .tc main_arg10) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_arg11 (V : Valuation τ sig (Elt Ideal)) :
    after hostOps0_2 V (Proc.devRef .tc main_arg11) = V (Proc.devRef .tc main_arg11) :=
  StableHlo.after_of_forall_not_mem (b := Proc.devRef .tc main_arg11) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_arg12 (V : Valuation τ sig (Elt Ideal)) :
    after hostOps0_2 V (Proc.devRef .tc main_arg12) = V (Proc.devRef .tc main_arg12) :=
  StableHlo.after_of_forall_not_mem (b := Proc.devRef .tc main_arg12) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_arg13 (V : Valuation τ sig (Elt Ideal)) :
    after hostOps0_2 V (Proc.devRef .tc main_arg13) = V (Proc.devRef .tc main_arg13) :=
  StableHlo.after_of_forall_not_mem (b := Proc.devRef .tc main_arg13) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_arg14 (V : Valuation τ sig (Elt Ideal)) :
    after hostOps0_2 V (Proc.devRef .tc main_arg14) = V (Proc.devRef .tc main_arg14) :=
  StableHlo.after_of_forall_not_mem (b := Proc.devRef .tc main_arg14) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_arg15 (V : Valuation τ sig (Elt Ideal)) :
    after hostOps0_2 V (Proc.devRef .tc main_arg15) = V (Proc.devRef .tc main_arg15) :=
  StableHlo.after_of_forall_not_mem (b := Proc.devRef .tc main_arg15) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_arg16 (V : Valuation τ sig (Elt Ideal)) :
    after hostOps0_2 V (Proc.devRef .tc main_arg16) = V (Proc.devRef .tc main_arg16) :=
  StableHlo.after_of_forall_not_mem (b := Proc.devRef .tc main_arg16) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_arg17 (V : Valuation τ sig (Elt Ideal)) :
    after hostOps0_2 V (Proc.devRef .tc main_arg17) = V (Proc.devRef .tc main_arg17) :=
  StableHlo.after_of_forall_not_mem (b := Proc.devRef .tc main_arg17) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_arg18 (V : Valuation τ sig (Elt Ideal)) :
    after hostOps0_2 V (Proc.devRef .tc main_arg18) = V (Proc.devRef .tc main_arg18) :=
  StableHlo.after_of_forall_not_mem (b := Proc.devRef .tc main_arg18) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_arg19 (V : Valuation τ sig (Elt Ideal)) :
    after hostOps0_2 V (Proc.devRef .tc main_arg19) = V (Proc.devRef .tc main_arg19) :=
  StableHlo.after_of_forall_not_mem (b := Proc.devRef .tc main_arg19) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_arg2 (V : Valuation τ sig (Elt Ideal)) :
    after hostOps0_2 V (Proc.devRef .tc main_arg2) = V (Proc.devRef .tc main_arg2) :=
  StableHlo.after_of_forall_not_mem (b := Proc.devRef .tc main_arg2) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_arg20 (V : Valuation τ sig (Elt Ideal)) :
    after hostOps0_2 V (Proc.devRef .tc main_arg20) = V (Proc.devRef .tc main_arg20) :=
  StableHlo.after_of_forall_not_mem (b := Proc.devRef .tc main_arg20) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_arg3 (V : Valuation τ sig (Elt Ideal)) :
    after hostOps0_2 V (Proc.devRef .tc main_arg3) = V (Proc.devRef .tc main_arg3) :=
  StableHlo.after_of_forall_not_mem (b := Proc.devRef .tc main_arg3) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_arg4 (V : Valuation τ sig (Elt Ideal)) :
    after hostOps0_2 V (Proc.devRef .tc main_arg4) = V (Proc.devRef .tc main_arg4) :=
  StableHlo.after_of_forall_not_mem (b := Proc.devRef .tc main_arg4) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_arg5 (V : Valuation τ sig (Elt Ideal)) :
    after hostOps0_2 V (Proc.devRef .tc main_arg5) = V (Proc.devRef .tc main_arg5) :=
  StableHlo.after_of_forall_not_mem (b := Proc.devRef .tc main_arg5) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_arg6 (V : Valuation τ sig (Elt Ideal)) :
    after hostOps0_2 V (Proc.devRef .tc main_arg6) = V (Proc.devRef .tc main_arg6) :=
  StableHlo.after_of_forall_not_mem (b := Proc.devRef .tc main_arg6) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_arg7 (V : Valuation τ sig (Elt Ideal)) :
    after hostOps0_2 V (Proc.devRef .tc main_arg7) = V (Proc.devRef .tc main_arg7) :=
  StableHlo.after_of_forall_not_mem (b := Proc.devRef .tc main_arg7) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_arg8 (V : Valuation τ sig (Elt Ideal)) :
    after hostOps0_2 V (Proc.devRef .tc main_arg8) = V (Proc.devRef .tc main_arg8) :=
  StableHlo.after_of_forall_not_mem (b := Proc.devRef .tc main_arg8) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_arg9 (V : Valuation τ sig (Elt Ideal)) :
    after hostOps0_2 V (Proc.devRef .tc main_arg9) = V (Proc.devRef .tc main_arg9) :=
  StableHlo.after_of_forall_not_mem (b := Proc.devRef .tc main_arg9) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_v1 (V : Valuation τ sig (Elt Ideal)) :
    after hostOps0_2 V (Proc.devRef .tc main_v1) = V (Proc.devRef .tc main_v1) :=
  StableHlo.after_of_forall_not_mem (b := Proc.devRef .tc main_v1) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_v3 (V : Valuation τ sig (Elt Ideal)) :
    after hostOps0_2 V (Proc.devRef .tc main_v3) = V (Proc.devRef .tc main_v3) :=
  StableHlo.after_of_forall_not_mem (b := Proc.devRef .tc main_v3) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k3_v8 (V : Valuation τ sig (Elt Ideal)) :
    after hostOps0_2 V (Proc.devRef .tc main_v8) = V (Proc.devRef .tc main_v8) :=
  StableHlo.after_of_forall_not_mem (b := Proc.devRef .tc main_v8) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k4_arg0 (V : Valuation τ sig (Elt Ideal)) :
    after hostOps0_3 V (Proc.devRef .tc main_arg0) = V (Proc.devRef .tc main_arg0) :=
  StableHlo.after_of_forall_not_mem (b := Proc.devRef .tc main_arg0) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k4_arg10 (V : Valuation τ sig (Elt Ideal)) :
    after hostOps0_3 V (Proc.devRef .tc main_arg10) = V (Proc.devRef .tc main_arg10) :=
  StableHlo.after_of_forall_not_mem (b := Proc.devRef .tc main_arg10) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k4_arg11 (V : Valuation τ sig (Elt Ideal)) :
    after hostOps0_3 V (Proc.devRef .tc main_arg11) = V (Proc.devRef .tc main_arg11) :=
  StableHlo.after_of_forall_not_mem (b := Proc.devRef .tc main_arg11) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k4_arg12 (V : Valuation τ sig (Elt Ideal)) :
    after hostOps0_3 V (Proc.devRef .tc main_arg12) = V (Proc.devRef .tc main_arg12) :=
  StableHlo.after_of_forall_not_mem (b := Proc.devRef .tc main_arg12) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k4_arg13 (V : Valuation τ sig (Elt Ideal)) :
    after hostOps0_3 V (Proc.devRef .tc main_arg13) = V (Proc.devRef .tc main_arg13) :=
  StableHlo.after_of_forall_not_mem (b := Proc.devRef .tc main_arg13) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k4_arg14 (V : Valuation τ sig (Elt Ideal)) :
    after hostOps0_3 V (Proc.devRef .tc main_arg14) = V (Proc.devRef .tc main_arg14) :=
  StableHlo.after_of_forall_not_mem (b := Proc.devRef .tc main_arg14) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k4_arg15 (V : Valuation τ sig (Elt Ideal)) :
    after hostOps0_3 V (Proc.devRef .tc main_arg15) = V (Proc.devRef .tc main_arg15) :=
  StableHlo.after_of_forall_not_mem (b := Proc.devRef .tc main_arg15) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k4_arg16 (V : Valuation τ sig (Elt Ideal)) :
    after hostOps0_3 V (Proc.devRef .tc main_arg16) = V (Proc.devRef .tc main_arg16) :=
  StableHlo.after_of_forall_not_mem (b := Proc.devRef .tc main_arg16) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k4_arg17 (V : Valuation τ sig (Elt Ideal)) :
    after hostOps0_3 V (Proc.devRef .tc main_arg17) = V (Proc.devRef .tc main_arg17) :=
  StableHlo.after_of_forall_not_mem (b := Proc.devRef .tc main_arg17) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k4_arg18 (V : Valuation τ sig (Elt Ideal)) :
    after hostOps0_3 V (Proc.devRef .tc main_arg18) = V (Proc.devRef .tc main_arg18) :=
  StableHlo.after_of_forall_not_mem (b := Proc.devRef .tc main_arg18) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k4_arg19 (V : Valuation τ sig (Elt Ideal)) :
    after hostOps0_3 V (Proc.devRef .tc main_arg19) = V (Proc.devRef .tc main_arg19) :=
  StableHlo.after_of_forall_not_mem (b := Proc.devRef .tc main_arg19) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k4_arg2 (V : Valuation τ sig (Elt Ideal)) :
    after hostOps0_3 V (Proc.devRef .tc main_arg2) = V (Proc.devRef .tc main_arg2) :=
  StableHlo.after_of_forall_not_mem (b := Proc.devRef .tc main_arg2) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k4_arg20 (V : Valuation τ sig (Elt Ideal)) :
    after hostOps0_3 V (Proc.devRef .tc main_arg20) = V (Proc.devRef .tc main_arg20) :=
  StableHlo.after_of_forall_not_mem (b := Proc.devRef .tc main_arg20) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k4_arg3 (V : Valuation τ sig (Elt Ideal)) :
    after hostOps0_3 V (Proc.devRef .tc main_arg3) = V (Proc.devRef .tc main_arg3) :=
  StableHlo.after_of_forall_not_mem (b := Proc.devRef .tc main_arg3) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k4_arg4 (V : Valuation τ sig (Elt Ideal)) :
    after hostOps0_3 V (Proc.devRef .tc main_arg4) = V (Proc.devRef .tc main_arg4) :=
  StableHlo.after_of_forall_not_mem (b := Proc.devRef .tc main_arg4) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k4_arg5 (V : Valuation τ sig (Elt Ideal)) :
    after hostOps0_3 V (Proc.devRef .tc main_arg5) = V (Proc.devRef .tc main_arg5) :=
  StableHlo.after_of_forall_not_mem (b := Proc.devRef .tc main_arg5) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k4_arg6 (V : Valuation τ sig (Elt Ideal)) :
    after hostOps0_3 V (Proc.devRef .tc main_arg6) = V (Proc.devRef .tc main_arg6) :=
  StableHlo.after_of_forall_not_mem (b := Proc.devRef .tc main_arg6) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k4_arg7 (V : Valuation τ sig (Elt Ideal)) :
    after hostOps0_3 V (Proc.devRef .tc main_arg7) = V (Proc.devRef .tc main_arg7) :=
  StableHlo.after_of_forall_not_mem (b := Proc.devRef .tc main_arg7) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k4_arg8 (V : Valuation τ sig (Elt Ideal)) :
    after hostOps0_3 V (Proc.devRef .tc main_arg8) = V (Proc.devRef .tc main_arg8) :=
  StableHlo.after_of_forall_not_mem (b := Proc.devRef .tc main_arg8) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k4_arg9 (V : Valuation τ sig (Elt Ideal)) :
    after hostOps0_3 V (Proc.devRef .tc main_arg9) = V (Proc.devRef .tc main_arg9) :=
  StableHlo.after_of_forall_not_mem (b := Proc.devRef .tc main_arg9) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k4_v1 (V : Valuation τ sig (Elt Ideal)) :
    after hostOps0_3 V (Proc.devRef .tc main_v1) = V (Proc.devRef .tc main_v1) :=
  StableHlo.after_of_forall_not_mem (b := Proc.devRef .tc main_v1) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k4_v3 (V : Valuation τ sig (Elt Ideal)) :
    after hostOps0_3 V (Proc.devRef .tc main_v3) = V (Proc.devRef .tc main_v3) :=
  StableHlo.after_of_forall_not_mem (b := Proc.devRef .tc main_v3) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k5_arg0 (V : Valuation τ sig (Elt Ideal)) :
    after hostOps0_4 V (Proc.devRef .tc main_arg0) = V (Proc.devRef .tc main_arg0) :=
  StableHlo.after_of_forall_not_mem (b := Proc.devRef .tc main_arg0) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k5_arg10 (V : Valuation τ sig (Elt Ideal)) :
    after hostOps0_4 V (Proc.devRef .tc main_arg10) = V (Proc.devRef .tc main_arg10) :=
  StableHlo.after_of_forall_not_mem (b := Proc.devRef .tc main_arg10) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k5_arg11 (V : Valuation τ sig (Elt Ideal)) :
    after hostOps0_4 V (Proc.devRef .tc main_arg11) = V (Proc.devRef .tc main_arg11) :=
  StableHlo.after_of_forall_not_mem (b := Proc.devRef .tc main_arg11) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k5_arg12 (V : Valuation τ sig (Elt Ideal)) :
    after hostOps0_4 V (Proc.devRef .tc main_arg12) = V (Proc.devRef .tc main_arg12) :=
  StableHlo.after_of_forall_not_mem (b := Proc.devRef .tc main_arg12) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k5_arg13 (V : Valuation τ sig (Elt Ideal)) :
    after hostOps0_4 V (Proc.devRef .tc main_arg13) = V (Proc.devRef .tc main_arg13) :=
  StableHlo.after_of_forall_not_mem (b := Proc.devRef .tc main_arg13) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k5_arg14 (V : Valuation τ sig (Elt Ideal)) :
    after hostOps0_4 V (Proc.devRef .tc main_arg14) = V (Proc.devRef .tc main_arg14) :=
  StableHlo.after_of_forall_not_mem (b := Proc.devRef .tc main_arg14) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k5_arg15 (V : Valuation τ sig (Elt Ideal)) :
    after hostOps0_4 V (Proc.devRef .tc main_arg15) = V (Proc.devRef .tc main_arg15) :=
  StableHlo.after_of_forall_not_mem (b := Proc.devRef .tc main_arg15) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k5_arg16 (V : Valuation τ sig (Elt Ideal)) :
    after hostOps0_4 V (Proc.devRef .tc main_arg16) = V (Proc.devRef .tc main_arg16) :=
  StableHlo.after_of_forall_not_mem (b := Proc.devRef .tc main_arg16) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k5_arg17 (V : Valuation τ sig (Elt Ideal)) :
    after hostOps0_4 V (Proc.devRef .tc main_arg17) = V (Proc.devRef .tc main_arg17) :=
  StableHlo.after_of_forall_not_mem (b := Proc.devRef .tc main_arg17) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k5_arg18 (V : Valuation τ sig (Elt Ideal)) :
    after hostOps0_4 V (Proc.devRef .tc main_arg18) = V (Proc.devRef .tc main_arg18) :=
  StableHlo.after_of_forall_not_mem (b := Proc.devRef .tc main_arg18) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k5_arg19 (V : Valuation τ sig (Elt Ideal)) :
    after hostOps0_4 V (Proc.devRef .tc main_arg19) = V (Proc.devRef .tc main_arg19) :=
  StableHlo.after_of_forall_not_mem (b := Proc.devRef .tc main_arg19) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k5_arg2 (V : Valuation τ sig (Elt Ideal)) :
    after hostOps0_4 V (Proc.devRef .tc main_arg2) = V (Proc.devRef .tc main_arg2) :=
  StableHlo.after_of_forall_not_mem (b := Proc.devRef .tc main_arg2) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k5_arg20 (V : Valuation τ sig (Elt Ideal)) :
    after hostOps0_4 V (Proc.devRef .tc main_arg20) = V (Proc.devRef .tc main_arg20) :=
  StableHlo.after_of_forall_not_mem (b := Proc.devRef .tc main_arg20) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k5_arg3 (V : Valuation τ sig (Elt Ideal)) :
    after hostOps0_4 V (Proc.devRef .tc main_arg3) = V (Proc.devRef .tc main_arg3) :=
  StableHlo.after_of_forall_not_mem (b := Proc.devRef .tc main_arg3) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k5_arg5 (V : Valuation τ sig (Elt Ideal)) :
    after hostOps0_4 V (Proc.devRef .tc main_arg5) = V (Proc.devRef .tc main_arg5) :=
  StableHlo.after_of_forall_not_mem (b := Proc.devRef .tc main_arg5) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k5_arg6 (V : Valuation τ sig (Elt Ideal)) :
    after hostOps0_4 V (Proc.devRef .tc main_arg6) = V (Proc.devRef .tc main_arg6) :=
  StableHlo.after_of_forall_not_mem (b := Proc.devRef .tc main_arg6) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k5_arg7 (V : Valuation τ sig (Elt Ideal)) :
    after hostOps0_4 V (Proc.devRef .tc main_arg7) = V (Proc.devRef .tc main_arg7) :=
  StableHlo.after_of_forall_not_mem (b := Proc.devRef .tc main_arg7) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k5_arg8 (V : Valuation τ sig (Elt Ideal)) :
    after hostOps0_4 V (Proc.devRef .tc main_arg8) = V (Proc.devRef .tc main_arg8) :=
  StableHlo.after_of_forall_not_mem (b := Proc.devRef .tc main_arg8) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k5_arg9 (V : Valuation τ sig (Elt Ideal)) :
    after hostOps0_4 V (Proc.devRef .tc main_arg9) = V (Proc.devRef .tc main_arg9) :=
  StableHlo.after_of_forall_not_mem (b := Proc.devRef .tc main_arg9) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k5_v1 (V : Valuation τ sig (Elt Ideal)) :
    after hostOps0_4 V (Proc.devRef .tc main_v1) = V (Proc.devRef .tc main_v1) :=
  StableHlo.after_of_forall_not_mem (b := Proc.devRef .tc main_v1) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k5_v3 (V : Valuation τ sig (Elt Ideal)) :
    after hostOps0_4 V (Proc.devRef .tc main_v3) = V (Proc.devRef .tc main_v3) :=
  StableHlo.after_of_forall_not_mem (b := Proc.devRef .tc main_v3) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The buffer is none of the region's arrays. -/
theorem k6_arg10 (c : Dev nD) : W6 m ρ c (Proc.devRef .tc main_arg10) = W5 m ρ c (Proc.devRef .tc main_arg10) :=
  W6_of_ne m ρ c main_arg10 (by decide)

/-- The buffer is none of the region's arrays. -/
theorem k6_arg11 (c : Dev nD) : W6 m ρ c (Proc.devRef .tc main_arg11) = W5 m ρ c (Proc.devRef .tc main_arg11) :=
  W6_of_ne m ρ c main_arg11 (by decide)

/-- The buffer is none of the region's arrays. -/
theorem k6_arg12 (c : Dev nD) : W6 m ρ c (Proc.devRef .tc main_arg12) = W5 m ρ c (Proc.devRef .tc main_arg12) :=
  W6_of_ne m ρ c main_arg12 (by decide)

/-- The buffer is none of the region's arrays. -/
theorem k6_arg13 (c : Dev nD) : W6 m ρ c (Proc.devRef .tc main_arg13) = W5 m ρ c (Proc.devRef .tc main_arg13) :=
  W6_of_ne m ρ c main_arg13 (by decide)

/-- The buffer is none of the region's arrays. -/
theorem k6_arg14 (c : Dev nD) : W6 m ρ c (Proc.devRef .tc main_arg14) = W5 m ρ c (Proc.devRef .tc main_arg14) :=
  W6_of_ne m ρ c main_arg14 (by decide)

/-- The buffer is none of the region's arrays. -/
theorem k6_arg15 (c : Dev nD) : W6 m ρ c (Proc.devRef .tc main_arg15) = W5 m ρ c (Proc.devRef .tc main_arg15) :=
  W6_of_ne m ρ c main_arg15 (by decide)

/-- The buffer is none of the region's arrays. -/
theorem k6_arg16 (c : Dev nD) : W6 m ρ c (Proc.devRef .tc main_arg16) = W5 m ρ c (Proc.devRef .tc main_arg16) :=
  W6_of_ne m ρ c main_arg16 (by decide)

/-- The buffer is none of the region's arrays. -/
theorem k6_arg17 (c : Dev nD) : W6 m ρ c (Proc.devRef .tc main_arg17) = W5 m ρ c (Proc.devRef .tc main_arg17) :=
  W6_of_ne m ρ c main_arg17 (by decide)

/-- The buffer is none of the region's arrays. -/
theorem k6_arg18 (c : Dev nD) : W6 m ρ c (Proc.devRef .tc main_arg18) = W5 m ρ c (Proc.devRef .tc main_arg18) :=
  W6_of_ne m ρ c main_arg18 (by decide)

/-- The buffer is none of the region's arrays. -/
theorem k6_arg19 (c : Dev nD) : W6 m ρ c (Proc.devRef .tc main_arg19) = W5 m ρ c (Proc.devRef .tc main_arg19) :=
  W6_of_ne m ρ c main_arg19 (by decide)

/-- The buffer is none of the region's arrays. -/
theorem k6_arg2 (c : Dev nD) : W6 m ρ c (Proc.devRef .tc main_arg2) = W5 m ρ c (Proc.devRef .tc main_arg2) :=
  W6_of_ne m ρ c main_arg2 (by decide)

/-- The buffer is none of the region's arrays. -/
theorem k6_arg20 (c : Dev nD) : W6 m ρ c (Proc.devRef .tc main_arg20) = W5 m ρ c (Proc.devRef .tc main_arg20) :=
  W6_of_ne m ρ c main_arg20 (by decide)

/-- The buffer is none of the region's arrays. -/
theorem k6_arg6 (c : Dev nD) : W6 m ρ c (Proc.devRef .tc main_arg6) = W5 m ρ c (Proc.devRef .tc main_arg6) :=
  W6_of_ne m ρ c main_arg6 (by decide)

/-- The buffer is none of the region's arrays. -/
theorem k6_arg7 (c : Dev nD) : W6 m ρ c (Proc.devRef .tc main_arg7) = W5 m ρ c (Proc.devRef .tc main_arg7) :=
  W6_of_ne m ρ c main_arg7 (by decide)

/-- The buffer is none of the region's arrays. -/
theorem k6_arg8 (c : Dev nD) : W6 m ρ c (Proc.devRef .tc main_arg8) = W5 m ρ c (Proc.devRef .tc main_arg8) :=
  W6_of_ne m ρ c main_arg8 (by decide)

/-- The buffer is none of the region's arrays. -/
theorem k6_arg9 (c : Dev nD) : W6 m ρ c (Proc.devRef .tc main_arg9) = W5 m ρ c (Proc.devRef .tc main_arg9) :=
  W6_of_ne m ρ c main_arg9 (by decide)

/-- The buffer is none of the region's arrays. -/
theorem k6_v1 (c : Dev nD) : W6 m ρ c (Proc.devRef .tc main_v1) = W5 m ρ c (Proc.devRef .tc main_v1) :=
  W6_of_ne m ρ c main_v1 (by decide)

/-- The buffer is none of the region's arrays. -/
theorem k6_v3 (c : Dev nD) : W6 m ρ c (Proc.devRef .tc main_v3) = W5 m ρ c (Proc.devRef .tc main_v3) :=
  W6_of_ne m ρ c main_v3 (by decide)

/-- The buffer is none of the region's arrays. -/
theorem k6_v31 (c : Dev nD) : W6 m ρ c (Proc.devRef .tc main_v31) = W5 m ρ c (Proc.devRef .tc main_v31) :=
  W6_of_ne m ρ c main_v31 (by decide)

/-- The buffer is none of the region's arrays. -/
theorem k6_v38 (c : Dev nD) : W6 m ρ c (Proc.devRef .tc main_v38) = W5 m ρ c (Proc.devRef .tc main_v38) :=
  W6_of_ne m ρ c main_v38 (by decide)

/-- No operation of this stretch writes the buffer. -/
theorem k7_arg10 (V : Valuation τ sig (Elt Ideal)) :
    after hostOps1 V (Proc.devRef .tc main_arg10) = V (Proc.devRef .tc main_arg10) :=
  StableHlo.after_of_forall_not_mem (b := Proc.devRef .tc main_arg10) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k7_arg11 (V : Valuation τ sig (Elt Ideal)) :
    after hostOps1 V (Proc.devRef .tc main_arg11) = V (Proc.devRef .tc main_arg11) :=
  StableHlo.after_of_forall_not_mem (b := Proc.devRef .tc main_arg11) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k7_arg12 (V : Valuation τ sig (Elt Ideal)) :
    after hostOps1 V (Proc.devRef .tc main_arg12) = V (Proc.devRef .tc main_arg12) :=
  StableHlo.after_of_forall_not_mem (b := Proc.devRef .tc main_arg12) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k7_arg13 (V : Valuation τ sig (Elt Ideal)) :
    after hostOps1 V (Proc.devRef .tc main_arg13) = V (Proc.devRef .tc main_arg13) :=
  StableHlo.after_of_forall_not_mem (b := Proc.devRef .tc main_arg13) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k7_arg14 (V : Valuation τ sig (Elt Ideal)) :
    after hostOps1 V (Proc.devRef .tc main_arg14) = V (Proc.devRef .tc main_arg14) :=
  StableHlo.after_of_forall_not_mem (b := Proc.devRef .tc main_arg14) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k7_arg15 (V : Valuation τ sig (Elt Ideal)) :
    after hostOps1 V (Proc.devRef .tc main_arg15) = V (Proc.devRef .tc main_arg15) :=
  StableHlo.after_of_forall_not_mem (b := Proc.devRef .tc main_arg15) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k7_arg16 (V : Valuation τ sig (Elt Ideal)) :
    after hostOps1 V (Proc.devRef .tc main_arg16) = V (Proc.devRef .tc main_arg16) :=
  StableHlo.after_of_forall_not_mem (b := Proc.devRef .tc main_arg16) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k7_arg17 (V : Valuation τ sig (Elt Ideal)) :
    after hostOps1 V (Proc.devRef .tc main_arg17) = V (Proc.devRef .tc main_arg17) :=
  StableHlo.after_of_forall_not_mem (b := Proc.devRef .tc main_arg17) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k7_arg18 (V : Valuation τ sig (Elt Ideal)) :
    after hostOps1 V (Proc.devRef .tc main_arg18) = V (Proc.devRef .tc main_arg18) :=
  StableHlo.after_of_forall_not_mem (b := Proc.devRef .tc main_arg18) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k7_arg19 (V : Valuation τ sig (Elt Ideal)) :
    after hostOps1 V (Proc.devRef .tc main_arg19) = V (Proc.devRef .tc main_arg19) :=
  StableHlo.after_of_forall_not_mem (b := Proc.devRef .tc main_arg19) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k7_arg2 (V : Valuation τ sig (Elt Ideal)) :
    after hostOps1 V (Proc.devRef .tc main_arg2) = V (Proc.devRef .tc main_arg2) :=
  StableHlo.after_of_forall_not_mem (b := Proc.devRef .tc main_arg2) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k7_arg20 (V : Valuation τ sig (Elt Ideal)) :
    after hostOps1 V (Proc.devRef .tc main_arg20) = V (Proc.devRef .tc main_arg20) :=
  StableHlo.after_of_forall_not_mem (b := Proc.devRef .tc main_arg20) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k7_arg6 (V : Valuation τ sig (Elt Ideal)) :
    after hostOps1 V (Proc.devRef .tc main_arg6) = V (Proc.devRef .tc main_arg6) :=
  StableHlo.after_of_forall_not_mem (b := Proc.devRef .tc main_arg6) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k7_arg8 (V : Valuation τ sig (Elt Ideal)) :
    after hostOps1 V (Proc.devRef .tc main_arg8) = V (Proc.devRef .tc main_arg8) :=
  StableHlo.after_of_forall_not_mem (b := Proc.devRef .tc main_arg8) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k7_v1 (V : Valuation τ sig (Elt Ideal)) :
    after hostOps1 V (Proc.devRef .tc main_v1) = V (Proc.devRef .tc main_v1) :=
  StableHlo.after_of_forall_not_mem (b := Proc.devRef .tc main_v1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k7_v3 (V : Valuation τ sig (Elt Ideal)) :
    after hostOps1 V (Proc.devRef .tc main_v3) = V (Proc.devRef .tc main_v3) :=
  StableHlo.after_of_forall_not_mem (b := Proc.devRef .tc main_v3) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k7_v31 (V : Valuation τ sig (Elt Ideal)) :
    after hostOps1 V (Proc.devRef .tc main_v31) = V (Proc.devRef .tc main_v31) :=
  StableHlo.after_of_forall_not_mem (b := Proc.devRef .tc main_v31) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k7_v38 (V : Valuation τ sig (Elt Ideal)) :
    after hostOps1 V (Proc.devRef .tc main_v38) = V (Proc.devRef .tc main_v38) :=
  StableHlo.after_of_forall_not_mem (b := Proc.devRef .tc main_v38) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k7_v40_0 (V : Valuation τ sig (Elt Ideal)) :
    after hostOps1 V (Proc.devRef .tc main_v40_0) = V (Proc.devRef .tc main_v40_0) :=
  StableHlo.after_of_forall_not_mem (b := Proc.devRef .tc main_v40_0) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The buffer is none of the region's arrays. -/
theorem k8_arg11 (c : Dev nD) : W8 m ρ c (Proc.devRef .tc main_arg11) = W7 m ρ c (Proc.devRef .tc main_arg11) :=
  W8_of_ne m ρ c main_arg11 (by decide)

/-- The buffer is none of the region's arrays. -/
theorem k8_arg12 (c : Dev nD) : W8 m ρ c (Proc.devRef .tc main_arg12) = W7 m ρ c (Proc.devRef .tc main_arg12) :=
  W8_of_ne m ρ c main_arg12 (by decide)

/-- The buffer is none of the region's arrays. -/
theorem k8_arg13 (c : Dev nD) : W8 m ρ c (Proc.devRef .tc main_arg13) = W7 m ρ c (Proc.devRef .tc main_arg13) :=
  W8_of_ne m ρ c main_arg13 (by decide)

/-- The buffer is none of the region's arrays. -/
theorem k8_arg14 (c : Dev nD) : W8 m ρ c (Proc.devRef .tc main_arg14) = W7 m ρ c (Proc.devRef .tc main_arg14) :=
  W8_of_ne m ρ c main_arg14 (by decide)

/-- The buffer is none of the region's arrays. -/
theorem k8_arg15 (c : Dev nD) : W8 m ρ c (Proc.devRef .tc main_arg15) = W7 m ρ c (Proc.devRef .tc main_arg15) :=
  W8_of_ne m ρ c main_arg15 (by decide)

/-- The buffer is none of the region's arrays. -/
theorem k8_arg16 (c : Dev nD) : W8 m ρ c (Proc.devRef .tc main_arg16) = W7 m ρ c (Proc.devRef .tc main_arg16) :=
  W8_of_ne m ρ c main_arg16 (by decide)

/-- The buffer is none of the region's arrays. -/
theorem k8_arg17 (c : Dev nD) : W8 m ρ c (Proc.devRef .tc main_arg17) = W7 m ρ c (Proc.devRef .tc main_arg17) :=
  W8_of_ne m ρ c main_arg17 (by decide)

/-- The buffer is none of the region's arrays. -/
theorem k8_arg18 (c : Dev nD) : W8 m ρ c (Proc.devRef .tc main_arg18) = W7 m ρ c (Proc.devRef .tc main_arg18) :=
  W8_of_ne m ρ c main_arg18 (by decide)

/-- The buffer is none of the region's arrays. -/
theorem k8_arg19 (c : Dev nD) : W8 m ρ c (Proc.devRef .tc main_arg19) = W7 m ρ c (Proc.devRef .tc main_arg19) :=
  W8_of_ne m ρ c main_arg19 (by decide)

/-- The buffer is none of the region's arrays. -/
theorem k8_arg2 (c : Dev nD) : W8 m ρ c (Proc.devRef .tc main_arg2) = W7 m ρ c (Proc.devRef .tc main_arg2) :=
  W8_of_ne m ρ c main_arg2 (by decide)

/-- The buffer is none of the region's arrays. -/
theorem k8_arg20 (c : Dev nD) : W8 m ρ c (Proc.devRef .tc main_arg20) = W7 m ρ c (Proc.devRef .tc main_arg20) :=
  W8_of_ne m ρ c main_arg20 (by decide)

/-- The buffer is none of the region's arrays. -/
theorem k8_v1 (c : Dev nD) : W8 m ρ c (Proc.devRef .tc main_v1) = W7 m ρ c (Proc.devRef .tc main_v1) :=
  W8_of_ne m ρ c main_v1 (by decide)

/-- The buffer is none of the region's arrays. -/
theorem k8_v3 (c : Dev nD) : W8 m ρ c (Proc.devRef .tc main_v3) = W7 m ρ c (Proc.devRef .tc main_v3) :=
  W8_of_ne m ρ c main_v3 (by decide)

/-- The buffer is none of the region's arrays. -/
theorem k8_v31 (c : Dev nD) : W8 m ρ c (Proc.devRef .tc main_v31) = W7 m ρ c (Proc.devRef .tc main_v31) :=
  W8_of_ne m ρ c main_v31 (by decide)

/-- The region reads this array through an input window and leaves it as entered. -/
theorem k8_v38 (c : Dev nD) : W8 m ρ c (Proc.devRef .tc main_v38) = W7 m ρ c (Proc.devRef .tc main_v38) :=
  (W8_arr m ρ c 3).trans (((dat1 (V7 m ρ) c).arrAt_in 3 rfl _).trans (A_eq1 (V7 m ρ) c 3))

/-- No operation of this stretch writes the buffer. -/
theorem k9_arg11 (V : Valuation τ sig (Elt Ideal)) :
    after hostOps2 V (Proc.devRef .tc main_arg11) = V (Proc.devRef .tc main_arg11) :=
  StableHlo.after_of_forall_not_mem (b := Proc.devRef .tc main_arg11) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k9_arg13 (V : Valuation τ sig (Elt Ideal)) :
    after hostOps2 V (Proc.devRef .tc main_arg13) = V (Proc.devRef .tc main_arg13) :=
  StableHlo.after_of_forall_not_mem (b := Proc.devRef .tc main_arg13) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k9_arg14 (V : Valuation τ sig (Elt Ideal)) :
    after hostOps2 V (Proc.devRef .tc main_arg14) = V (Proc.devRef .tc main_arg14) :=
  StableHlo.after_of_forall_not_mem (b := Proc.devRef .tc main_arg14) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k9_arg15 (V : Valuation τ sig (Elt Ideal)) :
    after hostOps2 V (Proc.devRef .tc main_arg15) = V (Proc.devRef .tc main_arg15) :=
  StableHlo.after_of_forall_not_mem (b := Proc.devRef .tc main_arg15) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k9_arg16 (V : Valuation τ sig (Elt Ideal)) :
    after hostOps2 V (Proc.devRef .tc main_arg16) = V (Proc.devRef .tc main_arg16) :=
  StableHlo.after_of_forall_not_mem (b := Proc.devRef .tc main_arg16) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k9_arg17 (V : Valuation τ sig (Elt Ideal)) :
    after hostOps2 V (Proc.devRef .tc main_arg17) = V (Proc.devRef .tc main_arg17) :=
  StableHlo.after_of_forall_not_mem (b := Proc.devRef .tc main_arg17) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k9_arg18 (V : Valuation τ sig (Elt Ideal)) :
    after hostOps2 V (Proc.devRef .tc main_arg18) = V (Proc.devRef .tc main_arg18) :=
  StableHlo.after_of_forall_not_mem (b := Proc.devRef .tc main_arg18) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k9_arg19 (V : Valuation τ sig (Elt Ideal)) :
    after hostOps2 V (Proc.devRef .tc main_arg19) = V (Proc.devRef .tc main_arg19) :=
  StableHlo.after_of_forall_not_mem (b := Proc.devRef .tc main_arg19) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k9_arg2 (V : Valuation τ sig (Elt Ideal)) :
    after hostOps2 V (Proc.devRef .tc main_arg2) = V (Proc.devRef .tc main_arg2) :=
  StableHlo.after_of_forall_not_mem (b := Proc.devRef .tc main_arg2) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k9_arg20 (V : Valuation τ sig (Elt Ideal)) :
    after hostOps2 V (Proc.devRef .tc main_arg20) = V (Proc.devRef .tc main_arg20) :=
  StableHlo.after_of_forall_not_mem (b := Proc.devRef .tc main_arg20) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k9_v1 (V : Valuation τ sig (Elt Ideal)) :
    after hostOps2 V (Proc.devRef .tc main_v1) = V (Proc.devRef .tc main_v1) :=
  StableHlo.after_of_forall_not_mem (b := Proc.devRef .tc main_v1) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k9_v3 (V : Valuation τ sig (Elt Ideal)) :
    after hostOps2 V (Proc.devRef .tc main_v3) = V (Proc.devRef .tc main_v3) :=
  StableHlo.after_of_forall_not_mem (b := Proc.devRef .tc main_v3) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k9_v31 (V : Valuation τ sig (Elt Ideal)) :
    after hostOps2 V (Proc.devRef .tc main_v31) = V (Proc.devRef .tc main_v31) :=
  StableHlo.after_of_forall_not_mem (b := Proc.devRef .tc main_v31) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k9_v38 (V : Valuation τ sig (Elt Ideal)) :
    after hostOps2 V (Proc.devRef .tc main_v38) = V (Proc.devRef .tc main_v38) :=
  StableHlo.after_of_forall_not_mem (b := Proc.devRef .tc main_v38) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k9_v69 (V : Valuation τ sig (Elt Ideal)) :
    after hostOps2 V (Proc.devRef .tc main_v69) = V (Proc.devRef .tc main_v69) :=
  StableHlo.after_of_forall_not_mem (b := Proc.devRef .tc main_v69) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The buffer is none of the region's arrays. -/
theorem k10_arg14 (c : Dev nD) : W10 m ρ c (Proc.devRef .tc main_arg14) = W9 m ρ c (Proc.devRef .tc main_arg14) :=
  W10_of_ne m ρ c main_arg14 (by decide)

/-- The buffer is none of the region's arrays. -/
theorem k10_arg15 (c : Dev nD) : W10 m ρ c (Proc.devRef .tc main_arg15) = W9 m ρ c (Proc.devRef .tc main_arg15) :=
  W10_of_ne m ρ c main_arg15 (by decide)

/-- The buffer is none of the region's arrays. -/
theorem k10_arg16 (c : Dev nD) : W10 m ρ c (Proc.devRef .tc main_arg16) = W9 m ρ c (Proc.devRef .tc main_arg16) :=
  W10_of_ne m ρ c main_arg16 (by decide)

/-- The buffer is none of the region's arrays. -/
theorem k10_arg17 (c : Dev nD) : W10 m ρ c (Proc.devRef .tc main_arg17) = W9 m ρ c (Proc.devRef .tc main_arg17) :=
  W10_of_ne m ρ c main_arg17 (by decide)

/-- The buffer is none of the region's arrays. -/
theorem k10_arg18 (c : Dev nD) : W10 m ρ c (Proc.devRef .tc main_arg18) = W9 m ρ c (Proc.devRef .tc main_arg18) :=
  W10_of_ne m ρ c main_arg18 (by decide)

/-- The buffer is none of the region's arrays. -/
theorem k10_arg19 (c : Dev nD) : W10 m ρ c (Proc.devRef .tc main_arg19) = W9 m ρ c (Proc.devRef .tc main_arg19) :=
  W10_of_ne m ρ c main_arg19 (by decide)

/-- The buffer is none of the region's arrays. -/
theorem k10_arg2 (c : Dev nD) : W10 m ρ c (Proc.devRef .tc main_arg2) = W9 m ρ c (Proc.devRef .tc main_arg2) :=
  W10_of_ne m ρ c main_arg2 (by decide)

/-- The buffer is none of the region's arrays. -/
theorem k10_arg20 (c : Dev nD) : W10 m ρ c (Proc.devRef .tc main_arg20) = W9 m ρ c (Proc.devRef .tc main_arg20) :=
  W10_of_ne m ρ c main_arg20 (by decide)

/-- The buffer is none of the region's arrays. -/
theorem k10_v1 (c : Dev nD) : W10 m ρ c (Proc.devRef .tc main_v1) = W9 m ρ c (Proc.devRef .tc main_v1) :=
  W10_of_ne m ρ c main_v1 (by decide)

/-- The buffer is none of the region's arrays. -/
theorem k10_v3 (c : Dev nD) : W10 m ρ c (Proc.devRef .tc main_v3) = W9 m ρ c (Proc.devRef .tc main_v3) :=
  W10_of_ne m ρ c main_v3 (by decide)

/-- The buffer is none of the region's arrays. -/
theorem k10_v31 (c : Dev nD) : W10 m ρ c (Proc.devRef .tc main_v31) = W9 m ρ c (Proc.devRef .tc main_v31) :=
  W10_of_ne m ρ c main_v31 (by decide)

/-- The buffer is none of the region's arrays. -/
theorem k10_v38 (c : Dev nD) : W10 m ρ c (Proc.devRef .tc main_v38) = W9 m ρ c (Proc.devRef .tc main_v38) :=
  W10_of_ne m ρ c main_v38 (by decide)

/-- No operation of this stretch writes the buffer. -/
theorem k11_arg14 (V : Valuation τ sig (Elt Ideal)) :
    after hostOps3 V (Proc.devRef .tc main_arg14) = V (Proc.devRef .tc main_arg14) :=
  StableHlo.after_of_forall_not_mem (b := Proc.devRef .tc main_arg14) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k11_arg16 (V : Valuation τ sig (Elt Ideal)) :
    after hostOps3 V (Proc.devRef .tc main_arg16) = V (Proc.devRef .tc main_arg16) :=
  StableHlo.after_of_forall_not_mem (b := Proc.devRef .tc main_arg16) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k11_arg18 (V : Valuation τ sig (Elt Ideal)) :
    after hostOps3 V (Proc.devRef .tc main_arg18) = V (Proc.devRef .tc main_arg18) :=
  StableHlo.after_of_forall_not_mem (b := Proc.devRef .tc main_arg18) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k11_arg19 (V : Valuation τ sig (Elt Ideal)) :
    after hostOps3 V (Proc.devRef .tc main_arg19) = V (Proc.devRef .tc main_arg19) :=
  StableHlo.after_of_forall_not_mem (b := Proc.devRef .tc main_arg19) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k11_arg20 (V : Valuation τ sig (Elt Ideal)) :
    after hostOps3 V (Proc.devRef .tc main_arg20) = V (Proc.devRef .tc main_arg20) :=
  StableHlo.after_of_forall_not_mem (b := Proc.devRef .tc main_arg20) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k11_v38 (V : Valuation τ sig (Elt Ideal)) :
    after hostOps3 V (Proc.devRef .tc main_v38) = V (Proc.devRef .tc main_v38) :=
  StableHlo.after_of_forall_not_mem (b := Proc.devRef .tc main_v38) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k11_v71_0 (V : Valuation τ sig (Elt Ideal)) :
    after hostOps3 V (Proc.devRef .tc main_v71_0) = V (Proc.devRef .tc main_v71_0) :=
  StableHlo.after_of_forall_not_mem (b := Proc.devRef .tc main_v71_0) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The buffer is none of the region's arrays. -/
theorem k12_arg19 (c : Dev nD) : W12 m ρ c (Proc.devRef .tc main_arg19) = W11 m ρ c (Proc.devRef .tc main_arg19) :=
  W12_of_ne m ρ c main_arg19 (by decide)

/-- The buffer is none of the region's arrays. -/
theorem k12_arg20 (c : Dev nD) : W12 m ρ c (Proc.devRef .tc main_arg20) = W11 m ρ c (Proc.devRef .tc main_arg20) :=
  W12_of_ne m ρ c main_arg20 (by decide)

/-- No operation of this stretch writes the buffer. -/
theorem k13_arg19 (V : Valuation τ sig (Elt Ideal)) :
    after hostOps4 V (Proc.devRef .tc main_arg19) = V (Proc.devRef .tc main_arg19) :=
  StableHlo.after_of_forall_not_mem (b := Proc.devRef .tc main_arg19) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this stretch writes the buffer. -/
theorem k13_v100 (V : Valuation τ sig (Elt Ideal)) :
    after hostOps4 V (Proc.devRef .tc main_v100) = V (Proc.devRef .tc main_v100) :=
  StableHlo.after_of_forall_not_mem (b := Proc.devRef .tc main_v100) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem t_arg0_0_5 (c : Dev nD) : W5 m ρ c (Proc.devRef .tc main_arg0) = W0 m ρ c (Proc.devRef .tc main_arg0) :=
  ((k5_arg0 (W4 m ρ c)).trans ((k4_arg0 (W3 m ρ c)).trans ((k3_arg0 (W2 m ρ c)).trans ((k2_arg0 (W1 m ρ c)).trans (k1_arg0 (W0 m ρ c))))))

theorem t_arg3_0_5 (c : Dev nD) : W5 m ρ c (Proc.devRef .tc main_arg3) = W0 m ρ c (Proc.devRef .tc main_arg3) :=
  ((k5_arg3 (W4 m ρ c)).trans ((k4_arg3 (W3 m ρ c)).trans ((k3_arg3 (W2 m ρ c)).trans ((k2_arg3 (W1 m ρ c)).trans (k1_arg3 (W0 m ρ c))))))

theorem t_arg5_0_5 (c : Dev nD) : W5 m ρ c (Proc.devRef .tc main_arg5) = W0 m ρ c (Proc.devRef .tc main_arg5) :=
  ((k5_arg5 (W4 m ρ c)).trans ((k4_arg5 (W3 m ρ c)).trans ((k3_arg5 (W2 m ρ c)).trans ((k2_arg5 (W1 m ρ c)).trans (k1_arg5 (W0 m ρ c))))))

theorem t_arg4_0_4 (c : Dev nD) : W4 m ρ c (Proc.devRef .tc main_arg4) = W0 m ρ c (Proc.devRef .tc main_arg4) :=
  ((k4_arg4 (W3 m ρ c)).trans ((k3_arg4 (W2 m ρ c)).trans ((k2_arg4 (W1 m ρ c)).trans (k1_arg4 (W0 m ρ c)))))

theorem t_arg2_0_4 (c : Dev nD) : W4 m ρ c (Proc.devRef .tc main_arg2) = W0 m ρ c (Proc.devRef .tc main_arg2) :=
  ((k4_arg2 (W3 m ρ c)).trans ((k3_arg2 (W2 m ρ c)).trans ((k2_arg2 (W1 m ρ c)).trans (k1_arg2 (W0 m ρ c)))))

theorem t_arg2_0_6 (c : Dev nD) : W6 m ρ c (Proc.devRef .tc main_arg2) = W0 m ρ c (Proc.devRef .tc main_arg2) :=
  ((k6_arg2 m ρ c).trans ((k5_arg2 (W4 m ρ c)).trans ((k4_arg2 (W3 m ρ c)).trans ((k3_arg2 (W2 m ρ c)).trans ((k2_arg2 (W1 m ρ c)).trans (k1_arg2 (W0 m ρ c)))))))

theorem t_arg2_0_10 (c : Dev nD) : W10 m ρ c (Proc.devRef .tc main_arg2) = W0 m ρ c (Proc.devRef .tc main_arg2) :=
  ((k10_arg2 m ρ c).trans ((k9_arg2 (W8 m ρ c)).trans ((k8_arg2 m ρ c).trans ((k7_arg2 (W6 m ρ c)).trans ((k6_arg2 m ρ c).trans ((k5_arg2 (W4 m ρ c)).trans ((k4_arg2 (W3 m ρ c)).trans ((k3_arg2 (W2 m ρ c)).trans ((k2_arg2 (W1 m ρ c)).trans (k1_arg2 (W0 m ρ c)))))))))))

theorem t_arg7_0_6 (c : Dev nD) : W6 m ρ c (Proc.devRef .tc main_arg7) = W0 m ρ c (Proc.devRef .tc main_arg7) :=
  ((k6_arg7 m ρ c).trans ((k5_arg7 (W4 m ρ c)).trans ((k4_arg7 (W3 m ρ c)).trans ((k3_arg7 (W2 m ρ c)).trans ((k2_arg7 (W1 m ρ c)).trans (k1_arg7 (W0 m ρ c)))))))

theorem t_arg9_0_6 (c : Dev nD) : W6 m ρ c (Proc.devRef .tc main_arg9) = W0 m ρ c (Proc.devRef .tc main_arg9) :=
  ((k6_arg9 m ρ c).trans ((k5_arg9 (W4 m ρ c)).trans ((k4_arg9 (W3 m ρ c)).trans ((k3_arg9 (W2 m ρ c)).trans ((k2_arg9 (W1 m ρ c)).trans (k1_arg9 (W0 m ρ c)))))))

theorem t_arg6_0_7 (c : Dev nD) : W7 m ρ c (Proc.devRef .tc main_arg6) = W0 m ρ c (Proc.devRef .tc main_arg6) :=
  ((k7_arg6 (W6 m ρ c)).trans ((k6_arg6 m ρ c).trans ((k5_arg6 (W4 m ρ c)).trans ((k4_arg6 (W3 m ρ c)).trans ((k3_arg6 (W2 m ρ c)).trans ((k2_arg6 (W1 m ρ c)).trans (k1_arg6 (W0 m ρ c))))))))

theorem t_arg8_0_7 (c : Dev nD) : W7 m ρ c (Proc.devRef .tc main_arg8) = W0 m ρ c (Proc.devRef .tc main_arg8) :=
  ((k7_arg8 (W6 m ρ c)).trans ((k6_arg8 m ρ c).trans ((k5_arg8 (W4 m ρ c)).trans ((k4_arg8 (W3 m ρ c)).trans ((k3_arg8 (W2 m ρ c)).trans ((k2_arg8 (W1 m ρ c)).trans (k1_arg8 (W0 m ρ c))))))))

theorem t_arg10_0_7 (c : Dev nD) : W7 m ρ c (Proc.devRef .tc main_arg10) = W0 m ρ c (Proc.devRef .tc main_arg10) :=
  ((k7_arg10 (W6 m ρ c)).trans ((k6_arg10 m ρ c).trans ((k5_arg10 (W4 m ρ c)).trans ((k4_arg10 (W3 m ρ c)).trans ((k3_arg10 (W2 m ρ c)).trans ((k2_arg10 (W1 m ρ c)).trans (k1_arg10 (W0 m ρ c))))))))

theorem t_arg12_0_8 (c : Dev nD) : W8 m ρ c (Proc.devRef .tc main_arg12) = W0 m ρ c (Proc.devRef .tc main_arg12) :=
  ((k8_arg12 m ρ c).trans ((k7_arg12 (W6 m ρ c)).trans ((k6_arg12 m ρ c).trans ((k5_arg12 (W4 m ρ c)).trans ((k4_arg12 (W3 m ρ c)).trans ((k3_arg12 (W2 m ρ c)).trans ((k2_arg12 (W1 m ρ c)).trans (k1_arg12 (W0 m ρ c)))))))))

theorem t_arg11_0_9 (c : Dev nD) : W9 m ρ c (Proc.devRef .tc main_arg11) = W0 m ρ c (Proc.devRef .tc main_arg11) :=
  ((k9_arg11 (W8 m ρ c)).trans ((k8_arg11 m ρ c).trans ((k7_arg11 (W6 m ρ c)).trans ((k6_arg11 m ρ c).trans ((k5_arg11 (W4 m ρ c)).trans ((k4_arg11 (W3 m ρ c)).trans ((k3_arg11 (W2 m ρ c)).trans ((k2_arg11 (W1 m ρ c)).trans (k1_arg11 (W0 m ρ c))))))))))

theorem t_arg13_0_9 (c : Dev nD) : W9 m ρ c (Proc.devRef .tc main_arg13) = W0 m ρ c (Proc.devRef .tc main_arg13) :=
  ((k9_arg13 (W8 m ρ c)).trans ((k8_arg13 m ρ c).trans ((k7_arg13 (W6 m ρ c)).trans ((k6_arg13 m ρ c).trans ((k5_arg13 (W4 m ρ c)).trans ((k4_arg13 (W3 m ρ c)).trans ((k3_arg13 (W2 m ρ c)).trans ((k2_arg13 (W1 m ρ c)).trans (k1_arg13 (W0 m ρ c))))))))))

theorem t_arg15_0_10 (c : Dev nD) : W10 m ρ c (Proc.devRef .tc main_arg15) = W0 m ρ c (Proc.devRef .tc main_arg15) :=
  ((k10_arg15 m ρ c).trans ((k9_arg15 (W8 m ρ c)).trans ((k8_arg15 m ρ c).trans ((k7_arg15 (W6 m ρ c)).trans ((k6_arg15 m ρ c).trans ((k5_arg15 (W4 m ρ c)).trans ((k4_arg15 (W3 m ρ c)).trans ((k3_arg15 (W2 m ρ c)).trans ((k2_arg15 (W1 m ρ c)).trans (k1_arg15 (W0 m ρ c)))))))))))

theorem t_arg17_0_10 (c : Dev nD) : W10 m ρ c (Proc.devRef .tc main_arg17) = W0 m ρ c (Proc.devRef .tc main_arg17) :=
  ((k10_arg17 m ρ c).trans ((k9_arg17 (W8 m ρ c)).trans ((k8_arg17 m ρ c).trans ((k7_arg17 (W6 m ρ c)).trans ((k6_arg17 m ρ c).trans ((k5_arg17 (W4 m ρ c)).trans ((k4_arg17 (W3 m ρ c)).trans ((k3_arg17 (W2 m ρ c)).trans ((k2_arg17 (W1 m ρ c)).trans (k1_arg17 (W0 m ρ c)))))))))))

theorem t_arg14_0_11 (c : Dev nD) : W11 m ρ c (Proc.devRef .tc main_arg14) = W0 m ρ c (Proc.devRef .tc main_arg14) :=
  ((k11_arg14 (W10 m ρ c)).trans ((k10_arg14 m ρ c).trans ((k9_arg14 (W8 m ρ c)).trans ((k8_arg14 m ρ c).trans ((k7_arg14 (W6 m ρ c)).trans ((k6_arg14 m ρ c).trans ((k5_arg14 (W4 m ρ c)).trans ((k4_arg14 (W3 m ρ c)).trans ((k3_arg14 (W2 m ρ c)).trans ((k2_arg14 (W1 m ρ c)).trans (k1_arg14 (W0 m ρ c))))))))))))

theorem t_arg16_0_11 (c : Dev nD) : W11 m ρ c (Proc.devRef .tc main_arg16) = W0 m ρ c (Proc.devRef .tc main_arg16) :=
  ((k11_arg16 (W10 m ρ c)).trans ((k10_arg16 m ρ c).trans ((k9_arg16 (W8 m ρ c)).trans ((k8_arg16 m ρ c).trans ((k7_arg16 (W6 m ρ c)).trans ((k6_arg16 m ρ c).trans ((k5_arg16 (W4 m ρ c)).trans ((k4_arg16 (W3 m ρ c)).trans ((k3_arg16 (W2 m ρ c)).trans ((k2_arg16 (W1 m ρ c)).trans (k1_arg16 (W0 m ρ c))))))))))))

theorem t_arg18_0_11 (c : Dev nD) : W11 m ρ c (Proc.devRef .tc main_arg18) = W0 m ρ c (Proc.devRef .tc main_arg18) :=
  ((k11_arg18 (W10 m ρ c)).trans ((k10_arg18 m ρ c).trans ((k9_arg18 (W8 m ρ c)).trans ((k8_arg18 m ρ c).trans ((k7_arg18 (W6 m ρ c)).trans ((k6_arg18 m ρ c).trans ((k5_arg18 (W4 m ρ c)).trans ((k4_arg18 (W3 m ρ c)).trans ((k3_arg18 (W2 m ρ c)).trans ((k2_arg18 (W1 m ρ c)).trans (k1_arg18 (W0 m ρ c))))))))))))

theorem t_arg20_0_12 (c : Dev nD) : W12 m ρ c (Proc.devRef .tc main_arg20) = W0 m ρ c (Proc.devRef .tc main_arg20) :=
  ((k12_arg20 m ρ c).trans ((k11_arg20 (W10 m ρ c)).trans ((k10_arg20 m ρ c).trans ((k9_arg20 (W8 m ρ c)).trans ((k8_arg20 m ρ c).trans ((k7_arg20 (W6 m ρ c)).trans ((k6_arg20 m ρ c).trans ((k5_arg20 (W4 m ρ c)).trans ((k4_arg20 (W3 m ρ c)).trans ((k3_arg20 (W2 m ρ c)).trans ((k2_arg20 (W1 m ρ c)).trans (k1_arg20 (W0 m ρ c)))))))))))))

theorem t_arg19_0_13 (c : Dev nD) : W13 m ρ c (Proc.devRef .tc main_arg19) = W0 m ρ c (Proc.devRef .tc main_arg19) :=
  ((k13_arg19 (W12 m ρ c)).trans ((k12_arg19 m ρ c).trans ((k11_arg19 (W10 m ρ c)).trans ((k10_arg19 m ρ c).trans ((k9_arg19 (W8 m ρ c)).trans ((k8_arg19 m ρ c).trans ((k7_arg19 (W6 m ρ c)).trans ((k6_arg19 m ρ c).trans ((k5_arg19 (W4 m ρ c)).trans ((k4_arg19 (W3 m ρ c)).trans ((k3_arg19 (W2 m ρ c)).trans ((k2_arg19 (W1 m ρ c)).trans (k1_arg19 (W0 m ρ c))))))))))))))

theorem t_v1_1_4 (c : Dev nD) : W4 m ρ c (Proc.devRef .tc main_v1) = W1 m ρ c (Proc.devRef .tc main_v1) :=
  ((k4_v1 (W3 m ρ c)).trans ((k3_v1 (W2 m ρ c)).trans (k2_v1 (W1 m ρ c))))

theorem t_v3_1_4 (c : Dev nD) : W4 m ρ c (Proc.devRef .tc main_v3) = W1 m ρ c (Proc.devRef .tc main_v3) :=
  ((k4_v3 (W3 m ρ c)).trans ((k3_v3 (W2 m ρ c)).trans (k2_v3 (W1 m ρ c))))

theorem t_v8_1_3 (c : Dev nD) : W3 m ρ c (Proc.devRef .tc main_v8) = W1 m ρ c (Proc.devRef .tc main_v8) :=
  ((k3_v8 (W2 m ρ c)).trans (k2_v8 (W1 m ρ c)))

theorem t_v1_4_6 (c : Dev nD) : W6 m ρ c (Proc.devRef .tc main_v1) = W4 m ρ c (Proc.devRef .tc main_v1) :=
  ((k6_v1 m ρ c).trans (k5_v1 (W4 m ρ c)))

theorem t_v1_4_10 (c : Dev nD) : W10 m ρ c (Proc.devRef .tc main_v1) = W4 m ρ c (Proc.devRef .tc main_v1) :=
  ((k10_v1 m ρ c).trans ((k9_v1 (W8 m ρ c)).trans ((k8_v1 m ρ c).trans ((k7_v1 (W6 m ρ c)).trans ((k6_v1 m ρ c).trans (k5_v1 (W4 m ρ c)))))))

theorem t_v3_4_6 (c : Dev nD) : W6 m ρ c (Proc.devRef .tc main_v3) = W4 m ρ c (Proc.devRef .tc main_v3) :=
  ((k6_v3 m ρ c).trans (k5_v3 (W4 m ρ c)))

theorem t_v3_4_10 (c : Dev nD) : W10 m ρ c (Proc.devRef .tc main_v3) = W4 m ρ c (Proc.devRef .tc main_v3) :=
  ((k10_v3 m ρ c).trans ((k9_v3 (W8 m ρ c)).trans ((k8_v3 m ρ c).trans ((k7_v3 (W6 m ρ c)).trans ((k6_v3 m ρ c).trans (k5_v3 (W4 m ρ c)))))))

theorem t_v31_5_6 (c : Dev nD) : W6 m ρ c (Proc.devRef .tc main_v31) = W5 m ρ c (Proc.devRef .tc main_v31) :=
  (k6_v31 m ρ c)

theorem t_v31_5_10 (c : Dev nD) : W10 m ρ c (Proc.devRef .tc main_v31) = W5 m ρ c (Proc.devRef .tc main_v31) :=
  ((k10_v31 m ρ c).trans ((k9_v31 (W8 m ρ c)).trans ((k8_v31 m ρ c).trans ((k7_v31 (W6 m ρ c)).trans (k6_v31 m ρ c)))))

theorem t_v38_5_7 (c : Dev nD) : W7 m ρ c (Proc.devRef .tc main_v38) = W5 m ρ c (Proc.devRef .tc main_v38) :=
  ((k7_v38 (W6 m ρ c)).trans (k6_v38 m ρ c))

theorem t_v38_5_11 (c : Dev nD) : W11 m ρ c (Proc.devRef .tc main_v38) = W5 m ρ c (Proc.devRef .tc main_v38) :=
  ((k11_v38 (W10 m ρ c)).trans ((k10_v38 m ρ c).trans ((k9_v38 (W8 m ρ c)).trans ((k8_v38 m ρ c).trans ((k7_v38 (W6 m ρ c)).trans (k6_v38 m ρ c))))))

theorem t_v40_0_6_7 (c : Dev nD) : W7 m ρ c (Proc.devRef .tc main_v40_0) = W6 m ρ c (Proc.devRef .tc main_v40_0) :=
  (k7_v40_0 (W6 m ρ c))

theorem t_v69_8_9 (c : Dev nD) : W9 m ρ c (Proc.devRef .tc main_v69) = W8 m ρ c (Proc.devRef .tc main_v69) :=
  (k9_v69 (W8 m ρ c))

theorem t_v71_0_10_11 (c : Dev nD) : W11 m ρ c (Proc.devRef .tc main_v71_0) = W10 m ρ c (Proc.devRef .tc main_v71_0) :=
  (k11_v71_0 (W10 m ρ c))

theorem t_v100_12_13 (c : Dev nD) : W13 m ρ c (Proc.devRef .tc main_v100) = W12 m ρ c (Proc.devRef .tc main_v100) :=
  (k13_v100 (W12 m ρ c))

end Cert.KernelIdeal.Keep

end
-- ==== Proof.RefStages.lean ====
import proofs.«113657_j36816459661707_1_alg».proof.Proof.Gen.ReferenceIdeal
import Idealize.ShloMosaic.PureOps.Ideal

noncomputable section

namespace Cert.ReferenceIdeal.Stage

open Cert.ReferenceIdeal Cert.ReferenceIdeal.Facts₀ Idealize.ShloMosaic

/-- The edges' source rows: row 0 of the edge table as a vector. -/
def rowI (ei : IVec S2x1600000 32) :
    IVec S1600000 32 :=
  (shapeCast S1600000 (((extractStridedSlice S1x1600000 ![0, 0] · slices_S2x1600000_S1x1600000_0_0)) ei) shapeCasts_S1x1600000_S1600000)

/-- The edges' target rows: row 1 of the edge table as a vector. -/
def colI (ei : IVec S2x1600000 32) :
    IVec S1600000 32 :=
  (shapeCast S1600000 (((extractStridedSlice S1x1600000 ![1, 0] · slices_S2x1600000_S1x1600000_1_0)) ei) shapeCasts_S1x1600000_S1600000)

/-- The weighted in-degree of each row: the sum of the weights of the edges into it. -/
def deg (ci : IVec S1600000 32) (ew : FVec Ideal S1600000 .f32) :
    FVec Ideal S100000 .f32 :=
  (((fun x i u => Host.scatterAdd scatter_S100000_S1600000x1_S1600000_n_0_0_1 x i u)) ((broadcastInDim S100000 ![] bcast_S_S100000) (constant (F := Ideal) S_ .f32 0x00000000#32)) ((broadcastInDim S1600000x1 ![0] bcast_S1600000_S1600000x1_0) ci) ew)

/-- Where a row's degree is positive. -/
def gt0 (dg : FVec Ideal S100000 .f32) :
    IVec S100000 1 :=
  ((cmpf .ogt) dg ((broadcastInDim S100000 ![] bcast_S_S100000) (constant (F := Ideal) S_ .f32 0x00000000#32)))

/-- A choice row by row between an array and a splatted scalar. -/
def whereR (cnd : IVec S100000 1) (x : FVec Ideal S100000 .f32) (k : FVec Ideal S_ .f32) :
    FVec Ideal S100000 .f32 :=
  (select cnd x ((broadcastInDim S100000 ![] bcast_S_S100000) k))

/-- One over the square root, row by row. -/
def invsqrtR (x : FVec Ideal S100000 .f32) :
    FVec Ideal S100000 .f32 :=
  ((Host.divf) ((broadcastInDim S100000 ![] bcast_S_S100000) (constant (F := Ideal) S_ .f32 0x3F800000#32)) ((Host.sqrt) x))

/-- The symmetric normalisation of the edge weights: each weight times the inverse square roots of its two endpoints' degrees. -/
def norm (dv : FVec Ideal S100000 .f32) (ri : IVec S1600000 32) (ci : IVec S1600000 32) (ew : FVec Ideal S1600000 .f32) :
    FVec Ideal S1600000 .f32 :=
  ((mulf) ((mulf) (((fun x i => Host.gather gather_S100000_S1600000x1_S1600000_n_0_n_n_0_1_1 x i)) dv ((broadcastInDim S1600000x1 ![0] bcast_S1600000_S1600000x1_0) ((select) ((cmpi .slt) ri ((broadcastInDim S1600000 ![] bcast_S_S1600000) (constantI S_ 32 0#32))) ((addi) ri ((broadcastInDim S1600000 ![] bcast_S_S1600000) (constantI S_ 32 100000#32))) ri))) ew) (((fun x i => Host.gather gather_S100000_S1600000x1_S1600000_n_0_n_n_0_1_1 x i)) dv ((broadcastInDim S1600000x1 ![0] bcast_S1600000_S1600000x1_0) ((select) ((cmpi .slt) ci ((broadcastInDim S1600000 ![] bcast_S_S1600000) (constantI S_ 32 0#32))) ((addi) ci ((broadcastInDim S1600000 ![] bcast_S_S1600000) (constantI S_ 32 100000#32))) ci))))

/-- The number of edges into each row, at least one. -/
def cnt (ci : IVec S1600000 32) :
    FVec Ideal S100000 .f32 :=
  ((maximumf) (((fun x i u => Host.scatterAdd scatter_S100000_S1600000x1_S1600000_n_0_0_1 x i u)) ((broadcastInDim S100000 ![] bcast_S_S100000) (constant (F := Ideal) S_ .f32 0x00000000#32)) ((broadcastInDim S1600000x1 ![0] bcast_S1600000_S1600000x1_0) ci) ((broadcastInDim S1600000 ![] bcast_S_S1600000) (constant (F := Ideal) S_ .f32 0x3F800000#32))) ((broadcastInDim S100000 ![] bcast_S_S100000) (constant (F := Ideal) S_ .f32 0x3F800000#32)))

/-- The normalised aggregation: into each row the sum over its incoming edges of the edge's normalised weight times the source row of tt. -/
def agg (nrm : FVec Ideal S1600000 .f32) (tt : FVec Ideal S100000x128 .f32) (ri : IVec S1600000 32) (ci : IVec S1600000 32) :
    FVec Ideal S100000x128 .f32 :=
  (((fun x i u => Host.scatterAdd scatter_S100000x128_S1600000x1_S1600000x128_1_0_0_1 x i u)) ((broadcastInDim S100000x128 ![] bcast_S_S100000x128) (constant (F := Ideal) S_ .f32 0x00000000#32)) ((broadcastInDim S1600000x1 ![0] bcast_S1600000_S1600000x1_0) ci) ((mulf) ((broadcastInDim S1600000x128 ![0, 1] bcast_S1600000x1_S1600000x128_0_1) ((broadcastInDim S1600000x1 ![0] bcast_S1600000_S1600000x1_0) nrm)) (((fun x i => Host.gather gather_S100000x128_S1600000x1_S1600000x128_1_0_n_n_0_1_1128 x i)) tt ((broadcastInDim S1600000x1 ![0] bcast_S1600000_S1600000x1_0) ((select) ((cmpi .slt) ri ((broadcastInDim S1600000 ![] bcast_S_S1600000) (constantI S_ 32 0#32))) ((addi) ri ((broadcastInDim S1600000 ![] bcast_S_S1600000) (constantI S_ 32 100000#32))) ri)))))

/-- The weighted aggregation: into each row the sum over its incoming edges of the edge's weight times the source row of y. -/
def sagg (ew : FVec Ideal S1600000 .f32) (y : FVec Ideal S100000x128 .f32) (ri : IVec S1600000 32) (ci : IVec S1600000 32) :
    FVec Ideal S100000x128 .f32 :=
  (((fun x i u => Host.scatterAdd scatter_S100000x128_S1600000x1_S1600000x128_1_0_0_1 x i u)) ((broadcastInDim S100000x128 ![] bcast_S_S100000x128) (constant (F := Ideal) S_ .f32 0x00000000#32)) ((broadcastInDim S1600000x1 ![0] bcast_S1600000_S1600000x1_0) ci) ((mulf) ((broadcastInDim S1600000x128 ![0, 1] bcast_S1600000x1_S1600000x128_0_1) ((broadcastInDim S1600000x1 ![0] bcast_S1600000_S1600000x1_0) ew)) (((fun x i => Host.gather gather_S100000x128_S1600000x1_S1600000x128_1_0_n_n_0_1_1128 x i)) y ((broadcastInDim S1600000x1 ![0] bcast_S1600000_S1600000x1_0) ((select) ((cmpi .slt) ri ((broadcastInDim S1600000 ![] bcast_S_S1600000) (constantI S_ 32 0#32))) ((addi) ri ((broadcastInDim S1600000 ![] bcast_S_S1600000) (constantI S_ 32 100000#32))) ri)))))

/-- A linear stage as the host writes it: the product plus the bias laid along every row. -/
def preR (h : FVec Ideal S100000x128 .f32) (pw : FVec Ideal S128x128 .f32) (pb : FVec Ideal S128 .f32) :
    FVec Ideal S100000x128 .f32 :=
  ((addf) (((fun l r => Host.dotGeneral dot_S100000x128_S128x128_S100000x128_1_0_0_1_n_n none l r)) h pw) ((broadcastInDim S100000x128 ![0, 1] bcast_S1x128_S100000x128_0_1) ((broadcastInDim S1x128 ![1] bcast_S128_S1x128_1) pb)))

/-- The second cell's linear stage (256 columns in) as the host writes it. -/
def preR2 (h : FVec Ideal S100000x256 .f32) (pw : FVec Ideal S256x128 .f32) (pb : FVec Ideal S128 .f32) :
    FVec Ideal S100000x128 .f32 :=
  ((addf) (((fun l r => Host.dotGeneral dot_S100000x256_S256x128_S100000x128_1_0_0_1_n_n none l r)) h pw) ((broadcastInDim S100000x128 ![0, 1] bcast_S1x128_S100000x128_0_1) ((broadcastInDim S1x128 ![1] bcast_S128_S1x128_1) pb)))

/-- A plain product as the host writes it. -/
def tmmR (y : FVec Ideal S100000x128 .f32) (aw : FVec Ideal S128x128 .f32) :
    FVec Ideal S100000x128 .f32 :=
  (((fun l r => Host.dotGeneral dot_S100000x128_S128x128_S100000x128_1_0_0_1_n_n none l r)) y aw)

/-- The first half before its activations: agg + y·V + b, as the host writes it. -/
def pre1R (y : FVec Ideal S100000x128 .f32) (ag : FVec Ideal S100000x128 .f32) (av : FVec Ideal S128x128 .f32) (ab : FVec Ideal S128 .f32) :
    FVec Ideal S100000x128 .f32 :=
  ((addf) ((addf) ag (((fun l r => Host.dotGeneral dot_S100000x128_S128x128_S100000x128_1_0_0_1_n_n none l r)) y av)) ((broadcastInDim S100000x128 ![0, 1] bcast_S1x128_S100000x128_0_1) ((broadcastInDim S1x128 ![1] bcast_S128_S1x128_1) ab)))

/-- The maximum with zero, entry by entry. -/
def reluR (x : FVec Ideal S100000x128 .f32) :
    FVec Ideal S100000x128 .f32 :=
  (maximumf x ((broadcastInDim S100000x128 ![] bcast_S_S100000x128) (constant (F := Ideal) S_ .f32 0x00000000#32)))

/-- The leaky relu as the host writes it: x where x ≥ 0, slope·x elsewhere. -/
def leakyR (x : FVec Ideal S100000x128 .f32) :
    FVec Ideal S100000x128 .f32 :=
  (select ((cmpf .oge) x ((broadcastInDim S100000x128 ![] bcast_S_S100000x128) (constant (F := Ideal) S_ .f32 0x00000000#32))) x (mulf ((broadcastInDim S100000x128 ![] bcast_S_S100000x128) (constant (F := Ideal) S_ .f32 0x3C23D70A#32)) x))

/-- The second half before its activation: (s/cnt)·Wl + bl + y·Wr, as the host writes it. -/
def pre2R (y : FVec Ideal S100000x128 .f32) (s : FVec Ideal S100000x128 .f32) (cn : FVec Ideal S100000 .f32) (wl : FVec Ideal S128x128 .f32) (bl : FVec Ideal S128 .f32) (wr : FVec Ideal S128x128 .f32) :
    FVec Ideal S100000x128 .f32 :=
  ((addf) ((addf) (((fun l r => Host.dotGeneral dot_S100000x128_S128x128_S100000x128_1_0_0_1_n_n none l r)) ((Host.divf) s ((broadcastInDim S100000x128 ![0, 1] bcast_S100000x1_S100000x128_0_1) ((broadcastInDim S100000x1 ![0] bcast_S100000_S100000x1_0) cn))) wl) ((broadcastInDim S100000x128 ![0, 1] bcast_S1x128_S100000x128_0_1) ((broadcastInDim S1x128 ![1] bcast_S128_S1x128_1) bl))) (((fun l r => Host.dotGeneral dot_S100000x128_S128x128_S100000x128_1_0_0_1_n_n none l r)) y wr))

/-- Two 128-wide arrays side by side. -/
def catR (a : FVec Ideal S100000x128 .f32) (b : FVec Ideal S100000x128 .f32) :
    FVec Ideal S100000x256 .f32 :=
  (((fun a b => concatenate S100000x256 1 [⟨S100000x128, a⟩, ⟨S100000x128, b⟩] concatenates_S100000x128_S100000x128_S100000x256_d1)) a b)

/-- The elu as the host writes it: x where x > 0, 1·expm1(x where x ≤ 0, else 0) elsewhere. -/
def eluR (x : FVec Ideal S100000x256 .f32) :
    FVec Ideal S100000x256 .f32 :=
  (select ((cmpf .ogt) x ((broadcastInDim S100000x256 ![] bcast_S_S100000x256) (constant (F := Ideal) S_ .f32 0x00000000#32))) x (mulf ((broadcastInDim S100000x256 ![] bcast_S_S100000x256) (constant (F := Ideal) S_ .f32 0x3F800000#32)) (Host.expm1 (select ((cmpf .ogt) x ((broadcastInDim S100000x256 ![] bcast_S_S100000x256) (constant (F := Ideal) S_ .f32 0x00000000#32))) ((broadcastInDim S100000x256 ![] bcast_S_S100000x256) (constant (F := Ideal) S_ .f32 0x00000000#32)) x))))

/-- The classifier's linear stage as the host writes it. -/
def logitsR (h : FVec Ideal S100000x256 .f32) (cw : FVec Ideal S256x16 .f32) (cb : FVec Ideal S16 .f32) :
    FVec Ideal S100000x16 .f32 :=
  ((addf) (((fun l r => Host.dotGeneral dot_S100000x256_S256x16_S100000x16_1_0_0_1_n_n none l r)) h cw) ((broadcastInDim S100000x16 ![0, 1] bcast_S1x16_S100000x16_0_1) ((broadcastInDim S1x16 ![1] bcast_S16_S1x16_1) cb)))

/-- The row-wise log-softmax as the host writes it. -/
def logsm (x : FVec Ideal S100000x16 .f32) :
    FVec Ideal S100000x16 .f32 :=
  (subf (subf x ((broadcastInDim S100000x16 ![0, 1] bcast_S100000x1_S100000x16_0_1) ((broadcastInDim S100000x1 ![0] bcast_S100000_S100000x1_0) (maximumf ((broadcastInDim S100000 ![] bcast_S_S100000) (constant (F := Ideal) S_ .f32 0xFF800000#32)) ((fun x v => Host.reduce FloatOps.maximumf x v reducesTo_S100000x16_S100000_d1 h_S_) x (constant (F := Ideal) S_ .f32 0xFF800000#32)))))) ((broadcastInDim S100000x16 ![0, 1] bcast_S100000x1_S100000x16_0_1) (Host.log ((broadcastInDim S100000x1 ![0] bcast_S100000_S100000x1_0) ((fun x v => Host.reduceAdd x v reducesTo_S100000x16_S100000_d1 h_S_) (Host.exp (subf x ((broadcastInDim S100000x16 ![0, 1] bcast_S100000x1_S100000x16_0_1) ((broadcastInDim S100000x1 ![0] bcast_S100000_S100000x1_0) (maximumf ((broadcastInDim S100000 ![] bcast_S_S100000) (constant (F := Ideal) S_ .f32 0xFF800000#32)) ((fun x v => Host.reduce FloatOps.maximumf x v reducesTo_S100000x16_S100000_d1 h_S_) x (constant (F := Ideal) S_ .f32 0xFF800000#32))))))) (constant (F := Ideal) S_ .f32 0x00000000#32))))))

end Cert.ReferenceIdeal.Stage

end
-- ==== Proof.LibAfter.lean ====
/-
  Three facts about folding a line of host operations over a valuation (general: any signature, any values).
  The fold over a concatenation is the fold of the second line over the fold of the first; writing a value into one
  buffer of a valuation is what the nullary operation with that value does; and a binary operation does to a valuation
  what the nullary operation with its result's value does. With them a kernel region's effect on the host side's
  valuation, or one host operation singled out of a line, is one operation writing a value that a proof may then leave
  unopened while it reads the rest of the line.
-/
import Idealize.ShloMosaic.Lib.StableHlo.Run

noncomputable section

namespace Cert.LibAfter

open Idealize.ShloMosaic Idealize.ShloMosaic.TcCoe Idealize.ShloMosaic.StableHlo

variable {τ : Topo} {sig : RefSig} {Val : EltTy → Type}

/-- The fold over a concatenation: the second line over what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Writing `v` into buffer `y` of a valuation is the nullary operation with value `v`. -/
theorem update_eq_nullary (V : Valuation τ sig Val) (y : Ref sig .tc) (v : y.ty.Contents Val)
    (hy : y.space ≠ .host ∧ (y : DevRef τ sig).isScoped = false) :
    Function.update V (Proc.devRef .tc y) v = (nullary y v hy : HloOp τ sig Val).result V := by
  funext b
  by_cases h : b = Proc.devRef .tc y
  · subst h; rw [Function.update_self]; exact (nullary_result y v hy V).symm
  · rw [Function.update_of_ne h]
    exact ((nullary y v hy : HloOp τ sig Val).result_of_not_mem V (fun hb => h (Finset.mem_singleton.mp hb))).symm

/-- A binary operation leaves what the nullary operation with its result's value leaves. -/
theorem binary_eq_nullary (a b y : Ref sig .tc) (f : a.ty.Contents Val → b.ty.Contents Val → y.ty.Contents Val)
    (ha hb) (hy : y.space ≠ .host ∧ (y : DevRef τ sig).isScoped = false) (V : Valuation τ sig Val) :
    (binary a b y f ha hb hy : HloOp τ sig Val).result V
      = (nullary y (f (V (Proc.devRef .tc a)) (V (Proc.devRef .tc b))) hy : HloOp τ sig Val).result V := by
  funext r
  by_cases h : r = Proc.devRef .tc y
  · subst h; exact (binary_result a b y f ha hb hy V).trans (nullary_result y _ hy V).symm
  · rw [(binary a b y f ha hb hy : HloOp τ sig Val).result_of_not_mem V (fun hr => h (Finset.mem_singleton.mp hr)),
      (nullary y _ hy : HloOp τ sig Val).result_of_not_mem V (fun hr => h (Finset.mem_singleton.mp hr))]

end Cert.LibAfter

end
-- ==== Proof.KerHostStages1.lean ====
/-
  What the four stretches before the last pre-region stretch compute: the edges' row and column vectors, the
  degrees, where they are positive, and their inverse square roots (zero where the degree is not positive).
  From any contents V of the buffers before the stretch, the buffers it writes hold the named stage functions of the
  buffers it reads.
-/
import proofs.«113657_j36816459661707_1_alg».proof.Proof.Gen.KernelIdeal.Frame
import proofs.«113657_j36816459661707_1_alg».proof.Proof.RefStages
import proofs.«113657_j36816459661707_1_alg».proof.Proof.LibAfter
import Idealize.ShloMosaic.Lib.StableHlo.Run

noncomputable section

namespace Cert.KernelIdeal.HostStages

open Idealize.ShloMosaic Idealize.ShloMosaic.TcCoe Idealize.SL.Sem Idealize.ShloMosaic.StableHlo
open Cert.KernelIdeal Cert.KernelIdeal.Gen
open Cert.ReferenceIdeal.Stage (rowI colI deg gt0 whereR invsqrtR norm cnt agg sagg logsm)

attribute [local irreducible] Host.gather Host.scatterAdd Host.reduce Host.reduceAdd

set_option maxHeartbeats 1000000

theorem s1_v1 (V : Valuation τ sig (Elt Ideal)) :
    after hostOps0 V (Proc.devRef .tc main_v1) = rowI (V (Proc.devRef .tc main_arg1)) := by
  simp only [hostOps0]
  after_results_simp
  unfold Cert.ReferenceIdeal.Stage.rowI
  rfl

theorem s1_v3 (V : Valuation τ sig (Elt Ideal)) :
    after hostOps0 V (Proc.devRef .tc main_v3) = colI (V (Proc.devRef .tc main_arg1)) := by
  simp only [hostOps0]
  after_results_simp
  unfold Cert.ReferenceIdeal.Stage.colI
  rfl

theorem s1_v6 (V : Valuation τ sig (Elt Ideal)) :
    after hostOps0 V (Proc.devRef .tc main_v6)
      = deg (colI (V (Proc.devRef .tc main_arg1))) (V (Proc.devRef .tc main_arg2)) := by
  simp only [hostOps0]
  after_results_simp
  unfold Cert.ReferenceIdeal.Stage.deg Cert.ReferenceIdeal.Stage.colI
  rfl

theorem s1_v8 (V : Valuation τ sig (Elt Ideal)) :
    after hostOps0 V (Proc.devRef .tc main_v8)
      = gt0 (deg (colI (V (Proc.devRef .tc main_arg1))) (V (Proc.devRef .tc main_arg2))) := by
  simp only [hostOps0]
  after_results_simp
  unfold Cert.ReferenceIdeal.Stage.gt0 Cert.ReferenceIdeal.Stage.deg Cert.ReferenceIdeal.Stage.colI
  rfl

theorem s1_v10 (V : Valuation τ sig (Elt Ideal)) :
    after hostOps0 V (Proc.devRef .tc main_v10)
      = gt0 (deg (colI (V (Proc.devRef .tc main_arg1))) (V (Proc.devRef .tc main_arg2))) := by
  simp only [hostOps0]
  after_results_simp
  unfold Cert.ReferenceIdeal.Stage.gt0 Cert.ReferenceIdeal.Stage.deg Cert.ReferenceIdeal.Stage.colI
  rfl

theorem s1_cst2 (V : Valuation τ sig (Elt Ideal)) :
    after hostOps0 V (Proc.devRef .tc main_cst_2) = constant (F := Ideal) S_ .f32 0x3F800000#32 := by
  simp only [hostOps0]
  after_results_simp

theorem s2_v11 (V : Valuation τ sig (Elt Ideal)) :
    after hostOps0_1 V (Proc.devRef .tc main_v11)
      = whereR (V (Proc.devRef .tc main_v10)) (V (Proc.devRef .tc main_v6)) (V (Proc.devRef .tc main_cst_2)) := by
  simp only [hostOps0_1, after_cons, after_nil]
  unfold Cert.ReferenceIdeal.Stage.whereR
  rfl

theorem s3_v14 (V : Valuation τ sig (Elt Ideal)) :
    after hostOps0_2 V (Proc.devRef .tc main_v14) = invsqrtR (V (Proc.devRef .tc main_v11)) := by
  simp only [hostOps0_2]
  after_results_simp
  unfold Cert.ReferenceIdeal.Stage.invsqrtR
  rfl

theorem s3_cst4 (V : Valuation τ sig (Elt Ideal)) :
    after hostOps0_2 V (Proc.devRef .tc main_cst_4) = constant (F := Ideal) S_ .f32 0x00000000#32 := by
  simp only [hostOps0_2]
  after_results_simp

theorem s4w_v15 (V : Valuation τ sig (Elt Ideal)) :
    after hostOps0_3 V (Proc.devRef .tc main_v15)
      = whereR (V (Proc.devRef .tc main_v8)) (V (Proc.devRef .tc main_v14)) (V (Proc.devRef .tc main_cst_4)) := by
  simp only [hostOps0_3, after_cons, after_nil]
  unfold Cert.ReferenceIdeal.Stage.whereR
  rfl

end Cert.KernelIdeal.HostStages

end
-- ==== Proof.KerHostStages2.lean ====
/-
  What the stretch before the first region computes: the normalised weights, the row counts as a column, the first
  bias as a row.
  From any contents V of the buffers before the stretch, the buffers it writes hold the named stage functions of the
  buffers it reads.
-/
import proofs.«113657_j36816459661707_1_alg».proof.Proof.Gen.KernelIdeal.Frame
import proofs.«113657_j36816459661707_1_alg».proof.Proof.RefStages
import proofs.«113657_j36816459661707_1_alg».proof.Proof.LibAfter
import Idealize.ShloMosaic.Lib.StableHlo.Run

noncomputable section

namespace Cert.KernelIdeal.HostStages

open Idealize.ShloMosaic Idealize.ShloMosaic.TcCoe Idealize.SL.Sem Idealize.ShloMosaic.StableHlo
open Cert.KernelIdeal Cert.KernelIdeal.Gen
open Cert.ReferenceIdeal.Stage (rowI colI deg gt0 whereR invsqrtR norm cnt agg sagg logsm)

attribute [local irreducible] Host.gather Host.scatterAdd Host.reduce Host.reduceAdd

set_option maxHeartbeats 1000000

theorem s4_v31 (V : Valuation τ sig (Elt Ideal)) :
    after hostOps0_4 V (Proc.devRef .tc main_v31)
      = norm (V (Proc.devRef .tc main_v15)) (V (Proc.devRef .tc main_v1)) (V (Proc.devRef .tc main_v3))
          (V (Proc.devRef .tc main_arg2)) := by
  simp only [hostOps0_4]
  after_results_simp
  unfold Cert.ReferenceIdeal.Stage.norm
  rfl

theorem s4_v38 (V : Valuation τ sig (Elt Ideal)) :
    after hostOps0_4 V (Proc.devRef .tc main_v38)
      = broadcastInDim S100000x1 ![0] bcast_S100000_S100000x1_0 (cnt (V (Proc.devRef .tc main_v3))) := by
  simp only [hostOps0_4]
  after_results_simp
  unfold Cert.ReferenceIdeal.Stage.cnt
  rfl

theorem s4_v39 (V : Valuation τ sig (Elt Ideal)) :
    after hostOps0_4 V (Proc.devRef .tc main_v39)
      = shapeCast S1x128 (V (Proc.devRef .tc main_arg4)) shapeCasts_S128_S1x128 := by
  simp only [hostOps0_4]
  after_results_simp
  rfl

end Cert.KernelIdeal.HostStages

end
-- ==== Proof.KerHostStages3.lean ====
/-
  What the stretch after the first linear region computes: the two aggregations over the edges and the first
  cell's bias rows; and the second cell's first bias row.
  From any contents V of the buffers before the stretch, the buffers it writes hold the named stage functions of the
  buffers it reads.
-/
import proofs.«113657_j36816459661707_1_alg».proof.Proof.Gen.KernelIdeal.Frame
import proofs.«113657_j36816459661707_1_alg».proof.Proof.RefStages
import proofs.«113657_j36816459661707_1_alg».proof.Proof.LibAfter
import Idealize.ShloMosaic.Lib.StableHlo.Run

noncomputable section

namespace Cert.KernelIdeal.HostStages

open Idealize.ShloMosaic Idealize.ShloMosaic.TcCoe Idealize.SL.Sem Idealize.ShloMosaic.StableHlo
open Cert.KernelIdeal Cert.KernelIdeal.Gen
open Cert.ReferenceIdeal.Stage (rowI colI deg gt0 whereR invsqrtR norm cnt agg sagg logsm)

attribute [local irreducible] Host.gather Host.scatterAdd Host.reduce Host.reduceAdd

set_option maxHeartbeats 1000000

theorem s7_v53 (V : Valuation τ sig (Elt Ideal)) :
    after hostOps1 V (Proc.devRef .tc main_v53)
      = agg (V (Proc.devRef .tc main_v31)) (V (Proc.devRef .tc main_v40_1)) (V (Proc.devRef .tc main_v1))
          (V (Proc.devRef .tc main_v3)) := by
  simp only [hostOps1]
  after_results_simp
  unfold Cert.ReferenceIdeal.Stage.agg
  rfl

theorem s7_v66 (V : Valuation τ sig (Elt Ideal)) :
    after hostOps1 V (Proc.devRef .tc main_v66)
      = sagg (V (Proc.devRef .tc main_arg2)) (V (Proc.devRef .tc main_v40_0)) (V (Proc.devRef .tc main_v1))
          (V (Proc.devRef .tc main_v3)) := by
  simp only [hostOps1]
  after_results_simp
  unfold Cert.ReferenceIdeal.Stage.sagg
  rfl

theorem s7_v67 (V : Valuation τ sig (Elt Ideal)) :
    after hostOps1 V (Proc.devRef .tc main_v67)
      = shapeCast S1x128 (V (Proc.devRef .tc main_arg7)) shapeCasts_S128_S1x128 := by
  simp only [hostOps1]
  after_results_simp
  rfl

theorem s7_v68 (V : Valuation τ sig (Elt Ideal)) :
    after hostOps1 V (Proc.devRef .tc main_v68)
      = shapeCast S1x128 (V (Proc.devRef .tc main_arg9)) shapeCasts_S128_S1x128 := by
  simp only [hostOps1]
  after_results_simp
  rfl

theorem s9_v70 (V : Valuation τ sig (Elt Ideal)) :
    after hostOps2 V (Proc.devRef .tc main_v70)
      = shapeCast S1x128 (V (Proc.devRef .tc main_arg12)) shapeCasts_S128_S1x128 := by
  simp only [hostOps2]
  after_results_simp
  rfl

end Cert.KernelIdeal.HostStages

end
-- ==== Proof.KerHostStages4.lean ====
/-
  What the stretch after the second linear region computes: the two aggregations over the edges and the second
  cell's bias rows; and the classifier's bias row.
  From any contents V of the buffers before the stretch, the buffers it writes hold the named stage functions of the
  buffers it reads.
-/
import proofs.«113657_j36816459661707_1_alg».proof.Proof.Gen.KernelIdeal.Frame
import proofs.«113657_j36816459661707_1_alg».proof.Proof.RefStages
import proofs.«113657_j36816459661707_1_alg».proof.Proof.LibAfter
import Idealize.ShloMosaic.Lib.StableHlo.Run

noncomputable section

namespace Cert.KernelIdeal.HostStages

open Idealize.ShloMosaic Idealize.ShloMosaic.TcCoe Idealize.SL.Sem Idealize.ShloMosaic.StableHlo
open Cert.KernelIdeal Cert.KernelIdeal.Gen
open Cert.ReferenceIdeal.Stage (rowI colI deg gt0 whereR invsqrtR norm cnt agg sagg logsm)

attribute [local irreducible] Host.gather Host.scatterAdd Host.reduce Host.reduceAdd

set_option maxHeartbeats 1000000

theorem s11_v84 (V : Valuation τ sig (Elt Ideal)) :
    after hostOps3 V (Proc.devRef .tc main_v84)
      = agg (V (Proc.devRef .tc main_v31)) (V (Proc.devRef .tc main_v71_1)) (V (Proc.devRef .tc main_v1))
          (V (Proc.devRef .tc main_v3)) := by
  simp only [hostOps3]
  after_results_simp
  unfold Cert.ReferenceIdeal.Stage.agg
  rfl

theorem s11_v97 (V : Valuation τ sig (Elt Ideal)) :
    after hostOps3 V (Proc.devRef .tc main_v97)
      = sagg (V (Proc.devRef .tc main_arg2)) (V (Proc.devRef .tc main_v71_0)) (V (Proc.devRef .tc main_v1))
          (V (Proc.devRef .tc main_v3)) := by
  simp only [hostOps3]
  after_results_simp
  unfold Cert.ReferenceIdeal.Stage.sagg
  rfl

theorem s11_v98 (V : Valuation τ sig (Elt Ideal)) :
    after hostOps3 V (Proc.devRef .tc main_v98)
      = shapeCast S1x128 (V (Proc.devRef .tc main_arg15)) shapeCasts_S128_S1x128 := by
  simp only [hostOps3]
  after_results_simp
  rfl

theorem s11_v99 (V : Valuation τ sig (Elt Ideal)) :
    after hostOps3 V (Proc.devRef .tc main_v99)
      = shapeCast S1x128 (V (Proc.devRef .tc main_arg17)) shapeCasts_S128_S1x128 := by
  simp only [hostOps3]
  after_results_simp
  rfl

theorem s13_v101 (V : Valuation τ sig (Elt Ideal)) :
    after hostOps4 V (Proc.devRef .tc main_v101)
      = shapeCast S1x16 (V (Proc.devRef .tc main_arg20)) shapeCasts_S16_S1x16 := by
  simp only [hostOps4]
  after_results_simp
  rfl

end Cert.KernelIdeal.HostStages

end
-- ==== Proof.KerHostStages5.lean ====
/-
  What the last stretch computes: the row-wise log-softmax of the classifier's output.  The stretch's fifteen
  operations are first restated over their plain buffers (the same operations, the same buffers); read in that form,
  the result buffer holds the log-softmax stage of the classifier's output as the stretch finds it.
-/
import proofs.«113657_j36816459661707_1_alg».proof.Proof.Gen.KernelIdeal.Frame
import proofs.«113657_j36816459661707_1_alg».proof.Proof.RefStages
import Idealize.ShloMosaic.Lib.StableHlo.Run

noncomputable section

namespace Cert.KernelIdeal.HostStages

open Idealize.ShloMosaic Idealize.ShloMosaic.TcCoe Idealize.SL.Sem Idealize.ShloMosaic.StableHlo
open Cert.KernelIdeal Cert.KernelIdeal.Gen
open Cert.ReferenceIdeal.Stage (logsm)

attribute [local irreducible] Host.gather Host.scatterAdd Host.reduce Host.reduceAdd

set_option maxHeartbeats 1000000

section
variable {F : FTy → Type} [FloatOps F]

/-- The last stretch's operations over the plain buffers. -/
abbrev tail5 : List (HloOp τ sig (Elt F)) :=
  [ StableHlo.nullary main_call2_cst (constant S_ .f32 0xFF800000#32 : (⟨S_, .f32⟩ : BufTy).Contents (Elt F)),
    StableHlo.binary main_v102 main_call2_cst main_call2_v0 ((fun x v => Host.reduce FloatOps.maximumf x v reducesTo_S100000x16_S100000_d1 h_S_) : (⟨S100000x16, .f32⟩ : BufTy).Contents (Elt F) → (⟨S_, .f32⟩ : BufTy).Contents (Elt F) → (⟨S100000, .f32⟩ : BufTy).Contents (Elt F)),
    StableHlo.nullary main_call2_cst_0 (constant S_ .f32 0xFF800000#32 : (⟨S_, .f32⟩ : BufTy).Contents (Elt F)),
    StableHlo.unary main_call2_cst_0 main_call2_v1 ((broadcastInDim S100000 ![] bcast_S_S100000) : (⟨S_, .f32⟩ : BufTy).Contents (Elt F) → (⟨S100000, .f32⟩ : BufTy).Contents (Elt F)),
    StableHlo.binary main_call2_v1 main_call2_v0 main_call2_v2 ((maximumf) : (⟨S100000, .f32⟩ : BufTy).Contents (Elt F) → (⟨S100000, .f32⟩ : BufTy).Contents (Elt F) → (⟨S100000, .f32⟩ : BufTy).Contents (Elt F)),
    StableHlo.unary main_call2_v2 main_call2_v3 ((broadcastInDim S100000x1 ![0] bcast_S100000_S100000x1_0) : (⟨S100000, .f32⟩ : BufTy).Contents (Elt F) → (⟨S100000x1, .f32⟩ : BufTy).Contents (Elt F)),
    StableHlo.unary main_call2_v3 main_call2_v4 ((broadcastInDim S100000x16 ![0, 1] bcast_S100000x1_S100000x16_0_1) : (⟨S100000x1, .f32⟩ : BufTy).Contents (Elt F) → (⟨S100000x16, .f32⟩ : BufTy).Contents (Elt F)),
    StableHlo.binary main_v102 main_call2_v4 main_call2_v5 ((subf) : (⟨S100000x16, .f32⟩ : BufTy).Contents (Elt F) → (⟨S100000x16, .f32⟩ : BufTy).Contents (Elt F) → (⟨S100000x16, .f32⟩ : BufTy).Contents (Elt F)),
    StableHlo.unary main_call2_v5 main_call2_v6 ((Host.exp) : (⟨S100000x16, .f32⟩ : BufTy).Contents (Elt F) → (⟨S100000x16, .f32⟩ : BufTy).Contents (Elt F)),
    StableHlo.nullary main_call2_cst_1 (constant S_ .f32 0x00000000#32 : (⟨S_, .f32⟩ : BufTy).Contents (Elt F)),
    StableHlo.binary main_call2_v6 main_call2_cst_1 main_call2_v7 ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)),
    StableHlo.unary main_call2_v7 main_call2_v8 ((broadcastInDim S100000x1 ![0] bcast_S100000_S100000x1_0) : (⟨S100000, .f32⟩ : BufTy).Contents (Elt F) → (⟨S100000x1, .f32⟩ : BufTy).Contents (Elt F)),
    StableHlo.unary main_call2_v8 main_call2_v9 ((Host.log) : (⟨S100000x1, .f32⟩ : BufTy).Contents (Elt F) → (⟨S100000x1, .f32⟩ : BufTy).Contents (Elt F)),
    StableHlo.unary main_call2_v9 main_call2_v10 ((broadcastInDim S100000x16 ![0, 1] bcast_S100000x1_S100000x16_0_1) : (⟨S100000x1, .f32⟩ : BufTy).Contents (Elt F) → (⟨S100000x16, .f32⟩ : BufTy).Contents (Elt F)),
    StableHlo.binary main_call2_v5 main_call2_v10 main_v103 ((subf) : (⟨S100000x16, .f32⟩ : BufTy).Contents (Elt F) → (⟨S100000x16, .f32⟩ : BufTy).Contents (Elt F) → (⟨S100000x16, .f32⟩ : BufTy).Contents (Elt F)) ]

/-- The stretch is that line. -/
theorem hostOps5_eq : (hostOps5 : List (HloOp τ sig (Elt F))) = tail5 := rfl

end

theorem tail5_v103 (V : Valuation τ sig (Elt Ideal)) :
    after (tail5 (F := Ideal)) V (Proc.devRef .tc main_v103) = logsm (V (Proc.devRef .tc main_v102)) := by
  simp only [tail5]
  after_results_simp
  unfold Cert.ReferenceIdeal.Stage.logsm
  rfl

/-- The last stretch: the row-wise log-softmax of the classifier's output. -/
theorem s15_v103 (V : Valuation τ sig (Elt Ideal)) :
    after hostOps5 V (Proc.devRef .tc main_v103) = logsm (V (Proc.devRef .tc main_v102)) :=
  (congrArg (fun l => after l V (Proc.devRef .tc main_v103)) (hostOps5_eq (F := Ideal))).trans (tail5_v103 V)

end Cert.KernelIdeal.HostStages

end
-- ==== Proof.KerHostStages.lean ====
/-
  What each stretch of the kernel program's host operations computes, as the stage functions of the edge chain
  (the five modules imported here, one per group of stretches).
-/
import proofs.«113657_j36816459661707_1_alg».proof.Proof.KerHostStages1
import proofs.«113657_j36816459661707_1_alg».proof.Proof.KerHostStages2
import proofs.«113657_j36816459661707_1_alg».proof.Proof.KerHostStages3
import proofs.«113657_j36816459661707_1_alg».proof.Proof.KerHostStages4
import proofs.«113657_j36816459661707_1_alg».proof.Proof.KerHostStages5
-- ==== Proof.RefOut.lean ====
/-
  The reference's result as the composition of its stages: the edge normalisation and the row counts from the edge
  table; two cells, each a linear stage, a product, the two aggregations over the edges and the closing stage; the
  classifier's linear stage and the row-wise log-softmax.
-/
import proofs.«113657_j36816459661707_1_alg».proof.Proof.RefStages

noncomputable section

namespace Cert.ReferenceIdeal.Stage

open Cert.ReferenceIdeal Idealize.ShloMosaic

/-- The inverse square root of each positive degree, zero where the degree is not positive. -/
def dinv (dg : FVec Ideal S100000 .f32) : FVec Ideal S100000 .f32 :=
  whereR (gt0 dg) (invsqrtR (whereR (gt0 dg) dg (constant (F := Ideal) S_ .f32 0x3F800000#32)))
    (constant (F := Ideal) S_ .f32 0x00000000#32)

/-- The cell's closing stage as the host writes it: relu then leaky relu of the first half, leaky relu of the
    second, the two side by side, then elu. -/
def cellR (y ag s : FVec Ideal S100000x128 .f32) (cn : FVec Ideal S100000 .f32) (av : FVec Ideal S128x128 .f32)
    (ab : FVec Ideal S128 .f32) (wl : FVec Ideal S128x128 .f32) (bl : FVec Ideal S128 .f32)
    (wr : FVec Ideal S128x128 .f32) : FVec Ideal S100000x256 .f32 :=
  eluR (catR (leakyR (reluR (pre1R y ag av ab))) (leakyR (pre2R y s cn wl bl wr)))

/-- The reference's result, from its twenty-one arguments. -/
def refOut (a0 : FVec Ideal S100000x128 .f32) (a1 : IVec S2x1600000 32) (a2 : FVec Ideal S1600000 .f32)
    (a3 : FVec Ideal S128x128 .f32) (a4 : FVec Ideal S128 .f32) (a5 a6 : FVec Ideal S128x128 .f32)
    (a7 : FVec Ideal S128 .f32) (a8 : FVec Ideal S128x128 .f32) (a9 : FVec Ideal S128 .f32)
    (a10 : FVec Ideal S128x128 .f32) (a11 : FVec Ideal S256x128 .f32) (a12 : FVec Ideal S128 .f32)
    (a13 a14 : FVec Ideal S128x128 .f32) (a15 : FVec Ideal S128 .f32) (a16 : FVec Ideal S128x128 .f32)
    (a17 : FVec Ideal S128 .f32) (a18 : FVec Ideal S128x128 .f32) (a19 : FVec Ideal S256x16 .f32)
    (a20 : FVec Ideal S16 .f32) : FVec Ideal S100000x16 .f32 :=
  let ri := rowI a1
  let ci := colI a1
  let nrm := norm (dinv (deg ci a2)) ri ci a2
  let cn := cnt ci
  let y0 := preR a0 a3 a4
  let h1 := cellR y0 (agg nrm (tmmR y0 a5) ri ci) (sagg a2 y0 ri ci) cn a6 a7 a8 a9 a10
  let y1 := preR2 h1 a11 a12
  let h2 := cellR y1 (agg nrm (tmmR y1 a13) ri ci) (sagg a2 y1 ri ci) cn a14 a15 a16 a17 a18
  logsm (logitsR h2 a19 a20)

end Cert.ReferenceIdeal.Stage

end
-- ==== Proof.Spec.lean ====
/-
  The network's dense stages as functions of whole arrays over the extended reals, index by index.
  A matrix product's entry is the sum over the contracted coordinate of the products of the entries; a linear stage
  adds a bias row to every row of a product; the cell's closing stage joins two 128-wide halves side by side: the
  left half is elu(max(agg + (y·V + b), 0)), the right half elu(leaky((mean·Wl + bl) + y·Wr)) with mean = s / cnt
  row by row.  elu(v) is v where v > 0 and exp v - 1 elsewhere; leaky(v) is v where v ≥ 0 and slope·v elsewhere.
-/
import Idealize.ShloMosaic.PureOps.Ideal
import Idealize.ShloMosaic.Lib.ValueIdx

noncomputable section

namespace Cert.Spec

open Idealize.ShloMosaic Idealize.ShloMosaic.ValueIdx

/-- An a×b array of extended reals. -/
abbrev Mat (a b : ℕ) := FVec Ideal ⟨2, ![a, b]⟩ .f32

/-- Entry (r, c) of the product x·w. -/
def dotAt {a k n : ℕ} (x : Mat a k) (w : Mat k n) (r : Fin a) (c : Fin n) : EReal :=
  ∑ j : Fin k, x (ix2 r j) * w (ix2 j c)

/-- The product x·w. -/
def mm {a k n : ℕ} (x : Mat a k) (w : Mat k n) : Mat a n := fun i => dotAt x w (i 0) (i 1)

/-- The product x·w with the row b added to every row. -/
def linY {a k n : ℕ} (x : Mat a k) (w : Mat k n) (b : Mat 1 n) : Mat a n :=
  fun i => dotAt x w (i 0) (i 1) + b (ix2 (0 : Fin 1) (i 1))

/-- The float words of zero, one and the leaky slope, as extended reals. -/
def z0 : EReal := Ideal.ofBits .f32 0x00000000#32
def one : EReal := Ideal.ofBits .f32 0x3F800000#32
def slope : EReal := Ideal.ofBits .f32 0x3C23D70A#32

/-- elu: the identity on the positive side, exp v - 1 elsewhere. -/
def eluK (v : EReal) : EReal := Scalar.select (Ideal.cmp .ogt v z0) v (Ideal.exp v - one)

/-- leaky relu: the identity where v ≥ 0, slope·v elsewhere. -/
def leakyK (v : EReal) : EReal := Scalar.select (Ideal.cmp .oge v z0) v (slope * v)

/-- Each row of s divided by that row's count. -/
def meanS {a n : ℕ} (s : Mat a n) (cnt : Mat a 1) : Mat a n :=
  fun i => Ideal.div (s i) (cnt (ix2 (i 0) (0 : Fin 1)))

/-- Left half before elu: max(agg + (y·V + b), 0) at (r, c). -/
def h1At {a : ℕ} (y agg : Mat a 128) (av : Mat 128 128) (ab : Mat 1 128) (r : Fin a) (c : Fin 128) : EReal :=
  max (agg (ix2 r c) + (dotAt y av r c + ab (ix2 (0 : Fin 1) c))) z0

/-- Right half before elu: leaky((mean·Wl + bl) + y·Wr) at (r, c). -/
def h2At {a : ℕ} (y s : Mat a 128) (cnt : Mat a 1) (wl : Mat 128 128) (bl : Mat 1 128) (wr : Mat 128 128)
    (r : Fin a) (c : Fin 128) : EReal :=
  leakyK ((dotAt (meanS s cnt) wl r c + bl (ix2 (0 : Fin 1) c)) + dotAt y wr r c)

/-- Entry (r, q) of the cell's output, q a column of the 256-wide array. -/
def cellAt {a : ℕ} (y agg s : Mat a 128) (cnt : Mat a 1) (av : Mat 128 128) (ab : Mat 1 128) (wl : Mat 128 128)
    (bl : Mat 1 128) (wr : Mat 128 128) (r : Fin a) (q : Fin 256) : EReal :=
  if h : q.val < 128 then eluK (h1At y agg av ab r ⟨q.val, h⟩)
  else eluK (h2At y s cnt wl bl wr r ⟨q.val - 128, by omega⟩)

/-- The cell's output array. -/
def cellOut {a : ℕ} (y agg s : Mat a 128) (cnt : Mat a 1) (av : Mat 128 128) (ab : Mat 1 128) (wl : Mat 128 128)
    (bl : Mat 1 128) (wr : Mat 128 128) : Mat a 256 :=
  fun i => cellAt y agg s cnt av ab wl bl wr (i 0) (i 1)

theorem mm_apply {a k n : ℕ} (x : Mat a k) (w : Mat k n) (r : Fin a) (c : Fin n) :
    mm x w (ix2 r c) = dotAt x w r c := rfl

theorem linY_apply {a k n : ℕ} (x : Mat a k) (w : Mat k n) (b : Mat 1 n) (r : Fin a) (c : Fin n) :
    linY x w b (ix2 r c) = dotAt x w r c + b (ix2 (0 : Fin 1) c) := rfl

theorem meanS_apply {a n : ℕ} (s : Mat a n) (cnt : Mat a 1) (r : Fin a) (c : Fin n) :
    meanS s cnt (ix2 r c) = Ideal.div (s (ix2 r c)) (cnt (ix2 r (0 : Fin 1))) := rfl

theorem cellOut_apply {a : ℕ} (y agg s : Mat a 128) (cnt : Mat a 1) (av : Mat 128 128) (ab : Mat 1 128)
    (wl : Mat 128 128) (bl : Mat 1 128) (wr : Mat 128 128) (r : Fin a) (q : Fin 256) :
    cellOut y agg s cnt av ab wl bl wr (ix2 r q) = cellAt y agg s cnt av ab wl bl wr r q := rfl

end Cert.Spec

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.RegionLin0.lean ====
/-
  Region 0 of the kernel's program, read as a function of whole arrays over the extended reals.
  The region runs one body over a grid of 50 points. Point t reads rows 2000·t … 2000·t + 1999 of the input array
  [100000, 128] and the whole weight and bias arrays, and writes rows 2000·t … 2000·t + 1999 of each output array.
  The body's result is pointwise in the row: entry (p, q) of the first output block is
  ∑ⱼ x(p, j)·w(j, q) + b(0, q), and entry (p, q) of the second is ∑ⱼ y(p, j)·w₂(j, q) with y the first. So every point writes its block of ONE
  function of the input arrays, and since the 50 blocks tile the 100000 rows (row r lies in the block of point
  r / 2000), the array after the region is that function: the linear stage `Cert.Spec.linY` and its product
  `Cert.Spec.mm` with the second weight array.
-/
import proofs.«113657_j36816459661707_1_alg».proof.Proof.Gen.KernelIdeal.Frame
import proofs.«113657_j36816459661707_1_alg».proof.Proof.Spec
import proofs.«113657_j36816459661707_1_alg».proof.Proof.LibRowOps
import Idealize.ShloMosaic.Lib.Pipeline.Value

noncomputable section

namespace Cert.KernelIdeal.Regions

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

namespace Lin0

/-- The zero offsets of a whole-block access, as a constant function. -/
theorem hz : (![0, 0] : Fin 2 → Nat) = fun _ => 0 := funext fun a => by fin_cases a <;> rfl

/-- The kernel's first product contracts the left operand's columns with the right operand's rows. -/
theorem dot1_eq : dot_S2000x128_S128x128_S2000x128_1_0_0_1_n_n
    = ⟨[1], [0], [0], [1], [], [], dot_S2000x128_S128x128_S2000x128_1_0_0_1_n_n_wf⟩ := rfl

/-- So does its second product. -/
theorem dot2_eq : dot_S2000x128_S128x128_S2000x128_1_0_0_1_n_n
    = ⟨[1], [0], [0], [1], [], [], dot_S2000x128_S128x128_S2000x128_1_0_0_1_n_n_wf⟩ := rfl

/-- The first payload at row `p`, column `q` of a block: the sum over the contracted coordinate of the products of the
    entries, plus the bias row's entry `q` (over the extended reals the change of float format is the identity). -/
theorem pay1_apply (x0 : Vec Ideal S2000x128 .f32) (x1 : Vec Ideal S128x128 .f32) (x2 : Vec Ideal S1x128 .f32)
    (p : Fin 2000) (q : Fin 128) :
    k0_pay1 x0 x1 x2 (ix2 p q) = (∑ j : Fin 128, x0 (ix2 p j) * x1 (ix2 j q)) + x2 (ix2 (0 : Fin 1) q) := by
  unfold k0_pay1
  rw [addf_apply, dot1_eq, Cert.KernelBody.matmul_plain_zero_apply, Cert.KernelBody.broadcastTo_row_apply, shapeCast_self]
  rfl

/-- The second payload at row `p`, column `q` of a block: row `p` of the first payload times column `q` of the second
    weight block. -/
theorem pay2_apply (x0 : Vec Ideal S2000x128 .f32) (x1 : Vec Ideal S128x128 .f32) (x2 : Vec Ideal S1x128 .f32)
    (x3 : Vec Ideal S128x128 .f32) (p : Fin 2000) (q : Fin 128) :
    k0_pay2 x0 x1 x2 x3 (ix2 p q) = ∑ j : Fin 128, k0_pay1 x0 x1 x2 (ix2 p j) * x3 (ix2 j q) := by
  unfold k0_pay2
  rw [dot2_eq, Cert.KernelBody.matmul_plain_zero_apply]
  rfl

/-- The windows' block indices at every point of the grid, decided: the row-blocked windows are at block row `t`, the
    whole windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Entry `x` of the input's block at point `t` is the array's entry at row `2000·t + x₀`, column `x₁`. -/
theorem iblk_0_apply (c : Dev nD) (t : Fin cfg0.N) (x : S2000x128.Idx) (k : S100000x128.Idx)
    (hk0 : (k 0).val = 2000 * t.val + (x 0).val) (hk1 : (k 1).val = (x 1).val) :
    (iblk0 (F := Ideal) V c 0 t : Vec Ideal S2000x128 .f32) x = (V c main_arg0 : S100000x128.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 2000 + 1 * (x 0).val = (k 0).val; rw [e0, hk0]; omega
  | ⟨1, _⟩ => show win0_0.index t 1 * 128 + 1 * (x 1).val = (k 1).val; rw [e1, hk1]; omega

/-- The first weight window's block at every point is the whole array. -/
theorem iblk_1_eq (c : Dev nD) (t : Fin cfg0.N) :
    (iblk0 (F := Ideal) V c 1 t : Vec Ideal S128x128 .f32) = (V c main_arg3 : S128x128.Idx → EReal) := by
  obtain ⟨-, -, e0, e1, -⟩ := idx_facts t
  funext x
  unfold iblk0
  rw [View.read_apply]
  show V c main_arg3 _ = V c main_arg3 _
  congr 1
  funext a
  apply Fin.ext
  match a with
  | ⟨0, _⟩ => show win0_1.index t 0 * 128 + 1 * (x 0).val = (x 0).val; rw [e0]; omega
  | ⟨1, _⟩ => show win0_1.index t 1 * 128 + 1 * (x 1).val = (x 1).val; rw [e1]; omega

/-- The bias window's block at every point is the whole row. -/
theorem iblk_2_eq (c : Dev nD) (t : Fin cfg0.N) :
    (iblk0 (F := Ideal) V c 2 t : Vec Ideal S1x128 .f32) = (V c main_v39 : S1x128.Idx → EReal) := by
  obtain ⟨-, -, -, -, e0, e1, -⟩ := idx_facts t
  funext x
  unfold iblk0
  rw [View.read_apply]
  show V c main_v39 _ = V c main_v39 _
  congr 1
  funext a
  apply Fin.ext
  match a with
  | ⟨0, _⟩ => show win0_2.index t 0 * 1 + 1 * (x 0).val = (x 0).val; rw [e0]; omega
  | ⟨1, _⟩ => show win0_2.index t 1 * 128 + 1 * (x 1).val = (x 1).val; rw [e1]; omega

/-- The second weight window's block at every point is the whole array. -/
theorem iblk_3_eq (c : Dev nD) (t : Fin cfg0.N) :
    (iblk0 (F := Ideal) V c 3 t : Vec Ideal S128x128 .f32) = (V c main_arg5 : S128x128.Idx → EReal) := by
  obtain ⟨-, -, -, -, -, -, e0, e1, -⟩ := idx_facts t
  funext x
  unfold iblk0
  rw [View.read_apply]
  show V c main_arg5 _ = V c main_arg5 _
  congr 1
  funext a
  apply Fin.ext
  match a with
  | ⟨0, _⟩ => show win0_3.index t 0 * 128 + 1 * (x 0).val = (x 0).val; rw [e0]; omega
  | ⟨1, _⟩ => show win0_3.index t 1 * 128 + 1 * (x 1).val = (x 1).val; rw [e1]; omega

/-- The linear stage read at an index whose two coordinates are known by value. -/
theorem linY_at {a k n : ℕ} (X : Cert.Spec.Mat a k) (W : Cert.Spec.Mat k n) (B : Cert.Spec.Mat 1 n)
    (i : (⟨2, ![a, n]⟩ : Shape).Idx) (r : Fin a) (s : Fin n) (h0 : (i 0).val = r.val) (h1 : (i 1).val = s.val) :
    Cert.Spec.linY X W B i = Cert.Spec.dotAt X W r s + B (ix2 (0 : Fin 1) s) := by
  have hi : i = ix2 r s := by
    funext d
    apply Fin.ext
    match d with
    | ⟨0, _⟩ => exact h0
    | ⟨1, _⟩ => exact h1
  subst hi
  rfl

/-- The product read at an index whose two coordinates are known by value. -/
theorem mm_at {a k n : ℕ} (X : Cert.Spec.Mat a k) (W : Cert.Spec.Mat k n)
    (i : (⟨2, ![a, n]⟩ : Shape).Idx) (r : Fin a) (s : Fin n) (h0 : (i 0).val = r.val) (h1 : (i 1).val = s.val) :
    Cert.Spec.mm X W i = Cert.Spec.dotAt X W r s := by
  have hi : i = ix2 r s := by
    funext d
    apply Fin.ext
    match d with
    | ⟨0, _⟩ => exact h0
    | ⟨1, _⟩ => exact h1
  subst hi
  rfl

/-- The first payload of the blocks at point `t`, at row `p` and column `q` of the block, is the linear stage of the
    arrays at row `2000·t + p` and column `q`. -/
theorem pay1_blocks (c : Dev nD) (t : Fin cfg0.N) (p : Fin 2000) (q : Fin 128) (r : Fin 100000)
    (hr : r.val = 2000 * t.val + p.val) :
    k0_pay1 (iblk0 (F := Ideal) V c 0 t) (iblk0 V c 1 t) (iblk0 V c 2 t) (ix2 p q)
      = Cert.Spec.dotAt (V c main_arg0) (V c main_arg3) r q + (V c main_v39 : S1x128.Idx → EReal) (ix2 (0 : Fin 1) q) := by
  refine (pay1_apply (iblk0 V c 0 t) (iblk0 V c 1 t) (iblk0 V c 2 t) p q).trans ?_
  rw [iblk_1_eq, iblk_2_eq]
  unfold Cert.Spec.dotAt
  congr 1
  refine Finset.sum_congr rfl fun j _ => ?_
  rw [iblk_0_apply V c t (ix2 p j) (ix2 r j) hr rfl]

/-- What point `t` writes back to the first output array is block `t` of the linear stage of the input arrays. -/
theorem flushed_4_eq (c : Dev nD) (t : Fin cfg0.N) :
    (dat0 (F := Ideal) V c).flushed 4 t = ((cfg0.win 4).blk t).view.read (Elt Ideal)
      (Cert.Spec.linY (V c main_arg0) (V c main_arg3) (V c main_v39)) := by
  show (cfg0.win 4).cut (grid0.coords t) ((dat0 (F := Ideal) V c).after 4 t) = _
  rw [after0_4]
  unfold out0_4
  rw [View.canon_unit_zero hz]
  simp only [View.ld_unit_zero (S := S2000x128) hz, View.ld_unit_zero (S := S128x128) hz, View.ld_unit_zero (S := S1x128) hz]
  obtain ⟨-, -, -, -, -, -, -, -, e0, e1, -⟩ := idx_facts t
  have ht : t.val < 50 := by have h := t.isLt; have hN : cfg0.N = 50 := N_0; omega
  funext j
  obtain ⟨p, q, rfl⟩ : ∃ (p : Fin 2000) (q : Fin 128), j = ix2 p q := ⟨j 0, j 1, eq_ix2 j⟩
  have hp : p.val < 2000 := p.isLt
  refine (pay1_blocks V c t p q ⟨2000 * t.val + p.val, by omega⟩ rfl).trans ?_
  rw [View.read_apply]
  refine (linY_at _ _ _ _ ⟨2000 * t.val + p.val, by omega⟩ q ?_ ?_).symm
  · show win0_4.index t 0 * 2000 + 1 * p.val = 2000 * t.val + p.val; rw [e0]; omega
  · show win0_4.index t 1 * 128 + 1 * q.val = q.val; rw [e1]; omega

/-- An index of the array is in point `t`'s block iff each coordinate is in the block's range on its axis. -/
theorem mem_blk_4 (t : Fin cfg0.N) (i : S100000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v40_0).slice (win0_4.rect t)).set ↔ _
  rw [View.set_slice_whole, Rect.mem_set_unit]
  exact Iff.rfl

/-- Row `r` of the array is in the block of the point `r / 2000`. -/
theorem cover_4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, -, -, e0, e1, -⟩ := idx_facts t
  refine ⟨t, flush0_4 t, ?_⟩
  rw [mem_blk_4]
  intro a
  match a with
  | ⟨0, _⟩ =>
    show win0_4.index t 0 * 2000 ≤ (i 0).val ∧ (i 0).val < win0_4.index t 0 * 2000 + 2000
    rw [e0, ht]; omega
  | ⟨1, _⟩ =>
    show win0_4.index t 1 * 128 ≤ (i 1).val ∧ (i 1).val < win0_4.index t 1 * 128 + 128
    rw [e1]; omega

/-- The second payload of the blocks at point `t`, at row `p` and column `q` of the block, is the product of the linear
    stage's row `2000·t + p` with column `q` of the second weight array. -/
theorem pay2_blocks (c : Dev nD) (t : Fin cfg0.N) (p : Fin 2000) (q : Fin 128) (r : Fin 100000)
    (hr : r.val = 2000 * t.val + p.val) :
    k0_pay2 (iblk0 (F := Ideal) V c 0 t) (iblk0 V c 1 t) (iblk0 V c 2 t) (iblk0 V c 3 t) (ix2 p q)
      = Cert.Spec.dotAt (Cert.Spec.linY (V c main_arg0) (V c main_arg3) (V c main_v39)) (V c main_arg5) r q := by
  refine (pay2_apply (iblk0 V c 0 t) (iblk0 V c 1 t) (iblk0 V c 2 t) (iblk0 V c 3 t) p q).trans ?_
  rw [iblk_3_eq]
  unfold Cert.Spec.dotAt
  refine Finset.sum_congr rfl fun j _ => ?_
  rw [pay1_blocks V c t p j r hr]
  rfl

/-- What point `t` writes back to the second output array is block `t` of the product of the linear stage with the
    second weight array. -/
theorem flushed_5_eq (c : Dev nD) (t : Fin cfg0.N) :
    (dat0 (F := Ideal) V c).flushed 5 t = ((cfg0.win 5).blk t).view.read (Elt Ideal)
      (Cert.Spec.mm (Cert.Spec.linY (V c main_arg0) (V c main_arg3) (V c main_v39)) (V c main_arg5)) := by
  show (cfg0.win 5).cut (grid0.coords t) ((dat0 (F := Ideal) V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨-, -, -, -, -, -, -, -, -, -, e0, e1⟩ := idx_facts t
  have ht : t.val < 50 := by have h := t.isLt; have hN : cfg0.N = 50 := N_0; omega
  funext j
  obtain ⟨p, q, rfl⟩ : ∃ (p : Fin 2000) (q : Fin 128), j = ix2 p q := ⟨j 0, j 1, eq_ix2 j⟩
  have hp : p.val < 2000 := p.isLt
  refine (pay2_blocks V c t p q ⟨2000 * t.val + p.val, by omega⟩ rfl).trans ?_
  rw [View.read_apply]
  refine (mm_at _ _ _ ⟨2000 * t.val + p.val, by omega⟩ q ?_ ?_).symm
  · show win0_5.index t 0 * 2000 + 1 * p.val = 2000 * t.val + p.val; rw [e0]; omega
  · show win0_5.index t 1 * 128 + 1 * q.val = q.val; rw [e1]; omega

/-- An index of the array is in point `t`'s block iff each coordinate is in the block's range on its axis. -/
theorem mem_blk_5 (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v40_1).slice (win0_5.rect t)).set ↔ _
  rw [View.set_slice_whole, Rect.mem_set_unit]
  exact Iff.rfl

/-- Row `r` of the array is in the block of the point `r / 2000`. -/
theorem cover_5 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, -, -, -, -, e0, e1⟩ := idx_facts t
  refine ⟨t, flush0_5 t, ?_⟩
  rw [mem_blk_5]
  intro a
  match a with
  | ⟨0, _⟩ =>
    show win0_5.index t 0 * 2000 ≤ (i 0).val ∧ (i 0).val < win0_5.index t 0 * 2000 + 2000
    rw [e0, ht]; omega
  | ⟨1, _⟩ =>
    show win0_5.index t 1 * 128 ≤ (i 1).val ∧ (i 1).val < win0_5.index t 1 * 128 + 128
    rw [e1]; omega

end Lin0

/-- The first output array after the region is the linear stage of the region's input arrays: every point writes
    its block of that one function, and the fifty blocks tile the array. -/
theorem final0_4 (c : Dev nD) : (dat0 (F := Ideal) V c).arrAt 4 cfg0.N
    = Cert.Spec.linY (V c main_arg0) (V c main_arg3) (V c main_v39) :=
  (dat0 (F := Ideal) V c).arrAt_eq_of_cover 4 _ (fun t _ => Lin0.flushed_4_eq V c t) Lin0.cover_4

/-- The second output array after the region is the product of that linear stage with the second weight array. -/
theorem final0_5 (c : Dev nD) : (dat0 (F := Ideal) V c).arrAt 5 cfg0.N
    = Cert.Spec.mm (Cert.Spec.linY (V c main_arg0) (V c main_arg3) (V c main_v39)) (V c main_arg5) :=
  (dat0 (F := Ideal) V c).arrAt_eq_of_cover 5 _ (fun t _ => Lin0.flushed_5_eq V c t) Lin0.cover_5

end Cert.KernelIdeal.Regions

end
-- ==== Proof.RegionLin2.lean ====
/-
  Region 2 of the kernel's program, read as a function of whole arrays over the extended reals.
  The region runs one body over a grid of 50 points. Point t reads rows 2000·t … 2000·t + 1999 of the input array
  [100000, 256] and the whole weight and bias arrays, and writes rows 2000·t … 2000·t + 1999 of each output array.
  The body's result is pointwise in the row: entry (p, q) of the first output block is
  ∑ⱼ x(p, j)·w(j, q) + b(0, q), and entry (p, q) of the second is ∑ⱼ y(p, j)·w₂(j, q) with y the first. So every point writes its block of ONE
  function of the input arrays, and since the 50 blocks tile the 100000 rows (row r lies in the block of point
  r / 2000), the array after the region is that function: the linear stage `Cert.Spec.linY` and its product
  `Cert.Spec.mm` with the second weight array.
-/
import proofs.«113657_j36816459661707_1_alg».proof.Proof.Gen.KernelIdeal.Frame
import proofs.«113657_j36816459661707_1_alg».proof.Proof.Spec
import proofs.«113657_j36816459661707_1_alg».proof.Proof.LibRowOps
import Idealize.ShloMosaic.Lib.Pipeline.Value

noncomputable section

namespace Cert.KernelIdeal.Regions

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

namespace Lin2

/-- The zero offsets of a whole-block access, as a constant function. -/
theorem hz : (![0, 0] : Fin 2 → Nat) = fun _ => 0 := funext fun a => by fin_cases a <;> rfl

/-- The kernel's first product contracts the left operand's columns with the right operand's rows. -/
theorem dot1_eq : dot_S2000x256_S256x128_S2000x128_1_0_0_1_n_n
    = ⟨[1], [0], [0], [1], [], [], dot_S2000x256_S256x128_S2000x128_1_0_0_1_n_n_wf⟩ := rfl

/-- So does its second product. -/
theorem dot2_eq : dot_S2000x128_S128x128_S2000x128_1_0_0_1_n_n
    = ⟨[1], [0], [0], [1], [], [], dot_S2000x128_S128x128_S2000x128_1_0_0_1_n_n_wf⟩ := rfl

/-- The first payload at row `p`, column `q` of a block: the sum over the contracted coordinate of the products of the
    entries, plus the bias row's entry `q` (over the extended reals the change of float format is the identity). -/
theorem pay1_apply (x0 : Vec Ideal S2000x256 .f32) (x1 : Vec Ideal S256x128 .f32) (x2 : Vec Ideal S1x128 .f32)
    (p : Fin 2000) (q : Fin 128) :
    k2_pay1 x0 x1 x2 (ix2 p q) = (∑ j : Fin 256, x0 (ix2 p j) * x1 (ix2 j q)) + x2 (ix2 (0 : Fin 1) q) := by
  unfold k2_pay1
  rw [addf_apply, dot1_eq, Cert.KernelBody.matmul_plain_zero_apply, Cert.KernelBody.broadcastTo_row_apply, shapeCast_self, shapeCast_self]
  rfl

/-- The second payload at row `p`, column `q` of a block: row `p` of the first payload times column `q` of the second
    weight block. -/
theorem pay2_apply (x0 : Vec Ideal S2000x256 .f32) (x1 : Vec Ideal S256x128 .f32) (x2 : Vec Ideal S1x128 .f32)
    (x3 : Vec Ideal S128x128 .f32) (p : Fin 2000) (q : Fin 128) :
    k2_pay2 x0 x1 x2 x3 (ix2 p q) = ∑ j : Fin 128, k2_pay1 x0 x1 x2 (ix2 p j) * x3 (ix2 j q) := by
  unfold k2_pay2
  rw [dot2_eq, Cert.KernelBody.matmul_plain_zero_apply]
  rfl

/-- The windows' block indices at every point of the grid, decided: the row-blocked windows are at block row `t`, the
    whole windows at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Entry `x` of the input's block at point `t` is the array's entry at row `2000·t + x₀`, column `x₁`. -/
theorem iblk_0_apply (c : Dev nD) (t : Fin cfg2.N) (x : S2000x256.Idx) (k : S100000x256.Idx)
    (hk0 : (k 0).val = 2000 * t.val + (x 0).val) (hk1 : (k 1).val = (x 1).val) :
    (iblk2 (F := Ideal) V c 0 t : Vec Ideal S2000x256 .f32) x = (V c main_v69 : S100000x256.Idx → EReal) k := by
  obtain ⟨e0, e1, -⟩ := idx_facts t
  unfold iblk2
  rw [View.read_apply]
  show V c main_v69 _ = V c main_v69 _
  congr 1
  funext a
  apply Fin.ext
  match a with
  | ⟨0, _⟩ => show win2_0.index t 0 * 2000 + 1 * (x 0).val = (k 0).val; rw [e0, hk0]; omega
  | ⟨1, _⟩ => show win2_0.index t 1 * 256 + 1 * (x 1).val = (k 1).val; rw [e1, hk1]; omega

/-- The first weight window's block at every point is the whole array. -/
theorem iblk_1_eq (c : Dev nD) (t : Fin cfg2.N) :
    (iblk2 (F := Ideal) V c 1 t : Vec Ideal S256x128 .f32) = (V c main_arg11 : S256x128.Idx → EReal) := by
  obtain ⟨-, -, e0, e1, -⟩ := idx_facts t
  funext x
  unfold iblk2
  rw [View.read_apply]
  show V c main_arg11 _ = V c main_arg11 _
  congr 1
  funext a
  apply Fin.ext
  match a with
  | ⟨0, _⟩ => show win2_1.index t 0 * 256 + 1 * (x 0).val = (x 0).val; rw [e0]; omega
  | ⟨1, _⟩ => show win2_1.index t 1 * 128 + 1 * (x 1).val = (x 1).val; rw [e1]; omega

/-- The bias window's block at every point is the whole row. -/
theorem iblk_2_eq (c : Dev nD) (t : Fin cfg2.N) :
    (iblk2 (F := Ideal) V c 2 t : Vec Ideal S1x128 .f32) = (V c main_v70 : S1x128.Idx → EReal) := by
  obtain ⟨-, -, -, -, e0, e1, -⟩ := idx_facts t
  funext x
  unfold iblk2
  rw [View.read_apply]
  show V c main_v70 _ = V c main_v70 _
  congr 1
  funext a
  apply Fin.ext
  match a with
  | ⟨0, _⟩ => show win2_2.index t 0 * 1 + 1 * (x 0).val = (x 0).val; rw [e0]; omega
  | ⟨1, _⟩ => show win2_2.index t 1 * 128 + 1 * (x 1).val = (x 1).val; rw [e1]; omega

/-- The second weight window's block at every point is the whole array. -/
theorem iblk_3_eq (c : Dev nD) (t : Fin cfg2.N) :
    (iblk2 (F := Ideal) V c 3 t : Vec Ideal S128x128 .f32) = (V c main_arg13 : S128x128.Idx → EReal) := by
  obtain ⟨-, -, -, -, -, -, e0, e1, -⟩ := idx_facts t
  funext x
  unfold iblk2
  rw [View.read_apply]
  show V c main_arg13 _ = V c main_arg13 _
  congr 1
  funext a
  apply Fin.ext
  match a with
  | ⟨0, _⟩ => show win2_3.index t 0 * 128 + 1 * (x 0).val = (x 0).val; rw [e0]; omega
  | ⟨1, _⟩ => show win2_3.index t 1 * 128 + 1 * (x 1).val = (x 1).val; rw [e1]; omega

/-- The linear stage read at an index whose two coordinates are known by value. -/
theorem linY_at {a k n : ℕ} (X : Cert.Spec.Mat a k) (W : Cert.Spec.Mat k n) (B : Cert.Spec.Mat 1 n)
    (i : (⟨2, ![a, n]⟩ : Shape).Idx) (r : Fin a) (s : Fin n) (h0 : (i 0).val = r.val) (h1 : (i 1).val = s.val) :
    Cert.Spec.linY X W B i = Cert.Spec.dotAt X W r s + B (ix2 (0 : Fin 1) s) := by
  have hi : i = ix2 r s := by
    funext d
    apply Fin.ext
    match d with
    | ⟨0, _⟩ => exact h0
    | ⟨1, _⟩ => exact h1
  subst hi
  rfl

/-- The product read at an index whose two coordinates are known by value. -/
theorem mm_at {a k n : ℕ} (X : Cert.Spec.Mat a k) (W : Cert.Spec.Mat k n)
    (i : (⟨2, ![a, n]⟩ : Shape).Idx) (r : Fin a) (s : Fin n) (h0 : (i 0).val = r.val) (h1 : (i 1).val = s.val) :
    Cert.Spec.mm X W i = Cert.Spec.dotAt X W r s := by
  have hi : i = ix2 r s := by
    funext d
    apply Fin.ext
    match d with
    | ⟨0, _⟩ => exact h0
    | ⟨1, _⟩ => exact h1
  subst hi
  rfl

/-- The first payload of the blocks at point `t`, at row `p` and column `q` of the block, is the linear stage of the
    arrays at row `2000·t + p` and column `q`. -/
theorem pay1_blocks (c : Dev nD) (t : Fin cfg2.N) (p : Fin 2000) (q : Fin 128) (r : Fin 100000)
    (hr : r.val = 2000 * t.val + p.val) :
    k2_pay1 (iblk2 (F := Ideal) V c 0 t) (iblk2 V c 1 t) (iblk2 V c 2 t) (ix2 p q)
      = Cert.Spec.dotAt (V c main_v69) (V c main_arg11) r q + (V c main_v70 : S1x128.Idx → EReal) (ix2 (0 : Fin 1) q) := by
  refine (pay1_apply (iblk2 V c 0 t) (iblk2 V c 1 t) (iblk2 V c 2 t) p q).trans ?_
  rw [iblk_1_eq, iblk_2_eq]
  unfold Cert.Spec.dotAt
  congr 1
  refine Finset.sum_congr rfl fun j _ => ?_
  rw [iblk_0_apply V c t (ix2 p j) (ix2 r j) hr rfl]

/-- What point `t` writes back to the first output array is block `t` of the linear stage of the input arrays. -/
theorem flushed_4_eq (c : Dev nD) (t : Fin cfg2.N) :
    (dat2 (F := Ideal) V c).flushed 4 t = ((cfg2.win 4).blk t).view.read (Elt Ideal)
      (Cert.Spec.linY (V c main_v69) (V c main_arg11) (V c main_v70)) := by
  show (cfg2.win 4).cut (grid2.coords t) ((dat2 (F := Ideal) V c).after 4 t) = _
  rw [after2_4]
  unfold out2_4
  rw [View.canon_unit_zero hz]
  simp only [View.ld_unit_zero (S := S2000x256) hz, View.ld_unit_zero (S := S256x128) hz, View.ld_unit_zero (S := S1x128) hz, View.ld_unit_zero (S := S128x128) hz]
  obtain ⟨-, -, -, -, -, -, -, -, e0, e1, -⟩ := idx_facts t
  have ht : t.val < 50 := by have h := t.isLt; have hN : cfg2.N = 50 := N_2; omega
  funext j
  obtain ⟨p, q, rfl⟩ : ∃ (p : Fin 2000) (q : Fin 128), j = ix2 p q := ⟨j 0, j 1, eq_ix2 j⟩
  have hp : p.val < 2000 := p.isLt
  refine (pay1_blocks V c t p q ⟨2000 * t.val + p.val, by omega⟩ rfl).trans ?_
  rw [View.read_apply]
  refine (linY_at _ _ _ _ ⟨2000 * t.val + p.val, by omega⟩ q ?_ ?_).symm
  · show win2_4.index t 0 * 2000 + 1 * p.val = 2000 * t.val + p.val; rw [e0]; omega
  · show win2_4.index t 1 * 128 + 1 * q.val = q.val; rw [e1]; omega

/-- An index of the array is in point `t`'s block iff each coordinate is in the block's range on its axis. -/
theorem mem_blk_4 (t : Fin cfg2.N) (i : S100000x128.Idx) :
    i ∈ ((cfg2.win 4).blk t).view.set ↔ ∀ a : Fin 2, win2_4.index t a * S2000x128.size a ≤ (i a).val
      ∧ (i a).val < win2_4.index t a * S2000x128.size a + S2000x128.size a := by
  show i ∈ ((View.whole main_v71_0).slice (win2_4.rect t)).set ↔ _
  rw [View.set_slice_whole, Rect.mem_set_unit]
  exact Iff.rfl

/-- Row `r` of the array is in the block of the point `r / 2000`. -/
theorem cover_4 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 50 := N_2
  obtain ⟨t, ht⟩ : ∃ t : Fin cfg2.N, t.val = (i 0).val / 2000 := ⟨⟨(i 0).val / 2000, by rw [hN]; omega⟩, rfl⟩
  obtain ⟨-, -, -, -, -, -, -, -, e0, e1, -⟩ := idx_facts t
  refine ⟨t, flush2_4 t, ?_⟩
  rw [mem_blk_4]
  intro a
  match a with
  | ⟨0, _⟩ =>
    show win2_4.index t 0 * 2000 ≤ (i 0).val ∧ (i 0).val < win2_4.index t 0 * 2000 + 2000
    rw [e0, ht]; omega
  | ⟨1, _⟩ =>
    show win2_4.index t 1 * 128 ≤ (i 1).val ∧ (i 1).val < win2_4.index t 1 * 128 + 128
    rw [e1]; omega

/-- The second payload of the blocks at point `t`, at row `p` and column `q` of the block, is the product of the linear
    stage's row `2000·t + p` with column `q` of the second weight array. -/
theorem pay2_blocks (c : Dev nD) (t : Fin cfg2.N) (p : Fin 2000) (q : Fin 128) (r : Fin 100000)
    (hr : r.val = 2000 * t.val + p.val) :
    k2_pay2 (iblk2 (F := Ideal) V c 0 t) (iblk2 V c 1 t) (iblk2 V c 2 t) (iblk2 V c 3 t) (ix2 p q)
      = Cert.Spec.dotAt (Cert.Spec.linY (V c main_v69) (V c main_arg11) (V c main_v70)) (V c main_arg13) r q := by
  refine (pay2_apply (iblk2 V c 0 t) (iblk2 V c 1 t) (iblk2 V c 2 t) (iblk2 V c 3 t) p q).trans ?_
  rw [iblk_3_eq]
  unfold Cert.Spec.dotAt
  refine Finset.sum_congr rfl fun j _ => ?_
  rw [pay1_blocks V c t p j r hr]
  rfl

/-- What point `t` writes back to the second output array is block `t` of the product of the linear stage with the
    second weight array. -/
theorem flushed_5_eq (c : Dev nD) (t : Fin cfg2.N) :
    (dat2 (F := Ideal) V c).flushed 5 t = ((cfg2.win 5).blk t).view.read (Elt Ideal)
      (Cert.Spec.mm (Cert.Spec.linY (V c main_v69) (V c main_arg11) (V c main_v70)) (V c main_arg13)) := by
  show (cfg2.win 5).cut (grid2.coords t) ((dat2 (F := Ideal) V c).after 5 t) = _
  rw [after2_5]
  unfold out2_5
  rw [View.canon_unit_zero hz]
  simp only [View.ld_unit_zero (S := S2000x256) hz, View.ld_unit_zero (S := S256x128) hz, View.ld_unit_zero (S := S1x128) hz, View.ld_unit_zero (S := S128x128) hz]
  obtain ⟨-, -, -, -, -, -, -, -, -, -, e0, e1⟩ := idx_facts t
  have ht : t.val < 50 := by have h := t.isLt; have hN : cfg2.N = 50 := N_2; omega
  funext j
  obtain ⟨p, q, rfl⟩ : ∃ (p : Fin 2000) (q : Fin 128), j = ix2 p q := ⟨j 0, j 1, eq_ix2 j⟩
  have hp : p.val < 2000 := p.isLt
  refine (pay2_blocks V c t p q ⟨2000 * t.val + p.val, by omega⟩ rfl).trans ?_
  rw [View.read_apply]
  refine (mm_at _ _ _ ⟨2000 * t.val + p.val, by omega⟩ q ?_ ?_).symm
  · show win2_5.index t 0 * 2000 + 1 * p.val = 2000 * t.val + p.val; rw [e0]; omega
  · show win2_5.index t 1 * 128 + 1 * q.val = q.val; rw [e1]; omega

/-- An index of the array is in point `t`'s block iff each coordinate is in the block's range on its axis. -/
theorem mem_blk_5 (t : Fin cfg2.N) (i : S100000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v71_1).slice (win2_5.rect t)).set ↔ _
  rw [View.set_slice_whole, Rect.mem_set_unit]
  exact Iff.rfl

/-- Row `r` of the array is in the block of the point `r / 2000`. -/
theorem cover_5 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 50 := N_2
  obtain ⟨t, ht⟩ : ∃ t : Fin cfg2.N, t.val = (i 0).val / 2000 := ⟨⟨(i 0).val / 2000, by rw [hN]; omega⟩, rfl⟩
  obtain ⟨-, -, -, -, -, -, -, -, -, -, e0, e1⟩ := idx_facts t
  refine ⟨t, flush2_5 t, ?_⟩
  rw [mem_blk_5]
  intro a
  match a with
  | ⟨0, _⟩ =>
    show win2_5.index t 0 * 2000 ≤ (i 0).val ∧ (i 0).val < win2_5.index t 0 * 2000 + 2000
    rw [e0, ht]; omega
  | ⟨1, _⟩ =>
    show win2_5.index t 1 * 128 ≤ (i 1).val ∧ (i 1).val < win2_5.index t 1 * 128 + 128
    rw [e1]; omega

end Lin2

/-- The first output array after the region is the linear stage of the region's input arrays: every point writes
    its block of that one function, and the fifty blocks tile the array. -/
theorem final2_4 (c : Dev nD) : (dat2 (F := Ideal) V c).arrAt 4 cfg2.N
    = Cert.Spec.linY (V c main_v69) (V c main_arg11) (V c main_v70) :=
  (dat2 (F := Ideal) V c).arrAt_eq_of_cover 4 _ (fun t _ => Lin2.flushed_4_eq V c t) Lin2.cover_4

/-- The second output array after the region is the product of that linear stage with the second weight array. -/
theorem final2_5 (c : Dev nD) : (dat2 (F := Ideal) V c).arrAt 5 cfg2.N
    = Cert.Spec.mm (Cert.Spec.linY (V c main_v69) (V c main_arg11) (V c main_v70)) (V c main_arg13) :=
  (dat2 (F := Ideal) V c).arrAt_eq_of_cover 5 _ (fun t _ => Lin2.flushed_5_eq V c t) Lin2.cover_5

end Cert.KernelIdeal.Regions

end
-- ==== Proof.RegionLin4.lean ====
/-
  Region 4 of the kernel's program, read as a function of whole arrays over the extended reals.
  The region runs one body over a grid of 50 points. Point t reads rows 2000·t … 2000·t + 1999 of the input array
  [100000, 256] and the whole weight and bias arrays, and writes rows 2000·t … 2000·t + 1999 of the output array.
  The body's result is pointwise in the row: entry (p, q) of the output block is
  ∑ⱼ x(p, j)·w(j, q) + b(0, q). So every point writes its block of ONE
  function of the input arrays, and since the 50 blocks tile the 100000 rows (row r lies in the block of point
  r / 2000), the array after the region is that function: the linear stage `Cert.Spec.linY`.
-/
import proofs.«113657_j36816459661707_1_alg».proof.Proof.Gen.KernelIdeal.Frame
import proofs.«113657_j36816459661707_1_alg».proof.Proof.Spec
import proofs.«113657_j36816459661707_1_alg».proof.Proof.LibRowOps
import Idealize.ShloMosaic.Lib.Pipeline.Value

noncomputable section

namespace Cert.KernelIdeal.Regions

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

namespace Lin4

/-- The zero offsets of a whole-block access, as a constant function. -/
theorem hz : (![0, 0] : Fin 2 → Nat) = fun _ => 0 := funext fun a => by fin_cases a <;> rfl

/-- The kernel's first product contracts the left operand's columns with the right operand's rows. -/
theorem dot1_eq : dot_S2000x256_S256x16_S2000x16_1_0_0_1_n_n
    = ⟨[1], [0], [0], [1], [], [], dot_S2000x256_S256x16_S2000x16_1_0_0_1_n_n_wf⟩ := rfl

/-- The first payload at row `p`, column `q` of a block: the sum over the contracted coordinate of the products of the
    entries, plus the bias row's entry `q` (over the extended reals the change of float format is the identity). -/
theorem pay1_apply (x0 : Vec Ideal S2000x256 .f32) (x1 : Vec Ideal S256x16 .f32) (x2 : Vec Ideal S1x16 .f32)
    (p : Fin 2000) (q : Fin 16) :
    k4_pay1 x0 x1 x2 (ix2 p q) = (∑ j : Fin 256, x0 (ix2 p j) * x1 (ix2 j q)) + x2 (ix2 (0 : Fin 1) q) := by
  unfold k4_pay1
  rw [addf_apply, dot1_eq, Cert.KernelBody.matmul_plain_zero_apply, Cert.KernelBody.broadcastTo_row_apply, shapeCast_self, shapeCast_self]
  rfl

/-- The windows' block indices at every point of the grid, decided: the row-blocked windows are at block row `t`, the
    whole windows at block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Entry `x` of the input's block at point `t` is the array's entry at row `2000·t + x₀`, column `x₁`. -/
theorem iblk_0_apply (c : Dev nD) (t : Fin cfg4.N) (x : S2000x256.Idx) (k : S100000x256.Idx)
    (hk0 : (k 0).val = 2000 * t.val + (x 0).val) (hk1 : (k 1).val = (x 1).val) :
    (iblk4 (F := Ideal) V c 0 t : Vec Ideal S2000x256 .f32) x = (V c main_v100 : S100000x256.Idx → EReal) k := by
  obtain ⟨e0, e1, -⟩ := idx_facts t
  unfold iblk4
  rw [View.read_apply]
  show V c main_v100 _ = V c main_v100 _
  congr 1
  funext a
  apply Fin.ext
  match a with
  | ⟨0, _⟩ => show win4_0.index t 0 * 2000 + 1 * (x 0).val = (k 0).val; rw [e0, hk0]; omega
  | ⟨1, _⟩ => show win4_0.index t 1 * 256 + 1 * (x 1).val = (k 1).val; rw [e1, hk1]; omega

/-- The first weight window's block at every point is the whole array. -/
theorem iblk_1_eq (c : Dev nD) (t : Fin cfg4.N) :
    (iblk4 (F := Ideal) V c 1 t : Vec Ideal S256x16 .f32) = (V c main_arg19 : S256x16.Idx → EReal) := by
  obtain ⟨-, -, e0, e1, -⟩ := idx_facts t
  funext x
  unfold iblk4
  rw [View.read_apply]
  show V c main_arg19 _ = V c main_arg19 _
  congr 1
  funext a
  apply Fin.ext
  match a with
  | ⟨0, _⟩ => show win4_1.index t 0 * 256 + 1 * (x 0).val = (x 0).val; rw [e0]; omega
  | ⟨1, _⟩ => show win4_1.index t 1 * 16 + 1 * (x 1).val = (x 1).val; rw [e1]; omega

/-- The bias window's block at every point is the whole row. -/
theorem iblk_2_eq (c : Dev nD) (t : Fin cfg4.N) :
    (iblk4 (F := Ideal) V c 2 t : Vec Ideal S1x16 .f32) = (V c main_v101 : S1x16.Idx → EReal) := by
  obtain ⟨-, -, -, -, e0, e1, -⟩ := idx_facts t
  funext x
  unfold iblk4
  rw [View.read_apply]
  show V c main_v101 _ = V c main_v101 _
  congr 1
  funext a
  apply Fin.ext
  match a with
  | ⟨0, _⟩ => show win4_2.index t 0 * 1 + 1 * (x 0).val = (x 0).val; rw [e0]; omega
  | ⟨1, _⟩ => show win4_2.index t 1 * 16 + 1 * (x 1).val = (x 1).val; rw [e1]; omega

/-- The linear stage read at an index whose two coordinates are known by value. -/
theorem linY_at {a k n : ℕ} (X : Cert.Spec.Mat a k) (W : Cert.Spec.Mat k n) (B : Cert.Spec.Mat 1 n)
    (i : (⟨2, ![a, n]⟩ : Shape).Idx) (r : Fin a) (s : Fin n) (h0 : (i 0).val = r.val) (h1 : (i 1).val = s.val) :
    Cert.Spec.linY X W B i = Cert.Spec.dotAt X W r s + B (ix2 (0 : Fin 1) s) := by
  have hi : i = ix2 r s := by
    funext d
    apply Fin.ext
    match d with
    | ⟨0, _⟩ => exact h0
    | ⟨1, _⟩ => exact h1
  subst hi
  rfl

/-- The first payload of the blocks at point `t`, at row `p` and column `q` of the block, is the linear stage of the
    arrays at row `2000·t + p` and column `q`. -/
theorem pay1_blocks (c : Dev nD) (t : Fin cfg4.N) (p : Fin 2000) (q : Fin 16) (r : Fin 100000)
    (hr : r.val = 2000 * t.val + p.val) :
    k4_pay1 (iblk4 (F := Ideal) V c 0 t) (iblk4 V c 1 t) (iblk4 V c 2 t) (ix2 p q)
      = Cert.Spec.dotAt (V c main_v100) (V c main_arg19) r q + (V c main_v101 : S1x16.Idx → EReal) (ix2 (0 : Fin 1) q) := by
  refine (pay1_apply (iblk4 V c 0 t) (iblk4 V c 1 t) (iblk4 V c 2 t) p q).trans ?_
  rw [iblk_1_eq, iblk_2_eq]
  unfold Cert.Spec.dotAt
  congr 1
  refine Finset.sum_congr rfl fun j _ => ?_
  rw [iblk_0_apply V c t (ix2 p j) (ix2 r j) hr rfl]

/-- What point `t` writes back to the first output array is block `t` of the linear stage of the input arrays. -/
theorem flushed_3_eq (c : Dev nD) (t : Fin cfg4.N) :
    (dat4 (F := Ideal) V c).flushed 3 t = ((cfg4.win 3).blk t).view.read (Elt Ideal)
      (Cert.Spec.linY (V c main_v100) (V c main_arg19) (V c main_v101)) := by
  show (cfg4.win 3).cut (grid4.coords t) ((dat4 (F := Ideal) V c).after 3 t) = _
  rw [after4_3]
  unfold out4_3
  rw [View.canon_unit_zero hz]
  simp only [View.ld_unit_zero (S := S2000x256) hz, View.ld_unit_zero (S := S256x16) hz, View.ld_unit_zero (S := S1x16) hz]
  obtain ⟨-, -, -, -, -, -, e0, e1⟩ := idx_facts t
  have ht : t.val < 50 := by have h := t.isLt; have hN : cfg4.N = 50 := N_4; omega
  funext j
  obtain ⟨p, q, rfl⟩ : ∃ (p : Fin 2000) (q : Fin 16), j = ix2 p q := ⟨j 0, j 1, eq_ix2 j⟩
  have hp : p.val < 2000 := p.isLt
  refine (pay1_blocks V c t p q ⟨2000 * t.val + p.val, by omega⟩ rfl).trans ?_
  rw [View.read_apply]
  refine (linY_at _ _ _ _ ⟨2000 * t.val + p.val, by omega⟩ q ?_ ?_).symm
  · show win4_3.index t 0 * 2000 + 1 * p.val = 2000 * t.val + p.val; rw [e0]; omega
  · show win4_3.index t 1 * 16 + 1 * q.val = q.val; rw [e1]; omega

/-- An index of the array is in point `t`'s block iff each coordinate is in the block's range on its axis. -/
theorem mem_blk_3 (t : Fin cfg4.N) (i : S100000x16.Idx) :
    i ∈ ((cfg4.win 3).blk t).view.set ↔ ∀ a : Fin 2, win4_3.index t a * S2000x16.size a ≤ (i a).val
      ∧ (i a).val < win4_3.index t a * S2000x16.size a + S2000x16.size a := by
  show i ∈ ((View.whole main_v102).slice (win4_3.rect t)).set ↔ _
  rw [View.set_slice_whole, Rect.mem_set_unit]
  exact Iff.rfl

/-- Row `r` of the array is in the block of the point `r / 2000`. -/
theorem cover_3 (i : S100000x16.Idx) :
    ∃ t : Fin cfg4.N, (cfg4.win 3).flush t = true ∧ i ∈ ((cfg4.win 3).blk t).view.set := by
  have hi0 : (i 0).val < 100000 := (i 0).isLt
  have hi1 : (i 1).val < 16 := (i 1).isLt
  have hN : cfg4.N = 50 := N_4
  obtain ⟨t, ht⟩ : ∃ t : Fin cfg4.N, t.val = (i 0).val / 2000 := ⟨⟨(i 0).val / 2000, by rw [hN]; omega⟩, rfl⟩
  obtain ⟨-, -, -, -, -, -, e0, e1⟩ := idx_facts t
  refine ⟨t, flush4_3 t, ?_⟩
  rw [mem_blk_3]
  intro a
  match a with
  | ⟨0, _⟩ =>
    show win4_3.index t 0 * 2000 ≤ (i 0).val ∧ (i 0).val < win4_3.index t 0 * 2000 + 2000
    rw [e0, ht]; omega
  | ⟨1, _⟩ =>
    show win4_3.index t 1 * 16 ≤ (i 1).val ∧ (i 1).val < win4_3.index t 1 * 16 + 16
    rw [e1]; omega

end Lin4

/-- The output array after the region is the linear stage of the region's input arrays: every point writes
    its block of that one function, and the fifty blocks tile the array. -/
theorem final4_3 (c : Dev nD) : (dat4 (F := Ideal) V c).arrAt 3 cfg4.N
    = Cert.Spec.linY (V c main_v100) (V c main_arg19) (V c main_v101) :=
  (dat4 (F := Ideal) V c).arrAt_eq_of_cover 3 _ (fun t _ => Lin4.flushed_3_eq V c t) Lin4.cover_3

end Cert.KernelIdeal.Regions

end
-- ==== Proof.LibColOps.lean ====
/-
  Column and row forms of rank-2 arrays read at an index, for any element type and any extents, and the sum along the
  second axis read at a row: a vector of length `a` cast to a column [a, 1]; a column [a, 1] broadcast along the rows of
  [a, b]; a kernel's lane sum of an [a, b] array into a vector of length `a`, and the host's sum of the same kind from an
  initial value; the host's placements of a vector as a column, of a vector as a row, of a column along every row and of
  a row down every column.
-/
import Idealize.ShloMosaic.Lib.Pipeline.Value
import Idealize.ShloMosaic.Lib.ValueIdx
import Idealize.ShloMosaic.Lib.IdealHost
import Idealize.ShloMosaic.PureOps.Ideal.Laws

noncomputable section

namespace Cert.LibColOps

open Idealize.ShloMosaic Idealize.ShloMosaic.ValueIdx

variable {α : Type} {a b : ℕ}

/-- Entry `(p, 0)` of the column cast of a vector is the vector's entry `p`: both sit at row-major position `p`. -/
theorem shapeCast_col_apply (x : (⟨1, ![a]⟩ : Shape).Idx → α) (h : (⟨1, ![a]⟩ : Shape).ShapeCasts ⟨2, ![a, 1]⟩) (p : Fin a) :
    shapeCast ⟨2, ![a, 1]⟩ x h (ix2 p (0 : Fin 1)) = x (ix1 p) :=
  shapeCast_apply x h (ix2 p (0 : Fin 1)) (ix1 p) (by
    rw [Shape.rowMajor_val_one, Shape.rowMajor_val_two]
    show p.val = p.val * 1 + 0
    omega)

/-- Entry `(p, q)` of a column broadcast along the rows is the column's entry `(p, 0)`. -/
theorem broadcastTo_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p (0 : Fin 1)) :=
  broadcastTo_apply x h (ix2 p q) (ix2 p (0 : Fin 1)) (fun c => by
    match c with
    | ⟨0, _⟩ =>
      show p.val = if a = 1 then 0 else p.val
      have := p.isLt
      split <;> omega
    | ⟨1, _⟩ => rfl)

/-- The index a sum along axis 1 reads at row `p` and summation coordinate `k` is `(p, k)`. -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- A kernel's lane sum of an [a, b] array at row `p` is the sum of the row's entries. -/
theorem multiReduction_row {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (p : Fin a) :
    multiReduction .add [(1 : Fin 2)] ⟨1, ![a]⟩ src acc h hφ hacc (ix1 p) = ∑ k : Fin b, src (ix2 p k) := by
  rw [Ideal.multiReduction_add_single]
  exact Finset.sum_congr rfl fun k _ => congrArg src (lift_row h p k)

/-- The host's sum along axis 1 of an [a, b] array at row `p`: the initial value plus the sum of the row's entries. -/
theorem hostReduceAdd_row {φ : FTy} (x : FVec Ideal ⟨2, ![a, b]⟩ φ) (init : (⟨0, ![]⟩ : Shape).Idx → Ideal φ)
    (h' : (⟨2, ![a, b]⟩ : Shape).ReducesTo [(1 : Fin 2)] ⟨1, ![a]⟩) (h : (⟨2, ![a, b]⟩ : Shape).Reduces [(1 : Fin 2)] ⟨1, ![a]⟩)
    (hu : 0 < (⟨0, ![]⟩ : Shape).numel) (p : Fin a) :
    Host.reduceAdd x init h' hu (ix1 p) = init ix0 + ∑ k : Fin b, x (ix2 p k) := by
  rw [hostReduceAdd_apply, Ideal.hostReduceAdd_single h' h]
  congr 1
  · exact congrArg init (funext fun c => c.elim0)
  · exact Finset.sum_congr rfl fun k _ => congrArg x (lift_row h p k)

/-- The host places a vector as a column: entry `(p, 0)` is the vector's entry `p`. -/
theorem bcastCol_apply (x : (⟨1, ![a]⟩ : Shape).Idx → α) (h : (⟨1, ![a]⟩ : Shape).BroadcastsInDim ⟨2, ![a, 1]⟩ ![0]) (p : Fin a) :
    broadcastInDim ⟨2, ![a, 1]⟩ ![0] h x (ix2 p (0 : Fin 1)) = x (ix1 p) :=
  broadcastInDim_apply ![0] h x (ix2 p (0 : Fin 1)) (ix1 p) (fun c => by
    match c with
    | ⟨0, _⟩ =>
      show p.val = if a = 1 then 0 else p.val
      have := p.isLt
      split <;> omega)

/-- The host places a vector as a row: entry `(0, q)` is the vector's entry `q`. -/
theorem bcastRow_apply (x : (⟨1, ![b]⟩ : Shape).Idx → α) (h : (⟨1, ![b]⟩ : Shape).BroadcastsInDim ⟨2, ![1, b]⟩ ![1]) (q : Fin b) :
    broadcastInDim ⟨2, ![1, b]⟩ ![1] h x (ix2 (0 : Fin 1) q) = x (ix1 q) :=
  broadcastInDim_apply ![1] h x (ix2 (0 : Fin 1) q) (ix1 q) (fun c => by
    match c with
    | ⟨0, _⟩ =>
      show q.val = if b = 1 then 0 else q.val
      have := q.isLt
      split <;> omega)

/-- The host lays a column along every row: entry `(p, q)` is the column's entry `(p, 0)`. -/
theorem bcastCols_apply (x : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h x (ix2 p q) = x (ix2 p (0 : Fin 1)) :=
  broadcastInDim_apply ![0, 1] h x (ix2 p q) (ix2 p (0 : Fin 1)) (fun c => by
    match c with
    | ⟨0, _⟩ =>
      show p.val = if a = 1 then 0 else p.val
      have := p.isLt
      split <;> omega
    | ⟨1, _⟩ => rfl)

/-- The host lays a row down every column: entry `(p, q)` is the row's entry `(0, q)`. -/
theorem bcastRows_apply (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) :=
  broadcastInDim_apply ![0, 1] h x (ix2 p q) (ix2 (0 : Fin 1) q) (fun c => by
    match c with
    | ⟨0, _⟩ => rfl
    | ⟨1, _⟩ =>
      show q.val = if b = 1 then 0 else q.val
      have := q.isLt
      split <;> omega)

end Cert.LibColOps

end
-- ==== Proof.RegionCell1.lean ====
/-
  The cell's closing stage as one function of whole arrays (region 1).

  Each of the 50 grid points handles 2000 consecutive rows: it reads rows 2000·t … 2000·t + 1999 of the three
  128-wide inputs and of the count column, and all of the three weight matrices and the two bias rows, and writes
  the same rows of the 256-wide output. Its left 128 columns are elu(max(agg + (y·V + b), 0)), its right 128 columns
  elu(leaky((s / cnt)·Wl + bl + y·Wr)). Over the extended reals the narrowing of a matrix product's operands is the
  identity, so every entry of the block is the entry of the whole-array cell function at the block's row: the 50 blocks
  tile the output, hence the output array after the region is that function of the arrays the region finds.
-/
import proofs.«113657_j36816459661707_1_alg».proof.Proof.Gen.KernelIdeal.Frame
import proofs.«113657_j36816459661707_1_alg».proof.Proof.Spec
import proofs.«113657_j36816459661707_1_alg».proof.Proof.LibRowOps
import proofs.«113657_j36816459661707_1_alg».proof.Proof.LibColOps
import Idealize.ShloMosaic.Lib.Pipeline.Value
import Idealize.ShloMosaic.Lib.ValueIdx

noncomputable section

namespace Cert.KernelIdeal.Regions.Cell1

open Idealize.ShloMosaic Idealize.ShloMosaic.TcCoe Idealize.SL.Sem Idealize.ShloMosaic.ValueIdx
open Idealize.ShloMosaic.Pipeline (Dat)
open Cert.KernelIdeal Cert.KernelIdeal.Gen

/-! ## The payloads at an index -/

/-- The product of a 2000×128 block by a 128×128 matrix, accumulated into zero, at (p, q): the sum over the contracted
    coordinate of the products of the entries. -/
theorem mm_blk_apply {φ₁ φ₂ : FTy} (A : FVec Ideal S2000x128 φ₁) (B : FVec Ideal S128x128 φ₂) (p : Fin 2000) (q : Fin 128) :
    matmul dot_S2000x128_S128x128_S2000x128_1_0_0_1_n_n none A B (constant (F := Ideal) S2000x128 .f32 0x00000000#32) (ix2 p q)
      = ∑ j : Fin 128, A (ix2 p j) * B (ix2 j q) :=
  Cert.KernelBody.matmul_plain_zero_apply dot_S2000x128_S128x128_S2000x128_1_0_0_1_n_n_wf none A B p q

/-- A bias row laid down the 2000 rows of a block, at (p, q): the row's entry q. -/
theorem row_blk_apply {α : Type} (b : S1x128.Idx → α) (p : Fin 2000) (q : Fin 128) :
    broadcastTo S2000x128 b broadcasts_S1x128_S2000x128 (ix2 p q) = b (ix2 (0 : Fin 1) q) :=
  Cert.KernelBody.broadcastTo_row_apply b broadcasts_S1x128_S2000x128 p q

/-- A count column laid along the 128 columns of a block, at (p, q): the column's entry p. -/
theorem col_blk_apply {α : Type} (cnt : S2000x1.Idx → α) (p : Fin 2000) (q : Fin 128) :
    broadcastTo S2000x128 cnt broadcasts_S2000x1_S2000x128 (ix2 p q) = cnt (ix2 p (0 : Fin 1)) :=
  Cert.LibColOps.broadcastTo_col_apply cnt broadcasts_S2000x1_S2000x128 p q

/-- The left half before elu, at (p, q): max(agg + (y·V + b), 0). -/
theorem pay4_apply (x0 x1 : Vec Ideal S2000x128 .f32) (x4 : Vec Ideal S128x128 .f32) (x5 : Vec Ideal S1x128 .f32)
    (p : Fin 2000) (q : Fin 128) :
    k1_pay4 (F := Ideal) x0 x1 x4 x5 (ix2 p q) = Cert.Spec.h1At x0 x1 x4 x5 p q := by
  unfold k1_pay4 k1_pay3 Cert.Spec.h1At Cert.Spec.dotAt Cert.Spec.z0
  simp only [maximumf_apply, addf_apply, broadcast_apply, mm_blk_apply, shapeCast_self, row_blk_apply, truncf_apply]
  rfl

/-- The right half before the leaky step, at (p, q): ((s / cnt)·Wl + bl) + y·Wr. -/
theorem pay5_apply (x0 x2 : Vec Ideal S2000x128 .f32) (x3 : Vec Ideal S2000x1 .f32) (x6 x8 : Vec Ideal S128x128 .f32)
    (x7 : Vec Ideal S1x128 .f32) (p : Fin 2000) (q : Fin 128) :
    k1_pay5 (F := Ideal) x0 x2 x3 x6 x8 x7 (ix2 p q)
      = (Cert.Spec.dotAt (Cert.Spec.meanS x2 x3) x6 p q + x7 (ix2 (0 : Fin 1) q)) + Cert.Spec.dotAt x0 x8 p q := by
  unfold k1_pay5 k1_pay3 Cert.Spec.dotAt
  simp only [addf_apply, divf_apply, mm_blk_apply, shapeCast_self, row_blk_apply, col_blk_apply, truncf_apply]
  rfl

/-- elu of a block, at an index. -/
theorem pay1_apply (v : FVec Ideal S2000x128 .f32) (p : Fin 2000) (q : Fin 128) :
    k1_pay1 (F := Ideal) v (ix2 p q) = Cert.Spec.eluK (v (ix2 p q)) := rfl

/-- The leaky step on a given sign test, then elu, at an index. -/
theorem pay2_apply (v : FVec Ideal S2000x128 .f32) (cnd : IVec S2000x128 1) (sl : Ideal .f32) (p : Fin 2000) (q : Fin 128) :
    k1_pay2 (F := Ideal) v cnd sl (ix2 p q)
      = Cert.Spec.eluK (Scalar.select (cnd (ix2 p q)) (v (ix2 p q)) (sl * v (ix2 p q))) := rfl

/-- The sign test of the right half, at an index. -/
theorem pay6_apply (x0 x2 : Vec Ideal S2000x128 .f32) (x3 : Vec Ideal S2000x1 .f32) (x6 x8 : Vec Ideal S128x128 .f32)
    (x7 : Vec Ideal S1x128 .f32) (p : Fin 2000) (q : Fin 128) :
    k1_pay6 (F := Ideal) x0 x2 x3 x6 x8 x7 (ix2 p q)
      = Ideal.cmp .oge (k1_pay5 (F := Ideal) x0 x2 x3 x6 x8 x7 (ix2 p q)) Cert.Spec.z0 := rfl

/-- The left store's payload at (p, q). -/
theorem left_apply (x0 x1 : Vec Ideal S2000x128 .f32) (x4 : Vec Ideal S128x128 .f32) (x5 : Vec Ideal S1x128 .f32)
    (p : Fin 2000) (q : Fin 128) :
    k1_pay1 (F := Ideal) (k1_pay4 x0 x1 x4 x5) (ix2 p q) = Cert.Spec.eluK (Cert.Spec.h1At x0 x1 x4 x5 p q) := by
  rw [pay1_apply, pay4_apply]

/-- The right store's payload at (p, q). -/
theorem right_apply (x0 x2 : Vec Ideal S2000x128 .f32) (x3 : Vec Ideal S2000x1 .f32) (x6 x8 : Vec Ideal S128x128 .f32)
    (x7 : Vec Ideal S1x128 .f32) (p : Fin 2000) (q : Fin 128) :
    k1_pay2 (F := Ideal) (k1_pay5 x0 x2 x3 x6 x8 x7) (k1_pay6 x0 x2 x3 x6 x8 x7) (Scalar.ofBits .f32 0x3C23D70A#32) (ix2 p q)
      = Cert.Spec.eluK (Cert.Spec.h2At x0 x2 x3 x6 x7 x8 p q) := by
  rw [pay2_apply, pay6_apply, pay5_apply]
  rfl

/-! ## The output block as one function of the input blocks -/

theorem hz : (![0, 0] : Fin 2 → Nat) = fun _ => 0 := funext fun a => by fin_cases a <;> rfl

/-- Column q of the left half is column q of the 256-wide cell. -/
theorem cellAt_left {a : ℕ} (y agg s : Cert.Spec.Mat a 128) (cnt : Cert.Spec.Mat a 1) (av : Cert.Spec.Mat 128 128)
    (ab : Cert.Spec.Mat 1 128) (wl : Cert.Spec.Mat 128 128) (bl : Cert.Spec.Mat 1 128) (wr : Cert.Spec.Mat 128 128)
    (r : Fin a) (q : Fin 128) :
    Cert.Spec.cellAt y agg s cnt av ab wl bl wr r (⟨q.val, by omega⟩ : Fin 256)
      = Cert.Spec.eluK (Cert.Spec.h1At y agg av ab r q) := by
  unfold Cert.Spec.cellAt
  rw [dif_pos (show ((⟨q.val, by omega⟩ : Fin 256)).val < 128 from q.isLt)]

/-- Column q of the right half is column 128 + q of the 256-wide cell. -/
theorem cellAt_right {a : ℕ} (y agg s : Cert.Spec.Mat a 128) (cnt : Cert.Spec.Mat a 1) (av : Cert.Spec.Mat 128 128)
    (ab : Cert.Spec.Mat 1 128) (wl : Cert.Spec.Mat 128 128) (bl : Cert.Spec.Mat 1 128) (wr : Cert.Spec.Mat 128 128)
    (r : Fin a) (q : Fin 128) :
    Cert.Spec.cellAt y agg s cnt av ab wl bl wr r (⟨128 + q.val, by omega⟩ : Fin 256)
      = Cert.Spec.eluK (Cert.Spec.h2At y s cnt wl bl wr r q) := by
  unfold Cert.Spec.cellAt
  rw [dif_neg (show ¬ ((⟨128 + q.val, by omega⟩ : Fin 256)).val < 128 from by show ¬ (128 + q.val < 128); omega)]
  exact congrArg (fun k => Cert.Spec.eluK (Cert.Spec.h2At y s cnt wl bl wr r k))
    (Fin.ext (show 128 + q.val - 128 = q.val by omega))

/-- Entry (p, q) of the left store's rectangle is entry (p, q) of the block. -/
theorem emb_left (p : Fin 2000) (q : Fin 128) : r1_4.emb (ix2 p q) = ix2 p (⟨q.val, by omega⟩ : Fin 256) := by
  funext a; apply Fin.ext
  match a with
  | ⟨0, _⟩ => show 0 + 1 * p.val = p.val; omega
  | ⟨1, _⟩ => show 0 + 1 * q.val = q.val; omega

/-- Entry (p, q) of the right store's rectangle is entry (p, 128 + q) of the block. -/
theorem emb_right (p : Fin 2000) (q : Fin 128) : r1_5.emb (ix2 p q) = ix2 p (⟨128 + q.val, by omega⟩ : Fin 256) := by
  funext a; apply Fin.ext
  match a with
  | ⟨0, _⟩ => show 0 + 1 * p.val = p.val; omega
  | ⟨1, _⟩ => show 128 + 1 * q.val = 128 + q.val; omega

/-- What the body leaves in the output block is the cell function of its nine input blocks: each of the two stores is
    that function through its rectangle, and the two rectangles tile the block. -/
theorem out_eq (x0 x1 x2 : Vec Ideal S2000x128 .f32) (x3 : Vec Ideal S2000x1 .f32) (x4 : Vec Ideal S128x128 .f32)
    (x5 : Vec Ideal S1x128 .f32) (x6 : Vec Ideal S128x128 .f32) (x7 : Vec Ideal S1x128 .f32) (x8 : Vec Ideal S128x128 .f32) :
    out1_9 (F := Ideal) x0 x1 x2 x3 x4 x5 x6 x7 x8 = Cert.Spec.cellOut x0 x1 x2 x3 x4 x5 x6 x7 x8 := by
  funext y
  unfold out1_9
  simp only [View.ld_unit_zero (S := S2000x128) hz, View.ld_unit_zero (S := S2000x1) hz,
    View.ld_unit_zero (S := S128x128) hz, View.ld_unit_zero (S := S1x128) hz]
  refine View.canon_apply_of_pieces (Val := Elt Ideal) (S := S2000x256) (e := .f32)
    (Cert.Spec.cellOut x0 x1 x2 x3 x4 x5 x6 x7 x8) _ ?_ y (cover1_9 _ _ y)
  intro pc hpc
  simp only [List.mem_cons, List.not_mem_nil, or_false] at hpc
  rcases hpc with rfl | rfl
  · intro x
    obtain ⟨p, q, rfl⟩ : ∃ (p : Fin 2000) (q : Fin 128), x = ix2 p q := ⟨x 0, x 1, eq_ix2 x⟩
    show k1_pay2 (F := Ideal) (k1_pay5 x0 x2 x3 x6 x8 x7) (k1_pay6 x0 x2 x3 x6 x8 x7) (Scalar.ofBits .f32 0x3C23D70A#32) (ix2 p q)
      = Cert.Spec.cellOut x0 x1 x2 x3 x4 x5 x6 x7 x8 (r1_5.emb (ix2 p q))
    rw [emb_right, Cert.Spec.cellOut_apply, cellAt_right, right_apply]
  · intro x
    obtain ⟨p, q, rfl⟩ : ∃ (p : Fin 2000) (q : Fin 128), x = ix2 p q := ⟨x 0, x 1, eq_ix2 x⟩
    show k1_pay1 (F := Ideal) (k1_pay4 x0 x1 x4 x5) (ix2 p q)
      = Cert.Spec.cellOut x0 x1 x2 x3 x4 x5 x6 x7 x8 (r1_4.emb (ix2 p q))
    rw [emb_left, Cert.Spec.cellOut_apply, cellAt_left, left_apply]

/-! ## From blocks to the array -/

/-- The cell function of row-restricted inputs is the cell function of the inputs at the restricted rows: every entry
    of row p of the output reads only row ρ p of the four row-indexed inputs, and all of the five others. -/
theorem cellAt_rows {a b : ℕ} (ρ : Fin b → Fin a) (Y AGG S : Cert.Spec.Mat a 128) (CNT : Cert.Spec.Mat a 1)
    (AV : Cert.Spec.Mat 128 128) (AB : Cert.Spec.Mat 1 128) (WL : Cert.Spec.Mat 128 128) (BL : Cert.Spec.Mat 1 128)
    (WR : Cert.Spec.Mat 128 128)
    (y agg s : Cert.Spec.Mat b 128) (cnt : Cert.Spec.Mat b 1) (av : Cert.Spec.Mat 128 128) (ab : Cert.Spec.Mat 1 128)
    (wl : Cert.Spec.Mat 128 128) (bl : Cert.Spec.Mat 1 128) (wr : Cert.Spec.Mat 128 128)
    (hy : ∀ p q, y (ix2 p q) = Y (ix2 (ρ p) q)) (hagg : ∀ p q, agg (ix2 p q) = AGG (ix2 (ρ p) q))
    (hs : ∀ p q, s (ix2 p q) = S (ix2 (ρ p) q)) (hcnt : ∀ p, cnt (ix2 p (0 : Fin 1)) = CNT (ix2 (ρ p) (0 : Fin 1)))
    (hav : av = AV) (hab : ab = AB) (hwl : wl = WL) (hbl : bl = BL) (hwr : wr = WR) (p : Fin b) (q : Fin 256) :
    Cert.Spec.cellAt y agg s cnt av ab wl bl wr p q = Cert.Spec.cellAt Y AGG S CNT AV AB WL BL WR (ρ p) q := by
  subst hav hab hwl hbl hwr
  unfold Cert.Spec.cellAt Cert.Spec.h1At Cert.Spec.h2At Cert.Spec.dotAt
  simp only [Cert.Spec.meanS_apply, hy, hagg, hs, hcnt]

variable (V : (c : Dev nD) → (b : Ref sig .tc) → Buf (Elt Ideal) ((c : Thread nD τ).loc b))

/-- The printed index maps, decided over the grid: each row-blocked window sits at the block row of the point, at
    block column 0; the whole windows sit at block (0, 0). -/
theorem idx_facts : ∀ t : Fin cfg1.N,
    win1_9.index t (0 : Fin 2) = t.val ∧ win1_9.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- What point t writes back is block t of the cell function of the arrays as the region finds them: the block's
    row p is the arrays' row 2000·t + p, and the whole windows are the arrays themselves. -/
theorem flushed_eq (c : Dev nD) (t : Fin cfg1.N) :
    (dat1 (F := Ideal) V c).flushed 9 t = ((cfg1.win 9).blk t).view.read (Elt Ideal)
      (Cert.Spec.cellOut (V c main_v40_0) (V c main_v53) (V c main_v66) (V c main_v38) (V c main_arg6) (V c main_v67)
        (V c main_arg8) (V c main_v68) (V c main_arg10)) := by
  show (cfg1.win 9).cut (grid1.coords t) ((dat1 (F := Ideal) V c).after 9 t) = _
  rw [after1_9, out_eq]
  obtain ⟨e90, e91, e00, e01, e10, e11, e20, e21, e30, e31, e40, e41, e50, e51, e60, e61, e70, e71, e80, e81⟩ := idx_facts t
  have ht : t.val < 50 := Nat.lt_of_lt_of_eq t.isLt N_1
  funext j
  obtain ⟨p, q, rfl⟩ : ∃ (p : Fin 2000) (q : Fin 256), j = ix2 p q := ⟨j 0, j 1, eq_ix2 j⟩
  let ρ : Fin 2000 → Fin 100000 := fun r => ⟨2000 * t.val + r.val, by have := r.isLt; omega⟩
  show Cert.Spec.cellOut (iblk1 V c 0 t) (iblk1 V c 1 t) (iblk1 V c 2 t) (iblk1 V c 3 t) (iblk1 V c 4 t) (iblk1 V c 5 t)
      (iblk1 V c 6 t) (iblk1 V c 7 t) (iblk1 V c 8 t) (ix2 p q)
    = Cert.Spec.cellOut (V c main_v40_0) (V c main_v53) (V c main_v66) (V c main_v38) (V c main_arg6) (V c main_v67)
        (V c main_arg8) (V c main_v68) (V c main_arg10) (((cfg1.win 9).blk t).view.emb (ix2 p q))
  have he : ((cfg1.win 9).blk t).view.emb (ix2 p q) = ix2 (ρ p) q := by
    funext a; apply Fin.ext
    match a with
    | ⟨0, _⟩ => show win1_9.index t (0 : Fin 2) * 2000 + 1 * p.val = 2000 * t.val + p.val; omega
    | ⟨1, _⟩ => show win1_9.index t (1 : Fin 2) * 256 + 1 * q.val = q.val; omega
  rw [he, Cert.Spec.cellOut_apply, Cert.Spec.cellOut_apply]
  refine cellAt_rows ρ _ _ _ _ _ _ _ _ _ _ _ _ _ _ _ _ _ _ ?_ ?_ ?_ ?_ ?_ ?_ ?_ ?_ ?_ p q
  · intro p' q'
    show V c main_v40_0 (((cfg1.win 0).blk t).view.emb (ix2 p' q')) = V c main_v40_0 (ix2 (ρ p') q')
    congr 1
    funext a; apply Fin.ext
    match a with
    | ⟨0, _⟩ => show win1_0.index t (0 : Fin 2) * 2000 + 1 * p'.val = 2000 * t.val + p'.val; omega
    | ⟨1, _⟩ => show win1_0.index t (1 : Fin 2) * 128 + 1 * q'.val = q'.val; omega
  · intro p' q'
    show V c main_v53 (((cfg1.win 1).blk t).view.emb (ix2 p' q')) = V c main_v53 (ix2 (ρ p') q')
    congr 1
    funext a; apply Fin.ext
    match a with
    | ⟨0, _⟩ => show win1_1.index t (0 : Fin 2) * 2000 + 1 * p'.val = 2000 * t.val + p'.val; omega
    | ⟨1, _⟩ => show win1_1.index t (1 : Fin 2) * 128 + 1 * q'.val = q'.val; omega
  · intro p' q'
    show V c main_v66 (((cfg1.win 2).blk t).view.emb (ix2 p' q')) = V c main_v66 (ix2 (ρ p') q')
    congr 1
    funext a; apply Fin.ext
    match a with
    | ⟨0, _⟩ => show win1_2.index t (0 : Fin 2) * 2000 + 1 * p'.val = 2000 * t.val + p'.val; omega
    | ⟨1, _⟩ => show win1_2.index t (1 : Fin 2) * 128 + 1 * q'.val = q'.val; omega
  · intro p'
    show V c main_v38 (((cfg1.win 3).blk t).view.emb (ix2 p' (0 : Fin 1))) = V c main_v38 (ix2 (ρ p') (0 : Fin 1))
    congr 1
    funext a; apply Fin.ext
    match a with
    | ⟨0, _⟩ => show win1_3.index t (0 : Fin 2) * 2000 + 1 * p'.val = 2000 * t.val + p'.val; omega
    | ⟨1, _⟩ => show win1_3.index t (1 : Fin 2) * 1 + 1 * 0 = 0; omega
  · funext j
    show V c main_arg6 (((cfg1.win 4).blk t).view.emb j) = V c main_arg6 j
    congr 1
    funext a; apply Fin.ext
    match a with
    | ⟨0, _⟩ => show win1_4.index t (0 : Fin 2) * 128 + 1 * (j 0).val = (j 0).val; omega
    | ⟨1, _⟩ => show win1_4.index t (1 : Fin 2) * 128 + 1 * (j 1).val = (j 1).val; omega
  · funext j
    show V c main_v67 (((cfg1.win 5).blk t).view.emb j) = V c main_v67 j
    congr 1
    funext a; apply Fin.ext
    match a with
    | ⟨0, _⟩ => show win1_5.index t (0 : Fin 2) * 1 + 1 * (j 0).val = (j 0).val; omega
    | ⟨1, _⟩ => show win1_5.index t (1 : Fin 2) * 128 + 1 * (j 1).val = (j 1).val; omega
  · funext j
    show V c main_arg8 (((cfg1.win 6).blk t).view.emb j) = V c main_arg8 j
    congr 1
    funext a; apply Fin.ext
    match a with
    | ⟨0, _⟩ => show win1_6.index t (0 : Fin 2) * 128 + 1 * (j 0).val = (j 0).val; omega
    | ⟨1, _⟩ => show win1_6.index t (1 : Fin 2) * 128 + 1 * (j 1).val = (j 1).val; omega
  · funext j
    show V c main_v68 (((cfg1.win 7).blk t).view.emb j) = V c main_v68 j
    congr 1
    funext a; apply Fin.ext
    match a with
    | ⟨0, _⟩ => show win1_7.index t (0 : Fin 2) * 1 + 1 * (j 0).val = (j 0).val; omega
    | ⟨1, _⟩ => show win1_7.index t (1 : Fin 2) * 128 + 1 * (j 1).val = (j 1).val; omega
  · funext j
    show V c main_arg10 (((cfg1.win 8).blk t).view.emb j) = V c main_arg10 j
    congr 1
    funext a; apply Fin.ext
    match a with
    | ⟨0, _⟩ => show win1_8.index t (0 : Fin 2) * 128 + 1 * (j 0).val = (j 0).val; omega
    | ⟨1, _⟩ => show win1_8.index t (1 : Fin 2) * 128 + 1 * (j 1).val = (j 1).val; omega

/-- An index of the output array is in point t's block iff each coordinate is in the block's range on its axis. -/
theorem mem_blk (t : Fin cfg1.N) (i : S100000x256.Idx) :
    i ∈ ((cfg1.win 9).blk t).view.set ↔ ∀ a : Fin 2, win1_9.index t a * S2000x256.size a ≤ (i a).val
      ∧ (i a).val < win1_9.index t a * S2000x256.size a + S2000x256.size a := by
  show i ∈ ((View.whole main_v69).slice (win1_9.rect t)).set ↔ _
  rw [View.set_slice_whole, Rect.mem_set_unit]
  exact Iff.rfl

end Cert.KernelIdeal.Regions.Cell1

namespace Cert.KernelIdeal.Regions

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The output array after the region is the cell function of the arrays as the region finds them: row r of the array
    is in the block of point r / 2000, every point writes its block back, and each block is that function's. -/
theorem final1_9 (c : Dev nD) : (dat1 (F := Ideal) V c).arrAt 9 cfg1.N
    = Cert.Spec.cellOut (V c main_v40_0) (V c main_v53) (V c main_v66) (V c main_v38) (V c main_arg6) (V c main_v67)
        (V c main_arg8) (V c main_v68) (V c main_arg10) :=
  (dat1 (F := Ideal) V c).arrAt_eq_of_cover 9 _ (fun t _ => Cell1.flushed_eq V c t) fun i => by
    have hi0 : (i 0).val < 100000 := (i 0).isLt
    have hi1 : (i 1).val < 256 := (i 1).isLt
    have htl : (i 0).val / 2000 < cfg1.N := Nat.lt_of_lt_of_eq (by omega : (i 0).val / 2000 < 50) N_1.symm
    obtain ⟨t, ht⟩ : ∃ t : Fin cfg1.N, t.val = (i 0).val / 2000 := ⟨⟨_, htl⟩, rfl⟩
    obtain ⟨e90, e91, -⟩ := Cell1.idx_facts t
    refine ⟨t, flush1_9 t, ?_⟩
    rw [Cell1.mem_blk]
    intro a
    match a with
    | ⟨0, _⟩ =>
      show win1_9.index t (0 : Fin 2) * 2000 ≤ (i 0).val ∧ (i 0).val < win1_9.index t (0 : Fin 2) * 2000 + 2000
      omega
    | ⟨1, _⟩ =>
      show win1_9.index t (1 : Fin 2) * 256 ≤ (i 1).val ∧ (i 1).val < win1_9.index t (1 : Fin 2) * 256 + 256
      omega

end Cert.KernelIdeal.Regions

end
-- ==== Proof.RegionCell3.lean ====
/-
  The cell's closing stage as one function of whole arrays (region 3).

  Each of the 50 grid points handles 2000 consecutive rows: it reads rows 2000·t … 2000·t + 1999 of the three
  128-wide inputs and of the count column, and all of the three weight matrices and the two bias rows, and writes
  the same rows of the 256-wide output. Its left 128 columns are elu(max(agg + (y·V + b), 0)), its right 128 columns
  elu(leaky((s / cnt)·Wl + bl + y·Wr)). Over the extended reals the narrowing of a matrix product's operands is the
  identity, so every entry of the block is the entry of the whole-array cell function at the block's row: the 50 blocks
  tile the output, hence the output array after the region is that function of the arrays the region finds.
-/
import proofs.«113657_j36816459661707_1_alg».proof.Proof.Gen.KernelIdeal.Frame
import proofs.«113657_j36816459661707_1_alg».proof.Proof.Spec
import proofs.«113657_j36816459661707_1_alg».proof.Proof.LibRowOps
import proofs.«113657_j36816459661707_1_alg».proof.Proof.LibColOps
import Idealize.ShloMosaic.Lib.Pipeline.Value
import Idealize.ShloMosaic.Lib.ValueIdx

noncomputable section

namespace Cert.KernelIdeal.Regions.Cell3

open Idealize.ShloMosaic Idealize.ShloMosaic.TcCoe Idealize.SL.Sem Idealize.ShloMosaic.ValueIdx
open Idealize.ShloMosaic.Pipeline (Dat)
open Cert.KernelIdeal Cert.KernelIdeal.Gen

/-! ## The payloads at an index -/

/-- The product of a 2000×128 block by a 128×128 matrix, accumulated into zero, at (p, q): the sum over the contracted
    coordinate of the products of the entries. -/
theorem mm_blk_apply {φ₁ φ₂ : FTy} (A : FVec Ideal S2000x128 φ₁) (B : FVec Ideal S128x128 φ₂) (p : Fin 2000) (q : Fin 128) :
    matmul dot_S2000x128_S128x128_S2000x128_1_0_0_1_n_n none A B (constant (F := Ideal) S2000x128 .f32 0x00000000#32) (ix2 p q)
      = ∑ j : Fin 128, A (ix2 p j) * B (ix2 j q) :=
  Cert.KernelBody.matmul_plain_zero_apply dot_S2000x128_S128x128_S2000x128_1_0_0_1_n_n_wf none A B p q

/-- A bias row laid down the 2000 rows of a block, at (p, q): the row's entry q. -/
theorem row_blk_apply {α : Type} (b : S1x128.Idx → α) (p : Fin 2000) (q : Fin 128) :
    broadcastTo S2000x128 b broadcasts_S1x128_S2000x128 (ix2 p q) = b (ix2 (0 : Fin 1) q) :=
  Cert.KernelBody.broadcastTo_row_apply b broadcasts_S1x128_S2000x128 p q

/-- A count column laid along the 128 columns of a block, at (p, q): the column's entry p. -/
theorem col_blk_apply {α : Type} (cnt : S2000x1.Idx → α) (p : Fin 2000) (q : Fin 128) :
    broadcastTo S2000x128 cnt broadcasts_S2000x1_S2000x128 (ix2 p q) = cnt (ix2 p (0 : Fin 1)) :=
  Cert.LibColOps.broadcastTo_col_apply cnt broadcasts_S2000x1_S2000x128 p q

/-- The left half before elu, at (p, q): max(agg + (y·V + b), 0). -/
theorem pay4_apply (x0 x1 : Vec Ideal S2000x128 .f32) (x4 : Vec Ideal S128x128 .f32) (x5 : Vec Ideal S1x128 .f32)
    (p : Fin 2000) (q : Fin 128) :
    k3_pay4 (F := Ideal) x0 x1 x4 x5 (ix2 p q) = Cert.Spec.h1At x0 x1 x4 x5 p q := by
  unfold k3_pay4 k3_pay3 Cert.Spec.h1At Cert.Spec.dotAt Cert.Spec.z0
  simp only [maximumf_apply, addf_apply, broadcast_apply, mm_blk_apply, shapeCast_self, row_blk_apply, truncf_apply]
  rfl

/-- The right half before the leaky step, at (p, q): ((s / cnt)·Wl + bl) + y·Wr. -/
theorem pay5_apply (x0 x2 : Vec Ideal S2000x128 .f32) (x3 : Vec Ideal S2000x1 .f32) (x6 x8 : Vec Ideal S128x128 .f32)
    (x7 : Vec Ideal S1x128 .f32) (p : Fin 2000) (q : Fin 128) :
    k3_pay5 (F := Ideal) x0 x2 x3 x6 x8 x7 (ix2 p q)
      = (Cert.Spec.dotAt (Cert.Spec.meanS x2 x3) x6 p q + x7 (ix2 (0 : Fin 1) q)) + Cert.Spec.dotAt x0 x8 p q := by
  unfold k3_pay5 k3_pay3 Cert.Spec.dotAt
  simp only [addf_apply, divf_apply, mm_blk_apply, shapeCast_self, row_blk_apply, col_blk_apply, truncf_apply]
  rfl

/-- elu of a block, at an index. -/
theorem pay1_apply (v : FVec Ideal S2000x128 .f32) (p : Fin 2000) (q : Fin 128) :
    k3_pay1 (F := Ideal) v (ix2 p q) = Cert.Spec.eluK (v (ix2 p q)) := rfl

/-- The leaky step on a given sign test, then elu, at an index. -/
theorem pay2_apply (v : FVec Ideal S2000x128 .f32) (cnd : IVec S2000x128 1) (sl : Ideal .f32) (p : Fin 2000) (q : Fin 128) :
    k3_pay2 (F := Ideal) v cnd sl (ix2 p q)
      = Cert.Spec.eluK (Scalar.select (cnd (ix2 p q)) (v (ix2 p q)) (sl * v (ix2 p q))) := rfl

/-- The sign test of the right half, at an index. -/
theorem pay6_apply (x0 x2 : Vec Ideal S2000x128 .f32) (x3 : Vec Ideal S2000x1 .f32) (x6 x8 : Vec Ideal S128x128 .f32)
    (x7 : Vec Ideal S1x128 .f32) (p : Fin 2000) (q : Fin 128) :
    k3_pay6 (F := Ideal) x0 x2 x3 x6 x8 x7 (ix2 p q)
      = Ideal.cmp .oge (k3_pay5 (F := Ideal) x0 x2 x3 x6 x8 x7 (ix2 p q)) Cert.Spec.z0 := rfl

/-- The left store's payload at (p, q). -/
theorem left_apply (x0 x1 : Vec Ideal S2000x128 .f32) (x4 : Vec Ideal S128x128 .f32) (x5 : Vec Ideal S1x128 .f32)
    (p : Fin 2000) (q : Fin 128) :
    k3_pay1 (F := Ideal) (k3_pay4 x0 x1 x4 x5) (ix2 p q) = Cert.Spec.eluK (Cert.Spec.h1At x0 x1 x4 x5 p q) := by
  rw [pay1_apply, pay4_apply]

/-- The right store's payload at (p, q). -/
theorem right_apply (x0 x2 : Vec Ideal S2000x128 .f32) (x3 : Vec Ideal S2000x1 .f32) (x6 x8 : Vec Ideal S128x128 .f32)
    (x7 : Vec Ideal S1x128 .f32) (p : Fin 2000) (q : Fin 128) :
    k3_pay2 (F := Ideal) (k3_pay5 x0 x2 x3 x6 x8 x7) (k3_pay6 x0 x2 x3 x6 x8 x7) (Scalar.ofBits .f32 0x3C23D70A#32) (ix2 p q)
      = Cert.Spec.eluK (Cert.Spec.h2At x0 x2 x3 x6 x7 x8 p q) := by
  rw [pay2_apply, pay6_apply, pay5_apply]
  rfl

/-! ## The output block as one function of the input blocks -/

theorem hz : (![0, 0] : Fin 2 → Nat) = fun _ => 0 := funext fun a => by fin_cases a <;> rfl

/-- Column q of the left half is column q of the 256-wide cell. -/
theorem cellAt_left {a : ℕ} (y agg s : Cert.Spec.Mat a 128) (cnt : Cert.Spec.Mat a 1) (av : Cert.Spec.Mat 128 128)
    (ab : Cert.Spec.Mat 1 128) (wl : Cert.Spec.Mat 128 128) (bl : Cert.Spec.Mat 1 128) (wr : Cert.Spec.Mat 128 128)
    (r : Fin a) (q : Fin 128) :
    Cert.Spec.cellAt y agg s cnt av ab wl bl wr r (⟨q.val, by omega⟩ : Fin 256)
      = Cert.Spec.eluK (Cert.Spec.h1At y agg av ab r q) := by
  unfold Cert.Spec.cellAt
  rw [dif_pos (show ((⟨q.val, by omega⟩ : Fin 256)).val < 128 from q.isLt)]

/-- Column q of the right half is column 128 + q of the 256-wide cell. -/
theorem cellAt_right {a : ℕ} (y agg s : Cert.Spec.Mat a 128) (cnt : Cert.Spec.Mat a 1) (av : Cert.Spec.Mat 128 128)
    (ab : Cert.Spec.Mat 1 128) (wl : Cert.Spec.Mat 128 128) (bl : Cert.Spec.Mat 1 128) (wr : Cert.Spec.Mat 128 128)
    (r : Fin a) (q : Fin 128) :
    Cert.Spec.cellAt y agg s cnt av ab wl bl wr r (⟨128 + q.val, by omega⟩ : Fin 256)
      = Cert.Spec.eluK (Cert.Spec.h2At y s cnt wl bl wr r q) := by
  unfold Cert.Spec.cellAt
  rw [dif_neg (show ¬ ((⟨128 + q.val, by omega⟩ : Fin 256)).val < 128 from by show ¬ (128 + q.val < 128); omega)]
  exact congrArg (fun k => Cert.Spec.eluK (Cert.Spec.h2At y s cnt wl bl wr r k))
    (Fin.ext (show 128 + q.val - 128 = q.val by omega))

/-- Entry (p, q) of the left store's rectangle is entry (p, q) of the block. -/
theorem emb_left (p : Fin 2000) (q : Fin 128) : r3_4.emb (ix2 p q) = ix2 p (⟨q.val, by omega⟩ : Fin 256) := by
  funext a; apply Fin.ext
  match a with
  | ⟨0, _⟩ => show 0 + 1 * p.val = p.val; omega
  | ⟨1, _⟩ => show 0 + 1 * q.val = q.val; omega

/-- Entry (p, q) of the right store's rectangle is entry (p, 128 + q) of the block. -/
theorem emb_right (p : Fin 2000) (q : Fin 128) : r3_5.emb (ix2 p q) = ix2 p (⟨128 + q.val, by omega⟩ : Fin 256) := by
  funext a; apply Fin.ext
  match a with
  | ⟨0, _⟩ => show 0 + 1 * p.val = p.val; omega
  | ⟨1, _⟩ => show 128 + 1 * q.val = 128 + q.val; omega

/-- What the body leaves in the output block is the cell function of its nine input blocks: each of the two stores is
    that function through its rectangle, and the two rectangles tile the block. -/
theorem out_eq (x0 x1 x2 : Vec Ideal S2000x128 .f32) (x3 : Vec Ideal S2000x1 .f32) (x4 : Vec Ideal S128x128 .f32)
    (x5 : Vec Ideal S1x128 .f32) (x6 : Vec Ideal S128x128 .f32) (x7 : Vec Ideal S1x128 .f32) (x8 : Vec Ideal S128x128 .f32) :
    out3_9 (F := Ideal) x0 x1 x2 x3 x4 x5 x6 x7 x8 = Cert.Spec.cellOut x0 x1 x2 x3 x4 x5 x6 x7 x8 := by
  funext y
  unfold out3_9
  simp only [View.ld_unit_zero (S := S2000x128) hz, View.ld_unit_zero (S := S2000x1) hz,
    View.ld_unit_zero (S := S128x128) hz, View.ld_unit_zero (S := S1x128) hz]
  refine View.canon_apply_of_pieces (Val := Elt Ideal) (S := S2000x256) (e := .f32)
    (Cert.Spec.cellOut x0 x1 x2 x3 x4 x5 x6 x7 x8) _ ?_ y (cover3_9 _ _ y)
  intro pc hpc
  simp only [List.mem_cons, List.not_mem_nil, or_false] at hpc
  rcases hpc with rfl | rfl
  · intro x
    obtain ⟨p, q, rfl⟩ : ∃ (p : Fin 2000) (q : Fin 128), x = ix2 p q := ⟨x 0, x 1, eq_ix2 x⟩
    show k3_pay2 (F := Ideal) (k3_pay5 x0 x2 x3 x6 x8 x7) (k3_pay6 x0 x2 x3 x6 x8 x7) (Scalar.ofBits .f32 0x3C23D70A#32) (ix2 p q)
      = Cert.Spec.cellOut x0 x1 x2 x3 x4 x5 x6 x7 x8 (r3_5.emb (ix2 p q))
    rw [emb_right, Cert.Spec.cellOut_apply, cellAt_right, right_apply]
  · intro x
    obtain ⟨p, q, rfl⟩ : ∃ (p : Fin 2000) (q : Fin 128), x = ix2 p q := ⟨x 0, x 1, eq_ix2 x⟩
    show k3_pay1 (F := Ideal) (k3_pay4 x0 x1 x4 x5) (ix2 p q)
      = Cert.Spec.cellOut x0 x1 x2 x3 x4 x5 x6 x7 x8 (r3_4.emb (ix2 p q))
    rw [emb_left, Cert.Spec.cellOut_apply, cellAt_left, left_apply]

/-! ## From blocks to the array -/

/-- The cell function of row-restricted inputs is the cell function of the inputs at the restricted rows: every entry
    of row p of the output reads only row ρ p of the four row-indexed inputs, and all of the five others. -/
theorem cellAt_rows {a b : ℕ} (ρ : Fin b → Fin a) (Y AGG S : Cert.Spec.Mat a 128) (CNT : Cert.Spec.Mat a 1)
    (AV : Cert.Spec.Mat 128 128) (AB : Cert.Spec.Mat 1 128) (WL : Cert.Spec.Mat 128 128) (BL : Cert.Spec.Mat 1 128)
    (WR : Cert.Spec.Mat 128 128)
    (y agg s : Cert.Spec.Mat b 128) (cnt : Cert.Spec.Mat b 1) (av : Cert.Spec.Mat 128 128) (ab : Cert.Spec.Mat 1 128)
    (wl : Cert.Spec.Mat 128 128) (bl : Cert.Spec.Mat 1 128) (wr : Cert.Spec.Mat 128 128)
    (hy : ∀ p q, y (ix2 p q) = Y (ix2 (ρ p) q)) (hagg : ∀ p q, agg (ix2 p q) = AGG (ix2 (ρ p) q))
    (hs : ∀ p q, s (ix2 p q) = S (ix2 (ρ p) q)) (hcnt : ∀ p, cnt (ix2 p (0 : Fin 1)) = CNT (ix2 (ρ p) (0 : Fin 1)))
    (hav : av = AV) (hab : ab = AB) (hwl : wl = WL) (hbl : bl = BL) (hwr : wr = WR) (p : Fin b) (q : Fin 256) :
    Cert.Spec.cellAt y agg s cnt av ab wl bl wr p q = Cert.Spec.cellAt Y AGG S CNT AV AB WL BL WR (ρ p) q := by
  subst hav hab hwl hbl hwr
  unfold Cert.Spec.cellAt Cert.Spec.h1At Cert.Spec.h2At Cert.Spec.dotAt
  simp only [Cert.Spec.meanS_apply, hy, hagg, hs, hcnt]

variable (V : (c : Dev nD) → (b : Ref sig .tc) → Buf (Elt Ideal) ((c : Thread nD τ).loc b))

/-- The printed index maps, decided over the grid: each row-blocked window sits at the block row of the point, at
    block column 0; the whole windows sit at block (0, 0). -/
theorem idx_facts : ∀ t : Fin cfg3.N,
    win3_9.index t (0 : Fin 2) = t.val ∧ win3_9.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0 :=
  (by decide +kernel : ∀ t : Fin grid3.N, _)

/-- What point t writes back is block t of the cell function of the arrays as the region finds them: the block's
    row p is the arrays' row 2000·t + p, and the whole windows are the arrays themselves. -/
theorem flushed_eq (c : Dev nD) (t : Fin cfg3.N) :
    (dat3 (F := Ideal) V c).flushed 9 t = ((cfg3.win 9).blk t).view.read (Elt Ideal)
      (Cert.Spec.cellOut (V c main_v71_0) (V c main_v84) (V c main_v97) (V c main_v38) (V c main_arg14) (V c main_v98)
        (V c main_arg16) (V c main_v99) (V c main_arg18)) := by
  show (cfg3.win 9).cut (grid3.coords t) ((dat3 (F := Ideal) V c).after 9 t) = _
  rw [after3_9, out_eq]
  obtain ⟨e90, e91, e00, e01, e10, e11, e20, e21, e30, e31, e40, e41, e50, e51, e60, e61, e70, e71, e80, e81⟩ := idx_facts t
  have ht : t.val < 50 := Nat.lt_of_lt_of_eq t.isLt N_3
  funext j
  obtain ⟨p, q, rfl⟩ : ∃ (p : Fin 2000) (q : Fin 256), j = ix2 p q := ⟨j 0, j 1, eq_ix2 j⟩
  let ρ : Fin 2000 → Fin 100000 := fun r => ⟨2000 * t.val + r.val, by have := r.isLt; omega⟩
  show Cert.Spec.cellOut (iblk3 V c 0 t) (iblk3 V c 1 t) (iblk3 V c 2 t) (iblk3 V c 3 t) (iblk3 V c 4 t) (iblk3 V c 5 t)
      (iblk3 V c 6 t) (iblk3 V c 7 t) (iblk3 V c 8 t) (ix2 p q)
    = Cert.Spec.cellOut (V c main_v71_0) (V c main_v84) (V c main_v97) (V c main_v38) (V c main_arg14) (V c main_v98)
        (V c main_arg16) (V c main_v99) (V c main_arg18) (((cfg3.win 9).blk t).view.emb (ix2 p q))
  have he : ((cfg3.win 9).blk t).view.emb (ix2 p q) = ix2 (ρ p) q := by
    funext a; apply Fin.ext
    match a with
    | ⟨0, _⟩ => show win3_9.index t (0 : Fin 2) * 2000 + 1 * p.val = 2000 * t.val + p.val; omega
    | ⟨1, _⟩ => show win3_9.index t (1 : Fin 2) * 256 + 1 * q.val = q.val; omega
  rw [he, Cert.Spec.cellOut_apply, Cert.Spec.cellOut_apply]
  refine cellAt_rows ρ _ _ _ _ _ _ _ _ _ _ _ _ _ _ _ _ _ _ ?_ ?_ ?_ ?_ ?_ ?_ ?_ ?_ ?_ p q
  · intro p' q'
    show V c main_v71_0 (((cfg3.win 0).blk t).view.emb (ix2 p' q')) = V c main_v71_0 (ix2 (ρ p') q')
    congr 1
    funext a; apply Fin.ext
    match a with
    | ⟨0, _⟩ => show win3_0.index t (0 : Fin 2) * 2000 + 1 * p'.val = 2000 * t.val + p'.val; omega
    | ⟨1, _⟩ => show win3_0.index t (1 : Fin 2) * 128 + 1 * q'.val = q'.val; omega
  · intro p' q'
    show V c main_v84 (((cfg3.win 1).blk t).view.emb (ix2 p' q')) = V c main_v84 (ix2 (ρ p') q')
    congr 1
    funext a; apply Fin.ext
    match a with
    | ⟨0, _⟩ => show win3_1.index t (0 : Fin 2) * 2000 + 1 * p'.val = 2000 * t.val + p'.val; omega
    | ⟨1, _⟩ => show win3_1.index t (1 : Fin 2) * 128 + 1 * q'.val = q'.val; omega
  · intro p' q'
    show V c main_v97 (((cfg3.win 2).blk t).view.emb (ix2 p' q')) = V c main_v97 (ix2 (ρ p') q')
    congr 1
    funext a; apply Fin.ext
    match a with
    | ⟨0, _⟩ => show win3_2.index t (0 : Fin 2) * 2000 + 1 * p'.val = 2000 * t.val + p'.val; omega
    | ⟨1, _⟩ => show win3_2.index t (1 : Fin 2) * 128 + 1 * q'.val = q'.val; omega
  · intro p'
    show V c main_v38 (((cfg3.win 3).blk t).view.emb (ix2 p' (0 : Fin 1))) = V c main_v38 (ix2 (ρ p') (0 : Fin 1))
    congr 1
    funext a; apply Fin.ext
    match a with
    | ⟨0, _⟩ => show win3_3.index t (0 : Fin 2) * 2000 + 1 * p'.val = 2000 * t.val + p'.val; omega
    | ⟨1, _⟩ => show win3_3.index t (1 : Fin 2) * 1 + 1 * 0 = 0; omega
  · funext j
    show V c main_arg14 (((cfg3.win 4).blk t).view.emb j) = V c main_arg14 j
    congr 1
    funext a; apply Fin.ext
    match a with
    | ⟨0, _⟩ => show win3_4.index t (0 : Fin 2) * 128 + 1 * (j 0).val = (j 0).val; omega
    | ⟨1, _⟩ => show win3_4.index t (1 : Fin 2) * 128 + 1 * (j 1).val = (j 1).val; omega
  · funext j
    show V c main_v98 (((cfg3.win 5).blk t).view.emb j) = V c main_v98 j
    congr 1
    funext a; apply Fin.ext
    match a with
    | ⟨0, _⟩ => show win3_5.index t (0 : Fin 2) * 1 + 1 * (j 0).val = (j 0).val; omega
    | ⟨1, _⟩ => show win3_5.index t (1 : Fin 2) * 128 + 1 * (j 1).val = (j 1).val; omega
  · funext j
    show V c main_arg16 (((cfg3.win 6).blk t).view.emb j) = V c main_arg16 j
    congr 1
    funext a; apply Fin.ext
    match a with
    | ⟨0, _⟩ => show win3_6.index t (0 : Fin 2) * 128 + 1 * (j 0).val = (j 0).val; omega
    | ⟨1, _⟩ => show win3_6.index t (1 : Fin 2) * 128 + 1 * (j 1).val = (j 1).val; omega
  · funext j
    show V c main_v99 (((cfg3.win 7).blk t).view.emb j) = V c main_v99 j
    congr 1
    funext a; apply Fin.ext
    match a with
    | ⟨0, _⟩ => show win3_7.index t (0 : Fin 2) * 1 + 1 * (j 0).val = (j 0).val; omega
    | ⟨1, _⟩ => show win3_7.index t (1 : Fin 2) * 128 + 1 * (j 1).val = (j 1).val; omega
  · funext j
    show V c main_arg18 (((cfg3.win 8).blk t).view.emb j) = V c main_arg18 j
    congr 1
    funext a; apply Fin.ext
    match a with
    | ⟨0, _⟩ => show win3_8.index t (0 : Fin 2) * 128 + 1 * (j 0).val = (j 0).val; omega
    | ⟨1, _⟩ => show win3_8.index t (1 : Fin 2) * 128 + 1 * (j 1).val = (j 1).val; omega

/-- An index of the output array is in point t's block iff each coordinate is in the block's range on its axis. -/
theorem mem_blk (t : Fin cfg3.N) (i : S100000x256.Idx) :
    i ∈ ((cfg3.win 9).blk t).view.set ↔ ∀ a : Fin 2, win3_9.index t a * S2000x256.size a ≤ (i a).val
      ∧ (i a).val < win3_9.index t a * S2000x256.size a + S2000x256.size a := by
  show i ∈ ((View.whole main_v100).slice (win3_9.rect t)).set ↔ _
  rw [View.set_slice_whole, Rect.mem_set_unit]
  exact Iff.rfl

end Cert.KernelIdeal.Regions.Cell3

namespace Cert.KernelIdeal.Regions

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The output array after the region is the cell function of the arrays as the region finds them: row r of the array
    is in the block of point r / 2000, every point writes its block back, and each block is that function's. -/
theorem final3_9 (c : Dev nD) : (dat3 (F := Ideal) V c).arrAt 9 cfg3.N
    = Cert.Spec.cellOut (V c main_v71_0) (V c main_v84) (V c main_v97) (V c main_v38) (V c main_arg14) (V c main_v98)
        (V c main_arg16) (V c main_v99) (V c main_arg18) :=
  (dat3 (F := Ideal) V c).arrAt_eq_of_cover 9 _ (fun t _ => Cell3.flushed_eq V c t) fun i => by
    have hi0 : (i 0).val < 100000 := (i 0).isLt
    have hi1 : (i 1).val < 256 := (i 1).isLt
    have htl : (i 0).val / 2000 < cfg3.N := Nat.lt_of_lt_of_eq (by omega : (i 0).val / 2000 < 50) N_3.symm
    obtain ⟨t, ht⟩ : ∃ t : Fin cfg3.N, t.val = (i 0).val / 2000 := ⟨⟨_, htl⟩, rfl⟩
    obtain ⟨e90, e91, -⟩ := Cell3.idx_facts t
    refine ⟨t, flush3_9 t, ?_⟩
    rw [Cell3.mem_blk]
    intro a
    match a with
    | ⟨0, _⟩ =>
      show win3_9.index t (0 : Fin 2) * 2000 ≤ (i 0).val ∧ (i 0).val < win3_9.index t (0 : Fin 2) * 2000 + 2000
      omega
    | ⟨1, _⟩ =>
      show win3_9.index t (1 : Fin 2) * 256 ≤ (i 1).val ∧ (i 1).val < win3_9.index t (1 : Fin 2) * 256 + 256
      omega

end Cert.KernelIdeal.Regions

end
-- ==== Proof.KerValue.lean ====
/-
  The kernel program's result as one function of its arguments.  Walking the fifteen segments in order: the stretches
  before the first region leave the edges' row and column vectors, the normalised weights and the row counts; each
  linear region leaves x·W + b and its product with the next matrix (the value lemmas of those regions); the stretch
  after it leaves the two aggregations over the edges; each closing region leaves the cell's output; the last region
  leaves the classifier's linear stage and the last stretch its row-wise log-softmax.  Every buffer a later segment
  reads is carried unchanged across the segments between.
-/
import proofs.«113657_j36816459661707_1_alg».proof.Proof.KerKeep
import proofs.«113657_j36816459661707_1_alg».proof.Proof.KerHostStages
import proofs.«113657_j36816459661707_1_alg».proof.Proof.RefOut
import proofs.«113657_j36816459661707_1_alg».proof.Proof.RegionLin0
import proofs.«113657_j36816459661707_1_alg».proof.Proof.RegionLin2
import proofs.«113657_j36816459661707_1_alg».proof.Proof.RegionLin4
import proofs.«113657_j36816459661707_1_alg».proof.Proof.RegionCell1
import proofs.«113657_j36816459661707_1_alg».proof.Proof.RegionCell3

noncomputable section

namespace Cert.KernelIdeal.Value

open Idealize.ShloMosaic Idealize.ShloMosaic.TcCoe Idealize.SL.Sem Idealize.ShloMosaic.StableHlo
open Cert.KernelIdeal Cert.KernelIdeal.Gen Cert.KernelIdeal.HostStages Cert.KernelIdeal.Keep
open Cert.ReferenceIdeal.Stage (rowI colI deg gt0 whereR invsqrtR dinv norm cnt agg sagg logsm)

variable (m : (ℓ : Loc nD τ sig) → Buf (Elt Ideal) ℓ) (ρ : Dev nD → PrngReg) (c : Dev nD)

/-! ## The values, named in the order the program computes them (from the arguments as launched) -/

/-- The edges' source rows and target rows. -/
def ri := rowI (W0 m ρ c (Proc.devRef .tc main_arg1))
def ci := colI (W0 m ρ c (Proc.devRef .tc main_arg1))
/-- The weighted in-degrees. -/
def dg := deg (ci m ρ c) (W0 m ρ c (Proc.devRef .tc main_arg2))
/-- The normalised edge weights. -/
def nrm := norm (dinv (dg m ρ c)) (ri m ρ c) (ci m ρ c) (W0 m ρ c (Proc.devRef .tc main_arg2))
/-- The row counts as a column. -/
def cc := broadcastInDim S100000x1 ![0] bcast_S100000_S100000x1_0 (cnt (ci m ρ c))
/-- Cell 0: its linear stage, the product, the two aggregations, the closing stage. -/
def y0 := Cert.Spec.linY (W0 m ρ c (Proc.devRef .tc main_arg0)) (W0 m ρ c (Proc.devRef .tc main_arg3)) (shapeCast S1x128 (W0 m ρ c (Proc.devRef .tc main_arg4)) shapeCasts_S128_S1x128)
def z0 := Cert.Spec.mm (y0 m ρ c) (W0 m ρ c (Proc.devRef .tc main_arg5))
def ag0 := agg (nrm m ρ c) (z0 m ρ c) (ri m ρ c) (ci m ρ c)
def s0 := sagg (W0 m ρ c (Proc.devRef .tc main_arg2)) (y0 m ρ c) (ri m ρ c) (ci m ρ c)
def h1 := Cert.Spec.cellOut (y0 m ρ c) (ag0 m ρ c) (s0 m ρ c) (cc m ρ c) (W0 m ρ c (Proc.devRef .tc main_arg6))
  (shapeCast S1x128 (W0 m ρ c (Proc.devRef .tc main_arg7)) shapeCasts_S128_S1x128) (W0 m ρ c (Proc.devRef .tc main_arg8)) (shapeCast S1x128 (W0 m ρ c (Proc.devRef .tc main_arg9)) shapeCasts_S128_S1x128) (W0 m ρ c (Proc.devRef .tc main_arg10))
/-- Cell 1, the same stages on cell 0's output. -/
def y1 := Cert.Spec.linY (h1 m ρ c) (W0 m ρ c (Proc.devRef .tc main_arg11)) (shapeCast S1x128 (W0 m ρ c (Proc.devRef .tc main_arg12)) shapeCasts_S128_S1x128)
def z1 := Cert.Spec.mm (y1 m ρ c) (W0 m ρ c (Proc.devRef .tc main_arg13))
def ag1 := agg (nrm m ρ c) (z1 m ρ c) (ri m ρ c) (ci m ρ c)
def s1 := sagg (W0 m ρ c (Proc.devRef .tc main_arg2)) (y1 m ρ c) (ri m ρ c) (ci m ρ c)
def h2 := Cert.Spec.cellOut (y1 m ρ c) (ag1 m ρ c) (s1 m ρ c) (cc m ρ c) (W0 m ρ c (Proc.devRef .tc main_arg14))
  (shapeCast S1x128 (W0 m ρ c (Proc.devRef .tc main_arg15)) shapeCasts_S128_S1x128) (W0 m ρ c (Proc.devRef .tc main_arg16)) (shapeCast S1x128 (W0 m ρ c (Proc.devRef .tc main_arg17)) shapeCasts_S128_S1x128) (W0 m ρ c (Proc.devRef .tc main_arg18))
/-- The classifier's linear stage and the result. -/
def lg := Cert.Spec.linY (h2 m ρ c) (W0 m ρ c (Proc.devRef .tc main_arg19)) (shapeCast S1x16 (W0 m ρ c (Proc.devRef .tc main_arg20)) shapeCasts_S16_S1x16)
def outK := logsm (lg m ρ c)

/-! ## The stretches before the first region -/

theorem v1_4 : W4 m ρ c (Proc.devRef .tc main_v1) = ri m ρ c := by
  unfold ri; exact (t_v1_1_4 m ρ c).trans (s1_v1 (W0 m ρ c))
theorem v3_4 : W4 m ρ c (Proc.devRef .tc main_v3) = ci m ρ c := by
  unfold ci; exact (t_v3_1_4 m ρ c).trans (s1_v3 (W0 m ρ c))

theorem v8_3 : W3 m ρ c (Proc.devRef .tc main_v8) = gt0 (dg m ρ c) := by
  unfold dg ci; exact (t_v8_1_3 m ρ c).trans (s1_v8 (W0 m ρ c))
theorem v11_2 : W2 m ρ c (Proc.devRef .tc main_v11) = whereR (gt0 (dg m ρ c)) (dg m ρ c) (constant (F := Ideal) S_ .f32 0x3F800000#32) := by
  refine (s2_v11 (W1 m ρ c)).trans ?_
  rw [show W1 m ρ c (Proc.devRef .tc main_v10) = gt0 (dg m ρ c) from by unfold dg ci; exact s1_v10 (W0 m ρ c),
    show W1 m ρ c (Proc.devRef .tc main_v6) = dg m ρ c from by unfold dg ci; exact s1_v6 (W0 m ρ c),
    show W1 m ρ c (Proc.devRef .tc main_cst_2) = constant (F := Ideal) S_ .f32 0x3F800000#32 from s1_cst2 (W0 m ρ c)]
theorem v15_4 : W4 m ρ c (Proc.devRef .tc main_v15) = dinv (dg m ρ c) := by
  refine (s4w_v15 (W3 m ρ c)).trans ?_
  rw [v8_3 m ρ c, show W3 m ρ c (Proc.devRef .tc main_v14) = invsqrtR (W2 m ρ c (Proc.devRef .tc main_v11)) from s3_v14 (W2 m ρ c), v11_2 m ρ c,
    show W3 m ρ c (Proc.devRef .tc main_cst_4) = constant (F := Ideal) S_ .f32 0x00000000#32 from s3_cst4 (W2 m ρ c)]
  unfold Cert.ReferenceIdeal.Stage.dinv
  rfl

theorem v31_5 : W5 m ρ c (Proc.devRef .tc main_v31) = nrm m ρ c := by
  unfold nrm
  refine (s4_v31 (W4 m ρ c)).trans ?_
  rw [v15_4 m ρ c, v1_4 m ρ c, v3_4 m ρ c, t_arg2_0_4 m ρ c]
theorem v38_5 : W5 m ρ c (Proc.devRef .tc main_v38) = cc m ρ c := by
  unfold cc
  refine (s4_v38 (W4 m ρ c)).trans ?_
  rw [v3_4 m ρ c]
theorem v39_5 : W5 m ρ c (Proc.devRef .tc main_v39) = shapeCast S1x128 (W0 m ρ c (Proc.devRef .tc main_arg4)) shapeCasts_S128_S1x128 := by
  refine (s4_v39 (W4 m ρ c)).trans ?_
  rw [t_arg4_0_4 m ρ c]

/-! ## Cell 0 -/

theorem y0_6 : W6 m ρ c (Proc.devRef .tc main_v40_0) = y0 m ρ c := by
  unfold y0
  refine (W6_arr m ρ c 4).trans ?_
  refine (Cert.KernelIdeal.Regions.final0_4 (V5 m ρ) c).trans ?_
  show Cert.Spec.linY (W5 m ρ c (Proc.devRef .tc main_arg0)) (W5 m ρ c (Proc.devRef .tc main_arg3)) (W5 m ρ c (Proc.devRef .tc main_v39)) = _
  rw [t_arg0_0_5 m ρ c, t_arg3_0_5 m ρ c, v39_5 m ρ c]
theorem z0_6 : W6 m ρ c (Proc.devRef .tc main_v40_1) = z0 m ρ c := by
  unfold z0 y0
  refine (W6_arr m ρ c 5).trans ?_
  refine (Cert.KernelIdeal.Regions.final0_5 (V5 m ρ) c).trans ?_
  show Cert.Spec.mm (Cert.Spec.linY (W5 m ρ c (Proc.devRef .tc main_arg0)) (W5 m ρ c (Proc.devRef .tc main_arg3)) (W5 m ρ c (Proc.devRef .tc main_v39))) (W5 m ρ c (Proc.devRef .tc main_arg5)) = _
  rw [t_arg0_0_5 m ρ c, t_arg3_0_5 m ρ c, v39_5 m ρ c, t_arg5_0_5 m ρ c]

theorem v1_6 : W6 m ρ c (Proc.devRef .tc main_v1) = ri m ρ c := (t_v1_4_6 m ρ c).trans (v1_4 m ρ c)
theorem v3_6 : W6 m ρ c (Proc.devRef .tc main_v3) = ci m ρ c := (t_v3_4_6 m ρ c).trans (v3_4 m ρ c)
theorem v31_6 : W6 m ρ c (Proc.devRef .tc main_v31) = nrm m ρ c := (t_v31_5_6 m ρ c).trans (v31_5 m ρ c)

theorem ag0_7 : W7 m ρ c (Proc.devRef .tc main_v53) = ag0 m ρ c := by
  unfold ag0
  refine (s7_v53 (W6 m ρ c)).trans ?_
  rw [v31_6 m ρ c, z0_6 m ρ c, v1_6 m ρ c, v3_6 m ρ c]
theorem s0_7 : W7 m ρ c (Proc.devRef .tc main_v66) = s0 m ρ c := by
  unfold s0
  refine (s7_v66 (W6 m ρ c)).trans ?_
  rw [t_arg2_0_6 m ρ c, y0_6 m ρ c, v1_6 m ρ c, v3_6 m ρ c]
theorem v67_7 : W7 m ρ c (Proc.devRef .tc main_v67) = shapeCast S1x128 (W0 m ρ c (Proc.devRef .tc main_arg7)) shapeCasts_S128_S1x128 := by
  refine (s7_v67 (W6 m ρ c)).trans ?_
  rw [t_arg7_0_6 m ρ c]
theorem v68_7 : W7 m ρ c (Proc.devRef .tc main_v68) = shapeCast S1x128 (W0 m ρ c (Proc.devRef .tc main_arg9)) shapeCasts_S128_S1x128 := by
  refine (s7_v68 (W6 m ρ c)).trans ?_
  rw [t_arg9_0_6 m ρ c]

theorem h1_8 : W8 m ρ c (Proc.devRef .tc main_v69) = h1 m ρ c := by
  unfold h1
  refine (W8_arr m ρ c 9).trans ?_
  refine (Cert.KernelIdeal.Regions.final1_9 (V7 m ρ) c).trans ?_
  show Cert.Spec.cellOut (W7 m ρ c (Proc.devRef .tc main_v40_0)) (W7 m ρ c (Proc.devRef .tc main_v53)) (W7 m ρ c (Proc.devRef .tc main_v66)) (W7 m ρ c (Proc.devRef .tc main_v38))
    (W7 m ρ c (Proc.devRef .tc main_arg6)) (W7 m ρ c (Proc.devRef .tc main_v67)) (W7 m ρ c (Proc.devRef .tc main_arg8)) (W7 m ρ c (Proc.devRef .tc main_v68)) (W7 m ρ c (Proc.devRef .tc main_arg10)) = _
  rw [t_v40_0_6_7 m ρ c, y0_6 m ρ c, ag0_7 m ρ c, s0_7 m ρ c, t_v38_5_7 m ρ c, v38_5 m ρ c, t_arg6_0_7 m ρ c, v67_7 m ρ c,
    t_arg8_0_7 m ρ c, v68_7 m ρ c, t_arg10_0_7 m ρ c]

/-! ## Cell 1 -/

theorem v70_9 : W9 m ρ c (Proc.devRef .tc main_v70) = shapeCast S1x128 (W0 m ρ c (Proc.devRef .tc main_arg12)) shapeCasts_S128_S1x128 := by
  refine (s9_v70 (W8 m ρ c)).trans ?_
  rw [t_arg12_0_8 m ρ c]
theorem y1_10 : W10 m ρ c (Proc.devRef .tc main_v71_0) = y1 m ρ c := by
  unfold y1
  refine (W10_arr m ρ c 4).trans ?_
  refine (Cert.KernelIdeal.Regions.final2_4 (V9 m ρ) c).trans ?_
  show Cert.Spec.linY (W9 m ρ c (Proc.devRef .tc main_v69)) (W9 m ρ c (Proc.devRef .tc main_arg11)) (W9 m ρ c (Proc.devRef .tc main_v70)) = _
  rw [t_v69_8_9 m ρ c, h1_8 m ρ c, t_arg11_0_9 m ρ c, v70_9 m ρ c]
theorem z1_10 : W10 m ρ c (Proc.devRef .tc main_v71_1) = z1 m ρ c := by
  unfold z1 y1
  refine (W10_arr m ρ c 5).trans ?_
  refine (Cert.KernelIdeal.Regions.final2_5 (V9 m ρ) c).trans ?_
  show Cert.Spec.mm (Cert.Spec.linY (W9 m ρ c (Proc.devRef .tc main_v69)) (W9 m ρ c (Proc.devRef .tc main_arg11)) (W9 m ρ c (Proc.devRef .tc main_v70))) (W9 m ρ c (Proc.devRef .tc main_arg13)) = _
  rw [t_v69_8_9 m ρ c, h1_8 m ρ c, t_arg11_0_9 m ρ c, v70_9 m ρ c, t_arg13_0_9 m ρ c]

theorem v1_10 : W10 m ρ c (Proc.devRef .tc main_v1) = ri m ρ c := (t_v1_4_10 m ρ c).trans (v1_4 m ρ c)
theorem v3_10 : W10 m ρ c (Proc.devRef .tc main_v3) = ci m ρ c := (t_v3_4_10 m ρ c).trans (v3_4 m ρ c)
theorem v31_10 : W10 m ρ c (Proc.devRef .tc main_v31) = nrm m ρ c := (t_v31_5_10 m ρ c).trans (v31_5 m ρ c)

theorem ag1_11 : W11 m ρ c (Proc.devRef .tc main_v84) = ag1 m ρ c := by
  unfold ag1
  refine (s11_v84 (W10 m ρ c)).trans ?_
  rw [v31_10 m ρ c, z1_10 m ρ c, v1_10 m ρ c, v3_10 m ρ c]
theorem s1_11 : W11 m ρ c (Proc.devRef .tc main_v97) = s1 m ρ c := by
  unfold s1
  refine (s11_v97 (W10 m ρ c)).trans ?_
  rw [t_arg2_0_10 m ρ c, y1_10 m ρ c, v1_10 m ρ c, v3_10 m ρ c]
theorem v98_11 : W11 m ρ c (Proc.devRef .tc main_v98) = shapeCast S1x128 (W0 m ρ c (Proc.devRef .tc main_arg15)) shapeCasts_S128_S1x128 := by
  refine (s11_v98 (W10 m ρ c)).trans ?_
  rw [t_arg15_0_10 m ρ c]
theorem v99_11 : W11 m ρ c (Proc.devRef .tc main_v99) = shapeCast S1x128 (W0 m ρ c (Proc.devRef .tc main_arg17)) shapeCasts_S128_S1x128 := by
  refine (s11_v99 (W10 m ρ c)).trans ?_
  rw [t_arg17_0_10 m ρ c]

theorem h2_12 : W12 m ρ c (Proc.devRef .tc main_v100) = h2 m ρ c := by
  unfold h2
  refine (W12_arr m ρ c 9).trans ?_
  refine (Cert.KernelIdeal.Regions.final3_9 (V11 m ρ) c).trans ?_
  show Cert.Spec.cellOut (W11 m ρ c (Proc.devRef .tc main_v71_0)) (W11 m ρ c (Proc.devRef .tc main_v84)) (W11 m ρ c (Proc.devRef .tc main_v97)) (W11 m ρ c (Proc.devRef .tc main_v38))
    (W11 m ρ c (Proc.devRef .tc main_arg14)) (W11 m ρ c (Proc.devRef .tc main_v98)) (W11 m ρ c (Proc.devRef .tc main_arg16)) (W11 m ρ c (Proc.devRef .tc main_v99)) (W11 m ρ c (Proc.devRef .tc main_arg18)) = _
  rw [t_v71_0_10_11 m ρ c, y1_10 m ρ c, ag1_11 m ρ c, s1_11 m ρ c, t_v38_5_11 m ρ c, v38_5 m ρ c, t_arg14_0_11 m ρ c,
    v98_11 m ρ c, t_arg16_0_11 m ρ c, v99_11 m ρ c, t_arg18_0_11 m ρ c]

/-! ## The classifier and the result -/

theorem v101_13 : W13 m ρ c (Proc.devRef .tc main_v101) = shapeCast S1x16 (W0 m ρ c (Proc.devRef .tc main_arg20)) shapeCasts_S16_S1x16 := by
  refine (s13_v101 (W12 m ρ c)).trans ?_
  rw [t_arg20_0_12 m ρ c]
theorem lg_14 : W14 m ρ c (Proc.devRef .tc main_v102) = lg m ρ c := by
  unfold lg
  refine (W14_arr m ρ c 3).trans ?_
  refine (Cert.KernelIdeal.Regions.final4_3 (V13 m ρ) c).trans ?_
  show Cert.Spec.linY (W13 m ρ c (Proc.devRef .tc main_v100)) (W13 m ρ c (Proc.devRef .tc main_arg19)) (W13 m ρ c (Proc.devRef .tc main_v101)) = _
  rw [t_v100_12_13 m ρ c, h2_12 m ρ c, t_arg19_0_13 m ρ c, v101_13 m ρ c]

/-- The result buffer after the last segment is the composed value. -/
theorem out_15 : W15 m ρ c (Proc.devRef .tc main_v103) = outK m ρ c := by
  unfold outK
  refine (s15_v103 (W14 m ρ c)).trans ?_
  rw [lg_14 m ρ c]

end Cert.KernelIdeal.Value

end
-- ==== Proof.LibHostDot.lean ====
/-
  The host's matrix product read at an index, and two facts about the extended reals that meet it: the product
  of an [m, k] by a [k, n] matrix (the left operand's axis 1 contracted with the right operand's axis 0), computed
  by the host's dot_general, is at (r, c) the sum over the contracted coordinate of the products of the entries —
  the same sum a zero-accumulated kernel matmul gives.  A quotient by a nonzero real is the product with its
  reciprocal on every extended real, which is how a kernel's folded reciprocal meets a reference's division.
-/
import Idealize.ShloMosaic.Lib.Pipeline.Value
import Idealize.ShloMosaic.Lib.ValueIdx
import Idealize.ShloMosaic.PureOps.Ideal.Laws

noncomputable section

namespace Cert.HostBody

open Idealize.ShloMosaic Idealize.ShloMosaic.ValueIdx

/-- The host's product of an m×k by a k×n matrix, read at `(r, c)`, is the sum over the contracted coordinate of
    the products of the entries.  `w` is the record's well-formedness, which a program states. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    Host.dotGeneral (⟨[1], [0], [0], [1], [], [], w⟩ : DotDims _ _ _) prec A B (ix2 r c)
      = ∑ i : Fin k, A (ix2 r i) * B (ix2 i c) := by
  simp only [Host.dotGeneral]
  rw [Ideal.dotGeneral_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

/-- The word of the float `10.0` denotes the real number ten. -/
theorem ofBits_ten : Ideal.ofBits .f32 0x41200000#32 = ((10 : ℝ) : EReal) := by
  simp [Ideal.ofBits, Ideal.ieee, -EReal.coe_mul]; norm_num

/-- Dividing by the float ten is multiplying by the rational one tenth, on every extended real. -/
theorem div_ten (x : EReal) : Ideal.div x (Ideal.ofBits .f32 0x41200000#32) = x * ((1 / 10 : ℝ) : EReal) := by
  rw [ofBits_ten]; exact Ideal.div_coe (by norm_num) x

end Cert.HostBody

end
-- ==== Proof.RefBridge.lean ====
/-
  The reference program's dense stages, as the host writes them, are the functions of whole arrays of Cert.Spec, index
  by index, over the extended reals.
  A linear stage is the host's product plus the bias laid down every row: at (r, c) the sum over the contracted
  coordinate of the products of the entries, plus the bias entry c. A plain product is that sum alone.
  The cell's closing stage joins two 128-wide halves and applies elu. Left half: the host takes the maximum with zero
  and then a leaky relu, which changes nothing on a value that is not negative; the host groups the sum as
  (agg + y·V) + b where the kernel's form has agg + (y·V + b). Right half: the host divides each row by its count
  laid along the row, which is the row-wise mean by the count column. The host's elu, v where v > 0 and
  1·(exp(v where v ≤ 0, else 0) − 1) elsewhere, is v where v > 0 and exp v − 1 elsewhere.
  Last, a vector reshaped to a row is the same row as the vector broadcast to a row.
-/
import proofs.«113657_j36816459661707_1_alg».proof.Proof.RefOut
import proofs.«113657_j36816459661707_1_alg».proof.Proof.Spec
import proofs.«113657_j36816459661707_1_alg».proof.Proof.LibHostDot
import proofs.«113657_j36816459661707_1_alg».proof.Proof.LibColOps
import proofs.«113657_j36816459661707_1_alg».proof.Proof.LibRowOps
import Idealize.ShloMosaic.Lib.IdealHost
import Idealize.ShloMosaic.Lib.Pipeline.Value

noncomputable section

namespace Cert.Bridge

open Cert.ReferenceIdeal Cert.ReferenceIdeal.Facts₀ Cert.ReferenceIdeal.Stage Idealize.ShloMosaic Idealize.ShloMosaic.ValueIdx

/-- The reference's 128-column product contracts the left operand's columns with the right operand's rows. -/
theorem dotA_eq : dot_S100000x128_S128x128_S100000x128_1_0_0_1_n_n
    = ⟨[1], [0], [0], [1], [], [], dot_S100000x128_S128x128_S100000x128_1_0_0_1_n_n_wf⟩ := rfl

/-- So does its 256-column product into 128 columns. -/
theorem dotB_eq : dot_S100000x256_S256x128_S100000x128_1_0_0_1_n_n
    = ⟨[1], [0], [0], [1], [], [], dot_S100000x256_S256x128_S100000x128_1_0_0_1_n_n_wf⟩ := rfl

/-- And its 256-column product into 16 columns. -/
theorem dotC_eq : dot_S100000x256_S256x16_S100000x16_1_0_0_1_n_n
    = ⟨[1], [0], [0], [1], [], [], dot_S100000x256_S256x16_S100000x16_1_0_0_1_n_n_wf⟩ := rfl

/-- The host's product of a [100000, 128] by a [128, 128] array at (r, c). -/
theorem dotA_apply (x : FVec Ideal S100000x128 .f32) (w : FVec Ideal S128x128 .f32) (r : Fin 100000) (c : Fin 128) :
    Host.dotGeneral dot_S100000x128_S128x128_S100000x128_1_0_0_1_n_n none x w (ix2 r c) = Cert.Spec.dotAt x w r c := by
  rw [dotA_eq, Cert.HostBody.dotGeneral_plain_apply]
  rfl

/-- The host's product of a [100000, 256] by a [256, 128] array at (r, c). -/
theorem dotB_apply (x : FVec Ideal S100000x256 .f32) (w : FVec Ideal S256x128 .f32) (r : Fin 100000) (c : Fin 128) :
    Host.dotGeneral dot_S100000x256_S256x128_S100000x128_1_0_0_1_n_n none x w (ix2 r c) = Cert.Spec.dotAt x w r c := by
  rw [dotB_eq, Cert.HostBody.dotGeneral_plain_apply]
  rfl

/-- The host's product of a [100000, 256] by a [256, 16] array at (r, c). -/
theorem dotC_apply (x : FVec Ideal S100000x256 .f32) (w : FVec Ideal S256x16 .f32) (r : Fin 100000) (c : Fin 16) :
    Host.dotGeneral dot_S100000x256_S256x16_S100000x16_1_0_0_1_n_n none x w (ix2 r c) = Cert.Spec.dotAt x w r c := by
  rw [dotC_eq, Cert.HostBody.dotGeneral_plain_apply]
  rfl

/-- A bias row laid down every row of a [100000, 128] array reads the row's entry. -/
theorem biasRows128_apply (b : FVec Ideal S1x128 .f32) (r : Fin 100000) (c : Fin 128) :
    broadcastInDim S100000x128 ![0, 1] bcast_S1x128_S100000x128_0_1 b (ix2 r c) = b (ix2 (0 : Fin 1) c) :=
  Cert.LibColOps.bcastRows_apply b bcast_S1x128_S100000x128_0_1 r c

/-- A bias row laid down every row of a [100000, 16] array reads the row's entry. -/
theorem biasRows16_apply (b : FVec Ideal S1x16 .f32) (r : Fin 100000) (c : Fin 16) :
    broadcastInDim S100000x16 ![0, 1] bcast_S1x16_S100000x16_0_1 b (ix2 r c) = b (ix2 (0 : Fin 1) c) :=
  Cert.LibColOps.bcastRows_apply b bcast_S1x16_S100000x16_0_1 r c

theorem preR_eq (h : FVec Ideal S100000x128 .f32) (pw : FVec Ideal S128x128 .f32) (pb : FVec Ideal S128 .f32) :
    preR h pw pb = Cert.Spec.linY h pw (broadcastInDim S1x128 ![1] bcast_S128_S1x128_1 pb) := by
  funext i
  obtain ⟨r, c, rfl⟩ : ∃ (r : Fin 100000) (c : Fin 128), i = ix2 r c := ⟨i 0, i 1, eq_ix2 i⟩
  unfold preR
  beta_reduce
  rw [Cert.Spec.linY_apply, addf_apply, dotA_apply, biasRows128_apply]

theorem preR2_eq (h : FVec Ideal S100000x256 .f32) (pw : FVec Ideal S256x128 .f32) (pb : FVec Ideal S128 .f32) :
    preR2 h pw pb = Cert.Spec.linY h pw (broadcastInDim S1x128 ![1] bcast_S128_S1x128_1 pb) := by
  funext i
  obtain ⟨r, c, rfl⟩ : ∃ (r : Fin 100000) (c : Fin 128), i = ix2 r c := ⟨i 0, i 1, eq_ix2 i⟩
  unfold preR2
  beta_reduce
  rw [Cert.Spec.linY_apply, addf_apply, dotB_apply, biasRows128_apply]

theorem tmmR_eq (y : FVec Ideal S100000x128 .f32) (aw : FVec Ideal S128x128 .f32) : tmmR y aw = Cert.Spec.mm y aw := by
  funext i
  obtain ⟨r, c, rfl⟩ : ∃ (r : Fin 100000) (c : Fin 128), i = ix2 r c := ⟨i 0, i 1, eq_ix2 i⟩
  unfold tmmR
  beta_reduce
  rw [Cert.Spec.mm_apply, dotA_apply]

theorem logitsR_eq (h : FVec Ideal S100000x256 .f32) (cw : FVec Ideal S256x16 .f32) (cb : FVec Ideal S16 .f32) :
    logitsR h cw cb = Cert.Spec.linY h cw (broadcastInDim S1x16 ![1] bcast_S16_S1x16_1 cb) := by
  funext i
  obtain ⟨r, c, rfl⟩ : ∃ (r : Fin 100000) (c : Fin 16), i = ix2 r c := ⟨i 0, i 1, eq_ix2 i⟩
  unfold logitsR
  beta_reduce
  rw [Cert.Spec.linY_apply, addf_apply, dotC_apply, biasRows16_apply]

/-- A vector cast to a row is the vector broadcast as a row: both read the vector's entry at the column. -/
theorem row_eq {b : ℕ} (x : (⟨1, ![b]⟩ : Shape).Idx → EReal) (h : (⟨1, ![b]⟩ : Shape).ShapeCasts ⟨2, ![1, b]⟩)
    (h' : (⟨1, ![b]⟩ : Shape).BroadcastsInDim ⟨2, ![1, b]⟩ ![1]) :
    shapeCast ⟨2, ![1, b]⟩ x h = broadcastInDim ⟨2, ![1, b]⟩ ![1] h' x := by
  funext i
  obtain ⟨z, q, rfl⟩ : ∃ (z : Fin 1) (q : Fin b), i = ix2 z q := ⟨i 0, i 1, eq_ix2 i⟩
  obtain rfl : z = 0 := Subsingleton.elim _ _
  rw [Cert.KernelBody.shapeCast_row_apply, Cert.LibColOps.bcastRow_apply]

/-! ## The cell's closing stage -/

/-- The float word of zero denotes zero. -/
theorem z0_eq : Cert.Spec.z0 = 0 := by unfold Cert.Spec.z0; exact Ideal.ofBits_zero_f32

/-- The float word of one denotes one. -/
theorem one_eq : Cert.Spec.one = 1 := by unfold Cert.Spec.one; exact Ideal.ofBits_one_f32

theorem cmp_ogt_pos {x y : EReal} (h : y < x) : Ideal.cmp .ogt x y = 1#1 := by simp [Ideal.cmp, h]
theorem cmp_ogt_neg {x y : EReal} (h : ¬ y < x) : Ideal.cmp .ogt x y = 0#1 := by simp [Ideal.cmp, h]
theorem cmp_oge_pos {x y : EReal} (h : y ≤ x) : Ideal.cmp .oge x y = 1#1 := by simp [Ideal.cmp, h]

/-- The host's elu — v where v > 0, and 1·(exp(v where v ≤ 0, else 0) − 1) elsewhere — is the kernel's: v where
    v > 0 and exp v − 1 elsewhere. -/
theorem elu_scalar (v : EReal) :
    Scalar.select (Ideal.cmp .ogt v Cert.Spec.z0) v
      (Cert.Spec.one * (Ideal.exp (Scalar.select (Ideal.cmp .ogt v Cert.Spec.z0) Cert.Spec.z0 v) - 1))
      = Cert.Spec.eluK v := by
  unfold Cert.Spec.eluK
  by_cases h : Cert.Spec.z0 < v
  · rw [cmp_ogt_pos h, select_one, select_one]
  · rw [cmp_ogt_neg h, select_zero, select_zero, select_zero, one_eq, one_mul]

/-- The leaky relu of a maximum with zero is that maximum: it is not negative. -/
theorem leaky_relu (v : EReal) : Cert.Spec.leakyK (max v Cert.Spec.z0) = max v Cert.Spec.z0 := by
  unfold Cert.Spec.leakyK
  rw [cmp_oge_pos (le_max_right v Cert.Spec.z0), select_one]

/-- The host's elu at an index is the kernel's elu of the entry. -/
theorem eluR_apply (x : FVec Ideal S100000x256 .f32) (i : S100000x256.Idx) : eluR x i = Cert.Spec.eluK (x i) := by
  refine Eq.trans ?_ (elu_scalar (x i))
  unfold eluR Cert.Spec.z0 Cert.Spec.one
  simp only [select_apply, cmpf_apply, mulf_apply, broadcastInDim_scalar_apply, constant_apply]
  rfl

/-- The host's leaky relu at an index is the kernel's leaky relu of the entry. -/
theorem leakyR_apply (x : FVec Ideal S100000x128 .f32) (i : S100000x128.Idx) : leakyR x i = Cert.Spec.leakyK (x i) := by
  unfold leakyR Cert.Spec.leakyK Cert.Spec.z0 Cert.Spec.slope
  simp only [select_apply, cmpf_apply, mulf_apply, broadcastInDim_scalar_apply, constant_apply]
  rfl

/-- The host's relu at an index is the maximum of the entry with zero. -/
theorem reluR_apply (x : FVec Ideal S100000x128 .f32) (i : S100000x128.Idx) : reluR x i = max (x i) Cert.Spec.z0 := by
  unfold reluR Cert.Spec.z0
  simp only [maximumf_apply]
  rw [broadcastInDim_scalar_apply, constant_apply]

/-- The first half before its activations, at (r, c). -/
theorem pre1R_apply (y ag : FVec Ideal S100000x128 .f32) (av : FVec Ideal S128x128 .f32) (ab : FVec Ideal S128 .f32)
    (r : Fin 100000) (c : Fin 128) :
    pre1R y ag av ab (ix2 r c) = (ag (ix2 r c) + Cert.Spec.dotAt y av r c)
      + (broadcastInDim S1x128 ![1] bcast_S128_S1x128_1 ab) (ix2 (0 : Fin 1) c) := by
  unfold pre1R
  beta_reduce
  rw [addf_apply, addf_apply, dotA_apply, biasRows128_apply]

/-- The host's row-wise mean — the array divided by the counts laid along every row — is the mean by the count column. -/
theorem mean_eq (s : FVec Ideal S100000x128 .f32) (cn : FVec Ideal S100000 .f32) :
    Host.divf s (broadcastInDim S100000x128 ![0, 1] bcast_S100000x1_S100000x128_0_1
        (broadcastInDim S100000x1 ![0] bcast_S100000_S100000x1_0 cn))
      = Cert.Spec.meanS s (broadcastInDim S100000x1 ![0] bcast_S100000_S100000x1_0 cn) := by
  funext i
  obtain ⟨r, c, rfl⟩ : ∃ (r : Fin 100000) (c : Fin 128), i = ix2 r c := ⟨i 0, i 1, eq_ix2 i⟩
  rw [Cert.Spec.meanS_apply, hostDivf_apply]
  congr 1
  exact Cert.LibColOps.bcastCols_apply _ bcast_S100000x1_S100000x128_0_1 r c

/-- The second half before its activation, at (r, c). -/
theorem pre2R_apply (y s : FVec Ideal S100000x128 .f32) (cn : FVec Ideal S100000 .f32) (wl : FVec Ideal S128x128 .f32)
    (bl : FVec Ideal S128 .f32) (wr : FVec Ideal S128x128 .f32) (r : Fin 100000) (c : Fin 128) :
    pre2R y s cn wl bl wr (ix2 r c)
      = (Cert.Spec.dotAt (Cert.Spec.meanS s (broadcastInDim S100000x1 ![0] bcast_S100000_S100000x1_0 cn)) wl r c
          + (broadcastInDim S1x128 ![1] bcast_S128_S1x128_1 bl) (ix2 (0 : Fin 1) c))
        + Cert.Spec.dotAt y wr r c := by
  unfold pre2R
  beta_reduce
  rw [addf_apply, addf_apply, dotA_apply, dotA_apply, biasRows128_apply, mean_eq]

/-- Two 128-wide arrays side by side, read in the left half. -/
theorem catR_left (a b : FVec Ideal S100000x128 .f32) (r : Fin 100000) (q : Fin 256) (hq : q.val < 128) :
    catR a b (ix2 r q) = a (ix2 r ⟨q.val, hq⟩) := by
  unfold catR
  beta_reduce
  refine concatenate_pair_apply_left (1 : Fin 2) a b concatenates_S100000x128_S100000x128_S100000x256_d1
    (ix2 r q) rfl (ix2 r ⟨q.val, hq⟩) (fun d => ?_)
  match d with
  | ⟨0, _⟩ => rfl
  | ⟨1, _⟩ => rfl

/-- Two 128-wide arrays side by side, read in the right half. -/
theorem catR_right (a b : FVec Ideal S100000x128 .f32) (r : Fin 100000) (q : Fin 256) (hq : ¬ q.val < 128) :
    catR a b (ix2 r q) = b (ix2 r ⟨q.val - 128, by have := q.isLt; omega⟩) := by
  unfold catR
  beta_reduce
  refine concatenate_pair_apply_right (1 : Fin 2) a b concatenates_S100000x128_S100000x128_S100000x256_d1
    (ix2 r q) rfl rfl (ix2 r ⟨q.val - 128, by have := q.isLt; omega⟩) (fun d hd => ?_) ?_
  · match d with
    | ⟨0, _⟩ => rfl
    | ⟨1, _⟩ => exact absurd rfl hd
  · show (q.val - 128) + 128 = q.val
    omega

theorem cellR_eq (y ag s : FVec Ideal S100000x128 .f32) (cn : FVec Ideal S100000 .f32) (av : FVec Ideal S128x128 .f32)
    (ab : FVec Ideal S128 .f32) (wl : FVec Ideal S128x128 .f32) (bl : FVec Ideal S128 .f32)
    (wr : FVec Ideal S128x128 .f32) :
    cellR y ag s cn av ab wl bl wr
      = Cert.Spec.cellOut y ag s (broadcastInDim S100000x1 ![0] bcast_S100000_S100000x1_0 cn) av
          (broadcastInDim S1x128 ![1] bcast_S128_S1x128_1 ab) wl (broadcastInDim S1x128 ![1] bcast_S128_S1x128_1 bl) wr := by
  funext i
  obtain ⟨r, q, rfl⟩ : ∃ (r : Fin 100000) (q : Fin 256), i = ix2 r q := ⟨i 0, i 1, eq_ix2 i⟩
  rw [Cert.Spec.cellOut_apply]
  unfold cellR Cert.Spec.cellAt
  rw [eluR_apply]
  by_cases hq : q.val < 128
  · rw [dif_pos hq, catR_left _ _ r q hq, leakyR_apply, reluR_apply, leaky_relu, pre1R_apply]
    unfold Cert.Spec.h1At
    rw [add_assoc]
  · rw [dif_neg hq, catR_right _ _ r q hq, leakyR_apply, pre2R_apply]
    unfold Cert.Spec.h2At
    rfl

end Cert.Bridge

end
-- ==== Proof.Final.lean ====
/-
  The two programs compute one function.  The kernel program's composed value (Proof/KerValue.lean) is the
  reference's composition of its stages (Proof/RefOut.lean) at the same arguments: the reference's dense stages are
  the tiled regions' functions index by index (a host product is the sum over the contracted coordinate, a bias
  broadcast along the rows is the bias row added to every row, relu followed by leaky relu is relu, the host's elu is
  the kernel's, and agg + (y·V + b) = (agg + y·V) + b on the extended reals); a bias reshaped to a row is the bias
  broadcast as a row; the edge chain and the log-softmax are the same operations on both sides.
-/
import proofs.«113657_j36816459661707_1_alg».proof.Proof.KerValue
import proofs.«113657_j36816459661707_1_alg».proof.Proof.RefBridge

noncomputable section

namespace Cert.KernelIdeal.Value

open Idealize.ShloMosaic Idealize.ShloMosaic.TcCoe Idealize.SL.Sem
open Cert.KernelIdeal Cert.KernelIdeal.Gen
open Cert.ReferenceIdeal.Stage (rowI colI deg dinv norm cnt agg sagg logsm refOut preR preR2 tmmR cellR logitsR)

variable (m : (ℓ : Loc nD τ sig) → Buf (Elt Ideal) ℓ) (ρ : Dev nD → PrngReg) (c : Dev nD)

/-- The kernel program's composed value is the reference's composition of its stages at the arguments as launched. -/
theorem outK_eq_refOut : outK m ρ c
    = refOut (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) (W0 m ρ c (Proc.devRef .tc main_arg17)) (W0 m ρ c (Proc.devRef .tc main_arg18)) (W0 m ρ c (Proc.devRef .tc main_arg19)) (W0 m ρ c (Proc.devRef .tc main_arg20)) := by
  unfold Cert.ReferenceIdeal.Stage.refOut
  simp only [Cert.Bridge.preR_eq, Cert.Bridge.preR2_eq, Cert.Bridge.tmmR_eq, Cert.Bridge.cellR_eq, Cert.Bridge.logitsR_eq]
  unfold outK lg h2 s1 ag1 z1 y1 h1 s0 ag0 z0 y0 cc nrm dg ci ri
  simp only [Cert.Bridge.row_eq _ shapeCasts_S128_S1x128 Cert.ReferenceIdeal.Facts₀.bcast_S128_S1x128_1,
    Cert.Bridge.row_eq _ shapeCasts_S16_S1x16 Cert.ReferenceIdeal.Facts₀.bcast_S16_S1x16_1]

end Cert.KernelIdeal.Value

end
-- ==== Proof.RefOpsList.lean ====
import proofs.«113657_j36816459661707_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference program's host operations in order, the outlined functions' operations at their calls. -/
abbrev ops : List (HloOp τ sig (Elt F)) :=
  [ StableHlo.unary main_arg1 main_v0 ((extractStridedSlice S1x1600000 ![0, 0] · slices_S2x1600000_S1x1600000_0_0)),
    StableHlo.reshape main_v0 main_v1 rfl shapeCasts_S1x1600000_S1600000,
    StableHlo.unary main_arg1 main_v2 ((extractStridedSlice S1x1600000 ![1, 0] · slices_S2x1600000_S1x1600000_1_0)),
    StableHlo.reshape main_v2 main_v3 rfl shapeCasts_S1x1600000_S1600000,
    StableHlo.nullary main_cst (constant S_ .f32 0x00000000#32),
    StableHlo.unary main_cst main_v4 (broadcastInDim S100000 ![] bcast_S_S100000),
    StableHlo.unary main_v3 main_v5 (broadcastInDim S1600000x1 ![0] bcast_S1600000_S1600000x1_0),
    StableHlo.ternary main_v4 main_v5 main_arg2 main_v6 ((fun x i u => Host.scatterAdd scatter_S100000_S1600000x1_S1600000_n_0_0_1 x i u)),
    StableHlo.nullary main_cst_0 (constant S_ .f32 0x00000000#32),
    StableHlo.unary main_cst_0 main_v7 (broadcastInDim S100000 ![] bcast_S_S100000),
    StableHlo.binary main_v6 main_v7 main_v8 (cmpf .ogt),
    StableHlo.nullary main_cst_1 (constant S_ .f32 0x00000000#32),
    StableHlo.unary main_cst_1 main_v9 (broadcastInDim S100000 ![] bcast_S_S100000),
    StableHlo.binary main_v6 main_v9 main_v10 (cmpf .ogt),
    StableHlo.nullary main_cst_2 (constant S_ .f32 0x3F800000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v10 : StableHlo.TRef sig ⟨S100000, .i1⟩) (.of main_v6 : StableHlo.TRef sig ⟨S100000, .f32⟩) main_call0.v1 main_call0.v2 select,
    StableHlo.unary main_v11 main_v12 (Host.sqrt),
    StableHlo.nullary main_cst_3 (constant S_ .f32 0x3F800000#32),
    StableHlo.unary main_cst_3 main_v13 (broadcastInDim S100000 ![] bcast_S_S100000),
    StableHlo.binary main_v13 main_v12 main_v14 (Host.divf),
    StableHlo.nullary main_cst_4 (constant S_ .f32 0x00000000#32),
    StableHlo.TRef.unary (.of main_cst_4 : StableHlo.TRef sig ⟨S_, .f32⟩) main_call1.v0 id,
    StableHlo.TRef.unary main_call1.v0 main_call1.v1 (broadcastInDim S100000 ![] bcast_S_S100000),
    StableHlo.TRef.ternary (.of main_v8 : StableHlo.TRef sig ⟨S100000, .i1⟩) (.of main_v14 : StableHlo.TRef sig ⟨S100000, .f32⟩) main_call1.v1 main_call1.v2 select,
    StableHlo.nullary main_c (constantI S_ 32 0#32),
    StableHlo.unary main_c main_v16 (broadcastInDim S1600000 ![] bcast_S_S1600000),
    StableHlo.binary main_v1 main_v16 main_v17 (cmpi .slt),
    StableHlo.nullary main_c_5 (constantI S_ 32 100000#32),
    StableHlo.unary main_c_5 main_v18 (broadcastInDim S1600000 ![] bcast_S_S1600000),
    StableHlo.binary main_v1 main_v18 main_v19 (addi),
    StableHlo.ternary main_v17 main_v19 main_v1 main_v20 (select),
    StableHlo.unary main_v20 main_v21 (broadcastInDim S1600000x1 ![0] bcast_S1600000_S1600000x1_0),
    StableHlo.binary main_v15 main_v21 main_v22 ((fun x i => Host.gather gather_S100000_S1600000x1_S1600000_n_0_n_n_0_1_1 x i)),
    StableHlo.binary main_v22 main_arg2 main_v23 (mulf),
    StableHlo.nullary main_c_6 (constantI S_ 32 0#32),
    StableHlo.unary main_c_6 main_v24 (broadcastInDim S1600000 ![] bcast_S_S1600000),
    StableHlo.binary main_v3 main_v24 main_v25 (cmpi .slt),
    StableHlo.nullary main_c_7 (constantI S_ 32 100000#32),
    StableHlo.unary main_c_7 main_v26 (broadcastInDim S1600000 ![] bcast_S_S1600000),
    StableHlo.binary main_v3 main_v26 main_v27 (addi),
    StableHlo.ternary main_v25 main_v27 main_v3 main_v28 (select),
    StableHlo.unary main_v28 main_v29 (broadcastInDim S1600000x1 ![0] bcast_S1600000_S1600000x1_0),
    StableHlo.binary main_v15 main_v29 main_v30 ((fun x i => Host.gather gather_S100000_S1600000x1_S1600000_n_0_n_n_0_1_1 x i)),
    StableHlo.binary main_v23 main_v30 main_v31 (mulf),
    StableHlo.nullary main_cst_8 (constant S_ .f32 0x3F800000#32),
    StableHlo.unary main_cst_8 main_v32 (broadcastInDim S1600000 ![] bcast_S_S1600000),
    StableHlo.nullary main_cst_9 (constant S_ .f32 0x00000000#32),
    StableHlo.unary main_cst_9 main_v33 (broadcastInDim S100000 ![] bcast_S_S100000),
    StableHlo.unary main_v3 main_v34 (broadcastInDim S1600000x1 ![0] bcast_S1600000_S1600000x1_0),
    StableHlo.ternary main_v33 main_v34 main_v32 main_v35 ((fun x i u => Host.scatterAdd scatter_S100000_S1600000x1_S1600000_n_0_0_1 x i u)),
    StableHlo.nullary main_cst_10 (constant S_ .f32 0x3F800000#32),
    StableHlo.unary main_cst_10 main_v36 (broadcastInDim S100000 ![] bcast_S_S100000),
    StableHlo.binary main_v35 main_v36 main_v37 (maximumf),
    StableHlo.binary main_arg0 main_arg3 main_v38 ((fun l r => Host.dotGeneral dot_S100000x128_S128x128_S100000x128_1_0_0_1_n_n none l r)),
    StableHlo.unary main_arg4 main_v39 (broadcastInDim S1x128 ![1] bcast_S128_S1x128_1),
    StableHlo.unary main_v39 main_v40 (broadcastInDim S100000x128 ![0, 1] bcast_S1x128_S100000x128_0_1),
    StableHlo.binary main_v38 main_v40 main_v41 (addf),
    StableHlo.binary main_v41 main_arg5 main_v42 ((fun l r => Host.dotGeneral dot_S100000x128_S128x128_S100000x128_1_0_0_1_n_n none l r)),
    StableHlo.unary main_v31 main_v43 (broadcastInDim S1600000x1 ![0] bcast_S1600000_S1600000x1_0),
    StableHlo.nullary main_c_11 (constantI S_ 32 0#32),
    StableHlo.unary main_c_11 main_v44 (broadcastInDim S1600000 ![] bcast_S_S1600000),
    StableHlo.binary main_v1 main_v44 main_v45 (cmpi .slt),
    StableHlo.nullary main_c_12 (constantI S_ 32 100000#32),
    StableHlo.unary main_c_12 main_v46 (broadcastInDim S1600000 ![] bcast_S_S1600000),
    StableHlo.binary main_v1 main_v46 main_v47 (addi),
    StableHlo.ternary main_v45 main_v47 main_v1 main_v48 (select),
    StableHlo.unary main_v48 main_v49 (broadcastInDim S1600000x1 ![0] bcast_S1600000_S1600000x1_0),
    StableHlo.binary main_v42 main_v49 main_v50 ((fun x i => Host.gather gather_S100000x128_S1600000x1_S1600000x128_1_0_n_n_0_1_1128 x i)),
    StableHlo.unary main_v43 main_v51 (broadcastInDim S1600000x128 ![0, 1] bcast_S1600000x1_S1600000x128_0_1),
    StableHlo.binary main_v51 main_v50 main_v52 (mulf),
    StableHlo.nullary main_cst_13 (constant S_ .f32 0x00000000#32),
    StableHlo.unary main_cst_13 main_v53 (broadcastInDim S100000x128 ![] bcast_S_S100000x128),
    StableHlo.unary main_v3 main_v54 (broadcastInDim S1600000x1 ![0] bcast_S1600000_S1600000x1_0),
    StableHlo.ternary main_v53 main_v54 main_v52 main_v55 ((fun x i u => Host.scatterAdd scatter_S100000x128_S1600000x1_S1600000x128_1_0_0_1 x i u)),
    StableHlo.binary main_v41 main_arg6 main_v56 ((fun l r => Host.dotGeneral dot_S100000x128_S128x128_S100000x128_1_0_0_1_n_n none l r)),
    StableHlo.binary main_v55 main_v56 main_v57 (addf),
    StableHlo.unary main_arg7 main_v58 (broadcastInDim S1x128 ![1] bcast_S128_S1x128_1),
    StableHlo.unary main_v58 main_v59 (broadcastInDim S100000x128 ![0, 1] bcast_S1x128_S100000x128_0_1),
    StableHlo.binary main_v57 main_v59 main_v60 (addf),
    StableHlo.TRef.nullary main_call2.cst (constant S_ .f32 0x00000000#32),
    StableHlo.TRef.unary main_call2.cst main_call2.v0 (broadcastInDim S100000x128 ![] bcast_S_S100000x128),
    StableHlo.TRef.binary (.of main_v60 : StableHlo.TRef sig ⟨S100000x128, .f32⟩) main_call2.v0 main_call2.v1 maximumf,
    StableHlo.nullary main_cst_14 (constant S_ .f32 0x3C23D70A#32),
    StableHlo.TRef.nullary main_call3.cst (constant S_ .f32 0x00000000#32),
    StableHlo.TRef.unary main_call3.cst main_call3.v0 (broadcastInDim S100000x128 ![] bcast_S_S100000x128),
    StableHlo.TRef.binary (.of main_v61 : StableHlo.TRef sig ⟨S100000x128, .f32⟩) main_call3.v0 main_call3.v1 (cmpf .oge),
    StableHlo.TRef.unary (.of main_cst_14 : StableHlo.TRef sig ⟨S_, .f32⟩) main_call3.v2 id,
    StableHlo.TRef.unary main_call3.v2 main_call3.v3 (broadcastInDim S100000x128 ![] bcast_S_S100000x128),
    StableHlo.TRef.binary main_call3.v3 (.of main_v61 : StableHlo.TRef sig ⟨S100000x128, .f32⟩) main_call3.v4 mulf,
    StableHlo.TRef.ternary main_call3.v1 (.of main_v61 : StableHlo.TRef sig ⟨S100000x128, .f32⟩) main_call3.v4 main_call3.call0.v0 select,
    StableHlo.unary main_arg2 main_v63 (broadcastInDim S1600000x1 ![0] bcast_S1600000_S1600000x1_0),
    StableHlo.nullary main_c_15 (constantI S_ 32 0#32),
    StableHlo.unary main_c_15 main_v64 (broadcastInDim S1600000 ![] bcast_S_S1600000),
    StableHlo.binary main_v1 main_v64 main_v65 (cmpi .slt),
    StableHlo.nullary main_c_16 (constantI S_ 32 100000#32),
    StableHlo.unary main_c_16 main_v66 (broadcastInDim S1600000 ![] bcast_S_S1600000),
    StableHlo.binary main_v1 main_v66 main_v67 (addi),
    StableHlo.ternary main_v65 main_v67 main_v1 main_v68 (select),
    StableHlo.unary main_v68 main_v69 (broadcastInDim S1600000x1 ![0] bcast_S1600000_S1600000x1_0),
    StableHlo.binary main_v41 main_v69 main_v70 ((fun x i => Host.gather gather_S100000x128_S1600000x1_S1600000x128_1_0_n_n_0_1_1128 x i)),
    StableHlo.unary main_v63 main_v71 (broadcastInDim S1600000x128 ![0, 1] bcast_S1600000x1_S1600000x128_0_1),
    StableHlo.binary main_v71 main_v70 main_v72 (mulf),
    StableHlo.nullary main_cst_17 (constant S_ .f32 0x00000000#32),
    StableHlo.unary main_cst_17 main_v73 (broadcastInDim S100000x128 ![] bcast_S_S100000x128),
    StableHlo.unary main_v3 main_v74 (broadcastInDim S1600000x1 ![0] bcast_S1600000_S1600000x1_0),
    StableHlo.ternary main_v73 main_v74 main_v72 main_v75 ((fun x i u => Host.scatterAdd scatter_S100000x128_S1600000x1_S1600000x128_1_0_0_1 x i u)),
    StableHlo.unary main_v37 main_v76 (broadcastInDim S100000x1 ![0] bcast_S100000_S100000x1_0),
    StableHlo.unary main_v76 main_v77 (broadcastInDim S100000x128 ![0, 1] bcast_S100000x1_S100000x128_0_1),
    StableHlo.binary main_v75 main_v77 main_v78 (Host.divf),
    StableHlo.binary main_v78 main_arg8 main_v79 ((fun l r => Host.dotGeneral dot_S100000x128_S128x128_S100000x128_1_0_0_1_n_n none l r)),
    StableHlo.unary main_arg9 main_v80 (broadcastInDim S1x128 ![1] bcast_S128_S1x128_1),
    StableHlo.unary main_v80 main_v81 (broadcastInDim S100000x128 ![0, 1] bcast_S1x128_S100000x128_0_1),
    StableHlo.binary main_v79 main_v81 main_v82 (addf),
    StableHlo.binary main_v41 main_arg10 main_v83 ((fun l r => Host.dotGeneral dot_S100000x128_S128x128_S100000x128_1_0_0_1_n_n none l r)),
    StableHlo.binary main_v82 main_v83 main_v84 (addf),
    StableHlo.nullary main_cst_18 (constant S_ .f32 0x3C23D70A#32),
    StableHlo.TRef.nullary main_call4.cst (constant S_ .f32 0x00000000#32),
    StableHlo.TRef.unary main_call4.cst main_call4.v0 (broadcastInDim S100000x128 ![] bcast_S_S100000x128),
    StableHlo.TRef.binary (.of main_v84 : StableHlo.TRef sig ⟨S100000x128, .f32⟩) main_call4.v0 main_call4.v1 (cmpf .oge),
    StableHlo.TRef.unary (.of main_cst_18 : StableHlo.TRef sig ⟨S_, .f32⟩) main_call4.v2 id,
    StableHlo.TRef.unary main_call4.v2 main_call4.v3 (broadcastInDim S100000x128 ![] bcast_S_S100000x128),
    StableHlo.TRef.binary main_call4.v3 (.of main_v84 : StableHlo.TRef sig ⟨S100000x128, .f32⟩) main_call4.v4 mulf,
    StableHlo.TRef.ternary main_call4.v1 (.of main_v84 : StableHlo.TRef sig ⟨S100000x128, .f32⟩) main_call4.v4 main_call4.call0.v0 select,
    StableHlo.binary main_v62 main_v85 main_v86 ((fun a b => concatenate S100000x256 1 [⟨S100000x128, a⟩, ⟨S100000x128, b⟩] concatenates_S100000x128_S100000x128_S100000x256_d1)),
    StableHlo.TRef.nullary main_call5.cst (constant S_ .f32 0x00000000#32),
    StableHlo.TRef.unary main_call5.cst main_call5.v0 (broadcastInDim S100000x256 ![] bcast_S_S100000x256),
    StableHlo.TRef.binary (.of main_v86 : StableHlo.TRef sig ⟨S100000x256, .f32⟩) main_call5.v0 main_call5.v1 (cmpf .ogt),
    StableHlo.TRef.nullary main_call5.cst_0 (constant S_ .f32 0x00000000#32),
    StableHlo.TRef.unary main_call5.cst_0 main_call5.v2 (broadcastInDim S100000x256 ![] bcast_S_S100000x256),
    StableHlo.TRef.binary (.of main_v86 : StableHlo.TRef sig ⟨S100000x256, .f32⟩) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S100000x256 ![] bcast_S_S100000x256),
    StableHlo.TRef.ternary main_call5.v3 main_call5.call0.v1 (.of main_v86 : StableHlo.TRef sig ⟨S100000x256, .f32⟩) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S100000x256 ![] bcast_S_S100000x256),
    StableHlo.TRef.binary main_call5.v6 main_call5.v5 main_call5.v7 mulf,
    StableHlo.TRef.ternary main_call5.v1 (.of main_v86 : StableHlo.TRef sig ⟨S100000x256, .f32⟩) main_call5.v7 main_call5.call1.v0 select,
    StableHlo.binary main_v87 main_arg11 main_v88 ((fun l r => Host.dotGeneral dot_S100000x256_S256x128_S100000x128_1_0_0_1_n_n none l r)),
    StableHlo.unary main_arg12 main_v89 (broadcastInDim S1x128 ![1] bcast_S128_S1x128_1),
    StableHlo.unary main_v89 main_v90 (broadcastInDim S100000x128 ![0, 1] bcast_S1x128_S100000x128_0_1),
    StableHlo.binary main_v88 main_v90 main_v91 (addf),
    StableHlo.binary main_v91 main_arg13 main_v92 ((fun l r => Host.dotGeneral dot_S100000x128_S128x128_S100000x128_1_0_0_1_n_n none l r)),
    StableHlo.unary main_v31 main_v93 (broadcastInDim S1600000x1 ![0] bcast_S1600000_S1600000x1_0),
    StableHlo.nullary main_c_19 (constantI S_ 32 0#32),
    StableHlo.unary main_c_19 main_v94 (broadcastInDim S1600000 ![] bcast_S_S1600000),
    StableHlo.binary main_v1 main_v94 main_v95 (cmpi .slt),
    StableHlo.nullary main_c_20 (constantI S_ 32 100000#32),
    StableHlo.unary main_c_20 main_v96 (broadcastInDim S1600000 ![] bcast_S_S1600000),
    StableHlo.binary main_v1 main_v96 main_v97 (addi),
    StableHlo.ternary main_v95 main_v97 main_v1 main_v98 (select),
    StableHlo.unary main_v98 main_v99 (broadcastInDim S1600000x1 ![0] bcast_S1600000_S1600000x1_0),
    StableHlo.binary main_v92 main_v99 main_v100 ((fun x i => Host.gather gather_S100000x128_S1600000x1_S1600000x128_1_0_n_n_0_1_1128 x i)),
    StableHlo.unary main_v93 main_v101 (broadcastInDim S1600000x128 ![0, 1] bcast_S1600000x1_S1600000x128_0_1),
    StableHlo.binary main_v101 main_v100 main_v102 (mulf),
    StableHlo.nullary main_cst_21 (constant S_ .f32 0x00000000#32),
    StableHlo.unary main_cst_21 main_v103 (broadcastInDim S100000x128 ![] bcast_S_S100000x128),
    StableHlo.unary main_v3 main_v104 (broadcastInDim S1600000x1 ![0] bcast_S1600000_S1600000x1_0),
    StableHlo.ternary main_v103 main_v104 main_v102 main_v105 ((fun x i u => Host.scatterAdd scatter_S100000x128_S1600000x1_S1600000x128_1_0_0_1 x i u)),
    StableHlo.binary main_v91 main_arg14 main_v106 ((fun l r => Host.dotGeneral dot_S100000x128_S128x128_S100000x128_1_0_0_1_n_n none l r)),
    StableHlo.binary main_v105 main_v106 main_v107 (addf),
    StableHlo.unary main_arg15 main_v108 (broadcastInDim S1x128 ![1] bcast_S128_S1x128_1),
    StableHlo.unary main_v108 main_v109 (broadcastInDim S100000x128 ![0, 1] bcast_S1x128_S100000x128_0_1),
    StableHlo.binary main_v107 main_v109 main_v110 (addf),
    StableHlo.TRef.nullary main_call6.cst (constant S_ .f32 0x00000000#32),
    StableHlo.TRef.unary main_call6.cst main_call6.v0 (broadcastInDim S100000x128 ![] bcast_S_S100000x128),
    StableHlo.TRef.binary (.of main_v110 : StableHlo.TRef sig ⟨S100000x128, .f32⟩) main_call6.v0 main_call6.v1 maximumf,
    StableHlo.nullary main_cst_22 (constant S_ .f32 0x3C23D70A#32),
    StableHlo.TRef.nullary main_call7.cst (constant S_ .f32 0x00000000#32),
    StableHlo.TRef.unary main_call7.cst main_call7.v0 (broadcastInDim S100000x128 ![] bcast_S_S100000x128),
    StableHlo.TRef.binary (.of main_v111 : StableHlo.TRef sig ⟨S100000x128, .f32⟩) main_call7.v0 main_call7.v1 (cmpf .oge),
    StableHlo.TRef.unary (.of main_cst_22 : StableHlo.TRef sig ⟨S_, .f32⟩) main_call7.v2 id,
    StableHlo.TRef.unary main_call7.v2 main_call7.v3 (broadcastInDim S100000x128 ![] bcast_S_S100000x128),
    StableHlo.TRef.binary main_call7.v3 (.of main_v111 : StableHlo.TRef sig ⟨S100000x128, .f32⟩) main_call7.v4 mulf,
    StableHlo.TRef.ternary main_call7.v1 (.of main_v111 : StableHlo.TRef sig ⟨S100000x128, .f32⟩) main_call7.v4 main_call7.call0.v0 select,
    StableHlo.unary main_arg2 main_v113 (broadcastInDim S1600000x1 ![0] bcast_S1600000_S1600000x1_0),
    StableHlo.nullary main_c_23 (constantI S_ 32 0#32),
    StableHlo.unary main_c_23 main_v114 (broadcastInDim S1600000 ![] bcast_S_S1600000),
    StableHlo.binary main_v1 main_v114 main_v115 (cmpi .slt),
    StableHlo.nullary main_c_24 (constantI S_ 32 100000#32),
    StableHlo.unary main_c_24 main_v116 (broadcastInDim S1600000 ![] bcast_S_S1600000),
    StableHlo.binary main_v1 main_v116 main_v117 (addi),
    StableHlo.ternary main_v115 main_v117 main_v1 main_v118 (select),
    StableHlo.unary main_v118 main_v119 (broadcastInDim S1600000x1 ![0] bcast_S1600000_S1600000x1_0),
    StableHlo.binary main_v91 main_v119 main_v120 ((fun x i => Host.gather gather_S100000x128_S1600000x1_S1600000x128_1_0_n_n_0_1_1128 x i)),
    StableHlo.unary main_v113 main_v121 (broadcastInDim S1600000x128 ![0, 1] bcast_S1600000x1_S1600000x128_0_1),
    StableHlo.binary main_v121 main_v120 main_v122 (mulf),
    StableHlo.nullary main_cst_25 (constant S_ .f32 0x00000000#32),
    StableHlo.unary main_cst_25 main_v123 (broadcastInDim S100000x128 ![] bcast_S_S100000x128),
    StableHlo.unary main_v3 main_v124 (broadcastInDim S1600000x1 ![0] bcast_S1600000_S1600000x1_0),
    StableHlo.ternary main_v123 main_v124 main_v122 main_v125 ((fun x i u => Host.scatterAdd scatter_S100000x128_S1600000x1_S1600000x128_1_0_0_1 x i u)),
    StableHlo.unary main_v37 main_v126 (broadcastInDim S100000x1 ![0] bcast_S100000_S100000x1_0),
    StableHlo.unary main_v126 main_v127 (broadcastInDim S100000x128 ![0, 1] bcast_S100000x1_S100000x128_0_1),
    StableHlo.binary main_v125 main_v127 main_v128 (Host.divf),
    StableHlo.binary main_v128 main_arg16 main_v129 ((fun l r => Host.dotGeneral dot_S100000x128_S128x128_S100000x128_1_0_0_1_n_n none l r)),
    StableHlo.unary main_arg17 main_v130 (broadcastInDim S1x128 ![1] bcast_S128_S1x128_1),
    StableHlo.unary main_v130 main_v131 (broadcastInDim S100000x128 ![0, 1] bcast_S1x128_S100000x128_0_1),
    StableHlo.binary main_v129 main_v131 main_v132 (addf),
    StableHlo.binary main_v91 main_arg18 main_v133 ((fun l r => Host.dotGeneral dot_S100000x128_S128x128_S100000x128_1_0_0_1_n_n none l r)),
    StableHlo.binary main_v132 main_v133 main_v134 (addf),
    StableHlo.nullary main_cst_26 (constant S_ .f32 0x3C23D70A#32),
    StableHlo.TRef.nullary main_call8.cst (constant S_ .f32 0x00000000#32),
    StableHlo.TRef.unary main_call8.cst main_call8.v0 (broadcastInDim S100000x128 ![] bcast_S_S100000x128),
    StableHlo.TRef.binary (.of main_v134 : StableHlo.TRef sig ⟨S100000x128, .f32⟩) main_call8.v0 main_call8.v1 (cmpf .oge),
    StableHlo.TRef.unary (.of main_cst_26 : StableHlo.TRef sig ⟨S_, .f32⟩) main_call8.v2 id,
    StableHlo.TRef.unary main_call8.v2 main_call8.v3 (broadcastInDim S100000x128 ![] bcast_S_S100000x128),
    StableHlo.TRef.binary main_call8.v3 (.of main_v134 : StableHlo.TRef sig ⟨S100000x128, .f32⟩) main_call8.v4 mulf,
    StableHlo.TRef.ternary main_call8.v1 (.of main_v134 : StableHlo.TRef sig ⟨S100000x128, .f32⟩) main_call8.v4 main_call8.call0.v0 select,
    StableHlo.binary main_v112 main_v135 main_v136 ((fun a b => concatenate S100000x256 1 [⟨S100000x128, a⟩, ⟨S100000x128, b⟩] concatenates_S100000x128_S100000x128_S100000x256_d1)),
    StableHlo.TRef.nullary main_call9.cst (constant S_ .f32 0x00000000#32),
    StableHlo.TRef.unary main_call9.cst main_call9.v0 (broadcastInDim S100000x256 ![] bcast_S_S100000x256),
    StableHlo.TRef.binary (.of main_v136 : StableHlo.TRef sig ⟨S100000x256, .f32⟩) main_call9.v0 main_call9.v1 (cmpf .ogt),
    StableHlo.TRef.nullary main_call9.cst_0 (constant S_ .f32 0x00000000#32),
    StableHlo.TRef.unary main_call9.cst_0 main_call9.v2 (broadcastInDim S100000x256 ![] bcast_S_S100000x256),
    StableHlo.TRef.binary (.of main_v136 : StableHlo.TRef sig ⟨S100000x256, .f32⟩) main_call9.v2 main_call9.v3 (cmpf .ogt),
    StableHlo.TRef.nullary main_call9.cst_1 (constant S_ .f32 0x00000000#32),
    StableHlo.TRef.unary main_call9.cst_1 main_call9.call0.v0 id,
    StableHlo.TRef.unary main_call9.call0.v0 main_call9.call0.v1 (broadcastInDim S100000x256 ![] bcast_S_S100000x256),
    StableHlo.TRef.ternary main_call9.v3 main_call9.call0.v1 (.of main_v136 : StableHlo.TRef sig ⟨S100000x256, .f32⟩) main_call9.call0.v2 select,
    StableHlo.TRef.unary main_call9.call0.v2 main_call9.v5 Host.expm1,
    StableHlo.TRef.nullary main_call9.cst_2 (constant S_ .f32 0x3F800000#32),
    StableHlo.TRef.unary main_call9.cst_2 main_call9.v6 (broadcastInDim S100000x256 ![] bcast_S_S100000x256),
    StableHlo.TRef.binary main_call9.v6 main_call9.v5 main_call9.v7 mulf,
    StableHlo.TRef.ternary main_call9.v1 (.of main_v136 : StableHlo.TRef sig ⟨S100000x256, .f32⟩) main_call9.v7 main_call9.call1.v0 select,
    StableHlo.binary main_v137 main_arg19 main_v138 ((fun l r => Host.dotGeneral dot_S100000x256_S256x16_S100000x16_1_0_0_1_n_n none l r)),
    StableHlo.unary main_arg20 main_v139 (broadcastInDim S1x16 ![1] bcast_S16_S1x16_1),
    StableHlo.unary main_v139 main_v140 (broadcastInDim S100000x16 ![0, 1] bcast_S1x16_S100000x16_0_1),
    StableHlo.binary main_v138 main_v140 main_v141 (addf),
    StableHlo.TRef.nullary main_call10.cst (constant S_ .f32 0xFF800000#32),
    StableHlo.TRef.binary (.of main_v141 : StableHlo.TRef sig ⟨S100000x16, .f32⟩) main_call10.cst main_call10.v0 (fun x v => Host.reduce FloatOps.maximumf x v reducesTo_S100000x16_S100000_d1 h_S_),
    StableHlo.TRef.nullary main_call10.cst_0 (constant S_ .f32 0xFF800000#32),
    StableHlo.TRef.unary main_call10.cst_0 main_call10.v1 (broadcastInDim S100000 ![] bcast_S_S100000),
    StableHlo.TRef.binary main_call10.v1 main_call10.v0 main_call10.v2 maximumf,
    StableHlo.TRef.unary main_call10.v2 main_call10.v3 (broadcastInDim S100000x1 ![0] bcast_S100000_S100000x1_0),
    StableHlo.TRef.unary main_call10.v3 main_call10.v4 (broadcastInDim S100000x16 ![0, 1] bcast_S100000x1_S100000x16_0_1),
    StableHlo.TRef.binary (.of main_v141 : StableHlo.TRef sig ⟨S100000x16, .f32⟩) main_call10.v4 main_call10.v5 subf,
    StableHlo.TRef.unary main_call10.v5 main_call10.v6 Host.exp,
    StableHlo.TRef.nullary main_call10.cst_1 (constant S_ .f32 0x00000000#32),
    StableHlo.TRef.binary main_call10.v6 main_call10.cst_1 main_call10.v7 (fun x v => Host.reduceAdd x v reducesTo_S100000x16_S100000_d1 h_S_),
    StableHlo.TRef.unary main_call10.v7 main_call10.v8 (broadcastInDim S100000x1 ![0] bcast_S100000_S100000x1_0),
    StableHlo.TRef.unary main_call10.v8 main_call10.v9 Host.log,
    StableHlo.TRef.unary main_call10.v9 main_call10.v10 (broadcastInDim S100000x16 ![0, 1] bcast_S100000x1_S100000x16_0_1),
    StableHlo.TRef.binary main_call10.v5 main_call10.v10 main_call10.v11 subf ]

/-- Stage 0 of the line. -/
abbrev ops0 : List (HloOp τ sig (Elt F)) :=
  [ StableHlo.unary main_arg1 main_v0 ((extractStridedSlice S1x1600000 ![0, 0] · slices_S2x1600000_S1x1600000_0_0)),
    StableHlo.reshape main_v0 main_v1 rfl shapeCasts_S1x1600000_S1600000,
    StableHlo.unary main_arg1 main_v2 ((extractStridedSlice S1x1600000 ![1, 0] · slices_S2x1600000_S1x1600000_1_0)),
    StableHlo.reshape main_v2 main_v3 rfl shapeCasts_S1x1600000_S1600000,
    StableHlo.nullary main_cst (constant S_ .f32 0x00000000#32),
    StableHlo.unary main_cst main_v4 (broadcastInDim S100000 ![] bcast_S_S100000),
    StableHlo.unary main_v3 main_v5 (broadcastInDim S1600000x1 ![0] bcast_S1600000_S1600000x1_0),
    StableHlo.ternary main_v4 main_v5 main_arg2 main_v6 ((fun x i u => Host.scatterAdd scatter_S100000_S1600000x1_S1600000_n_0_0_1 x i u)),
    StableHlo.nullary main_cst_0 (constant S_ .f32 0x00000000#32),
    StableHlo.unary main_cst_0 main_v7 (broadcastInDim S100000 ![] bcast_S_S100000),
    StableHlo.binary main_v6 main_v7 main_v8 (cmpf .ogt),
    StableHlo.nullary main_cst_1 (constant S_ .f32 0x00000000#32),
    StableHlo.unary main_cst_1 main_v9 (broadcastInDim S100000 ![] bcast_S_S100000),
    StableHlo.binary main_v6 main_v9 main_v10 (cmpf .ogt),
    StableHlo.nullary main_cst_2 (constant S_ .f32 0x3F800000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v10 : StableHlo.TRef sig ⟨S100000, .i1⟩) (.of main_v6 : StableHlo.TRef sig ⟨S100000, .f32⟩) main_call0.v1 main_call0.v2 select,
    StableHlo.unary main_v11 main_v12 (Host.sqrt),
    StableHlo.nullary main_cst_3 (constant S_ .f32 0x3F800000#32),
    StableHlo.unary main_cst_3 main_v13 (broadcastInDim S100000 ![] bcast_S_S100000),
    StableHlo.binary main_v13 main_v12 main_v14 (Host.divf),
    StableHlo.nullary main_cst_4 (constant S_ .f32 0x00000000#32),
    StableHlo.TRef.unary (.of main_cst_4 : StableHlo.TRef sig ⟨S_, .f32⟩) main_call1.v0 id,
    StableHlo.TRef.unary main_call1.v0 main_call1.v1 (broadcastInDim S100000 ![] bcast_S_S100000),
    StableHlo.TRef.ternary (.of main_v8 : StableHlo.TRef sig ⟨S100000, .i1⟩) (.of main_v14 : StableHlo.TRef sig ⟨S100000, .f32⟩) main_call1.v1 main_call1.v2 select,
    StableHlo.nullary main_c (constantI S_ 32 0#32),
    StableHlo.unary main_c main_v16 (broadcastInDim S1600000 ![] bcast_S_S1600000),
    StableHlo.binary main_v1 main_v16 main_v17 (cmpi .slt),
    StableHlo.nullary main_c_5 (constantI S_ 32 100000#32),
    StableHlo.unary main_c_5 main_v18 (broadcastInDim S1600000 ![] bcast_S_S1600000),
    StableHlo.binary main_v1 main_v18 main_v19 (addi),
    StableHlo.ternary main_v17 main_v19 main_v1 main_v20 (select),
    StableHlo.unary main_v20 main_v21 (broadcastInDim S1600000x1 ![0] bcast_S1600000_S1600000x1_0),
    StableHlo.binary main_v15 main_v21 main_v22 ((fun x i => Host.gather gather_S100000_S1600000x1_S1600000_n_0_n_n_0_1_1 x i)),
    StableHlo.binary main_v22 main_arg2 main_v23 (mulf),
    StableHlo.nullary main_c_6 (constantI S_ 32 0#32),
    StableHlo.unary main_c_6 main_v24 (broadcastInDim S1600000 ![] bcast_S_S1600000),
    StableHlo.binary main_v3 main_v24 main_v25 (cmpi .slt),
    StableHlo.nullary main_c_7 (constantI S_ 32 100000#32),
    StableHlo.unary main_c_7 main_v26 (broadcastInDim S1600000 ![] bcast_S_S1600000),
    StableHlo.binary main_v3 main_v26 main_v27 (addi),
    StableHlo.ternary main_v25 main_v27 main_v3 main_v28 (select),
    StableHlo.unary main_v28 main_v29 (broadcastInDim S1600000x1 ![0] bcast_S1600000_S1600000x1_0),
    StableHlo.binary main_v15 main_v29 main_v30 ((fun x i => Host.gather gather_S100000_S1600000x1_S1600000_n_0_n_n_0_1_1 x i)),
    StableHlo.binary main_v23 main_v30 main_v31 (mulf),
    StableHlo.nullary main_cst_8 (constant S_ .f32 0x3F800000#32),
    StableHlo.unary main_cst_8 main_v32 (broadcastInDim S1600000 ![] bcast_S_S1600000),
    StableHlo.nullary main_cst_9 (constant S_ .f32 0x00000000#32),
    StableHlo.unary main_cst_9 main_v33 (broadcastInDim S100000 ![] bcast_S_S100000),
    StableHlo.unary main_v3 main_v34 (broadcastInDim S1600000x1 ![0] bcast_S1600000_S1600000x1_0),
    StableHlo.ternary main_v33 main_v34 main_v32 main_v35 ((fun x i u => Host.scatterAdd scatter_S100000_S1600000x1_S1600000_n_0_0_1 x i u)),
    StableHlo.nullary main_cst_10 (constant S_ .f32 0x3F800000#32),
    StableHlo.unary main_cst_10 main_v36 (broadcastInDim S100000 ![] bcast_S_S100000),
    StableHlo.binary main_v35 main_v36 main_v37 (maximumf) ]

/-- Stage 1 of the line. -/
abbrev ops1 : List (HloOp τ sig (Elt F)) :=
  [ StableHlo.binary main_arg0 main_arg3 main_v38 ((fun l r => Host.dotGeneral dot_S100000x128_S128x128_S100000x128_1_0_0_1_n_n none l r)),
    StableHlo.unary main_arg4 main_v39 (broadcastInDim S1x128 ![1] bcast_S128_S1x128_1),
    StableHlo.unary main_v39 main_v40 (broadcastInDim S100000x128 ![0, 1] bcast_S1x128_S100000x128_0_1),
    StableHlo.binary main_v38 main_v40 main_v41 (addf),
    StableHlo.binary main_v41 main_arg5 main_v42 ((fun l r => Host.dotGeneral dot_S100000x128_S128x128_S100000x128_1_0_0_1_n_n none l r)),
    StableHlo.unary main_v31 main_v43 (broadcastInDim S1600000x1 ![0] bcast_S1600000_S1600000x1_0),
    StableHlo.nullary main_c_11 (constantI S_ 32 0#32),
    StableHlo.unary main_c_11 main_v44 (broadcastInDim S1600000 ![] bcast_S_S1600000),
    StableHlo.binary main_v1 main_v44 main_v45 (cmpi .slt),
    StableHlo.nullary main_c_12 (constantI S_ 32 100000#32),
    StableHlo.unary main_c_12 main_v46 (broadcastInDim S1600000 ![] bcast_S_S1600000),
    StableHlo.binary main_v1 main_v46 main_v47 (addi),
    StableHlo.ternary main_v45 main_v47 main_v1 main_v48 (select),
    StableHlo.unary main_v48 main_v49 (broadcastInDim S1600000x1 ![0] bcast_S1600000_S1600000x1_0),
    StableHlo.binary main_v42 main_v49 main_v50 ((fun x i => Host.gather gather_S100000x128_S1600000x1_S1600000x128_1_0_n_n_0_1_1128 x i)),
    StableHlo.unary main_v43 main_v51 (broadcastInDim S1600000x128 ![0, 1] bcast_S1600000x1_S1600000x128_0_1),
    StableHlo.binary main_v51 main_v50 main_v52 (mulf),
    StableHlo.nullary main_cst_13 (constant S_ .f32 0x00000000#32),
    StableHlo.unary main_cst_13 main_v53 (broadcastInDim S100000x128 ![] bcast_S_S100000x128),
    StableHlo.unary main_v3 main_v54 (broadcastInDim S1600000x1 ![0] bcast_S1600000_S1600000x1_0),
    StableHlo.ternary main_v53 main_v54 main_v52 main_v55 ((fun x i u => Host.scatterAdd scatter_S100000x128_S1600000x1_S1600000x128_1_0_0_1 x i u)),
    StableHlo.binary main_v41 main_arg6 main_v56 ((fun l r => Host.dotGeneral dot_S100000x128_S128x128_S100000x128_1_0_0_1_n_n none l r)),
    StableHlo.binary main_v55 main_v56 main_v57 (addf),
    StableHlo.unary main_arg7 main_v58 (broadcastInDim S1x128 ![1] bcast_S128_S1x128_1),
    StableHlo.unary main_v58 main_v59 (broadcastInDim S100000x128 ![0, 1] bcast_S1x128_S100000x128_0_1),
    StableHlo.binary main_v57 main_v59 main_v60 (addf),
    StableHlo.TRef.nullary main_call2.cst (constant S_ .f32 0x00000000#32),
    StableHlo.TRef.unary main_call2.cst main_call2.v0 (broadcastInDim S100000x128 ![] bcast_S_S100000x128),
    StableHlo.TRef.binary (.of main_v60 : StableHlo.TRef sig ⟨S100000x128, .f32⟩) main_call2.v0 main_call2.v1 maximumf,
    StableHlo.nullary main_cst_14 (constant S_ .f32 0x3C23D70A#32),
    StableHlo.TRef.nullary main_call3.cst (constant S_ .f32 0x00000000#32),
    StableHlo.TRef.unary main_call3.cst main_call3.v0 (broadcastInDim S100000x128 ![] bcast_S_S100000x128),
    StableHlo.TRef.binary (.of main_v61 : StableHlo.TRef sig ⟨S100000x128, .f32⟩) main_call3.v0 main_call3.v1 (cmpf .oge),
    StableHlo.TRef.unary (.of main_cst_14 : StableHlo.TRef sig ⟨S_, .f32⟩) main_call3.v2 id,
    StableHlo.TRef.unary main_call3.v2 main_call3.v3 (broadcastInDim S100000x128 ![] bcast_S_S100000x128),
    StableHlo.TRef.binary main_call3.v3 (.of main_v61 : StableHlo.TRef sig ⟨S100000x128, .f32⟩) main_call3.v4 mulf,
    StableHlo.TRef.ternary main_call3.v1 (.of main_v61 : StableHlo.TRef sig ⟨S100000x128, .f32⟩) main_call3.v4 main_call3.call0.v0 select,
    StableHlo.unary main_arg2 main_v63 (broadcastInDim S1600000x1 ![0] bcast_S1600000_S1600000x1_0),
    StableHlo.nullary main_c_15 (constantI S_ 32 0#32),
    StableHlo.unary main_c_15 main_v64 (broadcastInDim S1600000 ![] bcast_S_S1600000),
    StableHlo.binary main_v1 main_v64 main_v65 (cmpi .slt),
    StableHlo.nullary main_c_16 (constantI S_ 32 100000#32),
    StableHlo.unary main_c_16 main_v66 (broadcastInDim S1600000 ![] bcast_S_S1600000),
    StableHlo.binary main_v1 main_v66 main_v67 (addi),
    StableHlo.ternary main_v65 main_v67 main_v1 main_v68 (select),
    StableHlo.unary main_v68 main_v69 (broadcastInDim S1600000x1 ![0] bcast_S1600000_S1600000x1_0),
    StableHlo.binary main_v41 main_v69 main_v70 ((fun x i => Host.gather gather_S100000x128_S1600000x1_S1600000x128_1_0_n_n_0_1_1128 x i)),
    StableHlo.unary main_v63 main_v71 (broadcastInDim S1600000x128 ![0, 1] bcast_S1600000x1_S1600000x128_0_1),
    StableHlo.binary main_v71 main_v70 main_v72 (mulf),
    StableHlo.nullary main_cst_17 (constant S_ .f32 0x00000000#32),
    StableHlo.unary main_cst_17 main_v73 (broadcastInDim S100000x128 ![] bcast_S_S100000x128),
    StableHlo.unary main_v3 main_v74 (broadcastInDim S1600000x1 ![0] bcast_S1600000_S1600000x1_0),
    StableHlo.ternary main_v73 main_v74 main_v72 main_v75 ((fun x i u => Host.scatterAdd scatter_S100000x128_S1600000x1_S1600000x128_1_0_0_1 x i u)),
    StableHlo.unary main_v37 main_v76 (broadcastInDim S100000x1 ![0] bcast_S100000_S100000x1_0),
    StableHlo.unary main_v76 main_v77 (broadcastInDim S100000x128 ![0, 1] bcast_S100000x1_S100000x128_0_1),
    StableHlo.binary main_v75 main_v77 main_v78 (Host.divf),
    StableHlo.binary main_v78 main_arg8 main_v79 ((fun l r => Host.dotGeneral dot_S100000x128_S128x128_S100000x128_1_0_0_1_n_n none l r)),
    StableHlo.unary main_arg9 main_v80 (broadcastInDim S1x128 ![1] bcast_S128_S1x128_1),
    StableHlo.unary main_v80 main_v81 (broadcastInDim S100000x128 ![0, 1] bcast_S1x128_S100000x128_0_1),
    StableHlo.binary main_v79 main_v81 main_v82 (addf),
    StableHlo.binary main_v41 main_arg10 main_v83 ((fun l r => Host.dotGeneral dot_S100000x128_S128x128_S100000x128_1_0_0_1_n_n none l r)),
    StableHlo.binary main_v82 main_v83 main_v84 (addf),
    StableHlo.nullary main_cst_18 (constant S_ .f32 0x3C23D70A#32),
    StableHlo.TRef.nullary main_call4.cst (constant S_ .f32 0x00000000#32),
    StableHlo.TRef.unary main_call4.cst main_call4.v0 (broadcastInDim S100000x128 ![] bcast_S_S100000x128),
    StableHlo.TRef.binary (.of main_v84 : StableHlo.TRef sig ⟨S100000x128, .f32⟩) main_call4.v0 main_call4.v1 (cmpf .oge),
    StableHlo.TRef.unary (.of main_cst_18 : StableHlo.TRef sig ⟨S_, .f32⟩) main_call4.v2 id,
    StableHlo.TRef.unary main_call4.v2 main_call4.v3 (broadcastInDim S100000x128 ![] bcast_S_S100000x128),
    StableHlo.TRef.binary main_call4.v3 (.of main_v84 : StableHlo.TRef sig ⟨S100000x128, .f32⟩) main_call4.v4 mulf,
    StableHlo.TRef.ternary main_call4.v1 (.of main_v84 : StableHlo.TRef sig ⟨S100000x128, .f32⟩) main_call4.v4 main_call4.call0.v0 select,
    StableHlo.binary main_v62 main_v85 main_v86 ((fun a b => concatenate S100000x256 1 [⟨S100000x128, a⟩, ⟨S100000x128, b⟩] concatenates_S100000x128_S100000x128_S100000x256_d1)),
    StableHlo.TRef.nullary main_call5.cst (constant S_ .f32 0x00000000#32),
    StableHlo.TRef.unary main_call5.cst main_call5.v0 (broadcastInDim S100000x256 ![] bcast_S_S100000x256),
    StableHlo.TRef.binary (.of main_v86 : StableHlo.TRef sig ⟨S100000x256, .f32⟩) main_call5.v0 main_call5.v1 (cmpf .ogt),
    StableHlo.TRef.nullary main_call5.cst_0 (constant S_ .f32 0x00000000#32),
    StableHlo.TRef.unary main_call5.cst_0 main_call5.v2 (broadcastInDim S100000x256 ![] bcast_S_S100000x256),
    StableHlo.TRef.binary (.of main_v86 : StableHlo.TRef sig ⟨S100000x256, .f32⟩) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S100000x256 ![] bcast_S_S100000x256),
    StableHlo.TRef.ternary main_call5.v3 main_call5.call0.v1 (.of main_v86 : StableHlo.TRef sig ⟨S100000x256, .f32⟩) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S100000x256 ![] bcast_S_S100000x256),
    StableHlo.TRef.binary main_call5.v6 main_call5.v5 main_call5.v7 mulf,
    StableHlo.TRef.ternary main_call5.v1 (.of main_v86 : StableHlo.TRef sig ⟨S100000x256, .f32⟩) main_call5.v7 main_call5.call1.v0 select ]

/-- Stage 2 of the line. -/
abbrev ops2 : List (HloOp τ sig (Elt F)) :=
  [ StableHlo.binary main_v87 main_arg11 main_v88 ((fun l r => Host.dotGeneral dot_S100000x256_S256x128_S100000x128_1_0_0_1_n_n none l r)),
    StableHlo.unary main_arg12 main_v89 (broadcastInDim S1x128 ![1] bcast_S128_S1x128_1),
    StableHlo.unary main_v89 main_v90 (broadcastInDim S100000x128 ![0, 1] bcast_S1x128_S100000x128_0_1),
    StableHlo.binary main_v88 main_v90 main_v91 (addf),
    StableHlo.binary main_v91 main_arg13 main_v92 ((fun l r => Host.dotGeneral dot_S100000x128_S128x128_S100000x128_1_0_0_1_n_n none l r)),
    StableHlo.unary main_v31 main_v93 (broadcastInDim S1600000x1 ![0] bcast_S1600000_S1600000x1_0),
    StableHlo.nullary main_c_19 (constantI S_ 32 0#32),
    StableHlo.unary main_c_19 main_v94 (broadcastInDim S1600000 ![] bcast_S_S1600000),
    StableHlo.binary main_v1 main_v94 main_v95 (cmpi .slt),
    StableHlo.nullary main_c_20 (constantI S_ 32 100000#32),
    StableHlo.unary main_c_20 main_v96 (broadcastInDim S1600000 ![] bcast_S_S1600000),
    StableHlo.binary main_v1 main_v96 main_v97 (addi),
    StableHlo.ternary main_v95 main_v97 main_v1 main_v98 (select),
    StableHlo.unary main_v98 main_v99 (broadcastInDim S1600000x1 ![0] bcast_S1600000_S1600000x1_0),
    StableHlo.binary main_v92 main_v99 main_v100 ((fun x i => Host.gather gather_S100000x128_S1600000x1_S1600000x128_1_0_n_n_0_1_1128 x i)),
    StableHlo.unary main_v93 main_v101 (broadcastInDim S1600000x128 ![0, 1] bcast_S1600000x1_S1600000x128_0_1),
    StableHlo.binary main_v101 main_v100 main_v102 (mulf),
    StableHlo.nullary main_cst_21 (constant S_ .f32 0x00000000#32),
    StableHlo.unary main_cst_21 main_v103 (broadcastInDim S100000x128 ![] bcast_S_S100000x128),
    StableHlo.unary main_v3 main_v104 (broadcastInDim S1600000x1 ![0] bcast_S1600000_S1600000x1_0),
    StableHlo.ternary main_v103 main_v104 main_v102 main_v105 ((fun x i u => Host.scatterAdd scatter_S100000x128_S1600000x1_S1600000x128_1_0_0_1 x i u)),
    StableHlo.binary main_v91 main_arg14 main_v106 ((fun l r => Host.dotGeneral dot_S100000x128_S128x128_S100000x128_1_0_0_1_n_n none l r)),
    StableHlo.binary main_v105 main_v106 main_v107 (addf),
    StableHlo.unary main_arg15 main_v108 (broadcastInDim S1x128 ![1] bcast_S128_S1x128_1),
    StableHlo.unary main_v108 main_v109 (broadcastInDim S100000x128 ![0, 1] bcast_S1x128_S100000x128_0_1),
    StableHlo.binary main_v107 main_v109 main_v110 (addf),
    StableHlo.TRef.nullary main_call6.cst (constant S_ .f32 0x00000000#32),
    StableHlo.TRef.unary main_call6.cst main_call6.v0 (broadcastInDim S100000x128 ![] bcast_S_S100000x128),
    StableHlo.TRef.binary (.of main_v110 : StableHlo.TRef sig ⟨S100000x128, .f32⟩) main_call6.v0 main_call6.v1 maximumf,
    StableHlo.nullary main_cst_22 (constant S_ .f32 0x3C23D70A#32),
    StableHlo.TRef.nullary main_call7.cst (constant S_ .f32 0x00000000#32),
    StableHlo.TRef.unary main_call7.cst main_call7.v0 (broadcastInDim S100000x128 ![] bcast_S_S100000x128),
    StableHlo.TRef.binary (.of main_v111 : StableHlo.TRef sig ⟨S100000x128, .f32⟩) main_call7.v0 main_call7.v1 (cmpf .oge),
    StableHlo.TRef.unary (.of main_cst_22 : StableHlo.TRef sig ⟨S_, .f32⟩) main_call7.v2 id,
    StableHlo.TRef.unary main_call7.v2 main_call7.v3 (broadcastInDim S100000x128 ![] bcast_S_S100000x128),
    StableHlo.TRef.binary main_call7.v3 (.of main_v111 : StableHlo.TRef sig ⟨S100000x128, .f32⟩) main_call7.v4 mulf,
    StableHlo.TRef.ternary main_call7.v1 (.of main_v111 : StableHlo.TRef sig ⟨S100000x128, .f32⟩) main_call7.v4 main_call7.call0.v0 select,
    StableHlo.unary main_arg2 main_v113 (broadcastInDim S1600000x1 ![0] bcast_S1600000_S1600000x1_0),
    StableHlo.nullary main_c_23 (constantI S_ 32 0#32),
    StableHlo.unary main_c_23 main_v114 (broadcastInDim S1600000 ![] bcast_S_S1600000),
    StableHlo.binary main_v1 main_v114 main_v115 (cmpi .slt),
    StableHlo.nullary main_c_24 (constantI S_ 32 100000#32),
    StableHlo.unary main_c_24 main_v116 (broadcastInDim S1600000 ![] bcast_S_S1600000),
    StableHlo.binary main_v1 main_v116 main_v117 (addi),
    StableHlo.ternary main_v115 main_v117 main_v1 main_v118 (select),
    StableHlo.unary main_v118 main_v119 (broadcastInDim S1600000x1 ![0] bcast_S1600000_S1600000x1_0),
    StableHlo.binary main_v91 main_v119 main_v120 ((fun x i => Host.gather gather_S100000x128_S1600000x1_S1600000x128_1_0_n_n_0_1_1128 x i)),
    StableHlo.unary main_v113 main_v121 (broadcastInDim S1600000x128 ![0, 1] bcast_S1600000x1_S1600000x128_0_1),
    StableHlo.binary main_v121 main_v120 main_v122 (mulf),
    StableHlo.nullary main_cst_25 (constant S_ .f32 0x00000000#32),
    StableHlo.unary main_cst_25 main_v123 (broadcastInDim S100000x128 ![] bcast_S_S100000x128),
    StableHlo.unary main_v3 main_v124 (broadcastInDim S1600000x1 ![0] bcast_S1600000_S1600000x1_0),
    StableHlo.ternary main_v123 main_v124 main_v122 main_v125 ((fun x i u => Host.scatterAdd scatter_S100000x128_S1600000x1_S1600000x128_1_0_0_1 x i u)),
    StableHlo.unary main_v37 main_v126 (broadcastInDim S100000x1 ![0] bcast_S100000_S100000x1_0),
    StableHlo.unary main_v126 main_v127 (broadcastInDim S100000x128 ![0, 1] bcast_S100000x1_S100000x128_0_1),
    StableHlo.binary main_v125 main_v127 main_v128 (Host.divf),
    StableHlo.binary main_v128 main_arg16 main_v129 ((fun l r => Host.dotGeneral dot_S100000x128_S128x128_S100000x128_1_0_0_1_n_n none l r)),
    StableHlo.unary main_arg17 main_v130 (broadcastInDim S1x128 ![1] bcast_S128_S1x128_1),
    StableHlo.unary main_v130 main_v131 (broadcastInDim S100000x128 ![0, 1] bcast_S1x128_S100000x128_0_1),
    StableHlo.binary main_v129 main_v131 main_v132 (addf),
    StableHlo.binary main_v91 main_arg18 main_v133 ((fun l r => Host.dotGeneral dot_S100000x128_S128x128_S100000x128_1_0_0_1_n_n none l r)),
    StableHlo.binary main_v132 main_v133 main_v134 (addf),
    StableHlo.nullary main_cst_26 (constant S_ .f32 0x3C23D70A#32),
    StableHlo.TRef.nullary main_call8.cst (constant S_ .f32 0x00000000#32),
    StableHlo.TRef.unary main_call8.cst main_call8.v0 (broadcastInDim S100000x128 ![] bcast_S_S100000x128),
    StableHlo.TRef.binary (.of main_v134 : StableHlo.TRef sig ⟨S100000x128, .f32⟩) main_call8.v0 main_call8.v1 (cmpf .oge),
    StableHlo.TRef.unary (.of main_cst_26 : StableHlo.TRef sig ⟨S_, .f32⟩) main_call8.v2 id,
    StableHlo.TRef.unary main_call8.v2 main_call8.v3 (broadcastInDim S100000x128 ![] bcast_S_S100000x128),
    StableHlo.TRef.binary main_call8.v3 (.of main_v134 : StableHlo.TRef sig ⟨S100000x128, .f32⟩) main_call8.v4 mulf,
    StableHlo.TRef.ternary main_call8.v1 (.of main_v134 : StableHlo.TRef sig ⟨S100000x128, .f32⟩) main_call8.v4 main_call8.call0.v0 select,
    StableHlo.binary main_v112 main_v135 main_v136 ((fun a b => concatenate S100000x256 1 [⟨S100000x128, a⟩, ⟨S100000x128, b⟩] concatenates_S100000x128_S100000x128_S100000x256_d1)),
    StableHlo.TRef.nullary main_call9.cst (constant S_ .f32 0x00000000#32),
    StableHlo.TRef.unary main_call9.cst main_call9.v0 (broadcastInDim S100000x256 ![] bcast_S_S100000x256),
    StableHlo.TRef.binary (.of main_v136 : StableHlo.TRef sig ⟨S100000x256, .f32⟩) main_call9.v0 main_call9.v1 (cmpf .ogt),
    StableHlo.TRef.nullary main_call9.cst_0 (constant S_ .f32 0x00000000#32),
    StableHlo.TRef.unary main_call9.cst_0 main_call9.v2 (broadcastInDim S100000x256 ![] bcast_S_S100000x256),
    StableHlo.TRef.binary (.of main_v136 : StableHlo.TRef sig ⟨S100000x256, .f32⟩) main_call9.v2 main_call9.v3 (cmpf .ogt),
    StableHlo.TRef.nullary main_call9.cst_1 (constant S_ .f32 0x00000000#32),
    StableHlo.TRef.unary main_call9.cst_1 main_call9.call0.v0 id,
    StableHlo.TRef.unary main_call9.call0.v0 main_call9.call0.v1 (broadcastInDim S100000x256 ![] bcast_S_S100000x256),
    StableHlo.TRef.ternary main_call9.v3 main_call9.call0.v1 (.of main_v136 : StableHlo.TRef sig ⟨S100000x256, .f32⟩) main_call9.call0.v2 select,
    StableHlo.TRef.unary main_call9.call0.v2 main_call9.v5 Host.expm1,
    StableHlo.TRef.nullary main_call9.cst_2 (constant S_ .f32 0x3F800000#32),
    StableHlo.TRef.unary main_call9.cst_2 main_call9.v6 (broadcastInDim S100000x256 ![] bcast_S_S100000x256),
    StableHlo.TRef.binary main_call9.v6 main_call9.v5 main_call9.v7 mulf,
    StableHlo.TRef.ternary main_call9.v1 (.of main_v136 : StableHlo.TRef sig ⟨S100000x256, .f32⟩) main_call9.v7 main_call9.call1.v0 select ]

/-- Stage 3 of the line. -/
abbrev ops3 : List (HloOp τ sig (Elt F)) :=
  [ StableHlo.binary main_v137 main_arg19 main_v138 ((fun l r => Host.dotGeneral dot_S100000x256_S256x16_S100000x16_1_0_0_1_n_n none l r)),
    StableHlo.unary main_arg20 main_v139 (broadcastInDim S1x16 ![1] bcast_S16_S1x16_1),
    StableHlo.unary main_v139 main_v140 (broadcastInDim S100000x16 ![0, 1] bcast_S1x16_S100000x16_0_1),
    StableHlo.binary main_v138 main_v140 main_v141 (addf),
    StableHlo.TRef.nullary main_call10.cst (constant S_ .f32 0xFF800000#32),
    StableHlo.TRef.binary (.of main_v141 : StableHlo.TRef sig ⟨S100000x16, .f32⟩) main_call10.cst main_call10.v0 (fun x v => Host.reduce FloatOps.maximumf x v reducesTo_S100000x16_S100000_d1 h_S_),
    StableHlo.TRef.nullary main_call10.cst_0 (constant S_ .f32 0xFF800000#32),
    StableHlo.TRef.unary main_call10.cst_0 main_call10.v1 (broadcastInDim S100000 ![] bcast_S_S100000),
    StableHlo.TRef.binary main_call10.v1 main_call10.v0 main_call10.v2 maximumf,
    StableHlo.TRef.unary main_call10.v2 main_call10.v3 (broadcastInDim S100000x1 ![0] bcast_S100000_S100000x1_0),
    StableHlo.TRef.unary main_call10.v3 main_call10.v4 (broadcastInDim S100000x16 ![0, 1] bcast_S100000x1_S100000x16_0_1),
    StableHlo.TRef.binary (.of main_v141 : StableHlo.TRef sig ⟨S100000x16, .f32⟩) main_call10.v4 main_call10.v5 subf,
    StableHlo.TRef.unary main_call10.v5 main_call10.v6 Host.exp,
    StableHlo.TRef.nullary main_call10.cst_1 (constant S_ .f32 0x00000000#32),
    StableHlo.TRef.binary main_call10.v6 main_call10.cst_1 main_call10.v7 (fun x v => Host.reduceAdd x v reducesTo_S100000x16_S100000_d1 h_S_),
    StableHlo.TRef.unary main_call10.v7 main_call10.v8 (broadcastInDim S100000x1 ![0] bcast_S100000_S100000x1_0),
    StableHlo.TRef.unary main_call10.v8 main_call10.v9 Host.log,
    StableHlo.TRef.unary main_call10.v9 main_call10.v10 (broadcastInDim S100000x16 ![0, 1] bcast_S100000x1_S100000x16_0_1),
    StableHlo.TRef.binary main_call10.v5 main_call10.v10 main_call10.v11 subf ]

theorem ops_split : (ops : List (HloOp τ sig (Elt F))) = ops0 ++ (ops1 ++ (ops2 ++ ops3)) := rfl

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., binary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

end Cert.ReferenceIdeal.Hand

end
-- ==== Proof.RefRun.lean ====
/-
  The reference program's run. The program launches no kernel: @main is a straight line of host operations once the
  outlined functions' bodies are put at their calls and the three windows of @main are joined. So every weakly fair
  execution terminates, and every buffer ends at the fold of the line's operations over the launch contents.
-/
import proofs.«113657_j36816459661707_1_alg».proof.Proof.RefOpsList

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- @main is the line: the three windows in order, each function's body at its call and each call's record at its
    fields; both sides are one chain of host steps once sequencing is reassociated. -/
theorem main_eq (c : Dev nD) : main (F := F) c = seq ops := by
  simp only [main, main_part0, main_part1, main_part2, fn_where.body, fn_relu.body, fn_where_0.body, fn_leaky_relu.body,
    fn_where_1.body, fn_where_2.body, fn_elu.body, fn_log_softmax.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of
    @main on the TensorCores terminates, and every final state has each TensorCore buffer at the line's fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefArgs.lean ====
/-
  The reference program's arguments end as launched: no operation of the line writes an argument's buffer, so the
  line's fold at that buffer is the launch contents; with the run of the line, every weakly fair execution ends with
  the twenty-one arguments unchanged.
-/
import proofs.«113657_j36816459661707_1_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A buffer that no operation of the literal line `l` writes keeps its contents through the line: each operation
    writes one buffer, and that buffer is another reference. -/
local macro "not_written" l:ident : tactic =>
  `(tactic| (refine StableHlo.after_of_forall_not_mem _ _ (List.forall_iff_forall_mem.mp ?_)
             simp only [$l:ident, List.Forall, StableHlo.nullary_writes, StableHlo.unary_writes, StableHlo.binary_writes,
               StableHlo.ternary_writes, StableHlo.quaternary_writes, StableHlo.reshape_writes, Finset.mem_singleton]
             repeat' apply And.intro
             all_goals exact StableHlo.devRef_ne_of_ne (by decide)))

theorem arg0_eq (V : Valuation τ sig (Elt F)) :
    after ops V (main_arg0 : DevRef τ sig) = V (main_arg0 : DevRef τ sig) := by
  not_written ops

theorem arg1_eq (V : Valuation τ sig (Elt F)) :
    after ops V (main_arg1 : DevRef τ sig) = V (main_arg1 : DevRef τ sig) := by
  not_written ops

theorem arg2_eq (V : Valuation τ sig (Elt F)) :
    after ops V (main_arg2 : DevRef τ sig) = V (main_arg2 : DevRef τ sig) := by
  not_written ops

theorem arg3_eq (V : Valuation τ sig (Elt F)) :
    after ops V (main_arg3 : DevRef τ sig) = V (main_arg3 : DevRef τ sig) := by
  not_written ops

theorem arg4_eq (V : Valuation τ sig (Elt F)) :
    after ops V (main_arg4 : DevRef τ sig) = V (main_arg4 : DevRef τ sig) := by
  not_written ops

theorem arg5_eq (V : Valuation τ sig (Elt F)) :
    after ops V (main_arg5 : DevRef τ sig) = V (main_arg5 : DevRef τ sig) := by
  not_written ops

theorem arg6_eq (V : Valuation τ sig (Elt F)) :
    after ops V (main_arg6 : DevRef τ sig) = V (main_arg6 : DevRef τ sig) := by
  not_written ops

theorem arg7_eq (V : Valuation τ sig (Elt F)) :
    after ops V (main_arg7 : DevRef τ sig) = V (main_arg7 : DevRef τ sig) := by
  not_written ops

theorem arg8_eq (V : Valuation τ sig (Elt F)) :
    after ops V (main_arg8 : DevRef τ sig) = V (main_arg8 : DevRef τ sig) := by
  not_written ops

theorem arg9_eq (V : Valuation τ sig (Elt F)) :
    after ops V (main_arg9 : DevRef τ sig) = V (main_arg9 : DevRef τ sig) := by
  not_written ops

theorem arg10_eq (V : Valuation τ sig (Elt F)) :
    after ops V (main_arg10 : DevRef τ sig) = V (main_arg10 : DevRef τ sig) := by
  not_written ops

theorem arg11_eq (V : Valuation τ sig (Elt F)) :
    after ops V (main_arg11 : DevRef τ sig) = V (main_arg11 : DevRef τ sig) := by
  not_written ops

theorem arg12_eq (V : Valuation τ sig (Elt F)) :
    after ops V (main_arg12 : DevRef τ sig) = V (main_arg12 : DevRef τ sig) := by
  not_written ops

theorem arg13_eq (V : Valuation τ sig (Elt F)) :
    after ops V (main_arg13 : DevRef τ sig) = V (main_arg13 : DevRef τ sig) := by
  not_written ops

theorem arg14_eq (V : Valuation τ sig (Elt F)) :
    after ops V (main_arg14 : DevRef τ sig) = V (main_arg14 : DevRef τ sig) := by
  not_written ops

theorem arg15_eq (V : Valuation τ sig (Elt F)) :
    after ops V (main_arg15 : DevRef τ sig) = V (main_arg15 : DevRef τ sig) := by
  not_written ops

theorem arg16_eq (V : Valuation τ sig (Elt F)) :
    after ops V (main_arg16 : DevRef τ sig) = V (main_arg16 : DevRef τ sig) := by
  not_written ops

theorem arg17_eq (V : Valuation τ sig (Elt F)) :
    after ops V (main_arg17 : DevRef τ sig) = V (main_arg17 : DevRef τ sig) := by
  not_written ops

theorem arg18_eq (V : Valuation τ sig (Elt F)) :
    after ops V (main_arg18 : DevRef τ sig) = V (main_arg18 : DevRef τ sig) := by
  not_written ops

theorem arg19_eq (V : Valuation τ sig (Elt F)) :
    after ops V (main_arg19 : DevRef τ sig) = V (main_arg19 : DevRef τ sig) := by
  not_written ops

theorem arg20_eq (V : Valuation τ sig (Elt F)) :
    after ops V (main_arg20 : DevRef τ sig) = V (main_arg20 : DevRef τ sig) := by
  not_written ops

/-- At the compiled mesh, for any float values, from any memory with zero counters: every weakly fair execution of
    @main terminates with each of the twenty-one arguments as launched. -/
theorem frame_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _),
      (h c main_arg18).trans (arg18_eq _),
      (h c main_arg19).trans (arg19_eq _),
      (h c main_arg20).trans (arg20_eq _)⟩)
    (run_main m ρ)

end Cert.ReferenceIdeal.Hand

end
-- ==== Proof.RefEdge.lean ====
/-
  One stage of the reference's line read back: the edge chain: the two rows of the edge table, the weighted degrees, their inverse square roots where positive, the normalised edge weights, and the row counts. The stage is cut into short stretches, each ending in one
  array that is one function (a stage of Cert.ReferenceIdeal.Stage) of arrays the stretch finds; the buffers a later
  stretch reads pass through the stretches between unchanged, since no operation there writes them.
-/
import proofs.«113657_j36816459661707_1_alg».proof.Proof.RefOpsList
import proofs.«113657_j36816459661707_1_alg».proof.Proof.RefOut
import proofs.«113657_j36816459661707_1_alg».proof.Proof.LibAfter

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A buffer that no operation of the literal line `l` writes keeps its contents through the line: each operation
    writes one buffer, and that buffer is another reference. -/
local macro "not_written" l:ident : tactic =>
  `(tactic| (refine StableHlo.after_of_forall_not_mem _ _ (List.forall_iff_forall_mem.mp ?_)
             simp only [$l:ident, List.Forall, StableHlo.nullary_writes, StableHlo.unary_writes, StableHlo.binary_writes,
               StableHlo.ternary_writes, StableHlo.quaternary_writes, StableHlo.reshape_writes, Finset.mem_singleton]
             repeat' apply And.intro
             all_goals exact StableHlo.devRef_ne_of_ne (by decide)))

attribute [local irreducible] Host.gather Host.scatterAdd Host.reduce Host.reduceAdd

/-- Operations 0 … 1 of this stage of the line (a called function's operations written over the buffers its
    call names): they end in main_v1. -/
def edge0 : List (HloOp τ sig (Elt F)) :=
  [ StableHlo.unary main_arg1 main_v0 ((extractStridedSlice S1x1600000 ![0, 0] · slices_S2x1600000_S1x1600000_0_0)),
    StableHlo.reshape main_v0 main_v1 rfl shapeCasts_S1x1600000_S1600000 ]

/-- Operations 2 … 3 of this stage of the line (a called function's operations written over the buffers its
    call names): they end in main_v3. -/
def edge1 : List (HloOp τ sig (Elt F)) :=
  [ StableHlo.unary main_arg1 main_v2 ((extractStridedSlice S1x1600000 ![1, 0] · slices_S2x1600000_S1x1600000_1_0)),
    StableHlo.reshape main_v2 main_v3 rfl shapeCasts_S1x1600000_S1600000 ]

/-- Operations 4 … 7 of this stage of the line (a called function's operations written over the buffers its
    call names): they end in main_v6. -/
def edge2 : List (HloOp τ sig (Elt F)) :=
  [ StableHlo.nullary main_cst (constant S_ .f32 0x00000000#32),
    StableHlo.unary main_cst main_v4 (broadcastInDim S100000 ![] bcast_S_S100000),
    StableHlo.unary main_v3 main_v5 (broadcastInDim S1600000x1 ![0] bcast_S1600000_S1600000x1_0),
    StableHlo.ternary main_v4 main_v5 main_arg2 main_v6 ((fun x i u => Host.scatterAdd scatter_S100000_S1600000x1_S1600000_n_0_0_1 x i u)) ]

/-- Operations 8 … 10 of this stage of the line (a called function's operations written over the buffers its
    call names): they end in main_v8. -/
def edge3 : List (HloOp τ sig (Elt F)) :=
  [ StableHlo.nullary main_cst_0 (constant S_ .f32 0x00000000#32),
    StableHlo.unary main_cst_0 main_v7 (broadcastInDim S100000 ![] bcast_S_S100000),
    StableHlo.binary main_v6 main_v7 main_v8 (cmpf .ogt) ]

/-- Operations 11 … 13 of this stage of the line (a called function's operations written over the buffers its
    call names): they end in main_v10. -/
def edge4 : List (HloOp τ sig (Elt F)) :=
  [ StableHlo.nullary main_cst_1 (constant S_ .f32 0x00000000#32),
    StableHlo.unary main_cst_1 main_v9 (broadcastInDim S100000 ![] bcast_S_S100000),
    StableHlo.binary main_v6 main_v9 main_v10 (cmpf .ogt) ]

/-- Operations 14 … 17 of this stage of the line (a called function's operations written over the buffers its
    call names): they end in main_v11. -/
def edge5 : List (HloOp τ sig (Elt F)) :=
  [ StableHlo.nullary main_cst_2 (constant S_ .f32 0x3F800000#32),
    StableHlo.unary main_cst_2 main_call0_v0 id,
    StableHlo.unary main_call0_v0 main_call0_v1 (broadcastInDim S100000 ![] bcast_S_S100000),
    StableHlo.ternary main_v10 main_v6 main_call0_v1 main_v11 select ]

/-- Operations 18 … 21 of this stage of the line (a called function's operations written over the buffers its
    call names): they end in main_v14. -/
def edge6 : List (HloOp τ sig (Elt F)) :=
  [ StableHlo.unary main_v11 main_v12 (Host.sqrt),
    StableHlo.nullary main_cst_3 (constant S_ .f32 0x3F800000#32),
    StableHlo.unary main_cst_3 main_v13 (broadcastInDim S100000 ![] bcast_S_S100000),
    StableHlo.binary main_v13 main_v12 main_v14 (Host.divf) ]

/-- Operations 22 … 25 of this stage of the line (a called function's operations written over the buffers its
    call names): they end in main_v15. -/
def edge7 : List (HloOp τ sig (Elt F)) :=
  [ StableHlo.nullary main_cst_4 (constant S_ .f32 0x00000000#32),
    StableHlo.unary main_cst_4 main_call1_v0 id,
    StableHlo.unary main_call1_v0 main_call1_v1 (broadcastInDim S100000 ![] bcast_S_S100000),
    StableHlo.ternary main_v8 main_v14 main_call1_v1 main_v15 select ]

/-- Operations 26 … 45 of this stage of the line (a called function's operations written over the buffers its
    call names): they end in main_v31. -/
def edge8 : List (HloOp τ sig (Elt F)) :=
  [ StableHlo.nullary main_c (constantI S_ 32 0#32),
    StableHlo.unary main_c main_v16 (broadcastInDim S1600000 ![] bcast_S_S1600000),
    StableHlo.binary main_v1 main_v16 main_v17 (cmpi .slt),
    StableHlo.nullary main_c_5 (constantI S_ 32 100000#32),
    StableHlo.unary main_c_5 main_v18 (broadcastInDim S1600000 ![] bcast_S_S1600000),
    StableHlo.binary main_v1 main_v18 main_v19 (addi),
    StableHlo.ternary main_v17 main_v19 main_v1 main_v20 (select),
    StableHlo.unary main_v20 main_v21 (broadcastInDim S1600000x1 ![0] bcast_S1600000_S1600000x1_0),
    StableHlo.binary main_v15 main_v21 main_v22 ((fun x i => Host.gather gather_S100000_S1600000x1_S1600000_n_0_n_n_0_1_1 x i)),
    StableHlo.binary main_v22 main_arg2 main_v23 (mulf),
    StableHlo.nullary main_c_6 (constantI S_ 32 0#32),
    StableHlo.unary main_c_6 main_v24 (broadcastInDim S1600000 ![] bcast_S_S1600000),
    StableHlo.binary main_v3 main_v24 main_v25 (cmpi .slt),
    StableHlo.nullary main_c_7 (constantI S_ 32 100000#32),
    StableHlo.unary main_c_7 main_v26 (broadcastInDim S1600000 ![] bcast_S_S1600000),
    StableHlo.binary main_v3 main_v26 main_v27 (addi),
    StableHlo.ternary main_v25 main_v27 main_v3 main_v28 (select),
    StableHlo.unary main_v28 main_v29 (broadcastInDim S1600000x1 ![0] bcast_S1600000_S1600000x1_0),
    StableHlo.binary main_v15 main_v29 main_v30 ((fun x i => Host.gather gather_S100000_S1600000x1_S1600000_n_0_n_n_0_1_1 x i)),
    StableHlo.binary main_v23 main_v30 main_v31 (mulf) ]

/-- Operations 46 … 54 of this stage of the line (a called function's operations written over the buffers its
    call names): they end in main_v37. -/
def edge9 : List (HloOp τ sig (Elt F)) :=
  [ StableHlo.nullary main_cst_8 (constant S_ .f32 0x3F800000#32),
    StableHlo.unary main_cst_8 main_v32 (broadcastInDim S1600000 ![] bcast_S_S1600000),
    StableHlo.nullary main_cst_9 (constant S_ .f32 0x00000000#32),
    StableHlo.unary main_cst_9 main_v33 (broadcastInDim S100000 ![] bcast_S_S100000),
    StableHlo.unary main_v3 main_v34 (broadcastInDim S1600000x1 ![0] bcast_S1600000_S1600000x1_0),
    StableHlo.ternary main_v33 main_v34 main_v32 main_v35 ((fun x i u => Host.scatterAdd scatter_S100000_S1600000x1_S1600000_n_0_0_1 x i u)),
    StableHlo.nullary main_cst_10 (constant S_ .f32 0x3F800000#32),
    StableHlo.unary main_cst_10 main_v36 (broadcastInDim S100000 ![] bcast_S_S100000),
    StableHlo.binary main_v35 main_v36 main_v37 (maximumf) ]

/-- The stage is its stretches in order (an operation over a call's typed references is the operation over the
    buffers they name). -/
theorem ops0_cut : (ops0 : List (HloOp τ sig (Elt F))) = edge0 ++ (edge1 ++ (edge2 ++ (edge3 ++ (edge4 ++ (edge5 ++ (edge6 ++ (edge7 ++ (edge8 ++ (edge9))))))))) := rfl

theorem edge0_val (W : Valuation τ sig (Elt Ideal)) :
    after edge0 W (main_v1 : DevRef τ sig) = Stage.rowI (W (main_arg1 : DevRef τ sig)) := by
  unfold edge0
  after_results_simp
  unfold Stage.rowI
  rfl

theorem edge1_val (W : Valuation τ sig (Elt Ideal)) :
    after edge1 W (main_v3 : DevRef τ sig) = Stage.colI (W (main_arg1 : DevRef τ sig)) := by
  unfold edge1
  after_results_simp
  unfold Stage.colI
  rfl

theorem edge2_val (W : Valuation τ sig (Elt Ideal)) :
    after edge2 W (main_v6 : DevRef τ sig) = Stage.deg (W (main_v3 : DevRef τ sig)) (W (main_arg2 : DevRef τ sig)) := by
  unfold edge2
  after_results_simp
  unfold Stage.deg
  rfl

theorem edge3_val (W : Valuation τ sig (Elt Ideal)) :
    after edge3 W (main_v8 : DevRef τ sig) = Stage.gt0 (W (main_v6 : DevRef τ sig)) := by
  unfold edge3
  after_results_simp
  unfold Stage.gt0
  rfl

theorem edge4_val (W : Valuation τ sig (Elt Ideal)) :
    after edge4 W (main_v10 : DevRef τ sig) = Stage.gt0 (W (main_v6 : DevRef τ sig)) := by
  unfold edge4
  after_results_simp
  unfold Stage.gt0
  rfl

theorem edge5_val (W : Valuation τ sig (Elt Ideal)) :
    after edge5 W (main_v11 : DevRef τ sig) = Stage.whereR (W (main_v10 : DevRef τ sig)) (W (main_v6 : DevRef τ sig)) (constant (F := Ideal) S_ .f32 0x3F800000#32) := by
  unfold edge5
  after_results_simp
  unfold Stage.whereR
  rfl

theorem edge6_val (W : Valuation τ sig (Elt Ideal)) :
    after edge6 W (main_v14 : DevRef τ sig) = Stage.invsqrtR (W (main_v11 : DevRef τ sig)) := by
  unfold edge6
  after_results_simp
  unfold Stage.invsqrtR
  rfl

theorem edge7_val (W : Valuation τ sig (Elt Ideal)) :
    after edge7 W (main_v15 : DevRef τ sig) = Stage.whereR (W (main_v8 : DevRef τ sig)) (W (main_v14 : DevRef τ sig)) (constant (F := Ideal) S_ .f32 0x00000000#32) := by
  unfold edge7
  after_results_simp
  unfold Stage.whereR
  rfl

theorem edge8_val (W : Valuation τ sig (Elt Ideal)) :
    after edge8 W (main_v31 : DevRef τ sig) = Stage.norm (W (main_v15 : DevRef τ sig)) (W (main_v1 : DevRef τ sig)) (W (main_v3 : DevRef τ sig)) (W (main_arg2 : DevRef τ sig)) := by
  unfold edge8
  after_results_simp
  unfold Stage.norm
  rfl

theorem edge9_val (W : Valuation τ sig (Elt Ideal)) :
    after edge9 W (main_v37 : DevRef τ sig) = Stage.cnt (W (main_v3 : DevRef τ sig)) := by
  unfold edge9
  after_results_simp
  unfold Stage.cnt
  rfl

theorem edge9_keep_v1 (W : Valuation τ sig (Elt Ideal)) :
    after edge9 W (main_v1 : DevRef τ sig) = W (main_v1 : DevRef τ sig) := by
  not_written edge9

theorem edge8_keep_v1 (W : Valuation τ sig (Elt Ideal)) :
    after edge8 W (main_v1 : DevRef τ sig) = W (main_v1 : DevRef τ sig) := by
  not_written edge8

theorem edge7_keep_v1 (W : Valuation τ sig (Elt Ideal)) :
    after edge7 W (main_v1 : DevRef τ sig) = W (main_v1 : DevRef τ sig) := by
  not_written edge7

theorem edge6_keep_v1 (W : Valuation τ sig (Elt Ideal)) :
    after edge6 W (main_v1 : DevRef τ sig) = W (main_v1 : DevRef τ sig) := by
  not_written edge6

theorem edge5_keep_v1 (W : Valuation τ sig (Elt Ideal)) :
    after edge5 W (main_v1 : DevRef τ sig) = W (main_v1 : DevRef τ sig) := by
  not_written edge5

theorem edge4_keep_v1 (W : Valuation τ sig (Elt Ideal)) :
    after edge4 W (main_v1 : DevRef τ sig) = W (main_v1 : DevRef τ sig) := by
  not_written edge4

theorem edge3_keep_v1 (W : Valuation τ sig (Elt Ideal)) :
    after edge3 W (main_v1 : DevRef τ sig) = W (main_v1 : DevRef τ sig) := by
  not_written edge3

theorem edge2_keep_v1 (W : Valuation τ sig (Elt Ideal)) :
    after edge2 W (main_v1 : DevRef τ sig) = W (main_v1 : DevRef τ sig) := by
  not_written edge2

theorem edge1_keep_v1 (W : Valuation τ sig (Elt Ideal)) :
    after edge1 W (main_v1 : DevRef τ sig) = W (main_v1 : DevRef τ sig) := by
  not_written edge1

theorem edge9_keep_v3 (W : Valuation τ sig (Elt Ideal)) :
    after edge9 W (main_v3 : DevRef τ sig) = W (main_v3 : DevRef τ sig) := by
  not_written edge9

theorem edge8_keep_v3 (W : Valuation τ sig (Elt Ideal)) :
    after edge8 W (main_v3 : DevRef τ sig) = W (main_v3 : DevRef τ sig) := by
  not_written edge8

theorem edge7_keep_v3 (W : Valuation τ sig (Elt Ideal)) :
    after edge7 W (main_v3 : DevRef τ sig) = W (main_v3 : DevRef τ sig) := by
  not_written edge7

theorem edge6_keep_v3 (W : Valuation τ sig (Elt Ideal)) :
    after edge6 W (main_v3 : DevRef τ sig) = W (main_v3 : DevRef τ sig) := by
  not_written edge6

theorem edge5_keep_v3 (W : Valuation τ sig (Elt Ideal)) :
    after edge5 W (main_v3 : DevRef τ sig) = W (main_v3 : DevRef τ sig) := by
  not_written edge5

theorem edge4_keep_v3 (W : Valuation τ sig (Elt Ideal)) :
    after edge4 W (main_v3 : DevRef τ sig) = W (main_v3 : DevRef τ sig) := by
  not_written edge4

theorem edge3_keep_v3 (W : Valuation τ sig (Elt Ideal)) :
    after edge3 W (main_v3 : DevRef τ sig) = W (main_v3 : DevRef τ sig) := by
  not_written edge3

theorem edge2_keep_v3 (W : Valuation τ sig (Elt Ideal)) :
    after edge2 W (main_v3 : DevRef τ sig) = W (main_v3 : DevRef τ sig) := by
  not_written edge2

theorem edge0_keep_arg1 (W : Valuation τ sig (Elt Ideal)) :
    after edge0 W (main_arg1 : DevRef τ sig) = W (main_arg1 : DevRef τ sig) := by
  not_written edge0

theorem edge9_keep_v31 (W : Valuation τ sig (Elt Ideal)) :
    after edge9 W (main_v31 : DevRef τ sig) = W (main_v31 : DevRef τ sig) := by
  not_written edge9

theorem edge7_keep_arg2 (W : Valuation τ sig (Elt Ideal)) :
    after edge7 W (main_arg2 : DevRef τ sig) = W (main_arg2 : DevRef τ sig) := by
  not_written edge7

theorem edge6_keep_v8 (W : Valuation τ sig (Elt Ideal)) :
    after edge6 W (main_v8 : DevRef τ sig) = W (main_v8 : DevRef τ sig) := by
  not_written edge6

theorem edge6_keep_arg2 (W : Valuation τ sig (Elt Ideal)) :
    after edge6 W (main_arg2 : DevRef τ sig) = W (main_arg2 : DevRef τ sig) := by
  not_written edge6

theorem edge5_keep_v8 (W : Valuation τ sig (Elt Ideal)) :
    after edge5 W (main_v8 : DevRef τ sig) = W (main_v8 : DevRef τ sig) := by
  not_written edge5

theorem edge5_keep_arg2 (W : Valuation τ sig (Elt Ideal)) :
    after edge5 W (main_arg2 : DevRef τ sig) = W (main_arg2 : DevRef τ sig) := by
  not_written edge5

theorem edge4_keep_v8 (W : Valuation τ sig (Elt Ideal)) :
    after edge4 W (main_v8 : DevRef τ sig) = W (main_v8 : DevRef τ sig) := by
  not_written edge4

theorem edge4_keep_v6 (W : Valuation τ sig (Elt Ideal)) :
    after edge4 W (main_v6 : DevRef τ sig) = W (main_v6 : DevRef τ sig) := by
  not_written edge4

theorem edge4_keep_arg2 (W : Valuation τ sig (Elt Ideal)) :
    after edge4 W (main_arg2 : DevRef τ sig) = W (main_arg2 : DevRef τ sig) := by
  not_written edge4

theorem edge3_keep_v6 (W : Valuation τ sig (Elt Ideal)) :
    after edge3 W (main_v6 : DevRef τ sig) = W (main_v6 : DevRef τ sig) := by
  not_written edge3

theorem edge3_keep_arg2 (W : Valuation τ sig (Elt Ideal)) :
    after edge3 W (main_arg2 : DevRef τ sig) = W (main_arg2 : DevRef τ sig) := by
  not_written edge3

theorem edge2_keep_arg2 (W : Valuation τ sig (Elt Ideal)) :
    after edge2 W (main_arg2 : DevRef τ sig) = W (main_arg2 : DevRef τ sig) := by
  not_written edge2

theorem edge1_keep_arg2 (W : Valuation τ sig (Elt Ideal)) :
    after edge1 W (main_arg2 : DevRef τ sig) = W (main_arg2 : DevRef τ sig) := by
  not_written edge1

theorem edge0_keep_arg2 (W : Valuation τ sig (Elt Ideal)) :
    after edge0 W (main_arg2 : DevRef τ sig) = W (main_arg2 : DevRef τ sig) := by
  not_written edge0

/-- The stage's fold at main_v1, as the stages' composition of what the stage finds. -/
theorem s0_v1 (W : Valuation τ sig (Elt Ideal)) :
    after ops0 W (main_v1 : DevRef τ sig)
      = Stage.rowI (W (main_arg1 : DevRef τ sig)) := by
  rw [ops0_cut]
  simp only [Cert.LibAfter.after_append]
  rw [edge9_keep_v1, edge8_keep_v1, edge7_keep_v1, edge6_keep_v1, edge5_keep_v1, edge4_keep_v1, edge3_keep_v1, edge2_keep_v1, edge1_keep_v1, edge0_val]

/-- The stage's fold at main_v3, as the stages' composition of what the stage finds. -/
theorem s0_v3 (W : Valuation τ sig (Elt Ideal)) :
    after ops0 W (main_v3 : DevRef τ sig)
      = Stage.colI (W (main_arg1 : DevRef τ sig)) := by
  rw [ops0_cut]
  simp only [Cert.LibAfter.after_append]
  rw [edge9_keep_v3, edge8_keep_v3, edge7_keep_v3, edge6_keep_v3, edge5_keep_v3, edge4_keep_v3, edge3_keep_v3, edge2_keep_v3, edge1_val, edge0_keep_arg1]

/-- The stage's fold at main_v31, as the stages' composition of what the stage finds. -/
theorem s0_v31 (W : Valuation τ sig (Elt Ideal)) :
    after ops0 W (main_v31 : DevRef τ sig)
      = Stage.norm (Stage.dinv (Stage.deg (Stage.colI (W (main_arg1 : DevRef τ sig))) (W (main_arg2 : DevRef τ sig)))) (Stage.rowI (W (main_arg1 : DevRef τ sig))) (Stage.colI (W (main_arg1 : DevRef τ sig))) (W (main_arg2 : DevRef τ sig)) := by
  rw [ops0_cut]
  simp only [Cert.LibAfter.after_append]
  rw [edge9_keep_v31, edge8_val, edge7_val, edge7_keep_v1, edge7_keep_v3, edge7_keep_arg2, edge6_keep_v8, edge6_val, edge6_keep_v1, edge6_keep_v3, edge6_keep_arg2, edge5_keep_v8, edge5_val, edge5_keep_v1, edge5_keep_v3, edge5_keep_arg2, edge4_keep_v8, edge4_val, edge4_keep_v6, edge4_keep_v1, edge4_keep_v3, edge4_keep_arg2, edge3_val, edge3_keep_v6, edge3_keep_v1, edge3_keep_v3, edge3_keep_arg2, edge2_val, edge2_keep_v1, edge2_keep_v3, edge2_keep_arg2, edge1_val, edge1_keep_arg2, edge1_keep_v1, edge0_keep_arg1, edge0_keep_arg2, edge0_val]
  unfold Stage.dinv
  rfl

/-- The stage's fold at main_v37, as the stages' composition of what the stage finds. -/
theorem s0_v37 (W : Valuation τ sig (Elt Ideal)) :
    after ops0 W (main_v37 : DevRef τ sig)
      = Stage.cnt (Stage.colI (W (main_arg1 : DevRef τ sig))) := by
  rw [ops0_cut]
  simp only [Cert.LibAfter.after_append]
  rw [edge9_val, edge8_keep_v3, edge7_keep_v3, edge6_keep_v3, edge5_keep_v3, edge4_keep_v3, edge3_keep_v3, edge2_keep_v3, edge1_val, edge0_keep_arg1]

theorem ops0_keep_arg0 (W : Valuation τ sig (Elt Ideal)) :
    after ops0 W (main_arg0 : DevRef τ sig) = W (main_arg0 : DevRef τ sig) := by
  not_written ops0

theorem ops0_keep_arg2 (W : Valuation τ sig (Elt Ideal)) :
    after ops0 W (main_arg2 : DevRef τ sig) = W (main_arg2 : DevRef τ sig) := by
  not_written ops0

theorem ops0_keep_arg3 (W : Valuation τ sig (Elt Ideal)) :
    after ops0 W (main_arg3 : DevRef τ sig) = W (main_arg3 : DevRef τ sig) := by
  not_written ops0

theorem ops0_keep_arg4 (W : Valuation τ sig (Elt Ideal)) :
    after ops0 W (main_arg4 : DevRef τ sig) = W (main_arg4 : DevRef τ sig) := by
  not_written ops0

theorem ops0_keep_arg5 (W : Valuation τ sig (Elt Ideal)) :
    after ops0 W (main_arg5 : DevRef τ sig) = W (main_arg5 : DevRef τ sig) := by
  not_written ops0

theorem ops0_keep_arg6 (W : Valuation τ sig (Elt Ideal)) :
    after ops0 W (main_arg6 : DevRef τ sig) = W (main_arg6 : DevRef τ sig) := by
  not_written ops0

theorem ops0_keep_arg7 (W : Valuation τ sig (Elt Ideal)) :
    after ops0 W (main_arg7 : DevRef τ sig) = W (main_arg7 : DevRef τ sig) := by
  not_written ops0

theorem ops0_keep_arg8 (W : Valuation τ sig (Elt Ideal)) :
    after ops0 W (main_arg8 : DevRef τ sig) = W (main_arg8 : DevRef τ sig) := by
  not_written ops0

theorem ops0_keep_arg9 (W : Valuation τ sig (Elt Ideal)) :
    after ops0 W (main_arg9 : DevRef τ sig) = W (main_arg9 : DevRef τ sig) := by
  not_written ops0

theorem ops0_keep_arg10 (W : Valuation τ sig (Elt Ideal)) :
    after ops0 W (main_arg10 : DevRef τ sig) = W (main_arg10 : DevRef τ sig) := by
  not_written ops0

theorem ops0_keep_arg11 (W : Valuation τ sig (Elt Ideal)) :
    after ops0 W (main_arg11 : DevRef τ sig) = W (main_arg11 : DevRef τ sig) := by
  not_written ops0

theorem ops0_keep_arg12 (W : Valuation τ sig (Elt Ideal)) :
    after ops0 W (main_arg12 : DevRef τ sig) = W (main_arg12 : DevRef τ sig) := by
  not_written ops0

theorem ops0_keep_arg13 (W : Valuation τ sig (Elt Ideal)) :
    after ops0 W (main_arg13 : DevRef τ sig) = W (main_arg13 : DevRef τ sig) := by
  not_written ops0

theorem ops0_keep_arg14 (W : Valuation τ sig (Elt Ideal)) :
    after ops0 W (main_arg14 : DevRef τ sig) = W (main_arg14 : DevRef τ sig) := by
  not_written ops0

theorem ops0_keep_arg15 (W : Valuation τ sig (Elt Ideal)) :
    after ops0 W (main_arg15 : DevRef τ sig) = W (main_arg15 : DevRef τ sig) := by
  not_written ops0

theorem ops0_keep_arg16 (W : Valuation τ sig (Elt Ideal)) :
    after ops0 W (main_arg16 : DevRef τ sig) = W (main_arg16 : DevRef τ sig) := by
  not_written ops0

theorem ops0_keep_arg17 (W : Valuation τ sig (Elt Ideal)) :
    after ops0 W (main_arg17 : DevRef τ sig) = W (main_arg17 : DevRef τ sig) := by
  not_written ops0

theorem ops0_keep_arg18 (W : Valuation τ sig (Elt Ideal)) :
    after ops0 W (main_arg18 : DevRef τ sig) = W (main_arg18 : DevRef τ sig) := by
  not_written ops0

theorem ops0_keep_arg19 (W : Valuation τ sig (Elt Ideal)) :
    after ops0 W (main_arg19 : DevRef τ sig) = W (main_arg19 : DevRef τ sig) := by
  not_written ops0

theorem ops0_keep_arg20 (W : Valuation τ sig (Elt Ideal)) :
    after ops0 W (main_arg20 : DevRef τ sig) = W (main_arg20 : DevRef τ sig) := by
  not_written ops0

end Cert.ReferenceIdeal.Hand

end
-- ==== Proof.RefCellA.lean ====
/-
  One stage of the reference's line read back: the first cell: the linear stage, its product, the normalised aggregation, the first half and its two activations, the weighted aggregation, the second half and its activation, the two halves side by side, and the elu. The stage is cut into short stretches, each ending in one
  array that is one function (a stage of Cert.ReferenceIdeal.Stage) of arrays the stretch finds; the buffers a later
  stretch reads pass through the stretches between unchanged, since no operation there writes them.
-/
import proofs.«113657_j36816459661707_1_alg».proof.Proof.RefOpsList
import proofs.«113657_j36816459661707_1_alg».proof.Proof.RefOut
import proofs.«113657_j36816459661707_1_alg».proof.Proof.LibAfter

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A buffer that no operation of the literal line `l` writes keeps its contents through the line: each operation
    writes one buffer, and that buffer is another reference. -/
local macro "not_written" l:ident : tactic =>
  `(tactic| (refine StableHlo.after_of_forall_not_mem _ _ (List.forall_iff_forall_mem.mp ?_)
             simp only [$l:ident, List.Forall, StableHlo.nullary_writes, StableHlo.unary_writes, StableHlo.binary_writes,
               StableHlo.ternary_writes, StableHlo.quaternary_writes, StableHlo.reshape_writes, Finset.mem_singleton]
             repeat' apply And.intro
             all_goals exact StableHlo.devRef_ne_of_ne (by decide)))

attribute [local irreducible] Host.gather Host.scatterAdd Host.reduce Host.reduceAdd

/-- Operations 0 … 3 of this stage of the line (a called function's operations written over the buffers its
    call names): they end in main_v41. -/
def cellA0 : List (HloOp τ sig (Elt F)) :=
  [ StableHlo.binary main_arg0 main_arg3 main_v38 ((fun l r => Host.dotGeneral dot_S100000x128_S128x128_S100000x128_1_0_0_1_n_n none l r)),
    StableHlo.unary main_arg4 main_v39 (broadcastInDim S1x128 ![1] bcast_S128_S1x128_1),
    StableHlo.unary main_v39 main_v40 (broadcastInDim S100000x128 ![0, 1] bcast_S1x128_S100000x128_0_1),
    StableHlo.binary main_v38 main_v40 main_v41 (addf) ]

/-- Operations 4 … 4 of this stage of the line (a called function's operations written over the buffers its
    call names): they end in main_v42. -/
def cellA1 : List (HloOp τ sig (Elt F)) :=
  [ StableHlo.binary main_v41 main_arg5 main_v42 ((fun l r => Host.dotGeneral dot_S100000x128_S128x128_S100000x128_1_0_0_1_n_n none l r)) ]

/-- Operations 5 … 20 of this stage of the line (a called function's operations written over the buffers its
    call names): they end in main_v55. -/
def cellA2 : List (HloOp τ sig (Elt F)) :=
  [ StableHlo.unary main_v31 main_v43 (broadcastInDim S1600000x1 ![0] bcast_S1600000_S1600000x1_0),
    StableHlo.nullary main_c_11 (constantI S_ 32 0#32),
    StableHlo.unary main_c_11 main_v44 (broadcastInDim S1600000 ![] bcast_S_S1600000),
    StableHlo.binary main_v1 main_v44 main_v45 (cmpi .slt),
    StableHlo.nullary main_c_12 (constantI S_ 32 100000#32),
    StableHlo.unary main_c_12 main_v46 (broadcastInDim S1600000 ![] bcast_S_S1600000),
    StableHlo.binary main_v1 main_v46 main_v47 (addi),
    StableHlo.ternary main_v45 main_v47 main_v1 main_v48 (select),
    StableHlo.unary main_v48 main_v49 (broadcastInDim S1600000x1 ![0] bcast_S1600000_S1600000x1_0),
    StableHlo.binary main_v42 main_v49 main_v50 ((fun x i => Host.gather gather_S100000x128_S1600000x1_S1600000x128_1_0_n_n_0_1_1128 x i)),
    StableHlo.unary main_v43 main_v51 (broadcastInDim S1600000x128 ![0, 1] bcast_S1600000x1_S1600000x128_0_1),
    StableHlo.binary main_v51 main_v50 main_v52 (mulf),
    StableHlo.nullary main_cst_13 (constant S_ .f32 0x00000000#32),
    StableHlo.unary main_cst_13 main_v53 (broadcastInDim S100000x128 ![] bcast_S_S100000x128),
    StableHlo.unary main_v3 main_v54 (broadcastInDim S1600000x1 ![0] bcast_S1600000_S1600000x1_0),
    StableHlo.ternary main_v53 main_v54 main_v52 main_v55 ((fun x i u => Host.scatterAdd scatter_S100000x128_S1600000x1_S1600000x128_1_0_0_1 x i u)) ]

/-- Operations 21 … 25 of this stage of the line (a called function's operations written over the buffers its
    call names): they end in main_v60. -/
def cellA3 : List (HloOp τ sig (Elt F)) :=
  [ StableHlo.binary main_v41 main_arg6 main_v56 ((fun l r => Host.dotGeneral dot_S100000x128_S128x128_S100000x128_1_0_0_1_n_n none l r)),
    StableHlo.binary main_v55 main_v56 main_v57 (addf),
    StableHlo.unary main_arg7 main_v58 (broadcastInDim S1x128 ![1] bcast_S128_S1x128_1),
    StableHlo.unary main_v58 main_v59 (broadcastInDim S100000x128 ![0, 1] bcast_S1x128_S100000x128_0_1),
    StableHlo.binary main_v57 main_v59 main_v60 (addf) ]

/-- Operations 26 … 28 of this stage of the line (a called function's operations written over the buffers its
    call names): they end in main_v61. -/
def cellA4 : List (HloOp τ sig (Elt F)) :=
  [ StableHlo.nullary main_call2_cst (constant S_ .f32 0x00000000#32),
    StableHlo.unary main_call2_cst main_call2_v0 (broadcastInDim S100000x128 ![] bcast_S_S100000x128),
    StableHlo.binary main_v60 main_call2_v0 main_v61 maximumf ]

/-- Operations 29 … 36 of this stage of the line (a called function's operations written over the buffers its
    call names): they end in main_v62. -/
def cellA5 : List (HloOp τ sig (Elt F)) :=
  [ StableHlo.nullary main_cst_14 (constant S_ .f32 0x3C23D70A#32),
    StableHlo.nullary main_call3_cst (constant S_ .f32 0x00000000#32),
    StableHlo.unary main_call3_cst main_call3_v0 (broadcastInDim S100000x128 ![] bcast_S_S100000x128),
    StableHlo.binary main_v61 main_call3_v0 main_call3_v1 (cmpf .oge),
    StableHlo.unary main_cst_14 main_call3_v2 id,
    StableHlo.unary main_call3_v2 main_call3_v3 (broadcastInDim S100000x128 ![] bcast_S_S100000x128),
    StableHlo.binary main_call3_v3 main_v61 main_call3_v4 mulf,
    StableHlo.ternary main_call3_v1 main_v61 main_call3_v4 main_v62 select ]

/-- Operations 37 … 52 of this stage of the line (a called function's operations written over the buffers its
    call names): they end in main_v75. -/
def cellA6 : List (HloOp τ sig (Elt F)) :=
  [ StableHlo.unary main_arg2 main_v63 (broadcastInDim S1600000x1 ![0] bcast_S1600000_S1600000x1_0),
    StableHlo.nullary main_c_15 (constantI S_ 32 0#32),
    StableHlo.unary main_c_15 main_v64 (broadcastInDim S1600000 ![] bcast_S_S1600000),
    StableHlo.binary main_v1 main_v64 main_v65 (cmpi .slt),
    StableHlo.nullary main_c_16 (constantI S_ 32 100000#32),
    StableHlo.unary main_c_16 main_v66 (broadcastInDim S1600000 ![] bcast_S_S1600000),
    StableHlo.binary main_v1 main_v66 main_v67 (addi),
    StableHlo.ternary main_v65 main_v67 main_v1 main_v68 (select),
    StableHlo.unary main_v68 main_v69 (broadcastInDim S1600000x1 ![0] bcast_S1600000_S1600000x1_0),
    StableHlo.binary main_v41 main_v69 main_v70 ((fun x i => Host.gather gather_S100000x128_S1600000x1_S1600000x128_1_0_n_n_0_1_1128 x i)),
    StableHlo.unary main_v63 main_v71 (broadcastInDim S1600000x128 ![0, 1] bcast_S1600000x1_S1600000x128_0_1),
    StableHlo.binary main_v71 main_v70 main_v72 (mulf),
    StableHlo.nullary main_cst_17 (constant S_ .f32 0x00000000#32),
    StableHlo.unary main_cst_17 main_v73 (broadcastInDim S100000x128 ![] bcast_S_S100000x128),
    StableHlo.unary main_v3 main_v74 (broadcastInDim S1600000x1 ![0] bcast_S1600000_S1600000x1_0),
    StableHlo.ternary main_v73 main_v74 main_v72 main_v75 ((fun x i u => Host.scatterAdd scatter_S100000x128_S1600000x1_S1600000x128_1_0_0_1 x i u)) ]

/-- Operations 53 … 61 of this stage of the line (a called function's operations written over the buffers its
    call names): they end in main_v84. -/
def cellA7 : List (HloOp τ sig (Elt F)) :=
  [ StableHlo.unary main_v37 main_v76 (broadcastInDim S100000x1 ![0] bcast_S100000_S100000x1_0),
    StableHlo.unary main_v76 main_v77 (broadcastInDim S100000x128 ![0, 1] bcast_S100000x1_S100000x128_0_1),
    StableHlo.binary main_v75 main_v77 main_v78 (Host.divf),
    StableHlo.binary main_v78 main_arg8 main_v79 ((fun l r => Host.dotGeneral dot_S100000x128_S128x128_S100000x128_1_0_0_1_n_n none l r)),
    StableHlo.unary main_arg9 main_v80 (broadcastInDim S1x128 ![1] bcast_S128_S1x128_1),
    StableHlo.unary main_v80 main_v81 (broadcastInDim S100000x128 ![0, 1] bcast_S1x128_S100000x128_0_1),
    StableHlo.binary main_v79 main_v81 main_v82 (addf),
    StableHlo.binary main_v41 main_arg10 main_v83 ((fun l r => Host.dotGeneral dot_S100000x128_S128x128_S100000x128_1_0_0_1_n_n none l r)),
    StableHlo.binary main_v82 main_v83 main_v84 (addf) ]

/-- Operations 62 … 69 of this stage of the line (a called function's operations written over the buffers its
    call names): they end in main_v85. -/
def cellA8 : List (HloOp τ sig (Elt F)) :=
  [ StableHlo.nullary main_cst_18 (constant S_ .f32 0x3C23D70A#32),
    StableHlo.nullary main_call4_cst (constant S_ .f32 0x00000000#32),
    StableHlo.unary main_call4_cst main_call4_v0 (broadcastInDim S100000x128 ![] bcast_S_S100000x128),
    StableHlo.binary main_v84 main_call4_v0 main_call4_v1 (cmpf .oge),
    StableHlo.unary main_cst_18 main_call4_v2 id,
    StableHlo.unary main_call4_v2 main_call4_v3 (broadcastInDim S100000x128 ![] bcast_S_S100000x128),
    StableHlo.binary main_call4_v3 main_v84 main_call4_v4 mulf,
    StableHlo.ternary main_call4_v1 main_v84 main_call4_v4 main_v85 select ]

/-- Operations 70 … 70 of this stage of the line (a called function's operations written over the buffers its
    call names): they end in main_v86. -/
def cellA9 : List (HloOp τ sig (Elt F)) :=
  [ StableHlo.binary main_v62 main_v85 main_v86 ((fun a b => concatenate S100000x256 1 [⟨S100000x128, a⟩, ⟨S100000x128, b⟩] concatenates_S100000x128_S100000x128_S100000x256_d1)) ]

/-- Operations 71 … 85 of this stage of the line (a called function's operations written over the buffers its
    call names): they end in main_v87. -/
def cellA10 : List (HloOp τ sig (Elt F)) :=
  [ StableHlo.nullary main_call5_cst (constant S_ .f32 0x00000000#32),
    StableHlo.unary main_call5_cst main_call5_v0 (broadcastInDim S100000x256 ![] bcast_S_S100000x256),
    StableHlo.binary main_v86 main_call5_v0 main_call5_v1 (cmpf .ogt),
    StableHlo.nullary main_call5_cst_0 (constant S_ .f32 0x00000000#32),
    StableHlo.unary main_call5_cst_0 main_call5_v2 (broadcastInDim S100000x256 ![] bcast_S_S100000x256),
    StableHlo.binary main_v86 main_call5_v2 main_call5_v3 (cmpf .ogt),
    StableHlo.nullary main_call5_cst_1 (constant S_ .f32 0x00000000#32),
    StableHlo.unary main_call5_cst_1 main_call5_call0_v0 id,
    StableHlo.unary main_call5_call0_v0 main_call5_call0_v1 (broadcastInDim S100000x256 ![] bcast_S_S100000x256),
    StableHlo.ternary main_call5_v3 main_call5_call0_v1 main_v86 main_call5_v4 select,
    StableHlo.unary main_call5_v4 main_call5_v5 Host.expm1,
    StableHlo.nullary main_call5_cst_2 (constant S_ .f32 0x3F800000#32),
    StableHlo.unary main_call5_cst_2 main_call5_v6 (broadcastInDim S100000x256 ![] bcast_S_S100000x256),
    StableHlo.binary main_call5_v6 main_call5_v5 main_call5_v7 mulf,
    StableHlo.ternary main_call5_v1 main_v86 main_call5_v7 main_v87 select ]

/-- The stage is its stretches in order (an operation over a call's typed references is the operation over the
    buffers they name). -/
theorem ops1_cut : (ops1 : List (HloOp τ sig (Elt F))) = cellA0 ++ (cellA1 ++ (cellA2 ++ (cellA3 ++ (cellA4 ++ (cellA5 ++ (cellA6 ++ (cellA7 ++ (cellA8 ++ (cellA9 ++ (cellA10)))))))))) := rfl

theorem cellA0_val (W : Valuation τ sig (Elt Ideal)) :
    after cellA0 W (main_v41 : DevRef τ sig) = Stage.preR (W (main_arg0 : DevRef τ sig)) (W (main_arg3 : DevRef τ sig)) (W (main_arg4 : DevRef τ sig)) := by
  unfold cellA0
  after_results_simp
  unfold Stage.preR
  rfl

theorem cellA1_val (W : Valuation τ sig (Elt Ideal)) :
    after cellA1 W (main_v42 : DevRef τ sig) = Stage.tmmR (W (main_v41 : DevRef τ sig)) (W (main_arg5 : DevRef τ sig)) := by
  unfold cellA1
  after_results_simp
  unfold Stage.tmmR
  rfl

theorem cellA2_val (W : Valuation τ sig (Elt Ideal)) :
    after cellA2 W (main_v55 : DevRef τ sig) = Stage.agg (W (main_v31 : DevRef τ sig)) (W (main_v42 : DevRef τ sig)) (W (main_v1 : DevRef τ sig)) (W (main_v3 : DevRef τ sig)) := by
  unfold cellA2
  after_results_simp
  unfold Stage.agg
  rfl

theorem cellA3_val (W : Valuation τ sig (Elt Ideal)) :
    after cellA3 W (main_v60 : DevRef τ sig) = Stage.pre1R (W (main_v41 : DevRef τ sig)) (W (main_v55 : DevRef τ sig)) (W (main_arg6 : DevRef τ sig)) (W (main_arg7 : DevRef τ sig)) := by
  unfold cellA3
  after_results_simp
  unfold Stage.pre1R
  rfl

theorem cellA4_val (W : Valuation τ sig (Elt Ideal)) :
    after cellA4 W (main_v61 : DevRef τ sig) = Stage.reluR (W (main_v60 : DevRef τ sig)) := by
  unfold cellA4
  after_results_simp
  unfold Stage.reluR
  rfl

theorem cellA5_val (W : Valuation τ sig (Elt Ideal)) :
    after cellA5 W (main_v62 : DevRef τ sig) = Stage.leakyR (W (main_v61 : DevRef τ sig)) := by
  unfold cellA5
  after_results_simp
  unfold Stage.leakyR
  rfl

theorem cellA6_val (W : Valuation τ sig (Elt Ideal)) :
    after cellA6 W (main_v75 : DevRef τ sig) = Stage.sagg (W (main_arg2 : DevRef τ sig)) (W (main_v41 : DevRef τ sig)) (W (main_v1 : DevRef τ sig)) (W (main_v3 : DevRef τ sig)) := by
  unfold cellA6
  after_results_simp
  unfold Stage.sagg
  rfl

theorem cellA7_val (W : Valuation τ sig (Elt Ideal)) :
    after cellA7 W (main_v84 : DevRef τ sig) = Stage.pre2R (W (main_v41 : DevRef τ sig)) (W (main_v75 : DevRef τ sig)) (W (main_v37 : DevRef τ sig)) (W (main_arg8 : DevRef τ sig)) (W (main_arg9 : DevRef τ sig)) (W (main_arg10 : DevRef τ sig)) := by
  unfold cellA7
  after_results_simp
  unfold Stage.pre2R
  rfl

theorem cellA8_val (W : Valuation τ sig (Elt Ideal)) :
    after cellA8 W (main_v85 : DevRef τ sig) = Stage.leakyR (W (main_v84 : DevRef τ sig)) := by
  unfold cellA8
  after_results_simp
  unfold Stage.leakyR
  rfl

theorem cellA9_val (W : Valuation τ sig (Elt Ideal)) :
    after cellA9 W (main_v86 : DevRef τ sig) = Stage.catR (W (main_v62 : DevRef τ sig)) (W (main_v85 : DevRef τ sig)) := by
  unfold cellA9
  after_results_simp
  unfold Stage.catR
  rfl

theorem cellA10_val (W : Valuation τ sig (Elt Ideal)) :
    after cellA10 W (main_v87 : DevRef τ sig) = Stage.eluR (W (main_v86 : DevRef τ sig)) := by
  unfold cellA10
  after_results_simp
  unfold Stage.eluR
  rfl

theorem cellA8_keep_v62 (W : Valuation τ sig (Elt Ideal)) :
    after cellA8 W (main_v62 : DevRef τ sig) = W (main_v62 : DevRef τ sig) := by
  not_written cellA8

theorem cellA7_keep_v62 (W : Valuation τ sig (Elt Ideal)) :
    after cellA7 W (main_v62 : DevRef τ sig) = W (main_v62 : DevRef τ sig) := by
  not_written cellA7

theorem cellA6_keep_v62 (W : Valuation τ sig (Elt Ideal)) :
    after cellA6 W (main_v62 : DevRef τ sig) = W (main_v62 : DevRef τ sig) := by
  not_written cellA6

theorem cellA6_keep_v41 (W : Valuation τ sig (Elt Ideal)) :
    after cellA6 W (main_v41 : DevRef τ sig) = W (main_v41 : DevRef τ sig) := by
  not_written cellA6

theorem cellA6_keep_v37 (W : Valuation τ sig (Elt Ideal)) :
    after cellA6 W (main_v37 : DevRef τ sig) = W (main_v37 : DevRef τ sig) := by
  not_written cellA6

theorem cellA6_keep_arg8 (W : Valuation τ sig (Elt Ideal)) :
    after cellA6 W (main_arg8 : DevRef τ sig) = W (main_arg8 : DevRef τ sig) := by
  not_written cellA6

theorem cellA6_keep_arg9 (W : Valuation τ sig (Elt Ideal)) :
    after cellA6 W (main_arg9 : DevRef τ sig) = W (main_arg9 : DevRef τ sig) := by
  not_written cellA6

theorem cellA6_keep_arg10 (W : Valuation τ sig (Elt Ideal)) :
    after cellA6 W (main_arg10 : DevRef τ sig) = W (main_arg10 : DevRef τ sig) := by
  not_written cellA6

theorem cellA5_keep_v41 (W : Valuation τ sig (Elt Ideal)) :
    after cellA5 W (main_v41 : DevRef τ sig) = W (main_v41 : DevRef τ sig) := by
  not_written cellA5

theorem cellA5_keep_arg2 (W : Valuation τ sig (Elt Ideal)) :
    after cellA5 W (main_arg2 : DevRef τ sig) = W (main_arg2 : DevRef τ sig) := by
  not_written cellA5

theorem cellA5_keep_v1 (W : Valuation τ sig (Elt Ideal)) :
    after cellA5 W (main_v1 : DevRef τ sig) = W (main_v1 : DevRef τ sig) := by
  not_written cellA5

theorem cellA5_keep_v3 (W : Valuation τ sig (Elt Ideal)) :
    after cellA5 W (main_v3 : DevRef τ sig) = W (main_v3 : DevRef τ sig) := by
  not_written cellA5

theorem cellA5_keep_v37 (W : Valuation τ sig (Elt Ideal)) :
    after cellA5 W (main_v37 : DevRef τ sig) = W (main_v37 : DevRef τ sig) := by
  not_written cellA5

theorem cellA5_keep_arg8 (W : Valuation τ sig (Elt Ideal)) :
    after cellA5 W (main_arg8 : DevRef τ sig) = W (main_arg8 : DevRef τ sig) := by
  not_written cellA5

theorem cellA5_keep_arg9 (W : Valuation τ sig (Elt Ideal)) :
    after cellA5 W (main_arg9 : DevRef τ sig) = W (main_arg9 : DevRef τ sig) := by
  not_written cellA5

theorem cellA5_keep_arg10 (W : Valuation τ sig (Elt Ideal)) :
    after cellA5 W (main_arg10 : DevRef τ sig) = W (main_arg10 : DevRef τ sig) := by
  not_written cellA5

theorem cellA4_keep_v41 (W : Valuation τ sig (Elt Ideal)) :
    after cellA4 W (main_v41 : DevRef τ sig) = W (main_v41 : DevRef τ sig) := by
  not_written cellA4

theorem cellA4_keep_arg2 (W : Valuation τ sig (Elt Ideal)) :
    after cellA4 W (main_arg2 : DevRef τ sig) = W (main_arg2 : DevRef τ sig) := by
  not_written cellA4

theorem cellA4_keep_v1 (W : Valuation τ sig (Elt Ideal)) :
    after cellA4 W (main_v1 : DevRef τ sig) = W (main_v1 : DevRef τ sig) := by
  not_written cellA4

theorem cellA4_keep_v3 (W : Valuation τ sig (Elt Ideal)) :
    after cellA4 W (main_v3 : DevRef τ sig) = W (main_v3 : DevRef τ sig) := by
  not_written cellA4

theorem cellA4_keep_v37 (W : Valuation τ sig (Elt Ideal)) :
    after cellA4 W (main_v37 : DevRef τ sig) = W (main_v37 : DevRef τ sig) := by
  not_written cellA4

theorem cellA4_keep_arg8 (W : Valuation τ sig (Elt Ideal)) :
    after cellA4 W (main_arg8 : DevRef τ sig) = W (main_arg8 : DevRef τ sig) := by
  not_written cellA4

theorem cellA4_keep_arg9 (W : Valuation τ sig (Elt Ideal)) :
    after cellA4 W (main_arg9 : DevRef τ sig) = W (main_arg9 : DevRef τ sig) := by
  not_written cellA4

theorem cellA4_keep_arg10 (W : Valuation τ sig (Elt Ideal)) :
    after cellA4 W (main_arg10 : DevRef τ sig) = W (main_arg10 : DevRef τ sig) := by
  not_written cellA4

theorem cellA3_keep_v41 (W : Valuation τ sig (Elt Ideal)) :
    after cellA3 W (main_v41 : DevRef τ sig) = W (main_v41 : DevRef τ sig) := by
  not_written cellA3

theorem cellA3_keep_arg2 (W : Valuation τ sig (Elt Ideal)) :
    after cellA3 W (main_arg2 : DevRef τ sig) = W (main_arg2 : DevRef τ sig) := by
  not_written cellA3

theorem cellA3_keep_v1 (W : Valuation τ sig (Elt Ideal)) :
    after cellA3 W (main_v1 : DevRef τ sig) = W (main_v1 : DevRef τ sig) := by
  not_written cellA3

theorem cellA3_keep_v3 (W : Valuation τ sig (Elt Ideal)) :
    after cellA3 W (main_v3 : DevRef τ sig) = W (main_v3 : DevRef τ sig) := by
  not_written cellA3

theorem cellA3_keep_v37 (W : Valuation τ sig (Elt Ideal)) :
    after cellA3 W (main_v37 : DevRef τ sig) = W (main_v37 : DevRef τ sig) := by
  not_written cellA3

theorem cellA3_keep_arg8 (W : Valuation τ sig (Elt Ideal)) :
    after cellA3 W (main_arg8 : DevRef τ sig) = W (main_arg8 : DevRef τ sig) := by
  not_written cellA3

theorem cellA3_keep_arg9 (W : Valuation τ sig (Elt Ideal)) :
    after cellA3 W (main_arg9 : DevRef τ sig) = W (main_arg9 : DevRef τ sig) := by
  not_written cellA3

theorem cellA3_keep_arg10 (W : Valuation τ sig (Elt Ideal)) :
    after cellA3 W (main_arg10 : DevRef τ sig) = W (main_arg10 : DevRef τ sig) := by
  not_written cellA3

theorem cellA2_keep_v41 (W : Valuation τ sig (Elt Ideal)) :
    after cellA2 W (main_v41 : DevRef τ sig) = W (main_v41 : DevRef τ sig) := by
  not_written cellA2

theorem cellA2_keep_arg6 (W : Valuation τ sig (Elt Ideal)) :
    after cellA2 W (main_arg6 : DevRef τ sig) = W (main_arg6 : DevRef τ sig) := by
  not_written cellA2

theorem cellA2_keep_arg7 (W : Valuation τ sig (Elt Ideal)) :
    after cellA2 W (main_arg7 : DevRef τ sig) = W (main_arg7 : DevRef τ sig) := by
  not_written cellA2

theorem cellA2_keep_arg2 (W : Valuation τ sig (Elt Ideal)) :
    after cellA2 W (main_arg2 : DevRef τ sig) = W (main_arg2 : DevRef τ sig) := by
  not_written cellA2

theorem cellA2_keep_v1 (W : Valuation τ sig (Elt Ideal)) :
    after cellA2 W (main_v1 : DevRef τ sig) = W (main_v1 : DevRef τ sig) := by
  not_written cellA2

theorem cellA2_keep_v3 (W : Valuation τ sig (Elt Ideal)) :
    after cellA2 W (main_v3 : DevRef τ sig) = W (main_v3 : DevRef τ sig) := by
  not_written cellA2

theorem cellA2_keep_v37 (W : Valuation τ sig (Elt Ideal)) :
    after cellA2 W (main_v37 : DevRef τ sig) = W (main_v37 : DevRef τ sig) := by
  not_written cellA2

theorem cellA2_keep_arg8 (W : Valuation τ sig (Elt Ideal)) :
    after cellA2 W (main_arg8 : DevRef τ sig) = W (main_arg8 : DevRef τ sig) := by
  not_written cellA2

theorem cellA2_keep_arg9 (W : Valuation τ sig (Elt Ideal)) :
    after cellA2 W (main_arg9 : DevRef τ sig) = W (main_arg9 : DevRef τ sig) := by
  not_written cellA2

theorem cellA2_keep_arg10 (W : Valuation τ sig (Elt Ideal)) :
    after cellA2 W (main_arg10 : DevRef τ sig) = W (main_arg10 : DevRef τ sig) := by
  not_written cellA2

theorem cellA1_keep_v41 (W : Valuation τ sig (Elt Ideal)) :
    after cellA1 W (main_v41 : DevRef τ sig) = W (main_v41 : DevRef τ sig) := by
  not_written cellA1

theorem cellA1_keep_v31 (W : Valuation τ sig (Elt Ideal)) :
    after cellA1 W (main_v31 : DevRef τ sig) = W (main_v31 : DevRef τ sig) := by
  not_written cellA1

theorem cellA1_keep_v1 (W : Valuation τ sig (Elt Ideal)) :
    after cellA1 W (main_v1 : DevRef τ sig) = W (main_v1 : DevRef τ sig) := by
  not_written cellA1

theorem cellA1_keep_v3 (W : Valuation τ sig (Elt Ideal)) :
    after cellA1 W (main_v3 : DevRef τ sig) = W (main_v3 : DevRef τ sig) := by
  not_written cellA1

theorem cellA1_keep_arg6 (W : Valuation τ sig (Elt Ideal)) :
    after cellA1 W (main_arg6 : DevRef τ sig) = W (main_arg6 : DevRef τ sig) := by
  not_written cellA1

theorem cellA1_keep_arg7 (W : Valuation τ sig (Elt Ideal)) :
    after cellA1 W (main_arg7 : DevRef τ sig) = W (main_arg7 : DevRef τ sig) := by
  not_written cellA1

theorem cellA1_keep_arg2 (W : Valuation τ sig (Elt Ideal)) :
    after cellA1 W (main_arg2 : DevRef τ sig) = W (main_arg2 : DevRef τ sig) := by
  not_written cellA1

theorem cellA1_keep_v37 (W : Valuation τ sig (Elt Ideal)) :
    after cellA1 W (main_v37 : DevRef τ sig) = W (main_v37 : DevRef τ sig) := by
  not_written cellA1

theorem cellA1_keep_arg8 (W : Valuation τ sig (Elt Ideal)) :
    after cellA1 W (main_arg8 : DevRef τ sig) = W (main_arg8 : DevRef τ sig) := by
  not_written cellA1

theorem cellA1_keep_arg9 (W : Valuation τ sig (Elt Ideal)) :
    after cellA1 W (main_arg9 : DevRef τ sig) = W (main_arg9 : DevRef τ sig) := by
  not_written cellA1

theorem cellA1_keep_arg10 (W : Valuation τ sig (Elt Ideal)) :
    after cellA1 W (main_arg10 : DevRef τ sig) = W (main_arg10 : DevRef τ sig) := by
  not_written cellA1

theorem cellA0_keep_v31 (W : Valuation τ sig (Elt Ideal)) :
    after cellA0 W (main_v31 : DevRef τ sig) = W (main_v31 : DevRef τ sig) := by
  not_written cellA0

theorem cellA0_keep_arg5 (W : Valuation τ sig (Elt Ideal)) :
    after cellA0 W (main_arg5 : DevRef τ sig) = W (main_arg5 : DevRef τ sig) := by
  not_written cellA0

theorem cellA0_keep_v1 (W : Valuation τ sig (Elt Ideal)) :
    after cellA0 W (main_v1 : DevRef τ sig) = W (main_v1 : DevRef τ sig) := by
  not_written cellA0

theorem cellA0_keep_v3 (W : Valuation τ sig (Elt Ideal)) :
    after cellA0 W (main_v3 : DevRef τ sig) = W (main_v3 : DevRef τ sig) := by
  not_written cellA0

theorem cellA0_keep_arg6 (W : Valuation τ sig (Elt Ideal)) :
    after cellA0 W (main_arg6 : DevRef τ sig) = W (main_arg6 : DevRef τ sig) := by
  not_written cellA0

theorem cellA0_keep_arg7 (W : Valuation τ sig (Elt Ideal)) :
    after cellA0 W (main_arg7 : DevRef τ sig) = W (main_arg7 : DevRef τ sig) := by
  not_written cellA0

theorem cellA0_keep_arg2 (W : Valuation τ sig (Elt Ideal)) :
    after cellA0 W (main_arg2 : DevRef τ sig) = W (main_arg2 : DevRef τ sig) := by
  not_written cellA0

theorem cellA0_keep_v37 (W : Valuation τ sig (Elt Ideal)) :
    after cellA0 W (main_v37 : DevRef τ sig) = W (main_v37 : DevRef τ sig) := by
  not_written cellA0

theorem cellA0_keep_arg8 (W : Valuation τ sig (Elt Ideal)) :
    after cellA0 W (main_arg8 : DevRef τ sig) = W (main_arg8 : DevRef τ sig) := by
  not_written cellA0

theorem cellA0_keep_arg9 (W : Valuation τ sig (Elt Ideal)) :
    after cellA0 W (main_arg9 : DevRef τ sig) = W (main_arg9 : DevRef τ sig) := by
  not_written cellA0

theorem cellA0_keep_arg10 (W : Valuation τ sig (Elt Ideal)) :
    after cellA0 W (main_arg10 : DevRef τ sig) = W (main_arg10 : DevRef τ sig) := by
  not_written cellA0

/-- The stage's fold at main_v87, as the stages' composition of what the stage finds. -/
theorem s1_v87 (W : Valuation τ sig (Elt Ideal)) :
    after ops1 W (main_v87 : DevRef τ sig)
      = Stage.cellR (Stage.preR (W (main_arg0 : DevRef τ sig)) (W (main_arg3 : DevRef τ sig)) (W (main_arg4 : DevRef τ sig)))
        (Stage.agg (W (main_v31 : DevRef τ sig)) (Stage.tmmR (Stage.preR (W (main_arg0 : DevRef τ sig)) (W (main_arg3 : DevRef τ sig)) (W (main_arg4 : DevRef τ sig))) (W (main_arg5 : DevRef τ sig))) (W (main_v1 : DevRef τ sig)) (W (main_v3 : DevRef τ sig)))
        (Stage.sagg (W (main_arg2 : DevRef τ sig)) (Stage.preR (W (main_arg0 : DevRef τ sig)) (W (main_arg3 : DevRef τ sig)) (W (main_arg4 : DevRef τ sig))) (W (main_v1 : DevRef τ sig)) (W (main_v3 : DevRef τ sig)))
        (W (main_v37 : DevRef τ sig)) (W (main_arg6 : DevRef τ sig)) (W (main_arg7 : DevRef τ sig)) (W (main_arg8 : DevRef τ sig)) (W (main_arg9 : DevRef τ sig)) (W (main_arg10 : DevRef τ sig)) := by
  rw [ops1_cut]
  simp only [Cert.LibAfter.after_append]
  rw [cellA10_val, cellA9_val, cellA8_keep_v62, cellA8_val, cellA7_keep_v62, cellA7_val, cellA6_keep_v62, cellA6_keep_v41, cellA6_val, cellA6_keep_v37, cellA6_keep_arg8, cellA6_keep_arg9, cellA6_keep_arg10, cellA5_val, cellA5_keep_v41, cellA5_keep_arg2, cellA5_keep_v1, cellA5_keep_v3, cellA5_keep_v37, cellA5_keep_arg8, cellA5_keep_arg9, cellA5_keep_arg10, cellA4_val, cellA4_keep_v41, cellA4_keep_arg2, cellA4_keep_v1, cellA4_keep_v3, cellA4_keep_v37, cellA4_keep_arg8, cellA4_keep_arg9, cellA4_keep_arg10, cellA3_val, cellA3_keep_v41, cellA3_keep_arg2, cellA3_keep_v1, cellA3_keep_v3, cellA3_keep_v37, cellA3_keep_arg8, cellA3_keep_arg9, cellA3_keep_arg10, cellA2_keep_v41, cellA2_val, cellA2_keep_arg6, cellA2_keep_arg7, cellA2_keep_arg2, cellA2_keep_v1, cellA2_keep_v3, cellA2_keep_v37, cellA2_keep_arg8, cellA2_keep_arg9, cellA2_keep_arg10, cellA1_keep_v41, cellA1_keep_v31, cellA1_val, cellA1_keep_v1, cellA1_keep_v3, cellA1_keep_arg6, cellA1_keep_arg7, cellA1_keep_arg2, cellA1_keep_v37, cellA1_keep_arg8, cellA1_keep_arg9, cellA1_keep_arg10, cellA0_val, cellA0_keep_v31, cellA0_keep_arg5, cellA0_keep_v1, cellA0_keep_v3, cellA0_keep_arg6, cellA0_keep_arg7, cellA0_keep_arg2, cellA0_keep_v37, cellA0_keep_arg8, cellA0_keep_arg9, cellA0_keep_arg10]
  unfold Stage.cellR
  rfl

theorem ops1_keep_arg2 (W : Valuation τ sig (Elt Ideal)) :
    after ops1 W (main_arg2 : DevRef τ sig) = W (main_arg2 : DevRef τ sig) := by
  not_written ops1

theorem ops1_keep_arg11 (W : Valuation τ sig (Elt Ideal)) :
    after ops1 W (main_arg11 : DevRef τ sig) = W (main_arg11 : DevRef τ sig) := by
  not_written ops1

theorem ops1_keep_arg12 (W : Valuation τ sig (Elt Ideal)) :
    after ops1 W (main_arg12 : DevRef τ sig) = W (main_arg12 : DevRef τ sig) := by
  not_written ops1

theorem ops1_keep_arg13 (W : Valuation τ sig (Elt Ideal)) :
    after ops1 W (main_arg13 : DevRef τ sig) = W (main_arg13 : DevRef τ sig) := by
  not_written ops1

theorem ops1_keep_arg14 (W : Valuation τ sig (Elt Ideal)) :
    after ops1 W (main_arg14 : DevRef τ sig) = W (main_arg14 : DevRef τ sig) := by
  not_written ops1

theorem ops1_keep_arg15 (W : Valuation τ sig (Elt Ideal)) :
    after ops1 W (main_arg15 : DevRef τ sig) = W (main_arg15 : DevRef τ sig) := by
  not_written ops1

theorem ops1_keep_arg16 (W : Valuation τ sig (Elt Ideal)) :
    after ops1 W (main_arg16 : DevRef τ sig) = W (main_arg16 : DevRef τ sig) := by
  not_written ops1

theorem ops1_keep_arg17 (W : Valuation τ sig (Elt Ideal)) :
    after ops1 W (main_arg17 : DevRef τ sig) = W (main_arg17 : DevRef τ sig) := by
  not_written ops1

theorem ops1_keep_arg18 (W : Valuation τ sig (Elt Ideal)) :
    after ops1 W (main_arg18 : DevRef τ sig) = W (main_arg18 : DevRef τ sig) := by
  not_written ops1

theorem ops1_keep_arg19 (W : Valuation τ sig (Elt Ideal)) :
    after ops1 W (main_arg19 : DevRef τ sig) = W (main_arg19 : DevRef τ sig) := by
  not_written ops1

theorem ops1_keep_arg20 (W : Valuation τ sig (Elt Ideal)) :
    after ops1 W (main_arg20 : DevRef τ sig) = W (main_arg20 : DevRef τ sig) := by
  not_written ops1

theorem ops1_keep_v1 (W : Valuation τ sig (Elt Ideal)) :
    after ops1 W (main_v1 : DevRef τ sig) = W (main_v1 : DevRef τ sig) := by
  not_written ops1

theorem ops1_keep_v3 (W : Valuation τ sig (Elt Ideal)) :
    after ops1 W (main_v3 : DevRef τ sig) = W (main_v3 : DevRef τ sig) := by
  not_written ops1

theorem ops1_keep_v31 (W : Valuation τ sig (Elt Ideal)) :
    after ops1 W (main_v31 : DevRef τ sig) = W (main_v31 : DevRef τ sig) := by
  not_written ops1

theorem ops1_keep_v37 (W : Valuation τ sig (Elt Ideal)) :
    after ops1 W (main_v37 : DevRef τ sig) = W (main_v37 : DevRef τ sig) := by
  not_written ops1

end Cert.ReferenceIdeal.Hand

end
-- ==== Proof.RefCellB.lean ====
/-
  One stage of the reference's line read back: the second cell: the same operations as the first cell on the second cell's buffers. The stage is cut into short stretches, each ending in one
  array that is one function (a stage of Cert.ReferenceIdeal.Stage) of arrays the stretch finds; the buffers a later
  stretch reads pass through the stretches between unchanged, since no operation there writes them.
-/
import proofs.«113657_j36816459661707_1_alg».proof.Proof.RefOpsList
import proofs.«113657_j36816459661707_1_alg».proof.Proof.RefOut
import proofs.«113657_j36816459661707_1_alg».proof.Proof.LibAfter

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A buffer that no operation of the literal line `l` writes keeps its contents through the line: each operation
    writes one buffer, and that buffer is another reference. -/
local macro "not_written" l:ident : tactic =>
  `(tactic| (refine StableHlo.after_of_forall_not_mem _ _ (List.forall_iff_forall_mem.mp ?_)
             simp only [$l:ident, List.Forall, StableHlo.nullary_writes, StableHlo.unary_writes, StableHlo.binary_writes,
               StableHlo.ternary_writes, StableHlo.quaternary_writes, StableHlo.reshape_writes, Finset.mem_singleton]
             repeat' apply And.intro
             all_goals exact StableHlo.devRef_ne_of_ne (by decide)))

attribute [local irreducible] Host.gather Host.scatterAdd Host.reduce Host.reduceAdd

/-- Operations 0 … 3 of this stage of the line (a called function's operations written over the buffers its
    call names): they end in main_v91. -/
def cellB0 : List (HloOp τ sig (Elt F)) :=
  [ StableHlo.binary main_v87 main_arg11 main_v88 ((fun l r => Host.dotGeneral dot_S100000x256_S256x128_S100000x128_1_0_0_1_n_n none l r)),
    StableHlo.unary main_arg12 main_v89 (broadcastInDim S1x128 ![1] bcast_S128_S1x128_1),
    StableHlo.unary main_v89 main_v90 (broadcastInDim S100000x128 ![0, 1] bcast_S1x128_S100000x128_0_1),
    StableHlo.binary main_v88 main_v90 main_v91 (addf) ]

/-- Operations 4 … 4 of this stage of the line (a called function's operations written over the buffers its
    call names): they end in main_v92. -/
def cellB1 : List (HloOp τ sig (Elt F)) :=
  [ StableHlo.binary main_v91 main_arg13 main_v92 ((fun l r => Host.dotGeneral dot_S100000x128_S128x128_S100000x128_1_0_0_1_n_n none l r)) ]

/-- Operations 5 … 20 of this stage of the line (a called function's operations written over the buffers its
    call names): they end in main_v105. -/
def cellB2 : List (HloOp τ sig (Elt F)) :=
  [ StableHlo.unary main_v31 main_v93 (broadcastInDim S1600000x1 ![0] bcast_S1600000_S1600000x1_0),
    StableHlo.nullary main_c_19 (constantI S_ 32 0#32),
    StableHlo.unary main_c_19 main_v94 (broadcastInDim S1600000 ![] bcast_S_S1600000),
    StableHlo.binary main_v1 main_v94 main_v95 (cmpi .slt),
    StableHlo.nullary main_c_20 (constantI S_ 32 100000#32),
    StableHlo.unary main_c_20 main_v96 (broadcastInDim S1600000 ![] bcast_S_S1600000),
    StableHlo.binary main_v1 main_v96 main_v97 (addi),
    StableHlo.ternary main_v95 main_v97 main_v1 main_v98 (select),
    StableHlo.unary main_v98 main_v99 (broadcastInDim S1600000x1 ![0] bcast_S1600000_S1600000x1_0),
    StableHlo.binary main_v92 main_v99 main_v100 ((fun x i => Host.gather gather_S100000x128_S1600000x1_S1600000x128_1_0_n_n_0_1_1128 x i)),
    StableHlo.unary main_v93 main_v101 (broadcastInDim S1600000x128 ![0, 1] bcast_S1600000x1_S1600000x128_0_1),
    StableHlo.binary main_v101 main_v100 main_v102 (mulf),
    StableHlo.nullary main_cst_21 (constant S_ .f32 0x00000000#32),
    StableHlo.unary main_cst_21 main_v103 (broadcastInDim S100000x128 ![] bcast_S_S100000x128),
    StableHlo.unary main_v3 main_v104 (broadcastInDim S1600000x1 ![0] bcast_S1600000_S1600000x1_0),
    StableHlo.ternary main_v103 main_v104 main_v102 main_v105 ((fun x i u => Host.scatterAdd scatter_S100000x128_S1600000x1_S1600000x128_1_0_0_1 x i u)) ]

/-- Operations 21 … 25 of this stage of the line (a called function's operations written over the buffers its
    call names): they end in main_v110. -/
def cellB3 : List (HloOp τ sig (Elt F)) :=
  [ StableHlo.binary main_v91 main_arg14 main_v106 ((fun l r => Host.dotGeneral dot_S100000x128_S128x128_S100000x128_1_0_0_1_n_n none l r)),
    StableHlo.binary main_v105 main_v106 main_v107 (addf),
    StableHlo.unary main_arg15 main_v108 (broadcastInDim S1x128 ![1] bcast_S128_S1x128_1),
    StableHlo.unary main_v108 main_v109 (broadcastInDim S100000x128 ![0, 1] bcast_S1x128_S100000x128_0_1),
    StableHlo.binary main_v107 main_v109 main_v110 (addf) ]

/-- Operations 26 … 28 of this stage of the line (a called function's operations written over the buffers its
    call names): they end in main_v111. -/
def cellB4 : List (HloOp τ sig (Elt F)) :=
  [ StableHlo.nullary main_call6_cst (constant S_ .f32 0x00000000#32),
    StableHlo.unary main_call6_cst main_call6_v0 (broadcastInDim S100000x128 ![] bcast_S_S100000x128),
    StableHlo.binary main_v110 main_call6_v0 main_v111 maximumf ]

/-- Operations 29 … 36 of this stage of the line (a called function's operations written over the buffers its
    call names): they end in main_v112. -/
def cellB5 : List (HloOp τ sig (Elt F)) :=
  [ StableHlo.nullary main_cst_22 (constant S_ .f32 0x3C23D70A#32),
    StableHlo.nullary main_call7_cst (constant S_ .f32 0x00000000#32),
    StableHlo.unary main_call7_cst main_call7_v0 (broadcastInDim S100000x128 ![] bcast_S_S100000x128),
    StableHlo.binary main_v111 main_call7_v0 main_call7_v1 (cmpf .oge),
    StableHlo.unary main_cst_22 main_call7_v2 id,
    StableHlo.unary main_call7_v2 main_call7_v3 (broadcastInDim S100000x128 ![] bcast_S_S100000x128),
    StableHlo.binary main_call7_v3 main_v111 main_call7_v4 mulf,
    StableHlo.ternary main_call7_v1 main_v111 main_call7_v4 main_v112 select ]

/-- Operations 37 … 52 of this stage of the line (a called function's operations written over the buffers its
    call names): they end in main_v125. -/
def cellB6 : List (HloOp τ sig (Elt F)) :=
  [ StableHlo.unary main_arg2 main_v113 (broadcastInDim S1600000x1 ![0] bcast_S1600000_S1600000x1_0),
    StableHlo.nullary main_c_23 (constantI S_ 32 0#32),
    StableHlo.unary main_c_23 main_v114 (broadcastInDim S1600000 ![] bcast_S_S1600000),
    StableHlo.binary main_v1 main_v114 main_v115 (cmpi .slt),
    StableHlo.nullary main_c_24 (constantI S_ 32 100000#32),
    StableHlo.unary main_c_24 main_v116 (broadcastInDim S1600000 ![] bcast_S_S1600000),
    StableHlo.binary main_v1 main_v116 main_v117 (addi),
    StableHlo.ternary main_v115 main_v117 main_v1 main_v118 (select),
    StableHlo.unary main_v118 main_v119 (broadcastInDim S1600000x1 ![0] bcast_S1600000_S1600000x1_0),
    StableHlo.binary main_v91 main_v119 main_v120 ((fun x i => Host.gather gather_S100000x128_S1600000x1_S1600000x128_1_0_n_n_0_1_1128 x i)),
    StableHlo.unary main_v113 main_v121 (broadcastInDim S1600000x128 ![0, 1] bcast_S1600000x1_S1600000x128_0_1),
    StableHlo.binary main_v121 main_v120 main_v122 (mulf),
    StableHlo.nullary main_cst_25 (constant S_ .f32 0x00000000#32),
    StableHlo.unary main_cst_25 main_v123 (broadcastInDim S100000x128 ![] bcast_S_S100000x128),
    StableHlo.unary main_v3 main_v124 (broadcastInDim S1600000x1 ![0] bcast_S1600000_S1600000x1_0),
    StableHlo.ternary main_v123 main_v124 main_v122 main_v125 ((fun x i u => Host.scatterAdd scatter_S100000x128_S1600000x1_S1600000x128_1_0_0_1 x i u)) ]

/-- Operations 53 … 61 of this stage of the line (a called function's operations written over the buffers its
    call names): they end in main_v134. -/
def cellB7 : List (HloOp τ sig (Elt F)) :=
  [ StableHlo.unary main_v37 main_v126 (broadcastInDim S100000x1 ![0] bcast_S100000_S100000x1_0),
    StableHlo.unary main_v126 main_v127 (broadcastInDim S100000x128 ![0, 1] bcast_S100000x1_S100000x128_0_1),
    StableHlo.binary main_v125 main_v127 main_v128 (Host.divf),
    StableHlo.binary main_v128 main_arg16 main_v129 ((fun l r => Host.dotGeneral dot_S100000x128_S128x128_S100000x128_1_0_0_1_n_n none l r)),
    StableHlo.unary main_arg17 main_v130 (broadcastInDim S1x128 ![1] bcast_S128_S1x128_1),
    StableHlo.unary main_v130 main_v131 (broadcastInDim S100000x128 ![0, 1] bcast_S1x128_S100000x128_0_1),
    StableHlo.binary main_v129 main_v131 main_v132 (addf),
    StableHlo.binary main_v91 main_arg18 main_v133 ((fun l r => Host.dotGeneral dot_S100000x128_S128x128_S100000x128_1_0_0_1_n_n none l r)),
    StableHlo.binary main_v132 main_v133 main_v134 (addf) ]

/-- Operations 62 … 69 of this stage of the line (a called function's operations written over the buffers its
    call names): they end in main_v135. -/
def cellB8 : List (HloOp τ sig (Elt F)) :=
  [ StableHlo.nullary main_cst_26 (constant S_ .f32 0x3C23D70A#32),
    StableHlo.nullary main_call8_cst (constant S_ .f32 0x00000000#32),
    StableHlo.unary main_call8_cst main_call8_v0 (broadcastInDim S100000x128 ![] bcast_S_S100000x128),
    StableHlo.binary main_v134 main_call8_v0 main_call8_v1 (cmpf .oge),
    StableHlo.unary main_cst_26 main_call8_v2 id,
    StableHlo.unary main_call8_v2 main_call8_v3 (broadcastInDim S100000x128 ![] bcast_S_S100000x128),
    StableHlo.binary main_call8_v3 main_v134 main_call8_v4 mulf,
    StableHlo.ternary main_call8_v1 main_v134 main_call8_v4 main_v135 select ]

/-- Operations 70 … 70 of this stage of the line (a called function's operations written over the buffers its
    call names): they end in main_v136. -/
def cellB9 : List (HloOp τ sig (Elt F)) :=
  [ StableHlo.binary main_v112 main_v135 main_v136 ((fun a b => concatenate S100000x256 1 [⟨S100000x128, a⟩, ⟨S100000x128, b⟩] concatenates_S100000x128_S100000x128_S100000x256_d1)) ]

/-- Operations 71 … 85 of this stage of the line (a called function's operations written over the buffers its
    call names): they end in main_v137. -/
def cellB10 : List (HloOp τ sig (Elt F)) :=
  [ StableHlo.nullary main_call9_cst (constant S_ .f32 0x00000000#32),
    StableHlo.unary main_call9_cst main_call9_v0 (broadcastInDim S100000x256 ![] bcast_S_S100000x256),
    StableHlo.binary main_v136 main_call9_v0 main_call9_v1 (cmpf .ogt),
    StableHlo.nullary main_call9_cst_0 (constant S_ .f32 0x00000000#32),
    StableHlo.unary main_call9_cst_0 main_call9_v2 (broadcastInDim S100000x256 ![] bcast_S_S100000x256),
    StableHlo.binary main_v136 main_call9_v2 main_call9_v3 (cmpf .ogt),
    StableHlo.nullary main_call9_cst_1 (constant S_ .f32 0x00000000#32),
    StableHlo.unary main_call9_cst_1 main_call9_call0_v0 id,
    StableHlo.unary main_call9_call0_v0 main_call9_call0_v1 (broadcastInDim S100000x256 ![] bcast_S_S100000x256),
    StableHlo.ternary main_call9_v3 main_call9_call0_v1 main_v136 main_call9_v4 select,
    StableHlo.unary main_call9_v4 main_call9_v5 Host.expm1,
    StableHlo.nullary main_call9_cst_2 (constant S_ .f32 0x3F800000#32),
    StableHlo.unary main_call9_cst_2 main_call9_v6 (broadcastInDim S100000x256 ![] bcast_S_S100000x256),
    StableHlo.binary main_call9_v6 main_call9_v5 main_call9_v7 mulf,
    StableHlo.ternary main_call9_v1 main_v136 main_call9_v7 main_v137 select ]

/-- The stage is its stretches in order (an operation over a call's typed references is the operation over the
    buffers they name). -/
theorem ops2_cut : (ops2 : List (HloOp τ sig (Elt F))) = cellB0 ++ (cellB1 ++ (cellB2 ++ (cellB3 ++ (cellB4 ++ (cellB5 ++ (cellB6 ++ (cellB7 ++ (cellB8 ++ (cellB9 ++ (cellB10)))))))))) := rfl

theorem cellB0_val (W : Valuation τ sig (Elt Ideal)) :
    after cellB0 W (main_v91 : DevRef τ sig) = Stage.preR2 (W (main_v87 : DevRef τ sig)) (W (main_arg11 : DevRef τ sig)) (W (main_arg12 : DevRef τ sig)) := by
  unfold cellB0
  after_results_simp
  unfold Stage.preR2
  rfl

theorem cellB1_val (W : Valuation τ sig (Elt Ideal)) :
    after cellB1 W (main_v92 : DevRef τ sig) = Stage.tmmR (W (main_v91 : DevRef τ sig)) (W (main_arg13 : DevRef τ sig)) := by
  unfold cellB1
  after_results_simp
  unfold Stage.tmmR
  rfl

theorem cellB2_val (W : Valuation τ sig (Elt Ideal)) :
    after cellB2 W (main_v105 : DevRef τ sig) = Stage.agg (W (main_v31 : DevRef τ sig)) (W (main_v92 : DevRef τ sig)) (W (main_v1 : DevRef τ sig)) (W (main_v3 : DevRef τ sig)) := by
  unfold cellB2
  after_results_simp
  unfold Stage.agg
  rfl

theorem cellB3_val (W : Valuation τ sig (Elt Ideal)) :
    after cellB3 W (main_v110 : DevRef τ sig) = Stage.pre1R (W (main_v91 : DevRef τ sig)) (W (main_v105 : DevRef τ sig)) (W (main_arg14 : DevRef τ sig)) (W (main_arg15 : DevRef τ sig)) := by
  unfold cellB3
  after_results_simp
  unfold Stage.pre1R
  rfl

theorem cellB4_val (W : Valuation τ sig (Elt Ideal)) :
    after cellB4 W (main_v111 : DevRef τ sig) = Stage.reluR (W (main_v110 : DevRef τ sig)) := by
  unfold cellB4
  after_results_simp
  unfold Stage.reluR
  rfl

theorem cellB5_val (W : Valuation τ sig (Elt Ideal)) :
    after cellB5 W (main_v112 : DevRef τ sig) = Stage.leakyR (W (main_v111 : DevRef τ sig)) := by
  unfold cellB5
  after_results_simp
  unfold Stage.leakyR
  rfl

theorem cellB6_val (W : Valuation τ sig (Elt Ideal)) :
    after cellB6 W (main_v125 : DevRef τ sig) = Stage.sagg (W (main_arg2 : DevRef τ sig)) (W (main_v91 : DevRef τ sig)) (W (main_v1 : DevRef τ sig)) (W (main_v3 : DevRef τ sig)) := by
  unfold cellB6
  after_results_simp
  unfold Stage.sagg
  rfl

theorem cellB7_val (W : Valuation τ sig (Elt Ideal)) :
    after cellB7 W (main_v134 : DevRef τ sig) = Stage.pre2R (W (main_v91 : DevRef τ sig)) (W (main_v125 : DevRef τ sig)) (W (main_v37 : DevRef τ sig)) (W (main_arg16 : DevRef τ sig)) (W (main_arg17 : DevRef τ sig)) (W (main_arg18 : DevRef τ sig)) := by
  unfold cellB7
  after_results_simp
  unfold Stage.pre2R
  rfl

theorem cellB8_val (W : Valuation τ sig (Elt Ideal)) :
    after cellB8 W (main_v135 : DevRef τ sig) = Stage.leakyR (W (main_v134 : DevRef τ sig)) := by
  unfold cellB8
  after_results_simp
  unfold Stage.leakyR
  rfl

theorem cellB9_val (W : Valuation τ sig (Elt Ideal)) :
    after cellB9 W (main_v136 : DevRef τ sig) = Stage.catR (W (main_v112 : DevRef τ sig)) (W (main_v135 : DevRef τ sig)) := by
  unfold cellB9
  after_results_simp
  unfold Stage.catR
  rfl

theorem cellB10_val (W : Valuation τ sig (Elt Ideal)) :
    after cellB10 W (main_v137 : DevRef τ sig) = Stage.eluR (W (main_v136 : DevRef τ sig)) := by
  unfold cellB10
  after_results_simp
  unfold Stage.eluR
  rfl

theorem cellB8_keep_v112 (W : Valuation τ sig (Elt Ideal)) :
    after cellB8 W (main_v112 : DevRef τ sig) = W (main_v112 : DevRef τ sig) := by
  not_written cellB8

theorem cellB7_keep_v112 (W : Valuation τ sig (Elt Ideal)) :
    after cellB7 W (main_v112 : DevRef τ sig) = W (main_v112 : DevRef τ sig) := by
  not_written cellB7

theorem cellB6_keep_v112 (W : Valuation τ sig (Elt Ideal)) :
    after cellB6 W (main_v112 : DevRef τ sig) = W (main_v112 : DevRef τ sig) := by
  not_written cellB6

theorem cellB6_keep_v91 (W : Valuation τ sig (Elt Ideal)) :
    after cellB6 W (main_v91 : DevRef τ sig) = W (main_v91 : DevRef τ sig) := by
  not_written cellB6

theorem cellB6_keep_v37 (W : Valuation τ sig (Elt Ideal)) :
    after cellB6 W (main_v37 : DevRef τ sig) = W (main_v37 : DevRef τ sig) := by
  not_written cellB6

theorem cellB6_keep_arg16 (W : Valuation τ sig (Elt Ideal)) :
    after cellB6 W (main_arg16 : DevRef τ sig) = W (main_arg16 : DevRef τ sig) := by
  not_written cellB6

theorem cellB6_keep_arg17 (W : Valuation τ sig (Elt Ideal)) :
    after cellB6 W (main_arg17 : DevRef τ sig) = W (main_arg17 : DevRef τ sig) := by
  not_written cellB6

theorem cellB6_keep_arg18 (W : Valuation τ sig (Elt Ideal)) :
    after cellB6 W (main_arg18 : DevRef τ sig) = W (main_arg18 : DevRef τ sig) := by
  not_written cellB6

theorem cellB5_keep_v91 (W : Valuation τ sig (Elt Ideal)) :
    after cellB5 W (main_v91 : DevRef τ sig) = W (main_v91 : DevRef τ sig) := by
  not_written cellB5

theorem cellB5_keep_arg2 (W : Valuation τ sig (Elt Ideal)) :
    after cellB5 W (main_arg2 : DevRef τ sig) = W (main_arg2 : DevRef τ sig) := by
  not_written cellB5

theorem cellB5_keep_v1 (W : Valuation τ sig (Elt Ideal)) :
    after cellB5 W (main_v1 : DevRef τ sig) = W (main_v1 : DevRef τ sig) := by
  not_written cellB5

theorem cellB5_keep_v3 (W : Valuation τ sig (Elt Ideal)) :
    after cellB5 W (main_v3 : DevRef τ sig) = W (main_v3 : DevRef τ sig) := by
  not_written cellB5

theorem cellB5_keep_v37 (W : Valuation τ sig (Elt Ideal)) :
    after cellB5 W (main_v37 : DevRef τ sig) = W (main_v37 : DevRef τ sig) := by
  not_written cellB5

theorem cellB5_keep_arg16 (W : Valuation τ sig (Elt Ideal)) :
    after cellB5 W (main_arg16 : DevRef τ sig) = W (main_arg16 : DevRef τ sig) := by
  not_written cellB5

theorem cellB5_keep_arg17 (W : Valuation τ sig (Elt Ideal)) :
    after cellB5 W (main_arg17 : DevRef τ sig) = W (main_arg17 : DevRef τ sig) := by
  not_written cellB5

theorem cellB5_keep_arg18 (W : Valuation τ sig (Elt Ideal)) :
    after cellB5 W (main_arg18 : DevRef τ sig) = W (main_arg18 : DevRef τ sig) := by
  not_written cellB5

theorem cellB4_keep_v91 (W : Valuation τ sig (Elt Ideal)) :
    after cellB4 W (main_v91 : DevRef τ sig) = W (main_v91 : DevRef τ sig) := by
  not_written cellB4

theorem cellB4_keep_arg2 (W : Valuation τ sig (Elt Ideal)) :
    after cellB4 W (main_arg2 : DevRef τ sig) = W (main_arg2 : DevRef τ sig) := by
  not_written cellB4

theorem cellB4_keep_v1 (W : Valuation τ sig (Elt Ideal)) :
    after cellB4 W (main_v1 : DevRef τ sig) = W (main_v1 : DevRef τ sig) := by
  not_written cellB4

theorem cellB4_keep_v3 (W : Valuation τ sig (Elt Ideal)) :
    after cellB4 W (main_v3 : DevRef τ sig) = W (main_v3 : DevRef τ sig) := by
  not_written cellB4

theorem cellB4_keep_v37 (W : Valuation τ sig (Elt Ideal)) :
    after cellB4 W (main_v37 : DevRef τ sig) = W (main_v37 : DevRef τ sig) := by
  not_written cellB4

theorem cellB4_keep_arg16 (W : Valuation τ sig (Elt Ideal)) :
    after cellB4 W (main_arg16 : DevRef τ sig) = W (main_arg16 : DevRef τ sig) := by
  not_written cellB4

theorem cellB4_keep_arg17 (W : Valuation τ sig (Elt Ideal)) :
    after cellB4 W (main_arg17 : DevRef τ sig) = W (main_arg17 : DevRef τ sig) := by
  not_written cellB4

theorem cellB4_keep_arg18 (W : Valuation τ sig (Elt Ideal)) :
    after cellB4 W (main_arg18 : DevRef τ sig) = W (main_arg18 : DevRef τ sig) := by
  not_written cellB4

theorem cellB3_keep_v91 (W : Valuation τ sig (Elt Ideal)) :
    after cellB3 W (main_v91 : DevRef τ sig) = W (main_v91 : DevRef τ sig) := by
  not_written cellB3

theorem cellB3_keep_arg2 (W : Valuation τ sig (Elt Ideal)) :
    after cellB3 W (main_arg2 : DevRef τ sig) = W (main_arg2 : DevRef τ sig) := by
  not_written cellB3

theorem cellB3_keep_v1 (W : Valuation τ sig (Elt Ideal)) :
    after cellB3 W (main_v1 : DevRef τ sig) = W (main_v1 : DevRef τ sig) := by
  not_written cellB3

theorem cellB3_keep_v3 (W : Valuation τ sig (Elt Ideal)) :
    after cellB3 W (main_v3 : DevRef τ sig) = W (main_v3 : DevRef τ sig) := by
  not_written cellB3

theorem cellB3_keep_v37 (W : Valuation τ sig (Elt Ideal)) :
    after cellB3 W (main_v37 : DevRef τ sig) = W (main_v37 : DevRef τ sig) := by
  not_written cellB3

theorem cellB3_keep_arg16 (W : Valuation τ sig (Elt Ideal)) :
    after cellB3 W (main_arg16 : DevRef τ sig) = W (main_arg16 : DevRef τ sig) := by
  not_written cellB3

theorem cellB3_keep_arg17 (W : Valuation τ sig (Elt Ideal)) :
    after cellB3 W (main_arg17 : DevRef τ sig) = W (main_arg17 : DevRef τ sig) := by
  not_written cellB3

theorem cellB3_keep_arg18 (W : Valuation τ sig (Elt Ideal)) :
    after cellB3 W (main_arg18 : DevRef τ sig) = W (main_arg18 : DevRef τ sig) := by
  not_written cellB3

theorem cellB2_keep_v91 (W : Valuation τ sig (Elt Ideal)) :
    after cellB2 W (main_v91 : DevRef τ sig) = W (main_v91 : DevRef τ sig) := by
  not_written cellB2

theorem cellB2_keep_arg14 (W : Valuation τ sig (Elt Ideal)) :
    after cellB2 W (main_arg14 : DevRef τ sig) = W (main_arg14 : DevRef τ sig) := by
  not_written cellB2

theorem cellB2_keep_arg15 (W : Valuation τ sig (Elt Ideal)) :
    after cellB2 W (main_arg15 : DevRef τ sig) = W (main_arg15 : DevRef τ sig) := by
  not_written cellB2

theorem cellB2_keep_arg2 (W : Valuation τ sig (Elt Ideal)) :
    after cellB2 W (main_arg2 : DevRef τ sig) = W (main_arg2 : DevRef τ sig) := by
  not_written cellB2

theorem cellB2_keep_v1 (W : Valuation τ sig (Elt Ideal)) :
    after cellB2 W (main_v1 : DevRef τ sig) = W (main_v1 : DevRef τ sig) := by
  not_written cellB2

theorem cellB2_keep_v3 (W : Valuation τ sig (Elt Ideal)) :
    after cellB2 W (main_v3 : DevRef τ sig) = W (main_v3 : DevRef τ sig) := by
  not_written cellB2

theorem cellB2_keep_v37 (W : Valuation τ sig (Elt Ideal)) :
    after cellB2 W (main_v37 : DevRef τ sig) = W (main_v37 : DevRef τ sig) := by
  not_written cellB2

theorem cellB2_keep_arg16 (W : Valuation τ sig (Elt Ideal)) :
    after cellB2 W (main_arg16 : DevRef τ sig) = W (main_arg16 : DevRef τ sig) := by
  not_written cellB2

theorem cellB2_keep_arg17 (W : Valuation τ sig (Elt Ideal)) :
    after cellB2 W (main_arg17 : DevRef τ sig) = W (main_arg17 : DevRef τ sig) := by
  not_written cellB2

theorem cellB2_keep_arg18 (W : Valuation τ sig (Elt Ideal)) :
    after cellB2 W (main_arg18 : DevRef τ sig) = W (main_arg18 : DevRef τ sig) := by
  not_written cellB2

theorem cellB1_keep_v91 (W : Valuation τ sig (Elt Ideal)) :
    after cellB1 W (main_v91 : DevRef τ sig) = W (main_v91 : DevRef τ sig) := by
  not_written cellB1

theorem cellB1_keep_v31 (W : Valuation τ sig (Elt Ideal)) :
    after cellB1 W (main_v31 : DevRef τ sig) = W (main_v31 : DevRef τ sig) := by
  not_written cellB1

theorem cellB1_keep_v1 (W : Valuation τ sig (Elt Ideal)) :
    after cellB1 W (main_v1 : DevRef τ sig) = W (main_v1 : DevRef τ sig) := by
  not_written cellB1

theorem cellB1_keep_v3 (W : Valuation τ sig (Elt Ideal)) :
    after cellB1 W (main_v3 : DevRef τ sig) = W (main_v3 : DevRef τ sig) := by
  not_written cellB1

theorem cellB1_keep_arg14 (W : Valuation τ sig (Elt Ideal)) :
    after cellB1 W (main_arg14 : DevRef τ sig) = W (main_arg14 : DevRef τ sig) := by
  not_written cellB1

theorem cellB1_keep_arg15 (W : Valuation τ sig (Elt Ideal)) :
    after cellB1 W (main_arg15 : DevRef τ sig) = W (main_arg15 : DevRef τ sig) := by
  not_written cellB1

theorem cellB1_keep_arg2 (W : Valuation τ sig (Elt Ideal)) :
    after cellB1 W (main_arg2 : DevRef τ sig) = W (main_arg2 : DevRef τ sig) := by
  not_written cellB1

theorem cellB1_keep_v37 (W : Valuation τ sig (Elt Ideal)) :
    after cellB1 W (main_v37 : DevRef τ sig) = W (main_v37 : DevRef τ sig) := by
  not_written cellB1

theorem cellB1_keep_arg16 (W : Valuation τ sig (Elt Ideal)) :
    after cellB1 W (main_arg16 : DevRef τ sig) = W (main_arg16 : DevRef τ sig) := by
  not_written cellB1

theorem cellB1_keep_arg17 (W : Valuation τ sig (Elt Ideal)) :
    after cellB1 W (main_arg17 : DevRef τ sig) = W (main_arg17 : DevRef τ sig) := by
  not_written cellB1

theorem cellB1_keep_arg18 (W : Valuation τ sig (Elt Ideal)) :
    after cellB1 W (main_arg18 : DevRef τ sig) = W (main_arg18 : DevRef τ sig) := by
  not_written cellB1

theorem cellB0_keep_v31 (W : Valuation τ sig (Elt Ideal)) :
    after cellB0 W (main_v31 : DevRef τ sig) = W (main_v31 : DevRef τ sig) := by
  not_written cellB0

theorem cellB0_keep_arg13 (W : Valuation τ sig (Elt Ideal)) :
    after cellB0 W (main_arg13 : DevRef τ sig) = W (main_arg13 : DevRef τ sig) := by
  not_written cellB0

theorem cellB0_keep_v1 (W : Valuation τ sig (Elt Ideal)) :
    after cellB0 W (main_v1 : DevRef τ sig) = W (main_v1 : DevRef τ sig) := by
  not_written cellB0

theorem cellB0_keep_v3 (W : Valuation τ sig (Elt Ideal)) :
    after cellB0 W (main_v3 : DevRef τ sig) = W (main_v3 : DevRef τ sig) := by
  not_written cellB0

theorem cellB0_keep_arg14 (W : Valuation τ sig (Elt Ideal)) :
    after cellB0 W (main_arg14 : DevRef τ sig) = W (main_arg14 : DevRef τ sig) := by
  not_written cellB0

theorem cellB0_keep_arg15 (W : Valuation τ sig (Elt Ideal)) :
    after cellB0 W (main_arg15 : DevRef τ sig) = W (main_arg15 : DevRef τ sig) := by
  not_written cellB0

theorem cellB0_keep_arg2 (W : Valuation τ sig (Elt Ideal)) :
    after cellB0 W (main_arg2 : DevRef τ sig) = W (main_arg2 : DevRef τ sig) := by
  not_written cellB0

theorem cellB0_keep_v37 (W : Valuation τ sig (Elt Ideal)) :
    after cellB0 W (main_v37 : DevRef τ sig) = W (main_v37 : DevRef τ sig) := by
  not_written cellB0

theorem cellB0_keep_arg16 (W : Valuation τ sig (Elt Ideal)) :
    after cellB0 W (main_arg16 : DevRef τ sig) = W (main_arg16 : DevRef τ sig) := by
  not_written cellB0

theorem cellB0_keep_arg17 (W : Valuation τ sig (Elt Ideal)) :
    after cellB0 W (main_arg17 : DevRef τ sig) = W (main_arg17 : DevRef τ sig) := by
  not_written cellB0

theorem cellB0_keep_arg18 (W : Valuation τ sig (Elt Ideal)) :
    after cellB0 W (main_arg18 : DevRef τ sig) = W (main_arg18 : DevRef τ sig) := by
  not_written cellB0

/-- The stage's fold at main_v137, as the stages' composition of what the stage finds. -/
theorem s2_v137 (W : Valuation τ sig (Elt Ideal)) :
    after ops2 W (main_v137 : DevRef τ sig)
      = Stage.cellR (Stage.preR2 (W (main_v87 : DevRef τ sig)) (W (main_arg11 : DevRef τ sig)) (W (main_arg12 : DevRef τ sig)))
        (Stage.agg (W (main_v31 : DevRef τ sig)) (Stage.tmmR (Stage.preR2 (W (main_v87 : DevRef τ sig)) (W (main_arg11 : DevRef τ sig)) (W (main_arg12 : DevRef τ sig))) (W (main_arg13 : DevRef τ sig))) (W (main_v1 : DevRef τ sig)) (W (main_v3 : DevRef τ sig)))
        (Stage.sagg (W (main_arg2 : DevRef τ sig)) (Stage.preR2 (W (main_v87 : DevRef τ sig)) (W (main_arg11 : DevRef τ sig)) (W (main_arg12 : DevRef τ sig))) (W (main_v1 : DevRef τ sig)) (W (main_v3 : DevRef τ sig)))
        (W (main_v37 : DevRef τ sig)) (W (main_arg14 : DevRef τ sig)) (W (main_arg15 : DevRef τ sig)) (W (main_arg16 : DevRef τ sig)) (W (main_arg17 : DevRef τ sig)) (W (main_arg18 : DevRef τ sig)) := by
  rw [ops2_cut]
  simp only [Cert.LibAfter.after_append]
  rw [cellB10_val, cellB9_val, cellB8_keep_v112, cellB8_val, cellB7_keep_v112, cellB7_val, cellB6_keep_v112, cellB6_keep_v91, cellB6_val, cellB6_keep_v37, cellB6_keep_arg16, cellB6_keep_arg17, cellB6_keep_arg18, cellB5_val, cellB5_keep_v91, cellB5_keep_arg2, cellB5_keep_v1, cellB5_keep_v3, cellB5_keep_v37, cellB5_keep_arg16, cellB5_keep_arg17, cellB5_keep_arg18, cellB4_val, cellB4_keep_v91, cellB4_keep_arg2, cellB4_keep_v1, cellB4_keep_v3, cellB4_keep_v37, cellB4_keep_arg16, cellB4_keep_arg17, cellB4_keep_arg18, cellB3_val, cellB3_keep_v91, cellB3_keep_arg2, cellB3_keep_v1, cellB3_keep_v3, cellB3_keep_v37, cellB3_keep_arg16, cellB3_keep_arg17, cellB3_keep_arg18, cellB2_keep_v91, cellB2_val, cellB2_keep_arg14, cellB2_keep_arg15, cellB2_keep_arg2, cellB2_keep_v1, cellB2_keep_v3, cellB2_keep_v37, cellB2_keep_arg16, cellB2_keep_arg17, cellB2_keep_arg18, cellB1_keep_v91, cellB1_keep_v31, cellB1_val, cellB1_keep_v1, cellB1_keep_v3, cellB1_keep_arg14, cellB1_keep_arg15, cellB1_keep_arg2, cellB1_keep_v37, cellB1_keep_arg16, cellB1_keep_arg17, cellB1_keep_arg18, cellB0_val, cellB0_keep_v31, cellB0_keep_arg13, cellB0_keep_v1, cellB0_keep_v3, cellB0_keep_arg14, cellB0_keep_arg15, cellB0_keep_arg2, cellB0_keep_v37, cellB0_keep_arg16, cellB0_keep_arg17, cellB0_keep_arg18]
  unfold Stage.cellR
  rfl

theorem ops2_keep_arg19 (W : Valuation τ sig (Elt Ideal)) :
    after ops2 W (main_arg19 : DevRef τ sig) = W (main_arg19 : DevRef τ sig) := by
  not_written ops2

theorem ops2_keep_arg20 (W : Valuation τ sig (Elt Ideal)) :
    after ops2 W (main_arg20 : DevRef τ sig) = W (main_arg20 : DevRef τ sig) := by
  not_written ops2

end Cert.ReferenceIdeal.Hand

end
-- ==== Proof.RefCls.lean ====
/-
  One stage of the reference's line read back: the classifier: its linear stage and the row-wise log-softmax. The stage is cut into short stretches, each ending in one
  array that is one function (a stage of Cert.ReferenceIdeal.Stage) of arrays the stretch finds; the buffers a later
  stretch reads pass through the stretches between unchanged, since no operation there writes them.
-/
import proofs.«113657_j36816459661707_1_alg».proof.Proof.RefOpsList
import proofs.«113657_j36816459661707_1_alg».proof.Proof.RefOut
import proofs.«113657_j36816459661707_1_alg».proof.Proof.LibAfter

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A buffer that no operation of the literal line `l` writes keeps its contents through the line: each operation
    writes one buffer, and that buffer is another reference. -/
local macro "not_written" l:ident : tactic =>
  `(tactic| (refine StableHlo.after_of_forall_not_mem _ _ (List.forall_iff_forall_mem.mp ?_)
             simp only [$l:ident, List.Forall, StableHlo.nullary_writes, StableHlo.unary_writes, StableHlo.binary_writes,
               StableHlo.ternary_writes, StableHlo.quaternary_writes, StableHlo.reshape_writes, Finset.mem_singleton]
             repeat' apply And.intro
             all_goals exact StableHlo.devRef_ne_of_ne (by decide)))

attribute [local irreducible] Host.gather Host.scatterAdd Host.reduce Host.reduceAdd

/-- Operations 0 … 3 of this stage of the line (a called function's operations written over the buffers its
    call names): they end in main_v141. -/
def cls0 : List (HloOp τ sig (Elt F)) :=
  [ StableHlo.binary main_v137 main_arg19 main_v138 ((fun l r => Host.dotGeneral dot_S100000x256_S256x16_S100000x16_1_0_0_1_n_n none l r)),
    StableHlo.unary main_arg20 main_v139 (broadcastInDim S1x16 ![1] bcast_S16_S1x16_1),
    StableHlo.unary main_v139 main_v140 (broadcastInDim S100000x16 ![0, 1] bcast_S1x16_S100000x16_0_1),
    StableHlo.binary main_v138 main_v140 main_v141 (addf) ]

/-- Operations 4 … 18 of this stage of the line (a called function's operations written over the buffers its
    call names): they end in main_v142. -/
def cls1 : List (HloOp τ sig (Elt F)) :=
  [ StableHlo.nullary main_call10_cst (constant S_ .f32 0xFF800000#32),
    StableHlo.binary main_v141 main_call10_cst main_call10_v0 (fun x v => Host.reduce FloatOps.maximumf x v reducesTo_S100000x16_S100000_d1 h_S_),
    StableHlo.nullary main_call10_cst_0 (constant S_ .f32 0xFF800000#32),
    StableHlo.unary main_call10_cst_0 main_call10_v1 (broadcastInDim S100000 ![] bcast_S_S100000),
    StableHlo.binary main_call10_v1 main_call10_v0 main_call10_v2 maximumf,
    StableHlo.unary main_call10_v2 main_call10_v3 (broadcastInDim S100000x1 ![0] bcast_S100000_S100000x1_0),
    StableHlo.unary main_call10_v3 main_call10_v4 (broadcastInDim S100000x16 ![0, 1] bcast_S100000x1_S100000x16_0_1),
    StableHlo.binary main_v141 main_call10_v4 main_call10_v5 subf,
    StableHlo.unary main_call10_v5 main_call10_v6 Host.exp,
    StableHlo.nullary main_call10_cst_1 (constant S_ .f32 0x00000000#32),
    StableHlo.binary main_call10_v6 main_call10_cst_1 main_call10_v7 (fun x v => Host.reduceAdd x v reducesTo_S100000x16_S100000_d1 h_S_),
    StableHlo.unary main_call10_v7 main_call10_v8 (broadcastInDim S100000x1 ![0] bcast_S100000_S100000x1_0),
    StableHlo.unary main_call10_v8 main_call10_v9 Host.log,
    StableHlo.unary main_call10_v9 main_call10_v10 (broadcastInDim S100000x16 ![0, 1] bcast_S100000x1_S100000x16_0_1),
    StableHlo.binary main_call10_v5 main_call10_v10 main_v142 subf ]

/-- The stage is its stretches in order (an operation over a call's typed references is the operation over the
    buffers they name). -/
theorem ops3_cut : (ops3 : List (HloOp τ sig (Elt F))) = cls0 ++ (cls1) := rfl

theorem cls0_val (W : Valuation τ sig (Elt Ideal)) :
    after cls0 W (main_v141 : DevRef τ sig) = Stage.logitsR (W (main_v137 : DevRef τ sig)) (W (main_arg19 : DevRef τ sig)) (W (main_arg20 : DevRef τ sig)) := by
  unfold cls0
  after_results_simp
  unfold Stage.logitsR
  rfl

theorem cls1_val (W : Valuation τ sig (Elt Ideal)) :
    after cls1 W (main_v142 : DevRef τ sig) = Stage.logsm (W (main_v141 : DevRef τ sig)) := by
  unfold cls1
  after_results_simp
  unfold Stage.logsm
  rfl

/-- The stage's fold at main_v142, as the stages' composition of what the stage finds. -/
theorem s3_v142 (W : Valuation τ sig (Elt Ideal)) :
    after ops3 W (main_v142 : DevRef τ sig)
      = Stage.logsm (Stage.logitsR (W (main_v137 : DevRef τ sig)) (W (main_arg19 : DevRef τ sig)) (W (main_arg20 : DevRef τ sig))) := by
  rw [ops3_cut]
  simp only [Cert.LibAfter.after_append]
  rw [cls1_val, cls0_val]

end Cert.ReferenceIdeal.Hand

end
-- ==== Proof.RefValue.lean ====
/-
  The reference's result as one function of its arguments. The line of host operations is read stage by stage: the
  classifier's stage reads the second cell's output, the second cell reads the first cell's output and the edge
  chain's arrays, the first cell reads the arguments and the edge chain's arrays, and the edge chain reads the edge
  table and the edge weights; what a stage reads of an earlier one passes through the stages between unchanged.
  Composed, the result buffer holds the stages' composition `Stage.refOut` of the launch contents of the twenty-one
  arguments, and the arguments end as launched.
-/
import proofs.«113657_j36816459661707_1_alg».proof.Proof.RefArgs
import proofs.«113657_j36816459661707_1_alg».proof.Proof.RefEdge
import proofs.«113657_j36816459661707_1_alg».proof.Proof.RefCellA
import proofs.«113657_j36816459661707_1_alg».proof.Proof.RefCellB
import proofs.«113657_j36816459661707_1_alg».proof.Proof.RefCls

noncomputable section

namespace Cert.ReferenceIdeal.Hand

open Cert.ReferenceIdeal Cert.ReferenceIdeal.Gen Idealize.ShloMosaic Idealize.ShloMosaic.TcCoe Idealize.SL.Sem Idealize.ShloMosaic.StableHlo

/-- The line's fold at the result buffer is the stages' composition of the arguments' contents. -/
theorem out_eq (V : Valuation τ sig (Elt Ideal)) :
    after ops V (main_v142 : DevRef τ sig)
      = Stage.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) := by
  rw [ops_split]
  simp only [Cert.LibAfter.after_append]
  rw [s3_v142, ops2_keep_arg19, ops2_keep_arg20, s2_v137]
  rw [ops1_keep_arg2, ops1_keep_arg11, ops1_keep_arg12, ops1_keep_arg13, ops1_keep_arg14, ops1_keep_arg15, ops1_keep_arg16, ops1_keep_arg17, ops1_keep_arg18, ops1_keep_arg19, ops1_keep_arg20, ops1_keep_v1, ops1_keep_v3, ops1_keep_v31, ops1_keep_v37, s1_v87]
  rw [ops0_keep_arg0, ops0_keep_arg2, ops0_keep_arg3, ops0_keep_arg4, ops0_keep_arg5, ops0_keep_arg6, ops0_keep_arg7, ops0_keep_arg8, ops0_keep_arg9, ops0_keep_arg10, ops0_keep_arg11, ops0_keep_arg12, ops0_keep_arg13, ops0_keep_arg14, ops0_keep_arg15, ops0_keep_arg16, ops0_keep_arg17, ops0_keep_arg18, ops0_keep_arg19, ops0_keep_arg20, s0_v1, s0_v3, s0_v31, s0_v37]
  simp only [Stage.refOut]

/-- At the compiled mesh, at the extended reals, from any memory with zero counters: every weakly fair execution of
    @main terminates with the result buffer at the stages' composition of the arguments as launched, and each of the
    twenty-one arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v142)
        = Stage.refOut (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19))
          (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v142).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _),
      (h c main_arg18).trans (arg18_eq _),
      (h c main_arg19).trans (arg19_eq _),
      (h c main_arg20).trans (arg20_eq _)⟩)
    (run_main m ρ)

end Cert.ReferenceIdeal.Hand

end
-- ==== Proof.lean ====
/-
  The certificate.  The three programs run, fault-free, with their arguments unchanged: the kernel program and its
  idealization by their tiled regions' and host stretches' frame, the reference by its straight line of host
  operations.  The idealization rewrote nothing.  At the exact instance the kernel program's result and the
  reference's are one function of the arguments (Proof/Final.lean): the tiled dense stages against the host's products
  and activations, the shared edge aggregations and log-softmax carried as the same operations.
-/
import proofs.«113657_j36816459661707_1_alg».proof.Defs
import proofs.«113657_j36816459661707_1_alg».proof.Proof.Gen.Kernel
import proofs.«113657_j36816459661707_1_alg».proof.Proof.Gen.Kernel.Frame
import proofs.«113657_j36816459661707_1_alg».proof.Proof.Gen.KernelIdeal
import proofs.«113657_j36816459661707_1_alg».proof.Proof.Gen.KernelIdeal.Frame
import proofs.«113657_j36816459661707_1_alg».proof.Proof.Gen.ReferenceIdeal
import proofs.«113657_j36816459661707_1_alg».proof.Proof.Gen.Pre_finite_inputs
import proofs.«113657_j36816459661707_1_alg».proof.Proof.KerRun
import proofs.«113657_j36816459661707_1_alg».proof.Proof.Final
import proofs.«113657_j36816459661707_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.Hand.frame_run (F := Ideal) m ρ

/-- Both idealized programs end with the composed value of the arguments: the kernel program's segments fold to it
    and the reference's line of operations folds to it. -/
theorem algebraic : Cert.algebraic_KernelIdeal_ReferenceIdeal := by
  intro m ρ m' ρ' _ hagree
  refine ⟨fun c => Cert.KernelIdeal.Value.outK m ρ c, ?_, ?_⟩
  · refine (θ_run Cert.KernelIdeal.defs _ _).mono (fun r h c => ?_) (Cert.KernelIdeal.Gen.run_value (F := Ideal) m ρ)
    exact ⟨(h c).1.trans (Cert.KernelIdeal.Value.out_15 m ρ c), (h c).2⟩
  · refine (θ_run Cert.ReferenceIdeal.defs _ _).mono (fun r h c => ?_) (Cert.ReferenceIdeal.Hand.run m' ρ')
    refine ⟨(h c).1.trans ?_, (h c).2⟩
    obtain ⟨e0, e1, e2, e3, e4, e5, e6, e7, e8, e9, e10, e11, e12, e13, e14, e15, e16, e17, e18, e19, e20⟩ := hagree c
    rw [e0, e1, e2, e3, e4, e5, e6, e7, e8, e9, e10, e11, e12, e13, e14, e15, e16, e17, e18, e19, e20]
    exact (Cert.KernelIdeal.Value.outK_eq_refOut m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
